-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_arg2)) (v2 : (c : Dev Cert.KernelIdeal.nD) → Buf (Elt Ideal) ((c.tc : Thread Cert.KernelIdeal.nD Cert.KernelIdeal.τ).loc Cert.KernelIdeal.main_v42)) (v3 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_v49) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x3 : Shape := ⟨2, ![1600000, 3]⟩
abbrev S1600000x48 : Shape := ⟨2, ![1600000, 48]⟩
abbrev S1600000x64 : Shape := ⟨2, ![1600000, 64]⟩
abbrev S1600000 : Shape := ⟨1, ![1600000]⟩
abbrev S50000 : Shape := ⟨1, ![50000]⟩
abbrev S100 : Shape := ⟨1, ![100]⟩
abbrev S100x16 : Shape := ⟨2, ![100, 16]⟩
abbrev S_ : Shape := ⟨0, ![]⟩
abbrev S48x16 : Shape := ⟨2, ![48, 16]⟩
abbrev S16x1 : Shape := ⟨2, ![16, 1]⟩
abbrev S17x16 : Shape := ⟨2, ![17, 16]⟩
abbrev S64x64 : Shape := ⟨2, ![64, 64]⟩

class Facts : Prop where
  bcast_S_S1600000x3 : S_.BroadcastsInDim S1600000x3 (![] : Fin 0 → Fin S1600000x3.rank)
  reducesTo_S1600000x3_S_d0_1 : S1600000x3.ReducesTo [0, 1] S_
  h_S_ : 0 < S_.numel
  bcast_S_S1600000x48 : S_.BroadcastsInDim S1600000x48 (![] : Fin 0 → Fin S1600000x48.rank)
  reducesTo_S1600000x48_S_d0_1 : S1600000x48.ReducesTo [0, 1] S_
  bcast_S_S1600000x64 : S_.BroadcastsInDim S1600000x64 (![] : Fin 0 → Fin S1600000x64.rank)
  reducesTo_S1600000x64_S_d0_1 : S1600000x64.ReducesTo [0, 1] S_
  bcast_S_S100 : S_.BroadcastsInDim S100 (![] : Fin 0 → Fin S100.rank)
  reducesTo_S100_S_d0 : S100.ReducesTo [0] S_
  bcast_S_S100x16 : S_.BroadcastsInDim S100x16 (![] : Fin 0 → Fin S100x16.rank)
  reducesTo_S100x16_S_d0_1 : S100x16.ReducesTo [0, 1] S_
  reducesTo_S_S_d : S_.ReducesTo [] S_
  bcast_S_S48x16 : S_.BroadcastsInDim S48x16 (![] : Fin 0 → Fin S48x16.rank)
  reducesTo_S48x16_S_d0_1 : S48x16.ReducesTo [0, 1] S_
  bcast_S_S16x1 : S_.BroadcastsInDim S16x1 (![] : Fin 0 → Fin S16x1.rank)
  reducesTo_S16x1_S_d0_1 : S16x1.ReducesTo [0, 1] S_
  bcast_S_S17x16 : S_.BroadcastsInDim S17x16 (![] : Fin 0 → Fin S17x16.rank)
  reducesTo_S17x16_S_d0_1 : S17x16.ReducesTo [0, 1] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v65 : IVec S_ 1) (main_v66 : FVec F S64x64 .f32) (main_cst_26 : FVec F S_ .f32) : IVec S_ 1 :=
  let main_v67 : FVec F S64x64 .f32 := broadcastInDim S64x64 ![] bcast_S_S64x64 main_cst_26
  let main_v68 : IVec S64x64 1 := cmpf .olt main_v66 main_v67
  let main_c_27 : IVec S_ 1 := constantI S_ 1 1#1
  let main_v69 : IVec S_ 1 := (fun x v => Host.reduce IntOp.andi x v reducesTo_S64x64_S_d0_1 h_S_) main_v68 main_c_27
  let main_v70 : IVec S_ 1 := andi main_v65 main_v69
  main_v70

def fn_part3 {F : FTy → Type} [FloatOps F] (main_arg13 : FVec F S17x16 .f32) (main_arg14 : FVec F S64x64 .f32) (main_arg15 : FVec F S64x64 .f32) (main_arg16 : FVec F S64x64 .f32) (main_v45 : IVec S_ 1) (main_v49 : IVec S_ 1) : IVec S_ 1 :=
  let main_v50 : IVec S_ 1 := andi main_v45 main_v49
  let main_v51 : FVec F S17x16 .f32 := Host.absf main_arg13
  let main_cst_20 : FVec F S_ .f32 := constant S_ .f32 0x7F800000#32
  let main_v52 : FVec F S17x16 .f32 := broadcastInDim S17x16 ![] bcast_S_S17x16 main_cst_20
  let main_v53 : IVec S17x16 1 := cmpf .olt main_v51 main_v52
  let main_c_21 : IVec S_ 1 := constantI S_ 1 1#1
  let main_v54 : IVec S_ 1 := (fun x v => Host.reduce IntOp.andi x v reducesTo_S17x16_S_d0_1 h_S_) main_v53 main_c_21
  let main_v55 : IVec S_ 1 := andi main_v50 main_v54
  let main_v56 : FVec F S64x64 .f32 := Host.absf main_arg14
  let main_cst_22 : FVec F S_ .f32 := constant S_ .f32 0x7F800000#32
  let main_v57 : FVec F S64x64 .f32 := broadcastInDim S64x64 ![] bcast_S_S64x64 main_cst_22
  let main_v58 : IVec S64x64 1 := cmpf .olt main_v56 main_v57
  let main_c_23 : IVec S_ 1 := constantI S_ 1 1#1
  let main_v59 : IVec S_ 1 := (fun x v => Host.reduce IntOp.andi x v reducesTo_S64x64_S_d0_1 h_S_) main_v58 main_c_23
  let main_v60 : IVec S_ 1 := andi main_v55 main_v59
  let main_v61 : FVec F S64x64 .f32 := Host.absf main_arg15
  let main_cst_24 : FVec F S_ .f32 := constant S_ .f32 0x7F800000#32
  let main_v62 : FVec F S64x64 .f32 := broadcastInDim S64x64 ![] bcast_S_S64x64 main_cst_24
  let main_v63 : IVec S64x64 1 := cmpf .olt main_v61 main_v62
  let main_c_25 : IVec S_ 1 := constantI S_ 1 1#1
  let main_v64 : IVec S_ 1 := (fun x v => Host.reduce IntOp.andi x v reducesTo_S64x64_S_d0_1 h_S_) main_v63 main_c_25
  let main_v65 : IVec S_ 1 := andi main_v60 main_v64
  let main_v66 : FVec F S64x64 .f32 := Host.absf main_arg16
  let main_cst_26 : FVec F S_ .f32 := constant S_ .f32 0x7F800000#32
  fn_part4 (F := F) main_v65 main_v66 main_cst_26

def fn_part2 {F : FTy → Type} [FloatOps F] (main_arg10 : FVec F S_ .f32) (main_arg11 : FVec F S48x16 .f32) (main_arg12 : FVec F S16x1 .f32) (main_arg13 : FVec F S17x16 .f32) (main_arg14 : FVec F S64x64 .f32) (main_arg15 : FVec F S64x64 .f32) (main_arg16 : FVec F S64x64 .f32) (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  let main_v37 : FVec F S_ .f32 := Host.absf main_arg10
  let main_cst_14 : FVec F S_ .f32 := constant S_ .f32 0x7F800000#32
  let main_v38 : IVec S_ 1 := cmpf .olt main_v37 main_cst_14
  let main_c_15 : IVec S_ 1 := constantI S_ 1 1#1
  let main_v39 : IVec S_ 1 := (fun x v => Host.reduce IntOp.andi x v reducesTo_S_S_d h_S_) main_v38 main_c_15
  let main_v40 : IVec S_ 1 := andi main_v36 main_v39
  let main_v41 : FVec F S48x16 .f32 := Host.absf main_arg11
  let main_cst_16 : FVec F S_ .f32 := constant S_ .f32 0x7F800000#32
  let main_v42 : FVec F S48x16 .f32 := broadcastInDim S48x16 ![] bcast_S_S48x16 main_cst_16
  let main_v43 : IVec S48x16 1 := cmpf .olt main_v41 main_v42
  let main_c_17 : IVec S_ 1 := constantI S_ 1 1#1
  let main_v44 : IVec S_ 1 := (fun x v => Host.reduce IntOp.andi x v reducesTo_S48x16_S_d0_1 h_S_) main_v43 main_c_17
  let main_v45 : IVec S_ 1 := andi main_v40 main_v44
  let main_v46 : FVec F S16x1 .f32 := Host.absf main_arg12
  let main_cst_18 : FVec F S_ .f32 := constant S_ .f32 0x7F800000#32
  let main_v47 : FVec F S16x1 .f32 := broadcastInDim S16x1 ![] bcast_S_S16x1 main_cst_18
  let main_v48 : IVec S16x1 1 := cmpf .olt main_v46 main_v47
  let main_c_19 : IVec S_ 1 := constantI S_ 1 1#1
  let main_v49 : IVec S_ 1 := (fun x v => Host.reduce IntOp.andi x v reducesTo_S16x1_S_d0_1 h_S_) main_v48 main_c_19
  fn_part3 (F := F) main_arg13 main_arg14 main_arg15 main_arg16 main_v45 main_v49

def fn_part1 {F : FTy → Type} [FloatOps F] (main_arg6 : FVec F S100 .f32) (main_arg7 : FVec F S100x16 .f32) (main_arg8 : FVec F S_ .f32) (main_arg9 : FVec F S_ .f32) (main_arg10 : FVec F S_ .f32) (main_arg11 : FVec F S48x16 .f32) (main_arg12 : FVec F S16x1 .f32) (main_arg13 : FVec F S17x16 .f32) (main_arg14 : FVec F S64x64 .f32) (main_arg15 : FVec F S64x64 .f32) (main_arg16 : FVec F S64x64 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100 .f32 := Host.absf main_arg6
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x16 .f32 := Host.absf main_arg7
  let main_cst_8 : FVec F S_ .f32 := constant S_ .f32 0x7F800000#32
  let main_v25 : FVec F S100x16 .f32 := broadcastInDim S100x16 ![] bcast_S_S100x16 main_cst_8
  let main_v26 : IVec S100x16 1 := cmpf .olt main_v24 main_v25
  let main_c_9 : IVec S_ 1 := constantI S_ 1 1#1
  let main_v27 : IVec S_ 1 := (fun x v => Host.reduce IntOp.andi x v reducesTo_S100x16_S_d0_1 h_S_) main_v26 main_c_9
  let main_v28 : IVec S_ 1 := andi main_v23 main_v27
  let main_v29 : FVec F S_ .f32 := Host.absf main_arg8
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S_ .f32 := Host.absf main_arg9
  fn_part2 (F := F) main_arg10 main_arg11 main_arg12 main_arg13 main_arg14 main_arg15 main_arg16 main_v32 main_v33

def fn {F : FTy → Type} [FloatOps F] (main_arg0 : FVec F S1600000x3 .f32) (main_arg1 : FVec F S1600000x48 .f32) (main_arg2 : FVec F S1600000x64 .f32) (main_arg3 : IVec S1600000 32) (main_arg4 : IVec S50000 32) (main_arg5 : FVec F S100 .f32) (main_arg6 : FVec F S100 .f32) (main_arg7 : FVec F S100x16 .f32) (main_arg8 : FVec F S_ .f32) (main_arg9 : FVec F S_ .f32) (main_arg10 : FVec F S_ .f32) (main_arg11 : FVec F S48x16 .f32) (main_arg12 : FVec F S16x1 .f32) (main_arg13 : FVec F S17x16 .f32) (main_arg14 : FVec F S64x64 .f32) (main_arg15 : FVec F S64x64 .f32) (main_arg16 : FVec F S64x64 .f32) : IVec S_ 1 :=
  let main_v0 : FVec F S1600000x3 .f32 := Host.absf main_arg0
  let main_cst : FVec F S_ .f32 := constant S_ .f32 0x7F800000#32
  let main_v1 : FVec F S1600000x3 .f32 := broadcastInDim S1600000x3 ![] bcast_S_S1600000x3 main_cst
  let main_v2 : IVec S1600000x3 1 := cmpf .olt main_v0 main_v1
  let main_c : IVec S_ 1 := constantI S_ 1 1#1
  let main_v3 : IVec S_ 1 := (fun x v => Host.reduce IntOp.andi x v reducesTo_S1600000x3_S_d0_1 h_S_) main_v2 main_c
  let main_v4 : FVec F S1600000x48 .f32 := Host.absf main_arg1
  let main_cst_0 : FVec F S_ .f32 := constant S_ .f32 0x7F800000#32
  let main_v5 : FVec F S1600000x48 .f32 := broadcastInDim S1600000x48 ![] bcast_S_S1600000x48 main_cst_0
  let main_v6 : IVec S1600000x48 1 := cmpf .olt main_v4 main_v5
  let main_c_1 : IVec S_ 1 := constantI S_ 1 1#1
  let main_v7 : IVec S_ 1 := (fun x v => Host.reduce IntOp.andi x v reducesTo_S1600000x48_S_d0_1 h_S_) main_v6 main_c_1
  let main_v8 : IVec S_ 1 := andi main_v3 main_v7
  let main_v9 : FVec F S1600000x64 .f32 := Host.absf main_arg2
  let main_cst_2 : FVec F S_ .f32 := constant S_ .f32 0x7F800000#32
  let main_v10 : FVec F S1600000x64 .f32 := broadcastInDim S1600000x64 ![] bcast_S_S1600000x64 main_cst_2
  let main_v11 : IVec S1600000x64 1 := cmpf .olt main_v9 main_v10
  let main_c_3 : IVec S_ 1 := constantI S_ 1 1#1
  let main_v12 : IVec S_ 1 := (fun x v => Host.reduce IntOp.andi x v reducesTo_S1600000x64_S_d0_1 h_S_) main_v11 main_c_3
  let main_v13 : IVec S_ 1 := andi main_v8 main_v12
  let main_v14 : FVec F S100 .f32 := Host.absf main_arg5
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S1600000x3 : Shape := ⟨2, ![1600000, 3]⟩
abbrev S1600000x48 : Shape := ⟨2, ![1600000, 48]⟩
abbrev S1600000x64 : Shape := ⟨2, ![1600000, 64]⟩
abbrev S1600000 : Shape := ⟨1, ![1600000]⟩
abbrev S50000 : Shape := ⟨1, ![50000]⟩
abbrev S100 : Shape := ⟨1, ![100]⟩
abbrev S100x16 : Shape := ⟨2, ![100, 16]⟩
abbrev S_ : Shape := ⟨0, ![]⟩
abbrev S48x16 : Shape := ⟨2, ![48, 16]⟩
abbrev S16x1 : Shape := ⟨2, ![16, 1]⟩
abbrev S17x16 : Shape := ⟨2, ![17, 16]⟩
abbrev S64x64 : Shape := ⟨2, ![64, 64]⟩
abbrev S1600000x1 : Shape := ⟨2, ![1600000, 1]⟩
abbrev S8000x48 : Shape := ⟨2, ![8000, 48]⟩
abbrev S8000x1 : Shape := ⟨2, ![8000, 1]⟩
abbrev S8000x16 : Shape := ⟨2, ![8000, 16]⟩
abbrev S50000x1 : Shape := ⟨2, ![50000, 1]⟩
abbrev S50000x16 : Shape := ⟨2, ![50000, 16]⟩
abbrev S50000x17 : Shape := ⟨2, ![50000, 17]⟩
abbrev S1600000x16 : Shape := ⟨2, ![1600000, 16]⟩
abbrev S8000x3 : Shape := ⟨2, ![8000, 3]⟩
abbrev S8000x64 : Shape := ⟨2, ![8000, 64]⟩
abbrev S8000 : Shape := ⟨1, ![8000]⟩

abbrev nBuf : Space → Nat
  | .hbm => 116
  | .vmem => 17
  | .smem => 0
  | _ => 0

abbrev bufTy : (tb : Table) → Fin (tcTables nBuf tb) → BufTy
  | .hbm, ⟨0, _⟩ => ⟨S1600000x3, .f32⟩
  | .hbm, ⟨1, _⟩ => ⟨S1600000x48, .f32⟩
  | .hbm, ⟨2, _⟩ => ⟨S1600000x64, .f32⟩
  | .hbm, ⟨3, _⟩ => ⟨S1600000, .i32⟩
  | .hbm, ⟨4, _⟩ => ⟨S50000, .i32⟩
  | .hbm, ⟨5, _⟩ => ⟨S100, .f32⟩
  | .hbm, ⟨6, _⟩ => ⟨S100, .f32⟩
  | .hbm, ⟨7, _⟩ => ⟨S100x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S48x16, .f32⟩
  | .hbm, ⟨12, _⟩ => ⟨S16x1, .f32⟩
  | .hbm, ⟨13, _⟩ => ⟨S17x16, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S48x16, .f32⟩
  | .hbm, ⟨19, _⟩ => ⟨S48x16, .f32⟩
  | .hbm, ⟨20, _⟩ => ⟨S_, .f32⟩
  | .hbm, ⟨21, _⟩ => ⟨S16x1, .f32⟩
  | .hbm, ⟨22, _⟩ => ⟨S16x1, .f32⟩
  | .hbm, ⟨23, _⟩ => ⟨S_, .f32⟩
  | .hbm, ⟨24, _⟩ => ⟨S17x16, .f32⟩
  | .hbm, ⟨25, _⟩ => ⟨S17x16, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S1600000x1, .f32⟩
  | .hbm, ⟨36, _⟩ => ⟨S_, .f32⟩
  | .hbm, ⟨37, _⟩ => ⟨S50000x1, .f32⟩
  | .hbm, ⟨38, _⟩ => ⟨S1600000x1, .i32⟩
  | .hbm, ⟨39, _⟩ => ⟨S50000x1, .f32⟩
  | .hbm, ⟨40, _⟩ => ⟨S50000, .f32⟩
  | .hbm, ⟨41, _⟩ => ⟨S50000, .f32⟩
  | .hbm, ⟨42, _⟩ => ⟨S50000, .f32⟩
  | .hbm, ⟨43, _⟩ => ⟨S_, .i32⟩
  | .hbm, ⟨44, _⟩ => ⟨S50000, .i32⟩
  | .hbm, ⟨45, _⟩ => ⟨S50000, .i1⟩
  | .hbm, ⟨46, _⟩ => ⟨S_, .i32⟩
  | .hbm, ⟨47, _⟩ => ⟨S50000, .i32⟩
  | .hbm, ⟨48, _⟩ => ⟨S50000, .i32⟩
  | .hbm, ⟨49, _⟩ => ⟨S50000, .i32⟩
  | .hbm, ⟨50, _⟩ => ⟨S50000x1, .i32⟩
  | .hbm, ⟨51, _⟩ => ⟨S50000, .f32⟩
  | .hbm, ⟨52, _⟩ => ⟨S50000, .f32⟩
  | .hbm, ⟨53, _⟩ => ⟨S50000, .f32⟩
  | .hbm, ⟨54, _⟩ => ⟨S50000, .f32⟩
  | .hbm, ⟨55, _⟩ => ⟨S50000, .f32⟩
  | .hbm, ⟨56, _⟩ => ⟨S_, .i32⟩
  | .hbm, ⟨57, _⟩ => ⟨S50000, .i32⟩
  | .hbm, ⟨58, _⟩ => ⟨S50000, .i1⟩
  | .hbm, ⟨59, _⟩ => ⟨S_, .i32⟩
  | .hbm, ⟨60, _⟩ => ⟨S50000, .i32⟩
  | .hbm, ⟨61, _⟩ => ⟨S50000, .i32⟩
  | .hbm, ⟨62, _⟩ => ⟨S50000, .i32⟩
  | .hbm, ⟨63, _⟩ => ⟨S50000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000, .f32⟩
  | .hbm, ⟨69, _⟩ => ⟨S50000, .f32⟩
  | .hbm, ⟨70, _⟩ => ⟨S50000, .i1⟩
  | .hbm, ⟨71, _⟩ => ⟨S50000, .f32⟩
  | .hbm, ⟨72, _⟩ => ⟨S50000, .f32⟩
  | .hbm, ⟨73, _⟩ => ⟨S50000, .f32⟩
  | .hbm, ⟨74, _⟩ => ⟨S50000, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000, .f32⟩
  | .hbm, ⟨83, _⟩ => ⟨S50000, .f32⟩
  | .hbm, ⟨84, _⟩ => ⟨S50000, .f32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000, .f32⟩
  | .hbm, ⟨90, _⟩ => ⟨S50000, .f32⟩
  | .hbm, ⟨91, _⟩ => ⟨S50000, .f32⟩
  | .hbm, ⟨92, _⟩ => ⟨S_, .f32⟩
  | .hbm, ⟨93, _⟩ => ⟨S_, .f32⟩
  | .hbm, ⟨94, _⟩ => ⟨S50000x1, .f32⟩
  | .hbm, ⟨95, _⟩ => ⟨S_, .i32⟩
  | .hbm, ⟨96, _⟩ => ⟨S50000, .i32⟩
  | .hbm, ⟨97, _⟩ => ⟨S50000, .i1⟩
  | .hbm, ⟨98, _⟩ => ⟨S_, .i32⟩
  | .hbm, ⟨99, _⟩ => ⟨S50000, .i32⟩
  | .hbm, ⟨100, _⟩ => ⟨S50000, .i32⟩
  | .hbm, ⟨101, _⟩ => ⟨S50000, .i32⟩
  | .hbm, ⟨102, _⟩ => ⟨S50000x1, .i32⟩
  | .hbm, ⟨103, _⟩ => ⟨S50000x16, .f32⟩
  | .hbm, ⟨104, _⟩ => ⟨S50000x17, .f32⟩
  | .hbm, ⟨105, _⟩ => ⟨S50000x16, .f32⟩
  | .hbm, ⟨106, _⟩ => ⟨S_, .i32⟩
  | .hbm, ⟨107, _⟩ => ⟨S1600000, .i32⟩
  | .hbm, ⟨108, _⟩ => ⟨S1600000, .i1⟩
  | .hbm, ⟨109, _⟩ => ⟨S_, .i32⟩
  | .hbm, ⟨110, _⟩ => ⟨S1600000, .i32⟩
  | .hbm, ⟨111, _⟩ => ⟨S1600000, .i32⟩
  | .hbm, ⟨112, _⟩ => ⟨S1600000, .i32⟩
  | .hbm, ⟨113, _⟩ => ⟨S1600000x1, .i32⟩
  | .hbm, ⟨114, _⟩ => ⟨S1600000x16, .f32⟩
  | .hbm, ⟨115, _⟩ => ⟨S1600000x64, .f32⟩
  | .local _ .vmem, ⟨0, _⟩ => ⟨S8000x48, .f32⟩
  | .local _ .vmem, ⟨1, _⟩ => ⟨S8000x48, .f32⟩
  | .local _ .vmem, ⟨2, _⟩ => ⟨S48x16, .f32⟩
  | .local _ .vmem, ⟨3, _⟩ => ⟨S16x1, .f32⟩
  | .local _ .vmem, ⟨4, _⟩ => ⟨S8000x1, .f32⟩
  | .local _ .vmem, ⟨5, _⟩ => ⟨S8000x1, .f32⟩
  | .local _ .vmem, ⟨6, _⟩ => ⟨S8000x48, .f32⟩
  | .local _ .vmem, ⟨7, _⟩ => ⟨S8000x48, .f32⟩
  | .local _ .vmem, ⟨8, _⟩ => ⟨S8000x3, .f32⟩
  | .local _ .vmem, ⟨9, _⟩ => ⟨S8000x3, .f32⟩
  | .local _ .vmem, ⟨10, _⟩ => ⟨S8000x16, .f32⟩
  | .local _ .vmem, ⟨11, _⟩ => ⟨S8000x16, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S8000x64, .f32⟩
  | .local _ .vmem, ⟨16, _⟩ => ⟨S8000x64, .f32⟩
  | _, _ => ⟨S1600000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_v8 : Ref sig .tc := ⟨.hbm, 30, rfl⟩
abbrev main_v9 : Ref sig .tc := ⟨.hbm, 31, rfl⟩
abbrev main_cst_4 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_5 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_c_8 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_v37 : Ref sig .tc := ⟨.hbm, 78, rfl⟩
abbrev main_cst_9 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_10 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_11 : Ref sig .tc := ⟨.hbm, 92, rfl⟩
abbrev main_v49 : Ref sig .tc := ⟨.hbm, 93, rfl⟩
abbrev main_v50 : Ref sig .tc := ⟨.hbm, 94, rfl⟩
abbrev main_c_12 : Ref sig .tc := ⟨.hbm, 95, rfl⟩
abbrev main_v51 : Ref sig .tc := ⟨.hbm, 96, rfl⟩
abbrev main_v52 : Ref sig .tc := ⟨.hbm, 97, rfl⟩
abbrev main_c_13 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_14 : Ref sig .tc := ⟨.hbm, 106, rfl⟩
abbrev main_v60 : Ref sig .tc := ⟨.hbm, 107, rfl⟩
abbrev main_v61 : Ref sig .tc := ⟨.hbm, 108, rfl⟩
abbrev main_c_15 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S48x16 : S_.BroadcastsInDim S48x16 (![] : Fin 0 → Fin S48x16.rank)
  bcast_S_S16x1 : S_.BroadcastsInDim S16x1 (![] : Fin 0 → Fin S16x1.rank)
  bcast_S_S17x16 : S_.BroadcastsInDim S17x16 (![] : Fin 0 → Fin S17x16.rank)
  bcast_S_S64x64 : S_.BroadcastsInDim S64x64 (![] : Fin 0 → Fin S64x64.rank)
  inb_S8000x48_S8000x48_0_0 : ∀ a, (![0, 0] : Fin 2 → Nat) a + S8000x48.size a ≤ S8000x48.size a
  h_S8000x48 : 0 < S8000x48.numel
  bitsLt_bf16_f32 : FTy.bits .bf16 < FTy.bits .f32
  inb_S48x16_S48x16_0_0 : ∀ a, (![0, 0] : Fin 2 → Nat) a + S48x16.size a ≤ S48x16.size a
  h_S48x16 : 0 < S48x16.numel
  shapeCasts_S48x16_S48x16 : S48x16.ShapeCasts S48x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S8000x1_S8000x1_0_0 : ∀ a, (![0, 0] : Fin 2 → Nat) a + S8000x1.size a ≤ S8000x1.size a
  h_S8000x1 : 0 < S8000x1.numel
  bcast_S_S50000x1 : S_.BroadcastsInDim S50000x1 (![] : Fin 0 → Fin S50000x1.rank)
  bcast_S1600000_S1600000x1_0 : S1600000.BroadcastsInDim S1600000x1 (![0] : Fin 1 → Fin S1600000x1.rank)
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  reducesTo_S50000_S_d0 : S50000.ReducesTo [0] S_
  h_S_ : 0 < S_.numel
  concatenates_S50000x1_S50000x16_S50000x17_d1 : Shape.Concatenates [S50000x1, S50000x16] S50000x17 1
  bcast_S_S1600000 : S_.BroadcastsInDim S1600000 (![] : Fin 0 → Fin S1600000.rank)
  inb_S8000x3_S8000x3_0_0 : ∀ a, (![0, 0] : Fin 2 → Nat) a + S8000x3.size a ≤ S8000x3.size a
  h_S8000x3 : 0 < S8000x3.numel
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  reduces_S8000x3_S8000 : S8000x3.Reduces [1] S8000
  shapeCasts_S8000_S8000x1 : S8000.ShapeCasts S8000x1
  concatenates_S8000x48_S8000x16_S8000x64_d1 : Shape.Concatenates [S8000x48, S8000x16] S8000x64 1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S8000x1_S8000x64 : S8000x1.Broadcasts S8000x64
  inb_S8000x64_S8000x64_0_0 : ∀ a, (![0, 0] : Fin 2 → Nat) a + S8000x64.size a ≤ S8000x64.size a
  h_S8000x64 : 0 < S8000x64.numel
  dot_S8000x48_S48x16_S8000x16_1_0_0_1_n_n_wf : DotDims.WF S8000x48 S48x16 S8000x16 [1] [0] [0] [1] [] []
  dot_S8000x16_S16x1_S8000x1_1_0_0_1_n_n_wf : DotDims.WF S8000x16 S16x1 S8000x1 [1] [0] [0] [1] [] []
  scatter_S50000x1_S1600000x1_S1600000x1_1_0_0_1_wf : ScatterDims.WF S50000x1 S1600000x1 S1600000x1 [1] [0] [0] 1
  gather_S100_S50000x1_S50000_n_0_n_n_0_1_1_wf : GatherDims.WF S100 S50000x1 S50000 [] [0] [] [0] [] 1 ![1]
  gather_S100x16_S50000x1_S50000x16_1_0_n_n_0_1_116_wf : GatherDims.WF S100x16 S50000x1 S50000x16 [1] [0] [] [0] [] 1 ![1, 16]
  dot_S50000x17_S17x16_S50000x16_1_0_0_1_n_n_wf : DotDims.WF S50000x17 S17x16 S50000x16 [1] [0] [0] [1] [] []
  gather_S50000x16_S1600000x1_S1600000x16_1_0_n_n_0_1_116_wf : GatherDims.WF S50000x16 S1600000x1 S1600000x16 [1] [0] [] [0] [] 1 ![1, 16]
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x48.size a ≤ S1600000x48.size a
  hwx0_0 : ∀ i : grid0.Coords, EltTy.bits .f32 = 32 ∨ (Rect.block (s := S1600000x48) S8000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x16.size a ≤ S48x16.size a
  hwx0_1 : ∀ i : grid0.Coords, EltTy.bits .f32 = 32 ∨ (Rect.block (s := S48x16) S48x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x1.size a ≤ S1600000x1.size a
  hwx0_3 : ∀ i : grid0.Coords, EltTy.bits .f32 = 32 ∨ (Rect.block (s := S1600000x1) S8000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x48.size a ≤ S1600000x48.size a
  hwx1_0 : ∀ i : grid1.Coords, EltTy.bits .f32 = 32 ∨ (Rect.block (s := S1600000x48) S8000x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x3.size a ≤ S1600000x3.size a
  hwx1_1 : ∀ i : grid1.Coords, EltTy.bits .f32 = 32 ∨ (Rect.block (s := S1600000x3) S8000x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x16.size a ≤ S1600000x16.size a
  hwx1_2 : ∀ i : grid1.Coords, EltTy.bits .f32 = 32 ∨ (Rect.block (s := S1600000x16) S8000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x64.size a ≤ S1600000x64.size a
  hwx1_6 : ∀ i : grid1.Coords, EltTy.bits .f32 = 32 ∨ (Rect.block (s := S1600000x64) S8000x64.size (cc1_transform_6 i) (hinb1_6 i)).WholeWords (EltTy.packing .f32)

variable [Facts₀]

def dot_S8000x48_S48x16_S8000x16_1_0_0_1_n_n : DotDims S8000x48 S48x16 S8000x16 where
  lhsContracting := [1]
  rhsContracting := [0]
  lhsNonContracting := [0]
  rhsNonContracting := [1]
  lhsBatch := []
  rhsBatch := []
  wf := dot_S8000x48_S48x16_S8000x16_1_0_0_1_n_n_wf
def dot_S8000x16_S16x1_S8000x1_1_0_0_1_n_n : DotDims S8000x16 S16x1 S8000x1 where
  lhsContracting := [1]
  rhsContracting := [0]
  lhsNonContracting := [0]
  rhsNonContracting := [1]
  lhsBatch := []
  rhsBatch := []
  wf := dot_S8000x16_S16x1_S8000x1_1_0_0_1_n_n_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S100_S50000x1_S50000_n_0_n_n_0_1_1 : GatherDims S100 S50000x1 S50000 where
  offsetDims := []
  collapsedSliceDims := [0]
  operandBatchingDims := []
  startIndicesBatchingDims := []
  startIndexMap := [0]
  indexVectorDim := 1
  sliceSizes := ![1]
  wf := gather_S100_S50000x1_S50000_n_0_n_n_0_1_1_wf
def gather_S100x16_S50000x1_S50000x16_1_0_n_n_0_1_116 : GatherDims S100x16 S50000x1 S50000x16 where
  offsetDims := [1]
  collapsedSliceDims := [0]
  operandBatchingDims := []
  startIndicesBatchingDims := []
  startIndexMap := [0]
  indexVectorDim := 1
  sliceSizes := ![1, 16]
  wf := gather_S100x16_S50000x1_S50000x16_1_0_n_n_0_1_116_wf
def dot_S50000x17_S17x16_S50000x16_1_0_0_1_n_n : DotDims S50000x17 S17x16 S50000x16 where
  lhsContracting := [1]
  rhsContracting := [0]
  lhsNonContracting := [0]
  rhsNonContracting := [1]
  lhsBatch := []
  rhsBatch := []
  wf := dot_S50000x17_S17x16_S50000x16_1_0_0_1_n_n_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_arg1) S8000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S48x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S8000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S8000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1600000x3 : Shape := ⟨2, ![1600000, 3]⟩
abbrev S1600000x48 : Shape := ⟨2, ![1600000, 48]⟩
abbrev S1600000x64 : Shape := ⟨2, ![1600000, 64]⟩
abbrev S1600000 : Shape := ⟨1, ![1600000]⟩
abbrev S50000 : Shape := ⟨1, ![50000]⟩
abbrev S100 : Shape := ⟨1, ![100]⟩
abbrev S100x16 : Shape := ⟨2, ![100, 16]⟩
abbrev S_ : Shape := ⟨0, ![]⟩
abbrev S48x16 : Shape := ⟨2, ![48, 16]⟩
abbrev S16x1 : Shape := ⟨2, ![16, 1]⟩
abbrev S17x16 : Shape := ⟨2, ![17, 16]⟩
abbrev S64x64 : Shape := ⟨2, ![64, 64]⟩
abbrev S1600000x16 : Shape := ⟨2, ![1600000, 16]⟩
abbrev S1600000x1 : Shape := ⟨2, ![1600000, 1]⟩
abbrev S50000x1 : Shape := ⟨2, ![50000, 1]⟩
abbrev S50000x16 : Shape := ⟨2, ![50000, 16]⟩
abbrev S50000x17 : Shape := ⟨2, ![50000, 17]⟩

abbrev nBuf : Space → Nat
  | .hbm => 184
  | .vmem => 0
  | .smem => 0
  | _ => 0

abbrev hbmTy0_0 (i : Nat) : BufTy := match i % 128 with
  | 0 => ⟨S1600000x3, .f32⟩
  | 1 => ⟨S1600000x48, .f32⟩
  | 2 => ⟨S1600000x64, .f32⟩
  | 3 => ⟨S1600000, .i32⟩
  | 4 => ⟨S50000, .i32⟩
  | 5 => ⟨S100, .f32⟩
  | 6 => ⟨S100, .f32⟩
  | 7 => ⟨S100x16, .f32⟩
  | 8 => ⟨S_, .f32⟩
  | 9 => ⟨S_, .f32⟩
  | 10 => ⟨S_, .f32⟩
  | 11 => ⟨S48x16, .f32⟩
  | 12 => ⟨S16x1, .f32⟩
  | 13 => ⟨S17x16, .f32⟩
  | 14 => ⟨S64x64, .f32⟩
  | 15 => ⟨S64x64, .f32⟩
  | 16 => ⟨S64x64, .f32⟩
  | 17 => ⟨S1600000x3, .f32⟩
  | 18 => ⟨S_, .f32⟩
  | 19 => ⟨S1600000, .f32⟩
  | 20 => ⟨S1600000, .f32⟩
  | 21 => ⟨S_, .f32⟩
  | 22 => ⟨S48x16, .f32⟩
  | 23 => ⟨S48x16, .f32⟩
  | 24 => ⟨S1600000x16, .f32⟩
  | 25 => ⟨S1600000x16, .f32⟩
  | 26 => ⟨S1600000x16, .f32⟩
  | 27 => ⟨S_, .f32⟩
  | 28 => ⟨S1600000x16, .f32⟩
  | 29 => ⟨S1600000x16, .f32⟩
  | 30 => ⟨S_, .f32⟩
  | 31 => ⟨S1600000x16, .f32⟩
  | 32 => ⟨S1600000x16, .f32⟩
  | 33 => ⟨S1600000x16, .f32⟩
  | 34 => ⟨S_, .f32⟩
  | 35 => ⟨S16x1, .f32⟩
  | 36 => ⟨S16x1, .f32⟩
  | 37 => ⟨S1600000x1, .f32⟩
  | 38 => ⟨S_, .f32⟩
  | 39 => ⟨S50000x1, .f32⟩
  | 40 => ⟨S1600000x1, .i32⟩
  | 41 => ⟨S50000x1, .f32⟩
  | 42 => ⟨S50000, .f32⟩
  | 43 => ⟨S50000, .f32⟩
  | 44 => ⟨S50000, .f32⟩
  | 45 => ⟨S_, .i32⟩
  | 46 => ⟨S50000, .i32⟩
  | 47 => ⟨S50000, .i1⟩
  | 48 => ⟨S_, .i32⟩
  | 49 => ⟨S50000, .i32⟩
  | 50 => ⟨S50000, .i32⟩
  | 51 => ⟨S50000, .i32⟩
  | 52 => ⟨S50000x1, .i32⟩
  | 53 => ⟨S50000, .f32⟩
  | 54 => ⟨S50000, .f32⟩
  | 55 => ⟨S50000, .f32⟩
  | 56 => ⟨S50000, .f32⟩
  | 57 => ⟨S50000, .f32⟩
  | 58 => ⟨S_, .i32⟩
  | 59 => ⟨S50000, .i32⟩
  | 60 => ⟨S50000, .i1⟩
  | 61 => ⟨S_, .i32⟩
  | 62 => ⟨S50000, .i32⟩
  | 63 => ⟨S50000, .i32⟩
  | 64 => ⟨S50000, .i32⟩
  | 65 => ⟨S50000x1, .i32⟩
  | 66 => ⟨S50000, .f32⟩
  | 67 => ⟨S_, .f32⟩
  | 68 => ⟨S50000, .f32⟩
  | 69 => ⟨S50000, .f32⟩
  | 70 => ⟨S50000, .f32⟩
  | 71 => ⟨S50000, .f32⟩
  | 72 => ⟨S50000, .i1⟩
  | 73 => ⟨S50000, .f32⟩
  | 74 => ⟨S50000, .f32⟩
  | 75 => ⟨S50000, .f32⟩
  | 76 => ⟨S50000, .f32⟩
  | 77 => ⟨S50000, .f32⟩
  | 78 => ⟨S50000, .f32⟩
  | 79 => ⟨S50000, .f32⟩
  | 80 => ⟨S50000, .f32⟩
  | 81 => ⟨S_, .f32⟩
  | 82 => ⟨S50000, .f32⟩
  | 83 => ⟨S50000, .f32⟩
  | 84 => ⟨S50000, .f32⟩
  | 85 => ⟨S50000, .f32⟩
  | 86 => ⟨S50000, .f32⟩
  | 87 => ⟨S50000, .f32⟩
  | 88 => ⟨S_, .f32⟩
  | 89 => ⟨S50000, .f32⟩
  | 90 => ⟨S50000, .f32⟩
  | 91 => ⟨S50000, .f32⟩
  | 92 => ⟨S50000, .f32⟩
  | 93 => ⟨S50000, .f32⟩
  | 94 => ⟨S_, .f32⟩
  | 95 => ⟨S_, .f32⟩
  | 96 => ⟨S50000x1, .f32⟩
  | 97 => ⟨S_, .i32⟩
  | 98 => ⟨S50000, .i32⟩
  | 99 => ⟨S50000, .i1⟩
  | 100 => ⟨S_, .i32⟩
  | 101 => ⟨S50000, .i32⟩
  | 102 => ⟨S50000, .i32⟩
  | 103 => ⟨S50000, .i32⟩
  | 104 => ⟨S50000x1, .i32⟩
  | 105 => ⟨S50000x16, .f32⟩
  | 106 => ⟨S50000x17, .f32⟩
  | 107 => ⟨S_, .f32⟩
  | 108 => ⟨S17x16, .f32⟩
  | 109 => ⟨S17x16, .f32⟩
  | 110 => ⟨S50000x16, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x16, .f32⟩
  | 120 => ⟨S1600000x64, .f32⟩
  | 121 => ⟨S_, .f32⟩
  | 122 => ⟨S64x64, .f32⟩
  | 123 => ⟨S64x64, .f32⟩
  | 124 => ⟨S1600000x64, .f32⟩
  | 125 => ⟨S1600000x64, .f32⟩
  | 126 => ⟨S1600000x64, .f32⟩
  | 127 => ⟨S_, .f32⟩
  | _ => ⟨S1600000x3, .f32⟩

abbrev hbmTy0_1 (i : Nat) : BufTy := match i % 128 with
  | 0 => ⟨S1600000x64, .f32⟩
  | 1 => ⟨S1600000x64, .f32⟩
  | 2 => ⟨S_, .f32⟩
  | 3 => ⟨S1600000x64, .f32⟩
  | 4 => ⟨S1600000x64, .f32⟩
  | 5 => ⟨S1600000x64, .f32⟩
  | 6 => ⟨S_, .f32⟩
  | 7 => ⟨S64x64, .f32⟩
  | 8 => ⟨S64x64, .f32⟩
  | 9 => ⟨S1600000x64, .f32⟩
  | 10 => ⟨S1600000x64, .f32⟩
  | 11 => ⟨S1600000x64, .f32⟩
  | 12 => ⟨S_, .f32⟩
  | 13 => ⟨S1600000x64, .f32⟩
  | 14 => ⟨S1600000x64, .f32⟩
  | 15 => ⟨S_, .f32⟩
  | 16 => ⟨S1600000x64, .f32⟩
  | 17 => ⟨S1600000x64, .f32⟩
  | 18 => ⟨S1600000x64, .f32⟩
  | 19 => ⟨S_, .f32⟩
  | 20 => ⟨S64x64, .f32⟩
  | 21 => ⟨S64x64, .f32⟩
  | 22 => ⟨S1600000x64, .f32⟩
  | 23 => ⟨S_, .f32⟩
  | 24 => ⟨S1600000, .f32⟩
  | 25 => ⟨S1600000, .f32⟩
  | 26 => ⟨S1600000, .f32⟩
  | 27 => ⟨S1600000, .f32⟩
  | 28 => ⟨S1600000, .f32⟩
  | 29 => ⟨S_, .f32⟩
  | 30 => ⟨S1600000, .f32⟩
  | 31 => ⟨S1600000, .f32⟩
  | 32 => ⟨S_, .f32⟩
  | 33 => ⟨S1600000, .f32⟩
  | 34 => ⟨S1600000, .f32⟩
  | 35 => ⟨S_, .f32⟩
  | 36 => ⟨S1600000, .f32⟩
  | 37 => ⟨S1600000, .f32⟩
  | 38 => ⟨S1600000, .f32⟩
  | 39 => ⟨S1600000, .f32⟩
  | 40 => ⟨S_, .f32⟩
  | 41 => ⟨S1600000, .f32⟩
  | 42 => ⟨S1600000, .f32⟩
  | 43 => ⟨S1600000, .f32⟩
  | 44 => ⟨S1600000, .f32⟩
  | 45 => ⟨S1600000, .f32⟩
  | 46 => ⟨S_, .f32⟩
  | 47 => ⟨S1600000, .f32⟩
  | 48 => ⟨S1600000, .i1⟩
  | 49 => ⟨S_, .f32⟩
  | 50 => ⟨S_, .f32⟩
  | 51 => ⟨S1600000, .f32⟩
  | 52 => ⟨S1600000, .f32⟩
  | 53 => ⟨S1600000x1, .f32⟩
  | 54 => ⟨S1600000x64, .f32⟩
  | 55 => ⟨S1600000x64, .f32⟩
  | _ => ⟨S1600000x3, .f32⟩

abbrev hbmTy (i : Nat) : BufTy := match i / 128 with
  | 0 => hbmTy0_0 i
  | 1 => hbmTy0_1 i
  | _ => ⟨S1600000x3, .f32⟩

abbrev bufTy : (tb : Table) → Fin (tcTables nBuf tb) → BufTy
  | .hbm, ⟨i, _⟩ => hbmTy i
  | _, _ => ⟨S1600000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_4 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v34 : Ref sig .tc := ⟨.hbm, 80, rfl⟩
abbrev main_cst_6 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst_7 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_cst_8 : Ref sig .tc := ⟨.hbm, 94, rfl⟩
abbrev main_v46 : Ref sig .tc := ⟨.hbm, 95, rfl⟩
abbrev main_v47 : Ref sig .tc := ⟨.hbm, 96, rfl⟩
abbrev main_c_9 : Ref sig .tc := ⟨.hbm, 97, rfl⟩
abbrev main_v48 : Ref sig .tc := ⟨.hbm, 98, rfl⟩
abbrev main_v49 : Ref sig .tc := ⟨.hbm, 99, rfl⟩
abbrev main_c_10 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_11 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_c_12 : Ref sig .tc := ⟨.hbm, 111, rfl⟩
abbrev main_v59 : Ref sig .tc := ⟨.hbm, 112, rfl⟩
abbrev main_v60 : Ref sig .tc := ⟨.hbm, 113, rfl⟩
abbrev main_c_13 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_14 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_call2_v0 : Ref sig .tc := ⟨.hbm, 125, rfl⟩
abbrev main_call2_v1 : Ref sig .tc := ⟨.hbm, 126, rfl⟩
abbrev main_call2_cst : Ref sig .tc := ⟨.hbm, 127, rfl⟩
abbrev main_call2_v2 : Ref sig .tc := ⟨.hbm, 128, rfl⟩
abbrev main_call2_v3 : Ref sig .tc := ⟨.hbm, 129, rfl⟩
abbrev main_call2_cst_0 : Ref sig .tc := ⟨.hbm, 130, rfl⟩
abbrev main_call2_v4 : Ref sig .tc := ⟨.hbm, 131, rfl⟩
abbrev main_call2_v5 : Ref sig .tc := ⟨.hbm, 132, rfl⟩
abbrev main_v70 : Ref sig .tc := ⟨.hbm, 133, rfl⟩
abbrev main_cst_15 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_call3_v0 : Ref sig .tc := ⟨.hbm, 138, rfl⟩
abbrev main_call3_v1 : Ref sig .tc := ⟨.hbm, 139, rfl⟩
abbrev main_call3_cst : Ref sig .tc := ⟨.hbm, 140, rfl⟩
abbrev main_call3_v2 : Ref sig .tc := ⟨.hbm, 141, rfl⟩
abbrev main_call3_v3 : Ref sig .tc := ⟨.hbm, 142, rfl⟩
abbrev main_call3_cst_0 : Ref sig .tc := ⟨.hbm, 143, rfl⟩
abbrev main_call3_v4 : Ref sig .tc := ⟨.hbm, 144, rfl⟩
abbrev main_call3_v5 : Ref sig .tc := ⟨.hbm, 145, rfl⟩
abbrev main_v74 : Ref sig .tc := ⟨.hbm, 146, rfl⟩
abbrev main_cst_16 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_cst_17 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_cst_18 : Ref sig .tc := ⟨.hbm, 157, rfl⟩
abbrev main_v83 : Ref sig .tc := ⟨.hbm, 158, rfl⟩
abbrev main_v84 : Ref sig .tc := ⟨.hbm, 159, rfl⟩
abbrev main_cst_19 : Ref sig .tc := ⟨.hbm, 160, rfl⟩
abbrev main_v85 : Ref sig .tc := ⟨.hbm, 161, rfl⟩
abbrev main_v86 : Ref sig .tc := ⟨.hbm, 162, rfl⟩
abbrev main_cst_20 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_cst_21 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_cst_22 : Ref sig .tc := ⟨.hbm, 174, rfl⟩
abbrev main_v96 : Ref sig .tc := ⟨.hbm, 175, rfl⟩
abbrev main_v97 : Ref sig .tc := ⟨.hbm, 176, rfl⟩
abbrev main_cst_23 : Ref sig .tc := ⟨.hbm, 177, rfl⟩
abbrev main_call4_v0 : Ref sig .tc := ⟨.hbm, 178, rfl⟩
abbrev main_call4_v1 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩

abbrev nD : Nat := 1
abbrev τ : Topo := Topo.v7x

variable {F : FTy → Type} [FloatOps F]

class Facts₀ : Prop where
  reducesTo_S1600000x3_S1600000_d1 : S1600000x3.ReducesTo [1] S1600000
  h_S_ : 0 < S_.numel
  bcast_S_S48x16 : S_.BroadcastsInDim S48x16 (![] : Fin 0 → Fin S48x16.rank)
  bcast_S_S1600000x16 : S_.BroadcastsInDim S1600000x16 (![] : Fin 0 → Fin S1600000x16.rank)
  bcast_S_S16x1 : S_.BroadcastsInDim S16x1 (![] : Fin 0 → Fin S16x1.rank)
  bcast_S_S50000x1 : S_.BroadcastsInDim S50000x1 (![] : Fin 0 → Fin S50000x1.rank)
  bcast_S1600000_S1600000x1_0 : S1600000.BroadcastsInDim S1600000x1 (![0] : Fin 1 → Fin S1600000x1.rank)
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  reducesTo_S50000_S_d0 : S50000.ReducesTo [0] S_
  concatenates_S50000x1_S50000x16_S50000x17_d1 : Shape.Concatenates [S50000x1, S50000x16] S50000x17 1
  bcast_S_S17x16 : S_.BroadcastsInDim S17x16 (![] : Fin 0 → Fin S17x16.rank)
  bcast_S_S1600000 : S_.BroadcastsInDim S1600000 (![] : Fin 0 → Fin S1600000.rank)
  concatenates_S1600000x48_S1600000x16_S1600000x64_d1 : Shape.Concatenates [S1600000x48, S1600000x16] S1600000x64 1
  bcast_S_S64x64 : S_.BroadcastsInDim S64x64 (![] : Fin 0 → Fin S64x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  dot_S1600000x48_S48x16_S1600000x16_1_0_0_1_n_n_wf : DotDims.WF S1600000x48 S48x16 S1600000x16 [1] [0] [0] [1] [] []
  dot_S1600000x16_S16x1_S1600000x1_1_0_0_1_n_n_wf : DotDims.WF S1600000x16 S16x1 S1600000x1 [1] [0] [0] [1] [] []
  scatter_S50000x1_S1600000x1_S1600000x1_1_0_0_1_wf : ScatterDims.WF S50000x1 S1600000x1 S1600000x1 [1] [0] [0] 1
  gather_S100_S50000x1_S50000_n_0_n_n_0_1_1_wf : GatherDims.WF S100 S50000x1 S50000 [] [0] [] [0] [] 1 ![1]
  gather_S100x16_S50000x1_S50000x16_1_0_n_n_0_1_116_wf : GatherDims.WF S100x16 S50000x1 S50000x16 [1] [0] [] [0] [] 1 ![1, 16]
  dot_S50000x17_S17x16_S50000x16_1_0_0_1_n_n_wf : DotDims.WF S50000x17 S17x16 S50000x16 [1] [0] [0] [1] [] []
  gather_S50000x16_S1600000x1_S1600000x16_1_0_n_n_0_1_116_wf : GatherDims.WF S50000x16 S1600000x1 S1600000x16 [1] [0] [] [0] [] 1 ![1, 16]
  dot_S1600000x64_S64x64_S1600000x64_1_0_0_1_n_n_wf : DotDims.WF S1600000x64 S64x64 S1600000x64 [1] [0] [0] [1] [] []

variable [Facts₀]

def dot_S1600000x48_S48x16_S1600000x16_1_0_0_1_n_n : DotDims S1600000x48 S48x16 S1600000x16 where
  lhsContracting := [1]
  rhsContracting := [0]
  lhsNonContracting := [0]
  rhsNonContracting := [1]
  lhsBatch := []
  rhsBatch := []
  wf := dot_S1600000x48_S48x16_S1600000x16_1_0_0_1_n_n_wf
def dot_S1600000x16_S16x1_S1600000x1_1_0_0_1_n_n : DotDims S1600000x16 S16x1 S1600000x1 where
  lhsContracting := [1]
  rhsContracting := [0]
  lhsNonContracting := [0]
  rhsNonContracting := [1]
  lhsBatch := []
  rhsBatch := []
  wf := dot_S1600000x16_S16x1_S1600000x1_1_0_0_1_n_n_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S100_S50000x1_S50000_n_0_n_n_0_1_1 : GatherDims S100 S50000x1 S50000 where
  offsetDims := []
  collapsedSliceDims := [0]
  operandBatchingDims := []
  startIndicesBatchingDims := []
  startIndexMap := [0]
  indexVectorDim := 1
  sliceSizes := ![1]
  wf := gather_S100_S50000x1_S50000_n_0_n_n_0_1_1_wf
def gather_S100x16_S50000x1_S50000x16_1_0_n_n_0_1_116 : GatherDims S100x16 S50000x1 S50000x16 where
  offsetDims := [1]
  collapsedSliceDims := [0]
  operandBatchingDims := []
  startIndicesBatchingDims := []
  startIndexMap := [0]
  indexVectorDim := 1
  sliceSizes := ![1, 16]
  wf := gather_S100x16_S50000x1_S50000x16_1_0_n_n_0_1_116_wf
def dot_S50000x17_S17x16_S50000x16_1_0_0_1_n_n : DotDims S50000x17 S17x16 S50000x16 where
  lhsContracting := [1]
  rhsContracting := [0]
  lhsNonContracting := [0]
  rhsNonContracting := [1]
  lhsBatch := []
  rhsBatch := []
  wf := dot_S50000x17_S17x16_S50000x16_1_0_0_1_n_n_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf

class Facts : Prop extends Facts₀ where

variable [Facts]
-- ==== Proof.RunAll.lean ====
/-
  Every weakly fair execution of the idealized kernel program terminates, and in its final memory every
  unscoped buffer of a TensorCore holds the last boundary's contents: the launch memory folded through the host
  lines before the first pallas_call, that call's write-backs, the host lines between the calls, and the second
  call's write-backs.  This is the program's run with ALL its buffers named, of which the frame claim keeps only
  the arguments; the value of each result is then read off that fold, buffer by buffer.
-/
import proofs.«147440_j54674933678514_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with every unscoped buffer read at the end: the final memory agrees with the last boundary's
    contents on each of them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- A result buffer of @main is unscoped, so the run reads it at the last boundary's contents. -/
theorem read_at {r : PUnit × MemSt nD τ sig (Elt F)} (h : ∀ c : Dev nD,
      ∀ b ∈ Pipeline.ucRefs τ sig, r.2.mem (((c : Thread nD τ)).1, b) = W6 m ρ c b) (c : Dev nD) (b : Ref sig .tc)
    (hb : ¬ (Proc.devRef .tc b : DevRef τ sig).isScoped) :
    r.2.mem ((c : Thread nD τ).loc b) = W6 m ρ c (Proc.devRef .tc b) :=
  h c _ (mem_uc b hb)

end Cert.KernelIdeal.KRun

end
-- ==== Proof.RefStages.lean ====
/-
  The reference program one host line at a time: for each line, the value it writes as a function of the arguments of
  @main it depends on (the line's operation applied to the stages of its operands).  The last stages are the
  program's results.
-/
import proofs.«147440_j54674933678514_2_alg».proof.Proof.Gen.ReferenceIdeal

noncomputable section

namespace Cert.ReferenceIdeal.Stg

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S1600000x3, .f32⟩ : BufTy).Contents (Elt F)) : (⟨S1600000x3, .f32⟩ : BufTy).Contents (Elt F) :=
  (mulf : (⟨S1600000x3, .f32⟩ : BufTy).Contents (Elt F) → (⟨S1600000x3, .f32⟩ : BufTy).Contents (Elt F) → (⟨S1600000x3, .f32⟩ : BufTy).Contents (Elt F)) (x0) (x0)
def val_main_cst : (⟨S_, .f32⟩ : BufTy).Contents (Elt F) :=
  constant S_ .f32 0x00000000#32
def val_main_v1 (x0 : (⟨S1600000x3, .f32⟩ : BufTy).Contents (Elt F)) : (⟨S1600000, .f32⟩ : BufTy).Contents (Elt F) :=
  ((fun x v => Host.reduceAdd x v reducesTo_S1600000x3_S1600000_d1 h_S_) : (⟨S1600000x3, .f32⟩ : BufTy).Contents (Elt F) → (⟨S_, .f32⟩ : BufTy).Contents (Elt F) → (⟨S1600000, .f32⟩ : BufTy).Contents (Elt F)) (val_main_v0 (F := F) x0) (val_main_cst (F := F))
def val_main_v2 (x0 : (⟨S1600000x3, .f32⟩ : BufTy).Contents (Elt F)) : (⟨S1600000, .f32⟩ : BufTy).Contents (Elt F) :=
  (Host.sqrt : (⟨S1600000, .f32⟩ : BufTy).Contents (Elt F) → (⟨S1600000, .f32⟩ : BufTy).Contents (Elt F)) (val_main_v1 (F := F) x0)
def val_main_cst_0 : (⟨S_, .f32⟩ : BufTy).Contents (Elt F) :=
  constant S_ .f32 0x40DDB3D7#32
def val_main_v3 : (⟨S48x16, .f32⟩ : BufTy).Contents (Elt F) :=
  ((broadcastInDim S48x16 ![] bcast_S_S48x16) : (⟨S_, .f32⟩ : BufTy).Contents (Elt F) → (⟨S48x16, .f32⟩ : BufTy).Contents (Elt F)) (val_main_cst_0 (F := F))
def val_main_v4 (x11 : (⟨S48x16, .f32⟩ : BufTy).Contents (Elt F)) : (⟨S48x16, .f32⟩ : BufTy).Contents (Elt F) :=
  (Host.divf : (⟨S48x16, .f32⟩ : BufTy).Contents (Elt F) → (⟨S48x16, .f32⟩ : BufTy).Contents (Elt F) → (⟨S48x16, .f32⟩ : BufTy).Contents (Elt F)) (x11) (val_main_v3 (F := F))
def val_main_v5 (x1 : (⟨S1600000x48, .f32⟩ : BufTy).Contents (Elt F)) (x11 : (⟨S48x16, .f32⟩ : BufTy).Contents (Elt F)) : (⟨S1600000x16, .f32⟩ : BufTy).Contents (Elt F) :=
  ((fun l r => Host.dotGeneral dot_S1600000x48_S48x16_S1600000x16_1_0_0_1_n_n none l r) : (⟨S1600000x48, .f32⟩ : BufTy).Contents (Elt F) → (⟨S48x16, .f32⟩ : BufTy).Contents (Elt F) → (⟨S1600000x16, .f32⟩ : BufTy).Contents (Elt F)) (x1) (val_main_v4 (F := F) x11)
def val_main_call0_v0 (x1 : (⟨S1600000x48, .f32⟩ : BufTy).Contents (Elt F)) (x11 : (⟨S48x16, .f32⟩ : BufTy).Contents (Elt F)) : (⟨S1600000x16, .f32⟩ : BufTy).Contents (Elt F) :=
  (Host.negf : (⟨S1600000x16, .f32⟩ : BufTy).Contents (Elt F) → (⟨S1600000x16, .f32⟩ : BufTy).Contents (Elt F)) (val_main_v5 (F := F) x1 x11)
def val_main_call0_v1 (x1 : (⟨S1600000x48, .f32⟩ : BufTy).Contents (Elt F)) (x11 : (⟨S48x16, .f32⟩ : BufTy).Contents (Elt F)) : (⟨S1600000x16, .f32⟩ : BufTy).Contents (Elt F) :=
  (Host.exp : (⟨S1600000x16, .f32⟩ : BufTy).Contents (Elt F) → (⟨S1600000x16, .f32⟩ : BufTy).Contents (Elt F)) (val_main_call0_v0 (F := F) x1 x11)
def val_main_call0_cst : (⟨S_, .f32⟩ : BufTy).Contents (Elt F) :=
  constant S_ .f32 0x3F800000#32
def val_main_call0_v2 : (⟨S1600000x16, .f32⟩ : BufTy).Contents (Elt F) :=
  ((broadcastInDim S1600000x16 ![] bcast_S_S1600000x16) : (⟨S_, .f32⟩ : BufTy).Contents (Elt F) → (⟨S1600000x16, .f32⟩ : BufTy).Contents (Elt F)) (val_main_call0_cst (F := F))
def val_main_call0_v3 (x1 : (⟨S1600000x48, .f32⟩ : BufTy).Contents (Elt F)) (x11 : (⟨S48x16, .f32⟩ : BufTy).Contents (Elt F)) : (⟨S1600000x16, .f32⟩ : BufTy).Contents (Elt F) :=
  (addf : (⟨S1600000x16, .f32⟩ : BufTy).Contents (Elt F) → (⟨S1600000x16, .f32⟩ : BufTy).Contents (Elt F) → (⟨S1600000x16, .f32⟩ : BufTy).Contents (Elt F)) (val_main_call0_v2 (F := F)) (val_main_call0_v1 (F := F) x1 x11)
def val_main_call0_cst_0 : (⟨S_, .f32⟩ : BufTy).Contents (Elt F) :=
  constant S_ .f32 0x3F800000#32
def val_main_call0_v4 : (⟨S1600000x16, .f32⟩ : BufTy).Contents (Elt F) :=
  ((broadcastInDim S1600000x16 ![] bcast_S_S1600000x16) : (⟨S_, .f32⟩ : BufTy).Contents (Elt F) → (⟨S1600000x16, .f32⟩ : BufTy).Contents (Elt F)) (val_main_call0_cst_0 (F := F))
def val_main_call0_v5 (x1 : (⟨S1600000x48, .f32⟩ : BufTy).Contents (Elt F)) (x11 : (⟨S48x16, .f32⟩ : BufTy).Contents (Elt F)) : (⟨S1600000x16, .f32⟩ : BufTy).Contents (Elt F) :=
  (Host.divf : (⟨S1600000x16, .f32⟩ : BufTy).Contents (Elt F) → (⟨S1600000x16, .f32⟩ : BufTy).Contents (Elt F) → (⟨S1600000x16, .f32⟩ : BufTy).Contents (Elt F)) (val_main_call0_v4 (F := F)) (val_main_call0_v3 (F := F) x1 x11)
def val_main_v6 (x1 : (⟨S1600000x48, .f32⟩ : BufTy).Contents (Elt F)) (x11 : (⟨S48x16, .f32⟩ : BufTy).Contents (Elt F)) : (⟨S1600000x16, .f32⟩ : BufTy).Contents (Elt F) :=
  (mulf : (⟨S1600000x16, .f32⟩ : BufTy).Contents (Elt F) → (⟨S1600000x16, .f32⟩ : BufTy).Contents (Elt F) → (⟨S1600000x16, .f32⟩ : BufTy).Contents (Elt F)) (val_main_v5 (F := F) x1 x11) (val_main_call0_v5 (F := F) x1 x11)
def val_main_cst_1 : (⟨S_, .f32⟩ : BufTy).Contents (Elt F) :=
  constant S_ .f32 0x40800000#32
def val_main_v7 : (⟨S16x1, .f32⟩ : BufTy).Contents (Elt F) :=
  ((broadcastInDim S16x1 ![] bcast_S_S16x1) : (⟨S_, .f32⟩ : BufTy).Contents (Elt F) → (⟨S16x1, .f32⟩ : BufTy).Contents (Elt F)) (val_main_cst_1 (F := F))
def val_main_v8 (x12 : (⟨S16x1, .f32⟩ : BufTy).Contents (Elt F)) : (⟨S16x1, .f32⟩ : BufTy).Contents (Elt F) :=
  (Host.divf : (⟨S16x1, .f32⟩ : BufTy).Contents (Elt F) → (⟨S16x1, .f32⟩ : BufTy).Contents (Elt F) → (⟨S16x1, .f32⟩ : BufTy).Contents (Elt F)) (x12) (val_main_v7 (F := F))
def val_main_v9 (x1 : (⟨S1600000x48, .f32⟩ : BufTy).Contents (Elt F)) (x11 : (⟨S48x16, .f32⟩ : BufTy).Contents (Elt F)) (x12 : (⟨S16x1, .f32⟩ : BufTy).Contents (Elt F)) : (⟨S1600000x1, .f32⟩ : BufTy).Contents (Elt F) :=
  ((fun l r => Host.dotGeneral dot_S1600000x16_S16x1_S1600000x1_1_0_0_1_n_n none l r) : (⟨S1600000x16, .f32⟩ : BufTy).Contents (Elt F) → (⟨S16x1, .f32⟩ : BufTy).Contents (Elt F) → (⟨S1600000x1, .f32⟩ : BufTy).Contents (Elt F)) (val_main_v6 (F := F) x1 x11) (val_main_v8 (F := F) x12)
def val_main_cst_2 : (⟨S_, .f32⟩ : BufTy).Contents (Elt F) :=
  constant S_ .f32 0x00000000#32
def val_main_v10 : (⟨S50000x1, .f32⟩ : BufTy).Contents (Elt F) :=
  ((broadcastInDim S50000x1 ![] bcast_S_S50000x1) : (⟨S_, .f32⟩ : BufTy).Contents (Elt F) → (⟨S50000x1, .f32⟩ : BufTy).Contents (Elt F)) (val_main_cst_2 (F := F))
def val_main_v11 (x3 : (⟨S1600000, .i32⟩ : BufTy).Contents (Elt F)) : (⟨S1600000x1, .i32⟩ : BufTy).Contents (Elt F) :=
  ((broadcastInDim S1600000x1 ![0] bcast_S1600000_S1600000x1_0) : (⟨S1600000, .i32⟩ : BufTy).Contents (Elt F) → (⟨S1600000x1, .i32⟩ : BufTy).Contents (Elt F)) (x3)
def val_main_v12 (x1 : (⟨S1600000x48, .f32⟩ : BufTy).Contents (Elt F)) (x3 : (⟨S1600000, .i32⟩ : BufTy).Contents (Elt F)) (x11 : (⟨S48x16, .f32⟩ : BufTy).Contents (Elt F)) (x12 : (⟨S16x1, .f32⟩ : BufTy).Contents (Elt F)) : (⟨S50000x1, .f32⟩ : BufTy).Contents (Elt F) :=
  ((fun x i u => Host.scatterAdd scatter_S50000x1_S1600000x1_S1600000x1_1_0_0_1 x i u) : (⟨S50000x1, .f32⟩ : BufTy).Contents (Elt F) → (⟨S1600000x1, .i32⟩ : BufTy).Contents (Elt F) → (⟨S1600000x1, .f32⟩ : BufTy).Contents (Elt F) → (⟨S50000x1, .f32⟩ : BufTy).Contents (Elt F)) (val_main_v10 (F := F)) (val_main_v11 (F := F) x3) (val_main_v9 (F := F) x1 x11 x12)
def val_main_v13 (x1 : (⟨S1600000x48, .f32⟩ : BufTy).Contents (Elt F)) (x3 : (⟨S1600000, .i32⟩ : BufTy).Contents (Elt F)) (x11 : (⟨S48x16, .f32⟩ : BufTy).Contents (Elt F)) (x12 : (⟨S16x1, .f32⟩ : BufTy).Contents (Elt F)) : (⟨S50000, .f32⟩ : BufTy).Contents (Elt F) :=
  shapeCast _ (val_main_v12 (F := F) x1 x3 x11 x12) shapeCasts_S50000x1_S50000
def val_main_v14 (x8 : (⟨S_, .f32⟩ : BufTy).Contents (Elt F)) : (⟨S50000, .f32⟩ : BufTy).Contents (Elt F) :=
  ((broadcastInDim S50000 ![] bcast_S_S50000) : (⟨S_, .f32⟩ : BufTy).Contents (Elt F) → (⟨S50000, .f32⟩ : BufTy).Contents (Elt F)) (x8)
def val_main_v15 (x1 : (⟨S1600000x48, .f32⟩ : BufTy).Contents (Elt F)) (x3 : (⟨S1600000, .i32⟩ : BufTy).Contents (Elt F)) (x8 : (⟨S_, .f32⟩ : BufTy).Contents (Elt F)) (x11 : (⟨S48x16, .f32⟩ : BufTy).Contents (Elt F)) (x12 : (⟨S16x1, .f32⟩ : BufTy).Contents (Elt F)) : (⟨S50000, .f32⟩ : BufTy).Contents (Elt F) :=
  (mulf : (⟨S50000, .f32⟩ : BufTy).Contents (Elt F) → (⟨S50000, .f32⟩ : BufTy).Contents (Elt F) → (⟨S50000, .f32⟩ : BufTy).Contents (Elt F)) (val_main_v13 (F := F) x1 x3 x11 x12) (val_main_v14 (F := F) x8)
def val_main_c : (⟨S_, .i32⟩ : BufTy).Contents (Elt F) :=
  constantI S_ 32 0#32
def val_main_v16 : (⟨S50000, .i32⟩ : BufTy).Contents (Elt F) :=
  ((broadcastInDim S50000 ![] bcast_S_S50000) : (⟨S_, .i32⟩ : BufTy).Contents (Elt F) → (⟨S50000, .i32⟩ : BufTy).Contents (Elt F)) (val_main_c (F := F))
def val_main_v17 (x4 : (⟨S50000, .i32⟩ : BufTy).Contents (Elt F)) : (⟨S50000, .i1⟩ : BufTy).Contents (Elt F) :=
  ((cmpi .slt) : (⟨S50000, .i32⟩ : BufTy).Contents (Elt F) → (⟨S50000, .i32⟩ : BufTy).Contents (Elt F) → (⟨S50000, .i1⟩ : BufTy).Contents (Elt F)) (x4) (val_main_v16 (F := F))
def val_main_c_3 : (⟨S_, .i32⟩ : BufTy).Contents (Elt F) :=
  constantI S_ 32 100#32
def val_main_v18 : (⟨S50000, .i32⟩ : BufTy).Contents (Elt F) :=
  ((broadcastInDim S50000 ![] bcast_S_S50000) : (⟨S_, .i32⟩ : BufTy).Contents (Elt F) → (⟨S50000, .i32⟩ : BufTy).Contents (Elt F)) (val_main_c_3 (F := F))
def val_main_v19 (x4 : (⟨S50000, .i32⟩ : BufTy).Contents (Elt F)) : (⟨S50000, .i32⟩ : BufTy).Contents (Elt F) :=
  (addi : (⟨S50000, .i32⟩ : BufTy).Contents (Elt F) → (⟨S50000, .i32⟩ : BufTy).Contents (Elt F) → (⟨S50000, .i32⟩ : BufTy).Contents (Elt F)) (x4) (val_main_v18 (F := F))
def val_main_v20 (x4 : (⟨S50000, .i32⟩ : BufTy).Contents (Elt F)) : (⟨S50000, .i32⟩ : BufTy).Contents (Elt F) :=
  (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) (val_main_v17 (F := F) x4) (val_main_v19 (F := F) x4) (x4)
def val_main_v21 (x4 : (⟨S50000, .i32⟩ : BufTy).Contents (Elt F)) : (⟨S50000x1, .i32⟩ : BufTy).Contents (Elt F) :=
  ((broadcastInDim S50000x1 ![0] bcast_S50000_S50000x1_0) : (⟨S50000, .i32⟩ : BufTy).Contents (Elt F) → (⟨S50000x1, .i32⟩ : BufTy).Contents (Elt F)) (val_main_v20 (F := F) x4)
def val_main_v22 (x4 : (⟨S50000, .i32⟩ : BufTy).Contents (Elt F)) (x5 : (⟨S100, .f32⟩ : BufTy).Contents (Elt F)) : (⟨S50000, .f32⟩ : BufTy).Contents (Elt F) :=
  ((fun x i => Host.gather gather_S100_S50000x1_S50000_n_0_n_n_0_1_1 x i) : (⟨S100, .f32⟩ : BufTy).Contents (Elt F) → (⟨S50000x1, .i32⟩ : BufTy).Contents (Elt F) → (⟨S50000, .f32⟩ : BufTy).Contents (Elt F)) (x5) (val_main_v21 (F := F) x4)
def val_main_v23 (x9 : (⟨S_, .f32⟩ : BufTy).Contents (Elt F)) : (⟨S50000, .f32⟩ : BufTy).Contents (Elt F) :=
  ((broadcastInDim S50000 ![] bcast_S_S50000) : (⟨S_, .f32⟩ : BufTy).Contents (Elt F) → (⟨S50000, .f32⟩ : BufTy).Contents (Elt F)) (x9)
def val_main_v24 (x4 : (⟨S50000, .i32⟩ : BufTy).Contents (Elt F)) (x5 : (⟨S100, .f32⟩ : BufTy).Contents (Elt F)) (x9 : (⟨S_, .f32⟩ : BufTy).Contents (Elt F)) : (⟨S50000, .f32⟩ : BufTy).Contents (Elt F) :=
  (mulf : (⟨S50000, .f32⟩ : BufTy).Contents (Elt F) → (⟨S50000, .f32⟩ : BufTy).Contents (Elt F) → (⟨S50000, .f32⟩ : BufTy).Contents (Elt F)) (val_main_v22 (F := F) x4 x5) (val_main_v23 (F := F) x9)
def val_main_v25 (x10 : (⟨S_, .f32⟩ : BufTy).Contents (Elt F)) : (⟨S50000, .f32⟩ : BufTy).Contents (Elt F) :=
  ((broadcastInDim S50000 ![] bcast_S_S50000) : (⟨S_, .f32⟩ : BufTy).Contents (Elt F) → (⟨S50000, .f32⟩ : BufTy).Contents (Elt F)) (x10)
def val_main_v26 (x4 : (⟨S50000, .i32⟩ : BufTy).Contents (Elt F)) (x5 : (⟨S100, .f32⟩ : BufTy).Contents (Elt F)) (x9 : (⟨S_, .f32⟩ : BufTy).Contents (Elt F)) (x10 : (⟨S_, .f32⟩ : BufTy).Contents (Elt F)) : (⟨S50000, .f32⟩ : BufTy).Contents (Elt F) :=
  (addf : (⟨S50000, .f32⟩ : BufTy).Contents (Elt F) → (⟨S50000, .f32⟩ : BufTy).Contents (Elt F) → (⟨S50000, .f32⟩ : BufTy).Contents (Elt F)) (val_main_v24 (F := F) x4 x5 x9) (val_main_v25 (F := F) x10)
def val_main_c_4 : (⟨S_, .i32⟩ : BufTy).Contents (Elt F) :=
  constantI S_ 32 0#32
def val_main_v27 : (⟨S50000, .i32⟩ : BufTy).Contents (Elt F) :=
  ((broadcastInDim S50000 ![] bcast_S_S50000) : (⟨S_, .i32⟩ : BufTy).Contents (Elt F) → (⟨S50000, .i32⟩ : BufTy).Contents (Elt F)) (val_main_c_4 (F := F))
def val_main_v28 (x4 : (⟨S50000, .i32⟩ : BufTy).Contents (Elt F)) : (⟨S50000, .i1⟩ : BufTy).Contents (Elt F) :=
  ((cmpi .slt) : (⟨S50000, .i32⟩ : BufTy).Contents (Elt F) → (⟨S50000, .i32⟩ : BufTy).Contents (Elt F) → (⟨S50000, .i1⟩ : BufTy).Contents (Elt F)) (x4) (val_main_v27 (F := F))
def val_main_c_5 : (⟨S_, .i32⟩ : BufTy).Contents (Elt F) :=
  constantI S_ 32 100#32
def val_main_v29 : (⟨S50000, .i32⟩ : BufTy).Contents (Elt F) :=
  ((broadcastInDim S50000 ![] bcast_S_S50000) : (⟨S_, .i32⟩ : BufTy).Contents (Elt F) → (⟨S50000, .i32⟩ : BufTy).Contents (Elt F)) (val_main_c_5 (F := F))
def val_main_v30 (x4 : (⟨S50000, .i32⟩ : BufTy).Contents (Elt F)) : (⟨S50000, .i32⟩ : BufTy).Contents (Elt F) :=
  (addi : (⟨S50000, .i32⟩ : BufTy).Contents (Elt F) → (⟨S50000, .i32⟩ : BufTy).Contents (Elt F) → (⟨S50000, .i32⟩ : BufTy).Contents (Elt F)) (x4) (val_main_v29 (F := F))
def val_main_v31 (x4 : (⟨S50000, .i32⟩ : BufTy).Contents (Elt F)) : (⟨S50000, .i32⟩ : BufTy).Contents (Elt F) :=
  (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) (val_main_v28 (F := F) x4) (val_main_v30 (F := F) x4) (x4)
def val_main_v32 (x4 : (⟨S50000, .i32⟩ : BufTy).Contents (Elt F)) : (⟨S50000x1, .i32⟩ : BufTy).Contents (Elt F) :=
  ((broadcastInDim S50000x1 ![0] bcast_S50000_S50000x1_0) : (⟨S50000, .i32⟩ : BufTy).Contents (Elt F) → (⟨S50000x1, .i32⟩ : BufTy).Contents (Elt F)) (val_main_v31 (F := F) x4)
def val_main_v33 (x4 : (⟨S50000, .i32⟩ : BufTy).Contents (Elt F)) (x6 : (⟨S100, .f32⟩ : BufTy).Contents (Elt F)) : (⟨S50000, .f32⟩ : BufTy).Contents (Elt F) :=
  ((fun x i => Host.gather gather_S100_S50000x1_S50000_n_0_n_n_0_1_1 x i) : (⟨S100, .f32⟩ : BufTy).Contents (Elt F) → (⟨S50000x1, .i32⟩ : BufTy).Contents (Elt F) → (⟨S50000, .f32⟩ : BufTy).Contents (Elt F)) (x6) (val_main_v32 (F := F) x4)
def val_main_call1_cst : (⟨S_, .f32⟩ : BufTy).Contents (Elt F) :=
  constant S_ .f32 0x00000000#32
def val_main_call1_v0 : (⟨S50000, .f32⟩ : BufTy).Contents (Elt F) :=
  ((broadcastInDim S50000 ![] bcast_S_S50000) : (⟨S_, .f32⟩ : BufTy).Contents (Elt F) → (⟨S50000, .f32⟩ : BufTy).Contents (Elt F)) (val_main_call1_cst (F := F))
def val_main_call1_v1 (x4 : (⟨S50000, .i32⟩ : BufTy).Contents (Elt F)) (x6 : (⟨S100, .f32⟩ : BufTy).Contents (Elt F)) : (⟨S50000, .f32⟩ : BufTy).Contents (Elt F) :=
  (maximumf : (⟨S50000, .f32⟩ : BufTy).Contents (Elt F) → (⟨S50000, .f32⟩ : BufTy).Contents (Elt F) → (⟨S50000, .f32⟩ : BufTy).Contents (Elt F)) (val_main_v33 (F := F) x4 x6) (val_main_call1_v0 (F := F))
def val_main_call1_v2 : (⟨S50000, .f32⟩ : BufTy).Contents (Elt F) :=
  ((broadcastInDim S50000 ![] bcast_S_S50000) : (⟨S_, .f32⟩ : BufTy).Contents (Elt F) → (⟨S50000, .f32⟩ : BufTy).Contents (Elt F)) (val_main_call1_cst (F := F))
def val_main_call1_v3 (x4 : (⟨S50000, .i32⟩ : BufTy).Contents (Elt F)) (x6 : (⟨S100, .f32⟩ : BufTy).Contents (Elt F)) : (⟨S50000, .f32⟩ : BufTy).Contents (Elt F) :=
  (subf : (⟨S50000, .f32⟩ : BufTy).Contents (Elt F) → (⟨S50000, .f32⟩ : BufTy).Contents (Elt F) → (⟨S50000, .f32⟩ : BufTy).Contents (Elt F)) (val_main_v33 (F := F) x4 x6) (val_main_call1_v2 (F := F))
def val_main_call1_v4 (x4 : (⟨S50000, .i32⟩ : BufTy).Contents (Elt F)) (x6 : (⟨S100, .f32⟩ : BufTy).Contents (Elt F)) : (⟨S50000, .i1⟩ : BufTy).Contents (Elt F) :=
  ((cmpf .une) : (⟨S50000, .f32⟩ : BufTy).Contents (Elt F) → (⟨S50000, .f32⟩ : BufTy).Contents (Elt F) → (⟨S50000, .i1⟩ : BufTy).Contents (Elt F)) (val_main_call1_v3 (F := F) x4 x6) (val_main_call1_v3 (F := F) x4 x6)
def val_main_call1_v5 : (⟨S50000, .f32⟩ : BufTy).Contents (Elt F) :=
  ((broadcastInDim S50000 ![] bcast_S_S50000) : (⟨S_, .f32⟩ : BufTy).Contents (Elt F) → (⟨S50000, .f32⟩ : BufTy).Contents (Elt F)) (val_main_call1_cst (F := F))
def val_main_call1_v6 (x4 : (⟨S50000, .i32⟩ : BufTy).Contents (Elt F)) (x6 : (⟨S100, .f32⟩ : BufTy).Contents (Elt F)) : (⟨S50000, .f32⟩ : BufTy).Contents (Elt F) :=
  (addf : (⟨S50000, .f32⟩ : BufTy).Contents (Elt F) → (⟨S50000, .f32⟩ : BufTy).Contents (Elt F) → (⟨S50000, .f32⟩ : BufTy).Contents (Elt F)) (val_main_v33 (F := F) x4 x6) (val_main_call1_v5 (F := F))
def val_main_call1_v7 (x4 : (⟨S50000, .i32⟩ : BufTy).Contents (Elt F)) (x6 : (⟨S100, .f32⟩ : BufTy).Contents (Elt F)) : (⟨S50000, .f32⟩ : BufTy).Contents (Elt F) :=
  (Host.absf : (⟨S50000, .f32⟩ : BufTy).Contents (Elt F) → (⟨S50000, .f32⟩ : BufTy).Contents (Elt F)) (val_main_call1_v3 (F := F) x4 x6)
def val_main_call1_v8 (x4 : (⟨S50000, .i32⟩ : BufTy).Contents (Elt F)) (x6 : (⟨S100, .f32⟩ : BufTy).Contents (Elt F)) : (⟨S50000, .f32⟩ : BufTy).Contents (Elt F) :=
  (Host.negf : (⟨S50000, .f32⟩ : BufTy).Contents (Elt F) → (⟨S50000, .f32⟩ : BufTy).Contents (Elt F)) (val_main_call1_v7 (F := F) x4 x6)
def val_main_call1_v9 (x4 : (⟨S50000, .i32⟩ : BufTy).Contents (Elt F)) (x6 : (⟨S100, .f32⟩ : BufTy).Contents (Elt F)) : (⟨S50000, .f32⟩ : BufTy).Contents (Elt F) :=
  (Host.exp : (⟨S50000, .f32⟩ : BufTy).Contents (Elt F) → (⟨S50000, .f32⟩ : BufTy).Contents (Elt F)) (val_main_call1_v8 (F := F) x4 x6)
def val_main_call1_v10 (x4 : (⟨S50000, .i32⟩ : BufTy).Contents (Elt F)) (x6 : (⟨S100, .f32⟩ : BufTy).Contents (Elt F)) : (⟨S50000, .f32⟩ : BufTy).Contents (Elt F) :=
  (Host.log1p : (⟨S50000, .f32⟩ : BufTy).Contents (Elt F) → (⟨S50000, .f32⟩ : BufTy).Contents (Elt F)) (val_main_call1_v9 (F := F) x4 x6)
def val_main_call1_v11 (x4 : (⟨S50000, .i32⟩ : BufTy).Contents (Elt F)) (x6 : (⟨S100, .f32⟩ : BufTy).Contents (Elt F)) : (⟨S50000, .f32⟩ : BufTy).Contents (Elt F) :=
  (addf : (⟨S50000, .f32⟩ : BufTy).Contents (Elt F) → (⟨S50000, .f32⟩ : BufTy).Contents (Elt F) → (⟨S50000, .f32⟩ : BufTy).Contents (Elt F)) (val_main_call1_v1 (F := F) x4 x6) (val_main_call1_v10 (F := F) x4 x6)
def val_main_v34 (x4 : (⟨S50000, .i32⟩ : BufTy).Contents (Elt F)) (x6 : (⟨S100, .f32⟩ : BufTy).Contents (Elt F)) : (⟨S50000, .f32⟩ : BufTy).Contents (Elt F) :=
  (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) (val_main_call1_v4 (F := F) x4 x6) (val_main_call1_v6 (F := F) x4 x6) (val_main_call1_v11 (F := F) x4 x6)
def val_main_cst_6 : (⟨S_, .f32⟩ : BufTy).Contents (Elt F) :=
  constant S_ .f32 0x3F800000#32
def val_main_v35 : (⟨S50000, .f32⟩ : BufTy).Contents (Elt F) :=
  ((broadcastInDim S50000 ![] bcast_S_S50000) : (⟨S_, .f32⟩ : BufTy).Contents (Elt F) → (⟨S50000, .f32⟩ : BufTy).Contents (Elt F)) (val_main_cst_6 (F := F))
def val_main_v36 (x4 : (⟨S50000, .i32⟩ : BufTy).Contents (Elt F)) (x5 : (⟨S100, .f32⟩ : BufTy).Contents (Elt F)) (x9 : (⟨S_, .f32⟩ : BufTy).Contents (Elt F)) (x10 : (⟨S_, .f32⟩ : BufTy).Contents (Elt F)) : (⟨S50000, .f32⟩ : BufTy).Contents (Elt F) :=
  (Host.divf : (⟨S50000, .f32⟩ : BufTy).Contents (Elt F) → (⟨S50000, .f32⟩ : BufTy).Contents (Elt F) → (⟨S50000, .f32⟩ : BufTy).Contents (Elt F)) (val_main_v35 (F := F)) (val_main_v26 (F := F) x4 x5 x9 x10)
def val_main_v37 (x4 : (⟨S50000, .i32⟩ : BufTy).Contents (Elt F)) (x5 : (⟨S100, .f32⟩ : BufTy).Contents (Elt F)) (x6 : (⟨S100, .f32⟩ : BufTy).Contents (Elt F)) (x9 : (⟨S_, .f32⟩ : BufTy).Contents (Elt F)) (x10 : (⟨S_, .f32⟩ : BufTy).Contents (Elt F)) : (⟨S50000, .f32⟩ : BufTy).Contents (Elt F) :=
  (addf : (⟨S50000, .f32⟩ : BufTy).Contents (Elt F) → (⟨S50000, .f32⟩ : BufTy).Contents (Elt F) → (⟨S50000, .f32⟩ : BufTy).Contents (Elt F)) (val_main_v34 (F := F) x4 x6) (val_main_v36 (F := F) x4 x5 x9 x10)
def val_main_v38 (x1 : (⟨S1600000x48, .f32⟩ : BufTy).Contents (Elt F)) (x3 : (⟨S1600000, .i32⟩ : BufTy).Contents (Elt F)) (x8 : (⟨S_, .f32⟩ : BufTy).Contents (Elt F)) (x11 : (⟨S48x16, .f32⟩ : BufTy).Contents (Elt F)) (x12 : (⟨S16x1, .f32⟩ : BufTy).Contents (Elt F)) : (⟨S50000, .f32⟩ : BufTy).Contents (Elt F) :=
  (Host.negf : (⟨S50000, .f32⟩ : BufTy).Contents (Elt F) → (⟨S50000, .f32⟩ : BufTy).Contents (Elt F)) (val_main_v15 (F := F) x1 x3 x8 x11 x12)
def val_main_v39 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) : (⟨S50000, .f32⟩ : BufTy).Contents (Elt F) :=
  (Host.divf : (⟨S50000, .f32⟩ : BufTy).Contents (Elt F) → (⟨S50000, .f32⟩ : BufTy).Contents (Elt F) → (⟨S50000, .f32⟩ : BufTy).Contents (Elt F)) (val_main_v38 (F := F) x1 x3 x8 x11 x12) (val_main_v37 (F := F) x4 x5 x6 x9 x10)
def val_main_v40 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) : (⟨S50000, .f32⟩ : BufTy).Contents (Elt F) :=
  (mulf : (⟨S50000, .f32⟩ : BufTy).Contents (Elt F) → (⟨S50000, .f32⟩ : BufTy).Contents (Elt F) → (⟨S50000, .f32⟩ : BufTy).Contents (Elt F)) (val_main_v15 (F := F) x1 x3 x8 x11 x12) (val_main_v39 (F := F) x1 x3 x4 x5 x6 x8 x9 x10 x11 x12)
def val_main_cst_7 : (⟨S_, .f32⟩ : BufTy).Contents (Elt F) :=
  constant S_ .f32 0x3F000000#32
def val_main_v41 : (⟨S50000, .f32⟩ : BufTy).Contents (Elt F) :=
  ((broadcastInDim S50000 ![] bcast_S_S50000) : (⟨S_, .f32⟩ : BufTy).Contents (Elt F) → (⟨S50000, .f32⟩ : BufTy).Contents (Elt F)) (val_main_cst_7 (F := F))
def val_main_v42 (x4 : (⟨S50000, .i32⟩ : BufTy).Contents (Elt F)) (x5 : (⟨S100, .f32⟩ : BufTy).Contents (Elt F)) (x6 : (⟨S100, .f32⟩ : BufTy).Contents (Elt F)) (x9 : (⟨S_, .f32⟩ : BufTy).Contents (Elt F)) (x10 : (⟨S_, .f32⟩ : BufTy).Contents (Elt F)) : (⟨S50000, .f32⟩ : BufTy).Contents (Elt F) :=
  (mulf : (⟨S50000, .f32⟩ : BufTy).Contents (Elt F) → (⟨S50000, .f32⟩ : BufTy).Contents (Elt F) → (⟨S50000, .f32⟩ : BufTy).Contents (Elt F)) (val_main_v41 (F := F)) (val_main_v37 (F := F) x4 x5 x6 x9 x10)
def val_main_v43 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) : (⟨S50000, .f32⟩ : BufTy).Contents (Elt F) :=
  (mulf : (⟨S50000, .f32⟩ : BufTy).Contents (Elt F) → (⟨S50000, .f32⟩ : BufTy).Contents (Elt F) → (⟨S50000, .f32⟩ : BufTy).Contents (Elt F)) (val_main_v42 (F := F) x4 x5 x6 x9 x10) (val_main_v39 (F := F) x1 x3 x4 x5 x6 x8 x9 x10 x11 x12)
def val_main_v44 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) : (⟨S50000, .f32⟩ : BufTy).Contents (Elt F) :=
  (mulf : (⟨S50000, .f32⟩ : BufTy).Contents (Elt F) → (⟨S50000, .f32⟩ : BufTy).Contents (Elt F) → (⟨S50000, .f32⟩ : BufTy).Contents (Elt F)) (val_main_v43 (F := F) x1 x3 x4 x5 x6 x8 x9 x10 x11 x12) (val_main_v39 (F := F) x1 x3 x4 x5 x6 x8 x9 x10 x11 x12)
def val_main_v45 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) : (⟨S50000, .f32⟩ : BufTy).Contents (Elt F) :=
  (addf : (⟨S50000, .f32⟩ : BufTy).Contents (Elt F) → (⟨S50000, .f32⟩ : BufTy).Contents (Elt F) → (⟨S50000, .f32⟩ : BufTy).Contents (Elt F)) (val_main_v40 (F := F) x1 x3 x4 x5 x6 x8 x9 x10 x11 x12) (val_main_v44 (F := F) x1 x3 x4 x5 x6 x8 x9 x10 x11 x12)
def val_main_cst_8 : (⟨S_, .f32⟩ : BufTy).Contents (Elt F) :=
  constant S_ .f32 0x00000000#32
def val_main_v46 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) : (⟨S_, .f32⟩ : BufTy).Contents (Elt F) :=
  ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)) (val_main_v45 (F := F) x1 x3 x4 x5 x6 x8 x9 x10 x11 x12) (val_main_cst_8 (F := F))
def val_main_v47 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) : (⟨S50000x1, .f32⟩ : BufTy).Contents (Elt F) :=
  ((broadcastInDim S50000x1 ![0] bcast_S50000_S50000x1_0) : (⟨S50000, .f32⟩ : BufTy).Contents (Elt F) → (⟨S50000x1, .f32⟩ : BufTy).Contents (Elt F)) (val_main_v39 (F := F) x1 x3 x4 x5 x6 x8 x9 x10 x11 x12)
def val_main_c_9 : (⟨S_, .i32⟩ : BufTy).Contents (Elt F) :=
  constantI S_ 32 0#32
def val_main_v48 : (⟨S50000, .i32⟩ : BufTy).Contents (Elt F) :=
  ((broadcastInDim S50000 ![] bcast_S_S50000) : (⟨S_, .i32⟩ : BufTy).Contents (Elt F) → (⟨S50000, .i32⟩ : BufTy).Contents (Elt F)) (val_main_c_9 (F := F))
def val_main_v49 (x4 : (⟨S50000, .i32⟩ : BufTy).Contents (Elt F)) : (⟨S50000, .i1⟩ : BufTy).Contents (Elt F) :=
  ((cmpi .slt) : (⟨S50000, .i32⟩ : BufTy).Contents (Elt F) → (⟨S50000, .i32⟩ : BufTy).Contents (Elt F) → (⟨S50000, .i1⟩ : BufTy).Contents (Elt F)) (x4) (val_main_v48 (F := F))
def val_main_c_10 : (⟨S_, .i32⟩ : BufTy).Contents (Elt F) :=
  constantI S_ 32 100#32
def val_main_v50 : (⟨S50000, .i32⟩ : BufTy).Contents (Elt F) :=
  ((broadcastInDim S50000 ![] bcast_S_S50000) : (⟨S_, .i32⟩ : BufTy).Contents (Elt F) → (⟨S50000, .i32⟩ : BufTy).Contents (Elt F)) (val_main_c_10 (F := F))
def val_main_v51 (x4 : (⟨S50000, .i32⟩ : BufTy).Contents (Elt F)) : (⟨S50000, .i32⟩ : BufTy).Contents (Elt F) :=
  (addi : (⟨S50000, .i32⟩ : BufTy).Contents (Elt F) → (⟨S50000, .i32⟩ : BufTy).Contents (Elt F) → (⟨S50000, .i32⟩ : BufTy).Contents (Elt F)) (x4) (val_main_v50 (F := F))
def val_main_v52 (x4 : (⟨S50000, .i32⟩ : BufTy).Contents (Elt F)) : (⟨S50000, .i32⟩ : BufTy).Contents (Elt F) :=
  (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) (val_main_v49 (F := F) x4) (val_main_v51 (F := F) x4) (x4)
def val_main_v53 (x4 : (⟨S50000, .i32⟩ : BufTy).Contents (Elt F)) : (⟨S50000x1, .i32⟩ : BufTy).Contents (Elt F) :=
  ((broadcastInDim S50000x1 ![0] bcast_S50000_S50000x1_0) : (⟨S50000, .i32⟩ : BufTy).Contents (Elt F) → (⟨S50000x1, .i32⟩ : BufTy).Contents (Elt F)) (val_main_v52 (F := F) x4)
def val_main_v54 (x4 : (⟨S50000, .i32⟩ : BufTy).Contents (Elt F)) (x7 : (⟨S100x16, .f32⟩ : BufTy).Contents (Elt F)) : (⟨S50000x16, .f32⟩ : BufTy).Contents (Elt F) :=
  ((fun x i => Host.gather gather_S100x16_S50000x1_S50000x16_1_0_n_n_0_1_116 x i) : (⟨S100x16, .f32⟩ : BufTy).Contents (Elt F) → (⟨S50000x1, .i32⟩ : BufTy).Contents (Elt F) → (⟨S50000x16, .f32⟩ : BufTy).Contents (Elt F)) (x7) (val_main_v53 (F := F) x4)
def val_main_v55 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) : (⟨S50000x17, .f32⟩ : BufTy).Contents (Elt F) :=
  ((fun a b => concatenate S50000x17 1 [⟨S50000x1, a⟩, ⟨S50000x16, b⟩] concatenates_S50000x1_S50000x16_S50000x17_d1) : (⟨S50000x1, .f32⟩ : BufTy).Contents (Elt F) → (⟨S50000x16, .f32⟩ : BufTy).Contents (Elt F) → (⟨S50000x17, .f32⟩ : BufTy).Contents (Elt F)) (val_main_v47 (F := F) x1 x3 x4 x5 x6 x8 x9 x10 x11 x12) (val_main_v54 (F := F) x4 x7)
def val_main_cst_11 : (⟨S_, .f32⟩ : BufTy).Contents (Elt F) :=
  constant S_ .f32 0x4083F07B#32
def val_main_v56 : (⟨S17x16, .f32⟩ : BufTy).Contents (Elt F) :=
  ((broadcastInDim S17x16 ![] bcast_S_S17x16) : (⟨S_, .f32⟩ : BufTy).Contents (Elt F) → (⟨S17x16, .f32⟩ : BufTy).Contents (Elt F)) (val_main_cst_11 (F := F))
def val_main_v57 (x13 : (⟨S17x16, .f32⟩ : BufTy).Contents (Elt F)) : (⟨S17x16, .f32⟩ : BufTy).Contents (Elt F) :=
  (Host.divf : (⟨S17x16, .f32⟩ : BufTy).Contents (Elt F) → (⟨S17x16, .f32⟩ : BufTy).Contents (Elt F) → (⟨S17x16, .f32⟩ : BufTy).Contents (Elt F)) (x13) (val_main_v56 (F := F))
def val_main_v58 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) : (⟨S50000x16, .f32⟩ : BufTy).Contents (Elt F) :=
  ((fun l r => Host.dotGeneral dot_S50000x17_S17x16_S50000x16_1_0_0_1_n_n none l r) : (⟨S50000x17, .f32⟩ : BufTy).Contents (Elt F) → (⟨S17x16, .f32⟩ : BufTy).Contents (Elt F) → (⟨S50000x16, .f32⟩ : BufTy).Contents (Elt F)) (val_main_v55 (F := F) x1 x3 x4 x5 x6 x7 x8 x9 x10 x11 x12) (val_main_v57 (F := F) x13)
def val_main_c_12 : (⟨S_, .i32⟩ : BufTy).Contents (Elt F) :=
  constantI S_ 32 0#32
def val_main_v59 : (⟨S1600000, .i32⟩ : BufTy).Contents (Elt F) :=
  ((broadcastInDim S1600000 ![] bcast_S_S1600000) : (⟨S_, .i32⟩ : BufTy).Contents (Elt F) → (⟨S1600000, .i32⟩ : BufTy).Contents (Elt F)) (val_main_c_12 (F := F))
def val_main_v60 (x3 : (⟨S1600000, .i32⟩ : BufTy).Contents (Elt F)) : (⟨S1600000, .i1⟩ : BufTy).Contents (Elt F) :=
  ((cmpi .slt) : (⟨S1600000, .i32⟩ : BufTy).Contents (Elt F) → (⟨S1600000, .i32⟩ : BufTy).Contents (Elt F) → (⟨S1600000, .i1⟩ : BufTy).Contents (Elt F)) (x3) (val_main_v59 (F := F))
def val_main_c_13 : (⟨S_, .i32⟩ : BufTy).Contents (Elt F) :=
  constantI S_ 32 50000#32
def val_main_v61 : (⟨S1600000, .i32⟩ : BufTy).Contents (Elt F) :=
  ((broadcastInDim S1600000 ![] bcast_S_S1600000) : (⟨S_, .i32⟩ : BufTy).Contents (Elt F) → (⟨S1600000, .i32⟩ : BufTy).Contents (Elt F)) (val_main_c_13 (F := F))
def val_main_v62 (x3 : (⟨S1600000, .i32⟩ : BufTy).Contents (Elt F)) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) (x3) (val_main_v61 (F := F))
def val_main_v63 (x3 : (⟨S1600000, .i32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (val_main_v60 (F := F) x3) (val_main_v62 (F := F) x3) (x3)
def val_main_v64 (x3 : (⟨S1600000, .i32⟩ : BufTy).Contents (Elt F)) : (⟨S1600000x1, .i32⟩ : BufTy).Contents (Elt F) :=
  ((broadcastInDim S1600000x1 ![0] bcast_S1600000_S1600000x1_0) : (⟨S1600000, .i32⟩ : BufTy).Contents (Elt F) → (⟨S1600000x1, .i32⟩ : BufTy).Contents (Elt F)) (val_main_v63 (F := F) x3)
def val_main_v65 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) : (⟨S1600000x16, .f32⟩ : BufTy).Contents (Elt F) :=
  ((fun x i => Host.gather gather_S50000x16_S1600000x1_S1600000x16_1_0_n_n_0_1_116 x i) : (⟨S50000x16, .f32⟩ : BufTy).Contents (Elt F) → (⟨S1600000x1, .i32⟩ : BufTy).Contents (Elt F) → (⟨S1600000x16, .f32⟩ : BufTy).Contents (Elt F)) (val_main_v58 (F := F) x1 x3 x4 x5 x6 x7 x8 x9 x10 x11 x12 x13) (val_main_v64 (F := F) x3)
def val_main_v66 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) : (⟨S1600000x64, .f32⟩ : BufTy).Contents (Elt F) :=
  ((fun a b => concatenate S1600000x64 1 [⟨S1600000x48, a⟩, ⟨S1600000x16, b⟩] concatenates_S1600000x48_S1600000x16_S1600000x64_d1) : (⟨S1600000x48, .f32⟩ : BufTy).Contents (Elt F) → (⟨S1600000x16, .f32⟩ : BufTy).Contents (Elt F) → (⟨S1600000x64, .f32⟩ : BufTy).Contents (Elt F)) (x1) (val_main_v65 (F := F) x1 x3 x4 x5 x6 x7 x8 x9 x10 x11 x12 x13)
def val_main_cst_14 : (⟨S_, .f32⟩ : BufTy).Contents (Elt F) :=
  constant S_ .f32 0x41000000#32
def val_main_v67 : (⟨S64x64, .f32⟩ : BufTy).Contents (Elt F) :=
  ((broadcastInDim S64x64 ![] bcast_S_S64x64) : (⟨S_, .f32⟩ : BufTy).Contents (Elt F) → (⟨S64x64, .f32⟩ : BufTy).Contents (Elt F)) (val_main_cst_14 (F := F))
def val_main_v68 (x14 : (⟨S64x64, .f32⟩ : BufTy).Contents (Elt F)) : (⟨S64x64, .f32⟩ : BufTy).Contents (Elt F) :=
  (Host.divf : (⟨S64x64, .f32⟩ : BufTy).Contents (Elt F) → (⟨S64x64, .f32⟩ : BufTy).Contents (Elt F) → (⟨S64x64, .f32⟩ : BufTy).Contents (Elt F)) (x14) (val_main_v67 (F := F))
def val_main_v69 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) : (⟨S1600000x64, .f32⟩ : BufTy).Contents (Elt F) :=
  ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)) (val_main_v66 (F := F) x1 x3 x4 x5 x6 x7 x8 x9 x10 x11 x12 x13) (val_main_v68 (F := F) x14)
def val_main_call2_v0 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) : (⟨S1600000x64, .f32⟩ : BufTy).Contents (Elt F) :=
  (Host.negf : (⟨S1600000x64, .f32⟩ : BufTy).Contents (Elt F) → (⟨S1600000x64, .f32⟩ : BufTy).Contents (Elt F)) (val_main_v69 (F := F) x1 x3 x4 x5 x6 x7 x8 x9 x10 x11 x12 x13 x14)
def val_main_call2_v1 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) : (⟨S1600000x64, .f32⟩ : BufTy).Contents (Elt F) :=
  (Host.exp : (⟨S1600000x64, .f32⟩ : BufTy).Contents (Elt F) → (⟨S1600000x64, .f32⟩ : BufTy).Contents (Elt F)) (val_main_call2_v0 (F := F) x1 x3 x4 x5 x6 x7 x8 x9 x10 x11 x12 x13 x14)
def val_main_call2_cst : (⟨S_, .f32⟩ : BufTy).Contents (Elt F) :=
  constant S_ .f32 0x3F800000#32
def val_main_call2_v2 : (⟨S1600000x64, .f32⟩ : BufTy).Contents (Elt F) :=
  ((broadcastInDim S1600000x64 ![] bcast_S_S1600000x64) : (⟨S_, .f32⟩ : BufTy).Contents (Elt F) → (⟨S1600000x64, .f32⟩ : BufTy).Contents (Elt F)) (val_main_call2_cst (F := F))
def val_main_call2_v3 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) : (⟨S1600000x64, .f32⟩ : BufTy).Contents (Elt F) :=
  (addf : (⟨S1600000x64, .f32⟩ : BufTy).Contents (Elt F) → (⟨S1600000x64, .f32⟩ : BufTy).Contents (Elt F) → (⟨S1600000x64, .f32⟩ : BufTy).Contents (Elt F)) (val_main_call2_v2 (F := F)) (val_main_call2_v1 (F := F) x1 x3 x4 x5 x6 x7 x8 x9 x10 x11 x12 x13 x14)
def val_main_call2_cst_0 : (⟨S_, .f32⟩ : BufTy).Contents (Elt F) :=
  constant S_ .f32 0x3F800000#32
def val_main_call2_v4 : (⟨S1600000x64, .f32⟩ : BufTy).Contents (Elt F) :=
  ((broadcastInDim S1600000x64 ![] bcast_S_S1600000x64) : (⟨S_, .f32⟩ : BufTy).Contents (Elt F) → (⟨S1600000x64, .f32⟩ : BufTy).Contents (Elt F)) (val_main_call2_cst_0 (F := F))
def val_main_call2_v5 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) : (⟨S1600000x64, .f32⟩ : BufTy).Contents (Elt F) :=
  (Host.divf : (⟨S1600000x64, .f32⟩ : BufTy).Contents (Elt F) → (⟨S1600000x64, .f32⟩ : BufTy).Contents (Elt F) → (⟨S1600000x64, .f32⟩ : BufTy).Contents (Elt F)) (val_main_call2_v4 (F := F)) (val_main_call2_v3 (F := F) x1 x3 x4 x5 x6 x7 x8 x9 x10 x11 x12 x13 x14)
def val_main_v70 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) : (⟨S1600000x64, .f32⟩ : BufTy).Contents (Elt F) :=
  (mulf : (⟨S1600000x64, .f32⟩ : BufTy).Contents (Elt F) → (⟨S1600000x64, .f32⟩ : BufTy).Contents (Elt F) → (⟨S1600000x64, .f32⟩ : BufTy).Contents (Elt F)) (val_main_v69 (F := F) x1 x3 x4 x5 x6 x7 x8 x9 x10 x11 x12 x13 x14) (val_main_call2_v5 (F := F) x1 x3 x4 x5 x6 x7 x8 x9 x10 x11 x12 x13 x14)
def val_main_cst_15 : (⟨S_, .f32⟩ : BufTy).Contents (Elt F) :=
  constant S_ .f32 0x41000000#32
def val_main_v71 : (⟨S64x64, .f32⟩ : BufTy).Contents (Elt F) :=
  ((broadcastInDim S64x64 ![] bcast_S_S64x64) : (⟨S_, .f32⟩ : BufTy).Contents (Elt F) → (⟨S64x64, .f32⟩ : BufTy).Contents (Elt F)) (val_main_cst_15 (F := F))
def val_main_v72 (x15 : (⟨S64x64, .f32⟩ : BufTy).Contents (Elt F)) : (⟨S64x64, .f32⟩ : BufTy).Contents (Elt F) :=
  (Host.divf : (⟨S64x64, .f32⟩ : BufTy).Contents (Elt F) → (⟨S64x64, .f32⟩ : BufTy).Contents (Elt F) → (⟨S64x64, .f32⟩ : BufTy).Contents (Elt F)) (x15) (val_main_v71 (F := F))
def val_main_v73 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) (x15 : (⟨S64x64, .f32⟩ : BufTy).Contents (Elt F)) : (⟨S1600000x64, .f32⟩ : BufTy).Contents (Elt F) :=
  ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)) (val_main_v70 (F := F) x1 x3 x4 x5 x6 x7 x8 x9 x10 x11 x12 x13 x14) (val_main_v72 (F := F) x15)
def val_main_call3_v0 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) (x15 : (⟨S64x64, .f32⟩ : BufTy).Contents (Elt F)) : (⟨S1600000x64, .f32⟩ : BufTy).Contents (Elt F) :=
  (Host.negf : (⟨S1600000x64, .f32⟩ : BufTy).Contents (Elt F) → (⟨S1600000x64, .f32⟩ : BufTy).Contents (Elt F)) (val_main_v73 (F := F) x1 x3 x4 x5 x6 x7 x8 x9 x10 x11 x12 x13 x14 x15)
def val_main_call3_v1 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) (x15 : (⟨S64x64, .f32⟩ : BufTy).Contents (Elt F)) : (⟨S1600000x64, .f32⟩ : BufTy).Contents (Elt F) :=
  (Host.exp : (⟨S1600000x64, .f32⟩ : BufTy).Contents (Elt F) → (⟨S1600000x64, .f32⟩ : BufTy).Contents (Elt F)) (val_main_call3_v0 (F := F) x1 x3 x4 x5 x6 x7 x8 x9 x10 x11 x12 x13 x14 x15)
def val_main_call3_cst : (⟨S_, .f32⟩ : BufTy).Contents (Elt F) :=
  constant S_ .f32 0x3F800000#32
def val_main_call3_v2 : (⟨S1600000x64, .f32⟩ : BufTy).Contents (Elt F) :=
  ((broadcastInDim S1600000x64 ![] bcast_S_S1600000x64) : (⟨S_, .f32⟩ : BufTy).Contents (Elt F) → (⟨S1600000x64, .f32⟩ : BufTy).Contents (Elt F)) (val_main_call3_cst (F := F))
def val_main_call3_v3 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) (x15 : (⟨S64x64, .f32⟩ : BufTy).Contents (Elt F)) : (⟨S1600000x64, .f32⟩ : BufTy).Contents (Elt F) :=
  (addf : (⟨S1600000x64, .f32⟩ : BufTy).Contents (Elt F) → (⟨S1600000x64, .f32⟩ : BufTy).Contents (Elt F) → (⟨S1600000x64, .f32⟩ : BufTy).Contents (Elt F)) (val_main_call3_v2 (F := F)) (val_main_call3_v1 (F := F) x1 x3 x4 x5 x6 x7 x8 x9 x10 x11 x12 x13 x14 x15)
def val_main_call3_cst_0 : (⟨S_, .f32⟩ : BufTy).Contents (Elt F) :=
  constant S_ .f32 0x3F800000#32
def val_main_call3_v4 : (⟨S1600000x64, .f32⟩ : BufTy).Contents (Elt F) :=
  ((broadcastInDim S1600000x64 ![] bcast_S_S1600000x64) : (⟨S_, .f32⟩ : BufTy).Contents (Elt F) → (⟨S1600000x64, .f32⟩ : BufTy).Contents (Elt F)) (val_main_call3_cst_0 (F := F))
def val_main_call3_v5 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) (x15 : (⟨S64x64, .f32⟩ : BufTy).Contents (Elt F)) : (⟨S1600000x64, .f32⟩ : BufTy).Contents (Elt F) :=
  (Host.divf : (⟨S1600000x64, .f32⟩ : BufTy).Contents (Elt F) → (⟨S1600000x64, .f32⟩ : BufTy).Contents (Elt F) → (⟨S1600000x64, .f32⟩ : BufTy).Contents (Elt F)) (val_main_call3_v4 (F := F)) (val_main_call3_v3 (F := F) x1 x3 x4 x5 x6 x7 x8 x9 x10 x11 x12 x13 x14 x15)
def val_main_v74 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) (x15 : (⟨S64x64, .f32⟩ : BufTy).Contents (Elt F)) : (⟨S1600000x64, .f32⟩ : BufTy).Contents (Elt F) :=
  (mulf : (⟨S1600000x64, .f32⟩ : BufTy).Contents (Elt F) → (⟨S1600000x64, .f32⟩ : BufTy).Contents (Elt F) → (⟨S1600000x64, .f32⟩ : BufTy).Contents (Elt F)) (val_main_v73 (F := F) x1 x3 x4 x5 x6 x7 x8 x9 x10 x11 x12 x13 x14 x15) (val_main_call3_v5 (F := F) x1 x3 x4 x5 x6 x7 x8 x9 x10 x11 x12 x13 x14 x15)
def val_main_cst_16 : (⟨S_, .f32⟩ : BufTy).Contents (Elt F) :=
  constant S_ .f32 0x41000000#32
def val_main_v75 : (⟨S64x64, .f32⟩ : BufTy).Contents (Elt F) :=
  ((broadcastInDim S64x64 ![] bcast_S_S64x64) : (⟨S_, .f32⟩ : BufTy).Contents (Elt F) → (⟨S64x64, .f32⟩ : BufTy).Contents (Elt F)) (val_main_cst_16 (F := F))
def val_main_v76 (x16 : (⟨S64x64, .f32⟩ : BufTy).Contents (Elt F)) : (⟨S64x64, .f32⟩ : BufTy).Contents (Elt F) :=
  (Host.divf : (⟨S64x64, .f32⟩ : BufTy).Contents (Elt F) → (⟨S64x64, .f32⟩ : BufTy).Contents (Elt F) → (⟨S64x64, .f32⟩ : BufTy).Contents (Elt F)) (x16) (val_main_v75 (F := F))
def val_main_v77 (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) (x15 : (⟨S64x64, .f32⟩ : BufTy).Contents (Elt F)) (x16 : (⟨S64x64, .f32⟩ : BufTy).Contents (Elt F)) : (⟨S1600000x64, .f32⟩ : BufTy).Contents (Elt F) :=
  ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)) (val_main_v74 (F := F) x1 x3 x4 x5 x6 x7 x8 x9 x10 x11 x12 x13 x14 x15) (val_main_v76 (F := F) x16)
def val_main_cst_17 : (⟨S_, .f32⟩ : BufTy).Contents (Elt F) :=
  constant S_ .f32 0x3F800000#32
def val_main_v78 : (⟨S1600000, .f32⟩ : BufTy).Contents (Elt F) :=
  ((broadcastInDim S1600000 ![] bcast_S_S1600000) : (⟨S_, .f32⟩ : BufTy).Contents (Elt F) → (⟨S1600000, .f32⟩ : BufTy).Contents (Elt F)) (val_main_cst_17 (F := F))
def val_main_v79 (x0 : (⟨S1600000x3, .f32⟩ : BufTy).Contents (Elt F)) : (⟨S1600000, .f32⟩ : BufTy).Contents (Elt F) :=
  (Host.divf : (⟨S1600000, .f32⟩ : BufTy).Contents (Elt F) → (⟨S1600000, .f32⟩ : BufTy).Contents (Elt F) → (⟨S1600000, .f32⟩ : BufTy).Contents (Elt F)) (val_main_v2 (F := F) x0) (val_main_v78 (F := F))
def val_main_v80 (x0 : (⟨S1600000x3, .f32⟩ : BufTy).Contents (Elt F)) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (val_main_v79 (F := F) x0) (val_main_v79 (F := F) x0)
def val_main_v81 (x0 : (⟨S1600000x3, .f32⟩ : BufTy).Contents (Elt F)) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (val_main_v80 (F := F) x0) (val_main_v80 (F := F) x0)
def val_main_v82 (x0 : (⟨S1600000x3, .f32⟩ : BufTy).Contents (Elt F)) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (val_main_v80 (F := F) x0) (val_main_v81 (F := F) x0)
def val_main_cst_18 : (⟨S_, .f32⟩ : BufTy).Contents (Elt F) :=
  constant S_ .f32 0x41E00000#32
def val_main_v83 : (⟨S1600000, .f32⟩ : BufTy).Contents (Elt F) :=
  ((broadcastInDim S1600000 ![] bcast_S_S1600000) : (⟨S_, .f32⟩ : BufTy).Contents (Elt F) → (⟨S1600000, .f32⟩ : BufTy).Contents (Elt F)) (val_main_cst_18 (F := F))
def val_main_v84 (x0 : (⟨S1600000x3, .f32⟩ : BufTy).Contents (Elt F)) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (val_main_v83 (F := F)) (val_main_v82 (F := F) x0)
def val_main_cst_19 : (⟨S_, .f32⟩ : BufTy).Contents (Elt F) :=
  constant S_ .f32 0x3F800000#32
def val_main_v85 : (⟨S1600000, .f32⟩ : BufTy).Contents (Elt F) :=
  ((broadcastInDim S1600000 ![] bcast_S_S1600000) : (⟨S_, .f32⟩ : BufTy).Contents (Elt F) → (⟨S1600000, .f32⟩ : BufTy).Contents (Elt F)) (val_main_cst_19 (F := F))
def val_main_v86 (x0 : (⟨S1600000x3, .f32⟩ : BufTy).Contents (Elt F)) : (⟨S1600000, .f32⟩ : BufTy).Contents (Elt F) :=
  (subf : (⟨S1600000, .f32⟩ : BufTy).Contents (Elt F) → (⟨S1600000, .f32⟩ : BufTy).Contents (Elt F) → (⟨S1600000, .f32⟩ : BufTy).Contents (Elt F)) (val_main_v85 (F := F)) (val_main_v84 (F := F) x0)
def val_main_cst_20 : (⟨S_, .f32⟩ : BufTy).Contents (Elt F) :=
  constant S_ .f32 0x42400000#32
def val_main_v87 : (⟨S1600000, .f32⟩ : BufTy).Contents (Elt F) :=
  ((broadcastInDim S1600000 ![] bcast_S_S1600000) : (⟨S_, .f32⟩ : BufTy).Contents (Elt F) → (⟨S1600000, .f32⟩ : BufTy).Contents (Elt F)) (val_main_cst_20 (F := F))
def val_main_v88 (x0 : (⟨S1600000x3, .f32⟩ : BufTy).Contents (Elt F)) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (val_main_v87 (F := F)) (val_main_v82 (F := F) x0)
def val_main_v89 (x0 : (⟨S1600000x3, .f32⟩ : BufTy).Contents (Elt F)) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (val_main_v88 (F := F) x0) (val_main_v79 (F := F) x0)
def val_main_v90 (x0 : (⟨S1600000x3, .f32⟩ : BufTy).Contents (Elt F)) : (⟨S1600000, .f32⟩ : BufTy).Contents (Elt F) :=
  (addf : (⟨S1600000, .f32⟩ : BufTy).Contents (Elt F) → (⟨S1600000, .f32⟩ : BufTy).Contents (Elt F) → (⟨S1600000, .f32⟩ : BufTy).Contents (Elt F)) (val_main_v86 (F := F) x0) (val_main_v89 (F := F) x0)
def val_main_cst_21 : (⟨S_, .f32⟩ : BufTy).Contents (Elt F) :=
  constant S_ .f32 0x41A80000#32
def val_main_v91 : (⟨S1600000, .f32⟩ : BufTy).Contents (Elt F) :=
  ((broadcastInDim S1600000 ![] bcast_S_S1600000) : (⟨S_, .f32⟩ : BufTy).Contents (Elt F) → (⟨S1600000, .f32⟩ : BufTy).Contents (Elt F)) (val_main_cst_21 (F := F))
def val_main_v92 (x0 : (⟨S1600000x3, .f32⟩ : BufTy).Contents (Elt F)) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (val_main_v91 (F := F)) (val_main_v82 (F := F) x0)
def val_main_v93 (x0 : (⟨S1600000x3, .f32⟩ : BufTy).Contents (Elt F)) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (val_main_v92 (F := F) x0) (val_main_v79 (F := F) x0)
def val_main_v94 (x0 : (⟨S1600000x3, .f32⟩ : BufTy).Contents (Elt F)) : (⟨S1600000, .f32⟩ : BufTy).Contents (Elt F) :=
  (mulf : (⟨S1600000, .f32⟩ : BufTy).Contents (Elt F) → (⟨S1600000, .f32⟩ : BufTy).Contents (Elt F) → (⟨S1600000, .f32⟩ : BufTy).Contents (Elt F)) (val_main_v93 (F := F) x0) (val_main_v79 (F := F) x0)
def val_main_v95 (x0 : (⟨S1600000x3, .f32⟩ : BufTy).Contents (Elt F)) : (⟨S1600000, .f32⟩ : BufTy).Contents (Elt F) :=
  (subf : (⟨S1600000, .f32⟩ : BufTy).Contents (Elt F) → (⟨S1600000, .f32⟩ : BufTy).Contents (Elt F) → (⟨S1600000, .f32⟩ : BufTy).Contents (Elt F)) (val_main_v90 (F := F) x0) (val_main_v94 (F := F) x0)
def val_main_cst_22 : (⟨S_, .f32⟩ : BufTy).Contents (Elt F) :=
  constant S_ .f32 0x3F800000#32
def val_main_v96 : (⟨S1600000, .f32⟩ : BufTy).Contents (Elt F) :=
  ((broadcastInDim S1600000 ![] bcast_S_S1600000) : (⟨S_, .f32⟩ : BufTy).Contents (Elt F) → (⟨S1600000, .f32⟩ : BufTy).Contents (Elt F)) (val_main_cst_22 (F := F))
def val_main_v97 (x0 : (⟨S1600000x3, .f32⟩ : BufTy).Contents (Elt F)) : (⟨S1600000, .i1⟩ : BufTy).Contents (Elt F) :=
  ((cmpf .olt) : (⟨S1600000, .f32⟩ : BufTy).Contents (Elt F) → (⟨S1600000, .f32⟩ : BufTy).Contents (Elt F) → (⟨S1600000, .i1⟩ : BufTy).Contents (Elt F)) (val_main_v79 (F := F) x0) (val_main_v96 (F := F))
def val_main_cst_23 : (⟨S_, .f32⟩ : BufTy).Contents (Elt F) :=
  constant S_ .f32 0x00000000#32
def val_main_call4_v0 : (⟨S_, .f32⟩ : BufTy).Contents (Elt F) :=
  (id : (⟨S_, .f32⟩ : BufTy).Contents (Elt F) → (⟨S_, .f32⟩ : BufTy).Contents (Elt F)) (val_main_cst_23 (F := F))
def val_main_call4_v1 : (⟨S1600000, .f32⟩ : BufTy).Contents (Elt F) :=
  ((broadcastInDim S1600000 ![] bcast_S_S1600000) : (⟨S_, .f32⟩ : BufTy).Contents (Elt F) → (⟨S1600000, .f32⟩ : BufTy).Contents (Elt F)) (val_main_call4_v0 (F := F))
def val_main_v98 (x0 : (⟨S1600000x3, .f32⟩ : BufTy).Contents (Elt F)) : (⟨S1600000, .f32⟩ : BufTy).Contents (Elt F) :=
  (select : (⟨S1600000, .i1⟩ : BufTy).Contents (Elt F) → (⟨S1600000, .f32⟩ : BufTy).Contents (Elt F) → (⟨S1600000, .f32⟩ : BufTy).Contents (Elt F) → (⟨S1600000, .f32⟩ : BufTy).Contents (Elt F)) (val_main_v97 (F := F) x0) (val_main_v95 (F := F) x0) (val_main_call4_v1 (F := F))
def val_main_v99 (x0 : (⟨S1600000x3, .f32⟩ : BufTy).Contents (Elt F)) : (⟨S1600000x1, .f32⟩ : BufTy).Contents (Elt F) :=
  ((broadcastInDim S1600000x1 ![0] bcast_S1600000_S1600000x1_0) : (⟨S1600000, .f32⟩ : BufTy).Contents (Elt F) → (⟨S1600000x1, .f32⟩ : BufTy).Contents (Elt F)) (val_main_v98 (F := F) x0)
def val_main_v100 (x0 : (⟨S1600000x3, .f32⟩ : BufTy).Contents (Elt F)) : (⟨S1600000x64, .f32⟩ : BufTy).Contents (Elt F) :=
  ((broadcastInDim S1600000x64 ![0, 1] bcast_S1600000x1_S1600000x64_0_1) : (⟨S1600000x1, .f32⟩ : BufTy).Contents (Elt F) → (⟨S1600000x64, .f32⟩ : BufTy).Contents (Elt F)) (val_main_v99 (F := F) x0)
def val_main_v101 (x0 : (⟨S1600000x3, .f32⟩ : BufTy).Contents (Elt F)) (x1 : (⟨S1600000x48, .f32⟩ : BufTy).Contents (Elt F)) (x3 : (⟨S1600000, .i32⟩ : BufTy).Contents (Elt F)) (x4 : (⟨S50000, .i32⟩ : BufTy).Contents (Elt F)) (x5 : (⟨S100, .f32⟩ : BufTy).Contents (Elt F)) (x6 : (⟨S100, .f32⟩ : BufTy).Contents (Elt F)) (x7 : (⟨S100x16, .f32⟩ : BufTy).Contents (Elt F)) (x8 : (⟨S_, .f32⟩ : BufTy).Contents (Elt F)) (x9 : (⟨S_, .f32⟩ : BufTy).Contents (Elt F)) (x10 : (⟨S_, .f32⟩ : BufTy).Contents (Elt F)) (x11 : (⟨S48x16, .f32⟩ : BufTy).Contents (Elt F)) (x12 : (⟨S16x1, .f32⟩ : BufTy).Contents (Elt F)) (x13 : (⟨S17x16, .f32⟩ : BufTy).Contents (Elt F)) (x14 : (⟨S64x64, .f32⟩ : BufTy).Contents (Elt F)) (x15 : (⟨S64x64, .f32⟩ : BufTy).Contents (Elt F)) (x16 : (⟨S64x64, .f32⟩ : BufTy).Contents (Elt F)) : (⟨S1600000x64, .f32⟩ : BufTy).Contents (Elt F) :=
  (mulf : (⟨S1600000x64, .f32⟩ : BufTy).Contents (Elt F) → (⟨S1600000x64, .f32⟩ : BufTy).Contents (Elt F) → (⟨S1600000x64, .f32⟩ : BufTy).Contents (Elt F)) (val_main_v100 (F := F) x0) (val_main_v77 (F := F) x1 x3 x4 x5 x6 x7 x8 x9 x10 x11 x12 x13 x14 x15 x16)

end Cert.ReferenceIdeal.Stg

end
-- ==== Proof.LibTailWrites.lean ====
/- Host lines that write only "late" buffers.

   Every buffer a TensorCore names has a slot number.  In the programs at hand the argument arrays have the
   lowest slot numbers, the arrays a pipelined region works on come next, and every host line after the region
   writes a buffer with a still higher number.  So the statement "this line writes nothing below slot n" is
   all that is needed to know that a buffer below slot n keeps its contents across any number of such lines,
   and it is proved for a line by looking at the one buffer it writes. -/
import Idealize.ShloMosaic.Lib.Pipeline.FrameSuffix

noncomputable section

namespace Cert.TailLib

open Idealize.ShloMosaic

variable {τ : Topo} {sig : RefSig} {Val : EltTy → Type}

/-- The operation writes only TensorCore references whose slot number is at least `n`. -/
def WritesFrom (n : ℕ) (op : HloOp τ sig Val) : Prop :=
  ∀ b ∈ op.writes, ∃ y : Ref sig .tc, n ≤ y.idx.val ∧ b = Proc.devRef .tc y

/-- An operation whose only written buffer is the reference `y`, of slot number at least `n`. -/
theorem writesFrom_of_eq {n : ℕ} {op : HloOp τ sig Val} {y : Ref sig .tc}
    (e : op.writes = {Proc.devRef .tc y}) (h : n ≤ y.idx.val) : WritesFrom n op :=
  fun b hb => ⟨y, h, Finset.mem_singleton.mp (e ▸ hb)⟩

/-- Such an operation does not write a reference of a lower slot number: two references with different slot
    numbers are different, and different references are different buffers of the device. -/
theorem not_mem_writes {n : ℕ} {op : HloOp τ sig Val} (h : WritesFrom n op) {r : Ref sig .tc} (hr : r.idx.val < n) :
    Proc.devRef (τ := τ) .tc r ∉ op.writes := by
  intro hb
  obtain ⟨y, hy, e⟩ := h _ hb
  have hry : r = y := Proc.devRef_injective _ e
  subst hry
  omega

/-- Across stretches of such operations a reference of a lower slot number keeps its contents. -/
theorem after_flatten_low {n : ℕ} (opss : List (List (HloOp τ sig Val)))
    (h : ∀ ops ∈ opss, ops.Forall (WritesFrom n)) (V : Valuation τ sig Val) {r : Ref sig .tc} (hr : r.idx.val < n) :
    StableHlo.after opss.flatten V (Proc.devRef .tc r) = V (Proc.devRef .tc r) :=
  StableHlo.after_of_forall_not_mem _ _ fun op hop => by
    obtain ⟨ops, hops, hop'⟩ := List.mem_flatten.mp hop
    exact not_mem_writes ((List.forall_iff_forall_mem.mp (h ops hops)) op hop') hr

end Cert.TailLib

end
-- ==== Proof.LibTailSsa.lean ====
/- Straight-line host programs in single-assignment order.

   In the stretches at hand the k-th line writes the buffer of slot number s + k and reads only buffers of lower
   slot numbers: every value has its own buffer, numbered in program order.  Then what a buffer holds at the end
   is decided locally: a buffer below slot s is never written; the buffer of slot s + j holds line j's result
   computed from contents that, below slot s + j, are already the final ones (no later line writes them).
   So in the final contents every line's result is the line's function of the final contents of its operands,
   and the value of any buffer can be read off line by line instead of by replaying the whole stretch. -/
import proofs.«147440_j54674933678514_2_alg».proof.Proof.LibTailWrites

noncomputable section

namespace Cert.TailLib

open Idealize.ShloMosaic

variable {τ : Topo} {sig : RefSig} {Val : EltTy → Type}

/-- The operation writes only the TensorCore reference(s) of slot number exactly `n`. -/
def WritesAt (n : ℕ) (op : HloOp τ sig Val) : Prop :=
  ∀ b ∈ op.writes, ∃ y : Ref sig .tc, y.idx.val = n ∧ b = Proc.devRef .tc y

theorem writesAt_of_eq {n : ℕ} {op : HloOp τ sig Val} {y : Ref sig .tc}
    (e : op.writes = {Proc.devRef .tc y}) (h : y.idx.val = n) : WritesAt n op :=
  fun b hb => ⟨y, h, Finset.mem_singleton.mp (e ▸ hb)⟩

/-- It writes no reference of another slot number. -/
theorem WritesAt.not_mem {n : ℕ} {op : HloOp τ sig Val} (h : WritesAt n op) {r : Ref sig .tc} (hr : r.idx.val ≠ n) :
    Proc.devRef (τ := τ) .tc r ∉ op.writes := by
  intro hb
  obtain ⟨y, hy, e⟩ := h _ hb
  have hry : r = y := Proc.devRef_injective _ e
  subst hry
  exact hr hy

/-- Single-assignment order from slot `s`: the first line writes slot `s`, the next `s + 1`, and so on. -/
def SSA : ℕ → List (HloOp τ sig Val) → Prop
  | _, [] => True
  | s, op :: ops => WritesAt s op ∧ SSA (s + 1) ops

theorem SSA.append : ∀ {s : ℕ} {l₁ l₂ : List (HloOp τ sig Val)}, SSA s l₁ → SSA (s + l₁.length) l₂ → SSA s (l₁ ++ l₂)
  | _, [], _, _, h₂ => by simpa using h₂
  | s, op :: l, l₂, h₁, h₂ => by
    refine ⟨h₁.1, SSA.append h₁.2 ?_⟩
    rw [List.length_cons] at h₂
    rwa [show s + (l.length + 1) = s + 1 + l.length by omega] at h₂

/-- A buffer below the first slot keeps its contents. -/
theorem after_low_of_ssa : ∀ {s : ℕ} (ops : List (HloOp τ sig Val)), SSA s ops → ∀ (W : Valuation τ sig Val) {r : Ref sig .tc},
    r.idx.val < s → StableHlo.after ops W (Proc.devRef .tc r) = W (Proc.devRef .tc r)
  | _, [], _, _, _, _ => rfl
  | s, op :: ops, h, W, r, hr => by
    rw [StableHlo.after_cons, after_low_of_ssa ops h.2 _ (by omega), op.result_of_not_mem W (h.1.not_mem (by omega))]

/-- Reading the final contents at line `j`: there are contents `G` (those just before line `j`) which the final ones
    agree with below slot `s + j`, and at slot `s + j` the final contents are line `j`'s result from `G`. -/
theorem ssa_read : ∀ {s : ℕ} (ops : List (HloOp τ sig Val)), SSA s ops → ∀ (W : Valuation τ sig Val) (j : ℕ) (op : HloOp τ sig Val),
    ops[j]? = some op →
    ∃ G : Valuation τ sig Val,
      (∀ r : Ref sig .tc, r.idx.val < s + j → StableHlo.after ops W (Proc.devRef .tc r) = G (Proc.devRef .tc r)) ∧
      (∀ r : Ref sig .tc, r.idx.val = s + j → StableHlo.after ops W (Proc.devRef .tc r) = op.result G (Proc.devRef .tc r))
  | _, [], _, _, _, _, e => by simp at e
  | s, o :: ops, h, W, 0, op, e => by
    have hoe : o = op := by simpa using e
    subst hoe
    refine ⟨W, fun r hr => ?_, fun r hr => ?_⟩
    · rw [StableHlo.after_cons, after_low_of_ssa ops h.2 _ (by omega), o.result_of_not_mem W (h.1.not_mem (by omega))]
    · rw [StableHlo.after_cons, after_low_of_ssa ops h.2 _ (by omega)]
  | s, o :: ops, h, W, j + 1, op, e => by
    have e' : ops[j]? = some op := by simpa using e
    obtain ⟨G, h1, h2⟩ := ssa_read ops h.2 (o.result W) j op e'
    refine ⟨G, fun r hr => ?_, fun r hr => ?_⟩
    · rw [StableHlo.after_cons]; exact h1 r (by omega)
    · rw [StableHlo.after_cons]; exact h2 r (by omega)

end Cert.TailLib

end
-- ==== Proof.LibSsaLines.lean ====
/-
  Reading a single-assignment host stretch one line at a time.

  In a straight-line stretch whose k-th line writes the buffer of slot `s + k` and reads buffers of lower slots only,
  the contents at the end satisfy each line's own equation: the buffer a line writes holds the line's function of the
  FINAL contents of the buffers it reads (nothing after the line writes them). The lemmas below state that for each
  kind of line — a constant, and functions of one, two and three operands, and a change of shape — so that the value
  of a buffer at the end is read off its defining line and the values of its operands, never by replaying the stretch.
-/
import proofs.«147440_j54674933678514_2_alg».proof.Proof.LibTailSsa
import Idealize.ShloMosaic.Lib.StableHlo.Run

noncomputable section

namespace Cert.SsaLines

open Idealize.ShloMosaic Idealize.ShloMosaic.StableHlo Cert.TailLib

variable {τ : Topo} {sig : RefSig} {Val : EltTy → Type}

/-- A buffer below the stretch's first slot keeps its entry contents. -/
theorem low_line {s : ℕ} {ops : List (HloOp τ sig Val)} (h : SSA s ops) (W : Valuation τ sig Val) {r : Ref sig .tc}
    (hr : r.idx.val < s) : after ops W (Proc.devRef .tc r) = W (Proc.devRef .tc r) :=
  after_low_of_ssa ops h W hr

/-- Line `j` is a constant. -/
theorem nullary_line {s : ℕ} {ops : List (HloOp τ sig Val)} (h : SSA s ops) (W : Valuation τ sig Val) (j : ℕ)
    {y : Ref sig .tc} {v : y.ty.Contents Val} {hy} (e : ops[j]? = some (nullary y v hy)) (hyj : y.idx.val = s + j) :
    after ops W (Proc.devRef .tc y) = v := by
  obtain ⟨G, -, h2⟩ := ssa_read ops h W j _ e
  rw [h2 y hyj]
  exact nullary_result y v hy G

/-- Line `j` is a function of one operand. -/
theorem unary_line {s : ℕ} {ops : List (HloOp τ sig Val)} (h : SSA s ops) (W : Valuation τ sig Val) (j : ℕ)
    {x y : Ref sig .tc} {f : x.ty.Contents Val → y.ty.Contents Val} {hx hy}
    (e : ops[j]? = some (unary x y f hx hy)) (hyj : y.idx.val = s + j) (hxj : x.idx.val < s + j) :
    after ops W (Proc.devRef .tc y) = f (after ops W (Proc.devRef .tc x)) := by
  obtain ⟨G, h1, h2⟩ := ssa_read ops h W j _ e
  rw [h2 y hyj, h1 x hxj]
  exact unary_result x y f hx hy G

/-- Line `j` is a function of two operands. -/
theorem binary_line {s : ℕ} {ops : List (HloOp τ sig Val)} (h : SSA s ops) (W : Valuation τ sig Val) (j : ℕ)
    {a b y : Ref sig .tc} {f : a.ty.Contents Val → b.ty.Contents Val → y.ty.Contents Val} {ha hb hy}
    (e : ops[j]? = some (binary a b y f ha hb hy)) (hyj : y.idx.val = s + j) (haj : a.idx.val < s + j) (hbj : b.idx.val < s + j) :
    after ops W (Proc.devRef .tc y) = f (after ops W (Proc.devRef .tc a)) (after ops W (Proc.devRef .tc b)) := by
  obtain ⟨G, h1, h2⟩ := ssa_read ops h W j _ e
  rw [h2 y hyj, h1 a haj, h1 b hbj]
  exact binary_result a b y f ha hb hy G

/-- Line `j` is a function of three operands. -/
theorem ternary_line {s : ℕ} {ops : List (HloOp τ sig Val)} (h : SSA s ops) (W : Valuation τ sig Val) (j : ℕ)
    {c a b y : Ref sig .tc} {f : c.ty.Contents Val → a.ty.Contents Val → b.ty.Contents Val → y.ty.Contents Val} {hc ha hb hy}
    (e : ops[j]? = some (ternary c a b y f hc ha hb hy)) (hyj : y.idx.val = s + j)
    (hcj : c.idx.val < s + j) (haj : a.idx.val < s + j) (hbj : b.idx.val < s + j) :
    after ops W (Proc.devRef .tc y)
      = f (after ops W (Proc.devRef .tc c)) (after ops W (Proc.devRef .tc a)) (after ops W (Proc.devRef .tc b)) := by
  obtain ⟨G, h1, h2⟩ := ssa_read ops h W j _ e
  rw [h2 y hyj, h1 c hcj, h1 a haj, h1 b hbj]
  exact ternary_result c a b y f hc ha hb hy G

/-- Line `j` is a change of shape. -/
theorem reshape_line {s : ℕ} {ops : List (HloOp τ sig Val)} (h : SSA s ops) (W : Valuation τ sig Val) (j : ℕ)
    {x y : Ref sig .tc} {he : x.ty.elt = y.ty.elt} {hn : x.ty.shape.ShapeCasts y.ty.shape} {hx hy}
    (e : ops[j]? = some (reshape x y he hn hx hy)) (hyj : y.idx.val = s + j) (hxj : x.idx.val < s + j) :
    after ops W (Proc.devRef .tc y) = fun i => he ▸ shapeCast y.ty.shape (after ops W (Proc.devRef .tc x)) hn i := by
  obtain ⟨G, h1, h2⟩ := ssa_read ops h W j _ e
  rw [h2 y hyj, h1 x hxj]
  exact reshape_result x y he hn hx hy G

end Cert.SsaLines

end
-- ==== Proof.HostLines.lean ====
/-
  The host lines of the idealized kernel program, read one line at a time.

  Outside its two pallas_calls the program is a straight line of host operations in single-assignment order: each
  line writes a buffer of its own and reads buffers written earlier.  So in the contents at a boundary every line's
  buffer holds the line's function of the boundary contents of its operands.  Line by line this identifies each
  buffer with a STAGE of the reference program — the reference applies the same operation to the same operands,
  in the same order —, given that the first pallas_call's result is the reference's per-edge array (the one place
  where the two programs differ before the second call).  What comes out: the scaled weights, the per-atom charges,
  the potential and the gathered per-edge rows are the reference's stages of the same arguments.
-/
import proofs.«147440_j54674933678514_2_alg».proof.Proof.Gen.KernelIdeal.Frame
import proofs.«147440_j54674933678514_2_alg».proof.Proof.RefStages
import proofs.«147440_j54674933678514_2_alg».proof.Proof.LibSsaLines
import Idealize.ShloMosaic.PureOps.Ideal

set_option maxRecDepth 16384
set_option quotPrecheck false

noncomputable section

namespace Cert.KernelIdeal.HostLines

open Idealize.ShloMosaic Idealize.ShloMosaic.TcCoe Idealize.SL.Sem Idealize.ShloMosaic.StableHlo
open Cert.KernelIdeal Cert.KernelIdeal.Gen Cert.TailLib Cert.SsaLines

/-- Folding a line of operations splits at any point of the line. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable (m : (ℓ : Loc nD τ sig) → Buf (Elt Ideal) ℓ) (ρ : Dev nD → PrngReg) (c : Dev nD)

/-- The host lines between the two pallas_calls, as one line. -/
abbrev midOps : List (HloOp τ sig (Elt Ideal)) := hostOps1 ++ (hostOps1_1 ++ hostOps1_2)

/-- The contents when the second call is entered are the fold of that one line over the first call's exit contents. -/
theorem W5_eq : W5 (F := Ideal) m ρ c = after midOps (W2 m ρ c) := by
  show after hostOps1_2 (after hostOps1_1 (after hostOps1 (W2 m ρ c))) = _
  rw [midOps, after_append, after_append]

local notation "X[" b "]" => m ((c.tc : Thread nD τ).loc b)
local notation "K0[" b "]" => after (hostOps0 (F := Ideal)) (W0 m ρ c) (Proc.devRef .tc b)
local notation "K[" b "]" => after midOps (W2 m ρ c) (Proc.devRef .tc b)

/-- The lines before the first call write the buffers of slots 17, 18, … in order. -/
theorem ssa0 : SSA 17 (hostOps0 : List (HloOp τ sig (Elt Ideal))) :=
  And.intro (writesAt_of_eq (y := main_cst) rfl rfl) <|
    And.intro (writesAt_of_eq (y := main_v0) rfl rfl) <|
    And.intro (writesAt_of_eq (y := main_v1) rfl rfl) <|
    And.intro (writesAt_of_eq (y := main_cst_0) rfl rfl) <|
    And.intro (writesAt_of_eq (y := main_v2) rfl rfl) <|
    And.intro (writesAt_of_eq (y := main_v3) rfl rfl) <|
    And.intro (writesAt_of_eq (y := main_cst_1) rfl rfl) <|
    And.intro (writesAt_of_eq (y := main_v4) rfl rfl) <|
    And.intro (writesAt_of_eq (y := main_v5) rfl rfl) <|
    And.intro (writesAt_of_eq (y := main_cst_2) rfl rfl) <|
    And.intro (writesAt_of_eq (y := main_v6) rfl rfl) <|
    And.intro (writesAt_of_eq (y := main_v7) rfl rfl) <|
    And.intro (writesAt_of_eq (y := main_cst_3) rfl rfl) <|
    And.intro (writesAt_of_eq (y := main_v8) rfl rfl) <|
    And.intro (writesAt_of_eq (y := main_v9) rfl rfl) <|
    And.intro (writesAt_of_eq (y := main_cst_4) rfl rfl) <|
    And.intro (writesAt_of_eq (y := main_v10) rfl rfl) <|
    And.intro (writesAt_of_eq (y := main_v11) rfl rfl) <|
    trivial

theorem ssa1 : SSA 36 (hostOps1 : List (HloOp τ sig (Elt Ideal))) :=
  And.intro (writesAt_of_eq (y := main_cst_5) rfl rfl) <|
    And.intro (writesAt_of_eq (y := main_v13) rfl rfl) <|
    And.intro (writesAt_of_eq (y := main_v14) rfl rfl) <|
    And.intro (writesAt_of_eq (y := main_v15) rfl rfl) <|
    And.intro (writesAt_of_eq (y := main_v16) rfl rfl) <|
    And.intro (writesAt_of_eq (y := main_v17) rfl rfl) <|
    And.intro (writesAt_of_eq (y := main_v18) rfl rfl) <|
    And.intro (writesAt_of_eq (y := main_c) rfl rfl) <|
    And.intro (writesAt_of_eq (y := main_v19) rfl rfl) <|
    And.intro (writesAt_of_eq (y := main_v20) rfl rfl) <|
    And.intro (writesAt_of_eq (y := main_c_6) rfl rfl) <|
    And.intro (writesAt_of_eq (y := main_v21) rfl rfl) <|
    And.intro (writesAt_of_eq (y := main_v22) rfl rfl) <|
    And.intro (writesAt_of_eq (y := main_v23) rfl rfl) <|
    And.intro (writesAt_of_eq (y := main_v24) rfl rfl) <|
    And.intro (writesAt_of_eq (y := main_v25) rfl rfl) <|
    And.intro (writesAt_of_eq (y := main_v26) rfl rfl) <|
    And.intro (writesAt_of_eq (y := main_v27) rfl rfl) <|
    And.intro (writesAt_of_eq (y := main_v28) rfl rfl) <|
    And.intro (writesAt_of_eq (y := main_v29) rfl rfl) <|
    And.intro (writesAt_of_eq (y := main_c_7) rfl rfl) <|
    And.intro (writesAt_of_eq (y := main_v30) rfl rfl) <|
    And.intro (writesAt_of_eq (y := main_v31) rfl rfl) <|
    And.intro (writesAt_of_eq (y := main_c_8) rfl rfl) <|
    And.intro (writesAt_of_eq (y := main_v32) rfl rfl) <|
    And.intro (writesAt_of_eq (y := main_v33) rfl rfl) <|
    And.intro (writesAt_of_eq (y := main_v34) rfl rfl) <|
    And.intro (writesAt_of_eq (y := main_v35) rfl rfl) <|
    And.intro (writesAt_of_eq (y := main_v36) rfl rfl) <|
    trivial
theorem ssa1_1 : SSA 65 (hostOps1_1 : List (HloOp τ sig (Elt Ideal))) :=
  And.intro (writesAt_of_eq (y := main_call0_cst) rfl rfl) <|
    And.intro (writesAt_of_eq (y := main_call0_v0) rfl rfl) <|
    And.intro (writesAt_of_eq (y := main_call0_v1) rfl rfl) <|
    And.intro (writesAt_of_eq (y := main_call0_v2) rfl rfl) <|
    And.intro (writesAt_of_eq (y := main_call0_v3) rfl rfl) <|
    And.intro (writesAt_of_eq (y := main_call0_v4) rfl rfl) <|
    And.intro (writesAt_of_eq (y := main_call0_v5) rfl rfl) <|
    And.intro (writesAt_of_eq (y := main_call0_v6) rfl rfl) <|
    And.intro (writesAt_of_eq (y := main_call0_v7) rfl rfl) <|
    And.intro (writesAt_of_eq (y := main_call0_v8) rfl rfl) <|
    And.intro (writesAt_of_eq (y := main_call0_v9) rfl rfl) <|
    And.intro (writesAt_of_eq (y := main_call0_v10) rfl rfl) <|
    And.intro (writesAt_of_eq (y := main_call0_v11) rfl rfl) <|
    And.intro (writesAt_of_eq (y := main_v37) rfl rfl) <|
    trivial
theorem ssa1_2 : SSA 79 (hostOps1_2 : List (HloOp τ sig (Elt Ideal))) :=
  And.intro (writesAt_of_eq (y := main_cst_9) rfl rfl) <|
    And.intro (writesAt_of_eq (y := main_v38) rfl rfl) <|
    And.intro (writesAt_of_eq (y := main_v39) rfl rfl) <|
    And.intro (writesAt_of_eq (y := main_v40) rfl rfl) <|
    And.intro (writesAt_of_eq (y := main_v41) rfl rfl) <|
    And.intro (writesAt_of_eq (y := main_v42) rfl rfl) <|
    And.intro (writesAt_of_eq (y := main_v43) rfl rfl) <|
    And.intro (writesAt_of_eq (y := main_cst_10) rfl rfl) <|
    And.intro (writesAt_of_eq (y := main_v44) rfl rfl) <|
    And.intro (writesAt_of_eq (y := main_v45) rfl rfl) <|
    And.intro (writesAt_of_eq (y := main_v46) rfl rfl) <|
    And.intro (writesAt_of_eq (y := main_v47) rfl rfl) <|
    And.intro (writesAt_of_eq (y := main_v48) rfl rfl) <|
    And.intro (writesAt_of_eq (y := main_cst_11) rfl rfl) <|
    And.intro (writesAt_of_eq (y := main_v49) rfl rfl) <|
    And.intro (writesAt_of_eq (y := main_v50) rfl rfl) <|
    And.intro (writesAt_of_eq (y := main_c_12) rfl rfl) <|
    And.intro (writesAt_of_eq (y := main_v51) rfl rfl) <|
    And.intro (writesAt_of_eq (y := main_v52) rfl rfl) <|
    And.intro (writesAt_of_eq (y := main_c_13) rfl rfl) <|
    And.intro (writesAt_of_eq (y := main_v53) rfl rfl) <|
    And.intro (writesAt_of_eq (y := main_v54) rfl rfl) <|
    And.intro (writesAt_of_eq (y := main_v55) rfl rfl) <|
    And.intro (writesAt_of_eq (y := main_v56) rfl rfl) <|
    And.intro (writesAt_of_eq (y := main_v57) rfl rfl) <|
    And.intro (writesAt_of_eq (y := main_v58) rfl rfl) <|
    And.intro (writesAt_of_eq (y := main_v59) rfl rfl) <|
    And.intro (writesAt_of_eq (y := main_c_14) rfl rfl) <|
    And.intro (writesAt_of_eq (y := main_v60) rfl rfl) <|
    And.intro (writesAt_of_eq (y := main_v61) rfl rfl) <|
    And.intro (writesAt_of_eq (y := main_c_15) rfl rfl) <|
    And.intro (writesAt_of_eq (y := main_v62) rfl rfl) <|
    And.intro (writesAt_of_eq (y := main_v63) rfl rfl) <|
    And.intro (writesAt_of_eq (y := main_v64) rfl rfl) <|
    And.intro (writesAt_of_eq (y := main_v65) rfl rfl) <|
    And.intro (writesAt_of_eq (y := main_v66) rfl rfl) <|
    trivial
/-- The lines between the calls write the buffers of slots 36, 37, … in order. -/
theorem ssaMid : SSA 36 midOps :=
  SSA.append ssa1 (SSA.append (show SSA (36 + (hostOps1 : List (HloOp τ sig (Elt Ideal))).length) hostOps1_1 from ssa1_1)
    (show SSA (36 + (hostOps1 : List (HloOp τ sig (Elt Ideal))).length + (hostOps1_1 : List (HloOp τ sig (Elt Ideal))).length) hostOps1_2 from ssa1_2))

/-! ## Before the first call -/

theorem z_main_arg0 : K0[main_arg0] = X[main_arg0] := low_line ssa0 (W0 m ρ c) (r := main_arg0) (by decide)
theorem z_main_arg1 : K0[main_arg1] = X[main_arg1] := low_line ssa0 (W0 m ρ c) (r := main_arg1) (by decide)
theorem z_main_arg11 : K0[main_arg11] = X[main_arg11] := low_line ssa0 (W0 m ρ c) (r := main_arg11) (by decide)
theorem z_main_arg12 : K0[main_arg12] = X[main_arg12] := low_line ssa0 (W0 m ρ c) (r := main_arg12) (by decide)
theorem z_main_arg13 : K0[main_arg13] = X[main_arg13] := low_line ssa0 (W0 m ρ c) (r := main_arg13) (by decide)
theorem z_main_arg14 : K0[main_arg14] = X[main_arg14] := low_line ssa0 (W0 m ρ c) (r := main_arg14) (by decide)
theorem z_main_arg15 : K0[main_arg15] = X[main_arg15] := low_line ssa0 (W0 m ρ c) (r := main_arg15) (by decide)
theorem z_main_arg16 : K0[main_arg16] = X[main_arg16] := low_line ssa0 (W0 m ρ c) (r := main_arg16) (by decide)
theorem z_main_cst : K0[main_cst] = Cert.ReferenceIdeal.Stg.val_main_cst_0 (F := Ideal) :=
  (nullary_line ssa0 (W0 m ρ c) 0 (y := main_cst) rfl rfl).trans rfl
theorem z_main_v0 : K0[main_v0] = Cert.ReferenceIdeal.Stg.val_main_v3 (F := Ideal) :=
  (unary_line ssa0 (W0 m ρ c) 1 (x := main_cst) (y := main_v0) rfl rfl (by decide)).trans (by rw [z_main_cst m ρ c]; rfl)
theorem z_main_v1 : K0[main_v1] = Cert.ReferenceIdeal.Stg.val_main_v4 (F := Ideal) X[main_arg11] :=
  (binary_line ssa0 (W0 m ρ c) 2 (a := main_arg11) (b := main_v0) (y := main_v1) rfl rfl (by decide) (by decide)).trans (by rw [z_main_arg11 m ρ c, z_main_v0 m ρ c]; rfl)
theorem z_main_cst_0 : K0[main_cst_0] = Cert.ReferenceIdeal.Stg.val_main_cst_1 (F := Ideal) :=
  (nullary_line ssa0 (W0 m ρ c) 3 (y := main_cst_0) rfl rfl).trans rfl
theorem z_main_v2 : K0[main_v2] = Cert.ReferenceIdeal.Stg.val_main_v7 (F := Ideal) :=
  (unary_line ssa0 (W0 m ρ c) 4 (x := main_cst_0) (y := main_v2) rfl rfl (by decide)).trans (by rw [z_main_cst_0 m ρ c]; rfl)
theorem z_main_v3 : K0[main_v3] = Cert.ReferenceIdeal.Stg.val_main_v8 (F := Ideal) X[main_arg12] :=
  (binary_line ssa0 (W0 m ρ c) 5 (a := main_arg12) (b := main_v2) (y := main_v3) rfl rfl (by decide) (by decide)).trans (by rw [z_main_arg12 m ρ c, z_main_v2 m ρ c]; rfl)
theorem z_main_cst_1 : K0[main_cst_1] = Cert.ReferenceIdeal.Stg.val_main_cst_11 (F := Ideal) :=
  (nullary_line ssa0 (W0 m ρ c) 6 (y := main_cst_1) rfl rfl).trans rfl
theorem z_main_v4 : K0[main_v4] = Cert.ReferenceIdeal.Stg.val_main_v56 (F := Ideal) :=
  (unary_line ssa0 (W0 m ρ c) 7 (x := main_cst_1) (y := main_v4) rfl rfl (by decide)).trans (by rw [z_main_cst_1 m ρ c]; rfl)
theorem z_main_v5 : K0[main_v5] = Cert.ReferenceIdeal.Stg.val_main_v57 (F := Ideal) X[main_arg13] :=
  (binary_line ssa0 (W0 m ρ c) 8 (a := main_arg13) (b := main_v4) (y := main_v5) rfl rfl (by decide) (by decide)).trans (by rw [z_main_arg13 m ρ c, z_main_v4 m ρ c]; rfl)
theorem z_main_cst_2 : K0[main_cst_2] = Cert.ReferenceIdeal.Stg.val_main_cst_14 (F := Ideal) :=
  (nullary_line ssa0 (W0 m ρ c) 9 (y := main_cst_2) rfl rfl).trans rfl
theorem z_main_v6 : K0[main_v6] = Cert.ReferenceIdeal.Stg.val_main_v67 (F := Ideal) :=
  (unary_line ssa0 (W0 m ρ c) 10 (x := main_cst_2) (y := main_v6) rfl rfl (by decide)).trans (by rw [z_main_cst_2 m ρ c]; rfl)
theorem z_main_v7 : K0[main_v7] = Cert.ReferenceIdeal.Stg.val_main_v68 (F := Ideal) X[main_arg14] :=
  (binary_line ssa0 (W0 m ρ c) 11 (a := main_arg14) (b := main_v6) (y := main_v7) rfl rfl (by decide) (by decide)).trans (by rw [z_main_arg14 m ρ c, z_main_v6 m ρ c]; rfl)
theorem z_main_cst_3 : K0[main_cst_3] = Cert.ReferenceIdeal.Stg.val_main_cst_15 (F := Ideal) :=
  (nullary_line ssa0 (W0 m ρ c) 12 (y := main_cst_3) rfl rfl).trans rfl
theorem z_main_v8 : K0[main_v8] = Cert.ReferenceIdeal.Stg.val_main_v71 (F := Ideal) :=
  (unary_line ssa0 (W0 m ρ c) 13 (x := main_cst_3) (y := main_v8) rfl rfl (by decide)).trans (by rw [z_main_cst_3 m ρ c]; rfl)
theorem z_main_v9 : K0[main_v9] = Cert.ReferenceIdeal.Stg.val_main_v72 (F := Ideal) X[main_arg15] :=
  (binary_line ssa0 (W0 m ρ c) 14 (a := main_arg15) (b := main_v8) (y := main_v9) rfl rfl (by decide) (by decide)).trans (by rw [z_main_arg15 m ρ c, z_main_v8 m ρ c]; rfl)
theorem z_main_cst_4 : K0[main_cst_4] = Cert.ReferenceIdeal.Stg.val_main_cst_16 (F := Ideal) :=
  (nullary_line ssa0 (W0 m ρ c) 15 (y := main_cst_4) rfl rfl).trans rfl
theorem z_main_v10 : K0[main_v10] = Cert.ReferenceIdeal.Stg.val_main_v75 (F := Ideal) :=
  (unary_line ssa0 (W0 m ρ c) 16 (x := main_cst_4) (y := main_v10) rfl rfl (by decide)).trans (by rw [z_main_cst_4 m ρ c]; rfl)
theorem z_main_v11 : K0[main_v11] = Cert.ReferenceIdeal.Stg.val_main_v76 (F := Ideal) X[main_arg16] :=
  (binary_line ssa0 (W0 m ρ c) 17 (a := main_arg16) (b := main_v10) (y := main_v11) rfl rfl (by decide) (by decide)).trans (by rw [z_main_arg16 m ρ c, z_main_v10 m ρ c]; rfl)

/-! ## Between the calls -/

theorem k_main_arg10 : K[main_arg10] = X[main_arg10] :=
  (low_line ssaMid (W2 m ρ c) (r := main_arg10) (by decide)).trans ((W2_of_ne m ρ c main_arg10 (by decide)).trans (low_line ssa0 (W0 m ρ c) (r := main_arg10) (by decide)))
theorem k_main_arg3 : K[main_arg3] = X[main_arg3] :=
  (low_line ssaMid (W2 m ρ c) (r := main_arg3) (by decide)).trans ((W2_of_ne m ρ c main_arg3 (by decide)).trans (low_line ssa0 (W0 m ρ c) (r := main_arg3) (by decide)))
theorem k_main_arg4 : K[main_arg4] = X[main_arg4] :=
  (low_line ssaMid (W2 m ρ c) (r := main_arg4) (by decide)).trans ((W2_of_ne m ρ c main_arg4 (by decide)).trans (low_line ssa0 (W0 m ρ c) (r := main_arg4) (by decide)))
theorem k_main_arg5 : K[main_arg5] = X[main_arg5] :=
  (low_line ssaMid (W2 m ρ c) (r := main_arg5) (by decide)).trans ((W2_of_ne m ρ c main_arg5 (by decide)).trans (low_line ssa0 (W0 m ρ c) (r := main_arg5) (by decide)))
theorem k_main_arg6 : K[main_arg6] = X[main_arg6] :=
  (low_line ssaMid (W2 m ρ c) (r := main_arg6) (by decide)).trans ((W2_of_ne m ρ c main_arg6 (by decide)).trans (low_line ssa0 (W0 m ρ c) (r := main_arg6) (by decide)))
theorem k_main_arg7 : K[main_arg7] = X[main_arg7] :=
  (low_line ssaMid (W2 m ρ c) (r := main_arg7) (by decide)).trans ((W2_of_ne m ρ c main_arg7 (by decide)).trans (low_line ssa0 (W0 m ρ c) (r := main_arg7) (by decide)))
theorem k_main_arg8 : K[main_arg8] = X[main_arg8] :=
  (low_line ssaMid (W2 m ρ c) (r := main_arg8) (by decide)).trans ((W2_of_ne m ρ c main_arg8 (by decide)).trans (low_line ssa0 (W0 m ρ c) (r := main_arg8) (by decide)))
theorem k_main_arg9 : K[main_arg9] = X[main_arg9] :=
  (low_line ssaMid (W2 m ρ c) (r := main_arg9) (by decide)).trans ((W2_of_ne m ρ c main_arg9 (by decide)).trans (low_line ssa0 (W0 m ρ c) (r := main_arg9) (by decide)))
theorem k_main_v11 : K[main_v11] = Cert.ReferenceIdeal.Stg.val_main_v76 (F := Ideal) X[main_arg16] :=
  (low_line ssaMid (W2 m ρ c) (r := main_v11) (by decide)).trans ((W2_of_ne m ρ c main_v11 (by decide)).trans (z_main_v11 m ρ c))
theorem k_main_v5 : K[main_v5] = Cert.ReferenceIdeal.Stg.val_main_v57 (F := Ideal) X[main_arg13] :=
  (low_line ssaMid (W2 m ρ c) (r := main_v5) (by decide)).trans ((W2_of_ne m ρ c main_v5 (by decide)).trans (z_main_v5 m ρ c))
theorem k_main_v7 : K[main_v7] = Cert.ReferenceIdeal.Stg.val_main_v68 (F := Ideal) X[main_arg14] :=
  (low_line ssaMid (W2 m ρ c) (r := main_v7) (by decide)).trans ((W2_of_ne m ρ c main_v7 (by decide)).trans (z_main_v7 m ρ c))
theorem k_main_v9 : K[main_v9] = Cert.ReferenceIdeal.Stg.val_main_v72 (F := Ideal) X[main_arg15] :=
  (low_line ssaMid (W2 m ρ c) (r := main_v9) (by decide)).trans ((W2_of_ne m ρ c main_v9 (by decide)).trans (z_main_v9 m ρ c))

/-- The one place where the two programs differ before the second call: the first call's result is the reference's
    per-edge array. -/
abbrev ChiLink : Prop := W2 m ρ c (Proc.devRef .tc main_v12) = Cert.ReferenceIdeal.Stg.val_main_v9 (F := Ideal) X[main_arg1] X[main_arg11] X[main_arg12]

theorem k_main_v12 (hchi : ChiLink m ρ c) : K[main_v12] = Cert.ReferenceIdeal.Stg.val_main_v9 (F := Ideal) X[main_arg1] X[main_arg11] X[main_arg12] :=
  (low_line ssaMid (W2 m ρ c) (r := main_v12) (by decide)).trans hchi

theorem k_main_cst_5 (hchi : ChiLink m ρ c) : K[main_cst_5] = Cert.ReferenceIdeal.Stg.val_main_cst_2 (F := Ideal) :=
  (nullary_line ssaMid (W2 m ρ c) 0 (y := main_cst_5) rfl rfl).trans rfl
theorem k_main_v13 (hchi : ChiLink m ρ c) : K[main_v13] = Cert.ReferenceIdeal.Stg.val_main_v10 (F := Ideal) :=
  (unary_line ssaMid (W2 m ρ c) 1 (x := main_cst_5) (y := main_v13) rfl rfl (by decide)).trans (by rw [k_main_cst_5 m ρ c hchi]; rfl)
theorem k_main_v14 (hchi : ChiLink m ρ c) : K[main_v14] = Cert.ReferenceIdeal.Stg.val_main_v11 (F := Ideal) X[main_arg3] :=
  (unary_line ssaMid (W2 m ρ c) 2 (x := main_arg3) (y := main_v14) rfl rfl (by decide)).trans (by rw [k_main_arg3 m ρ c]; rfl)
theorem k_main_v15 (hchi : ChiLink m ρ c) : K[main_v15] = Cert.ReferenceIdeal.Stg.val_main_v12 (F := Ideal) X[main_arg1] X[main_arg3] X[main_arg11] X[main_arg12] :=
  (ternary_line ssaMid (W2 m ρ c) 3 (c := main_v13) (a := main_v14) (b := main_v12) (y := main_v15) rfl rfl (by decide) (by decide) (by decide)).trans (by rw [k_main_v13 m ρ c hchi, k_main_v14 m ρ c hchi, k_main_v12 m ρ c hchi]; rfl)
theorem k_main_v16 (hchi : ChiLink m ρ c) : K[main_v16] = Cert.ReferenceIdeal.Stg.val_main_v13 (F := Ideal) X[main_arg1] X[main_arg3] X[main_arg11] X[main_arg12] :=
  (reshape_line ssaMid (W2 m ρ c) 4 (x := main_v15) (y := main_v16) rfl rfl (by decide)).trans (by rw [k_main_v15 m ρ c hchi]; rfl)
theorem k_main_v17 (hchi : ChiLink m ρ c) : K[main_v17] = Cert.ReferenceIdeal.Stg.val_main_v14 (F := Ideal) X[main_arg8] :=
  (unary_line ssaMid (W2 m ρ c) 5 (x := main_arg8) (y := main_v17) rfl rfl (by decide)).trans (by rw [k_main_arg8 m ρ c]; rfl)
theorem k_main_v18 (hchi : ChiLink m ρ c) : K[main_v18] = Cert.ReferenceIdeal.Stg.val_main_v15 (F := Ideal) X[main_arg1] X[main_arg3] X[main_arg8] X[main_arg11] X[main_arg12] :=
  (binary_line ssaMid (W2 m ρ c) 6 (a := main_v16) (b := main_v17) (y := main_v18) rfl rfl (by decide) (by decide)).trans (by rw [k_main_v16 m ρ c hchi, k_main_v17 m ρ c hchi]; rfl)
theorem k_main_c (hchi : ChiLink m ρ c) : K[main_c] = Cert.ReferenceIdeal.Stg.val_main_c (F := Ideal) :=
  (nullary_line ssaMid (W2 m ρ c) 7 (y := main_c) rfl rfl).trans rfl
theorem k_main_v19 (hchi : ChiLink m ρ c) : K[main_v19] = Cert.ReferenceIdeal.Stg.val_main_v16 (F := Ideal) :=
  (unary_line ssaMid (W2 m ρ c) 8 (x := main_c) (y := main_v19) rfl rfl (by decide)).trans (by rw [k_main_c m ρ c hchi]; rfl)
theorem k_main_v20 (hchi : ChiLink m ρ c) : K[main_v20] = Cert.ReferenceIdeal.Stg.val_main_v17 (F := Ideal) X[main_arg4] :=
  (binary_line ssaMid (W2 m ρ c) 9 (a := main_arg4) (b := main_v19) (y := main_v20) rfl rfl (by decide) (by decide)).trans (by rw [k_main_arg4 m ρ c, k_main_v19 m ρ c hchi]; rfl)
theorem k_main_c_6 (hchi : ChiLink m ρ c) : K[main_c_6] = Cert.ReferenceIdeal.Stg.val_main_c_3 (F := Ideal) :=
  (nullary_line ssaMid (W2 m ρ c) 10 (y := main_c_6) rfl rfl).trans rfl
theorem k_main_v21 (hchi : ChiLink m ρ c) : K[main_v21] = Cert.ReferenceIdeal.Stg.val_main_v18 (F := Ideal) :=
  (unary_line ssaMid (W2 m ρ c) 11 (x := main_c_6) (y := main_v21) rfl rfl (by decide)).trans (by rw [k_main_c_6 m ρ c hchi]; rfl)
theorem k_main_v22 (hchi : ChiLink m ρ c) : K[main_v22] = Cert.ReferenceIdeal.Stg.val_main_v19 (F := Ideal) X[main_arg4] :=
  (binary_line ssaMid (W2 m ρ c) 12 (a := main_arg4) (b := main_v21) (y := main_v22) rfl rfl (by decide) (by decide)).trans (by rw [k_main_arg4 m ρ c, k_main_v21 m ρ c hchi]; rfl)
theorem k_main_v23 (hchi : ChiLink m ρ c) : K[main_v23] = Cert.ReferenceIdeal.Stg.val_main_v20 (F := Ideal) X[main_arg4] :=
  (ternary_line ssaMid (W2 m ρ c) 13 (c := main_v20) (a := main_v22) (b := main_arg4) (y := main_v23) rfl rfl (by decide) (by decide) (by decide)).trans (by rw [k_main_v20 m ρ c hchi, k_main_v22 m ρ c hchi, k_main_arg4 m ρ c]; rfl)
theorem k_main_v24 (hchi : ChiLink m ρ c) : K[main_v24] = Cert.ReferenceIdeal.Stg.val_main_v21 (F := Ideal) X[main_arg4] :=
  (unary_line ssaMid (W2 m ρ c) 14 (x := main_v23) (y := main_v24) rfl rfl (by decide)).trans (by rw [k_main_v23 m ρ c hchi]; rfl)
theorem k_main_v25 (hchi : ChiLink m ρ c) : K[main_v25] = Cert.ReferenceIdeal.Stg.val_main_v22 (F := Ideal) X[main_arg4] X[main_arg5] :=
  (binary_line ssaMid (W2 m ρ c) 15 (a := main_arg5) (b := main_v24) (y := main_v25) rfl rfl (by decide) (by decide)).trans (by rw [k_main_arg5 m ρ c, k_main_v24 m ρ c hchi]; rfl)
theorem k_main_v26 (hchi : ChiLink m ρ c) : K[main_v26] = Cert.ReferenceIdeal.Stg.val_main_v23 (F := Ideal) X[main_arg9] :=
  (unary_line ssaMid (W2 m ρ c) 16 (x := main_arg9) (y := main_v26) rfl rfl (by decide)).trans (by rw [k_main_arg9 m ρ c]; rfl)
theorem k_main_v27 (hchi : ChiLink m ρ c) : K[main_v27] = Cert.ReferenceIdeal.Stg.val_main_v24 (F := Ideal) X[main_arg4] X[main_arg5] X[main_arg9] :=
  (binary_line ssaMid (W2 m ρ c) 17 (a := main_v25) (b := main_v26) (y := main_v27) rfl rfl (by decide) (by decide)).trans (by rw [k_main_v25 m ρ c hchi, k_main_v26 m ρ c hchi]; rfl)
theorem k_main_v28 (hchi : ChiLink m ρ c) : K[main_v28] = Cert.ReferenceIdeal.Stg.val_main_v25 (F := Ideal) X[main_arg10] :=
  (unary_line ssaMid (W2 m ρ c) 18 (x := main_arg10) (y := main_v28) rfl rfl (by decide)).trans (by rw [k_main_arg10 m ρ c]; rfl)
theorem k_main_v29 (hchi : ChiLink m ρ c) : K[main_v29] = Cert.ReferenceIdeal.Stg.val_main_v26 (F := Ideal) X[main_arg4] X[main_arg5] X[main_arg9] X[main_arg10] :=
  (binary_line ssaMid (W2 m ρ c) 19 (a := main_v27) (b := main_v28) (y := main_v29) rfl rfl (by decide) (by decide)).trans (by rw [k_main_v27 m ρ c hchi, k_main_v28 m ρ c hchi]; rfl)
theorem k_main_c_7 (hchi : ChiLink m ρ c) : K[main_c_7] = Cert.ReferenceIdeal.Stg.val_main_c_4 (F := Ideal) :=
  (nullary_line ssaMid (W2 m ρ c) 20 (y := main_c_7) rfl rfl).trans rfl
theorem k_main_v30 (hchi : ChiLink m ρ c) : K[main_v30] = Cert.ReferenceIdeal.Stg.val_main_v27 (F := Ideal) :=
  (unary_line ssaMid (W2 m ρ c) 21 (x := main_c_7) (y := main_v30) rfl rfl (by decide)).trans (by rw [k_main_c_7 m ρ c hchi]; rfl)
theorem k_main_v31 (hchi : ChiLink m ρ c) : K[main_v31] = Cert.ReferenceIdeal.Stg.val_main_v28 (F := Ideal) X[main_arg4] :=
  (binary_line ssaMid (W2 m ρ c) 22 (a := main_arg4) (b := main_v30) (y := main_v31) rfl rfl (by decide) (by decide)).trans (by rw [k_main_arg4 m ρ c, k_main_v30 m ρ c hchi]; rfl)
theorem k_main_c_8 (hchi : ChiLink m ρ c) : K[main_c_8] = Cert.ReferenceIdeal.Stg.val_main_c_5 (F := Ideal) :=
  (nullary_line ssaMid (W2 m ρ c) 23 (y := main_c_8) rfl rfl).trans rfl
theorem k_main_v32 (hchi : ChiLink m ρ c) : K[main_v32] = Cert.ReferenceIdeal.Stg.val_main_v29 (F := Ideal) :=
  (unary_line ssaMid (W2 m ρ c) 24 (x := main_c_8) (y := main_v32) rfl rfl (by decide)).trans (by rw [k_main_c_8 m ρ c hchi]; rfl)
theorem k_main_v33 (hchi : ChiLink m ρ c) : K[main_v33] = Cert.ReferenceIdeal.Stg.val_main_v30 (F := Ideal) X[main_arg4] :=
  (binary_line ssaMid (W2 m ρ c) 25 (a := main_arg4) (b := main_v32) (y := main_v33) rfl rfl (by decide) (by decide)).trans (by rw [k_main_arg4 m ρ c, k_main_v32 m ρ c hchi]; rfl)
theorem k_main_v34 (hchi : ChiLink m ρ c) : K[main_v34] = Cert.ReferenceIdeal.Stg.val_main_v31 (F := Ideal) X[main_arg4] :=
  (ternary_line ssaMid (W2 m ρ c) 26 (c := main_v31) (a := main_v33) (b := main_arg4) (y := main_v34) rfl rfl (by decide) (by decide) (by decide)).trans (by rw [k_main_v31 m ρ c hchi, k_main_v33 m ρ c hchi, k_main_arg4 m ρ c]; rfl)
theorem k_main_v35 (hchi : ChiLink m ρ c) : K[main_v35] = Cert.ReferenceIdeal.Stg.val_main_v32 (F := Ideal) X[main_arg4] :=
  (unary_line ssaMid (W2 m ρ c) 27 (x := main_v34) (y := main_v35) rfl rfl (by decide)).trans (by rw [k_main_v34 m ρ c hchi]; rfl)
theorem k_main_v36 (hchi : ChiLink m ρ c) : K[main_v36] = Cert.ReferenceIdeal.Stg.val_main_v33 (F := Ideal) X[main_arg4] X[main_arg6] :=
  (binary_line ssaMid (W2 m ρ c) 28 (a := main_arg6) (b := main_v35) (y := main_v36) rfl rfl (by decide) (by decide)).trans (by rw [k_main_arg6 m ρ c, k_main_v35 m ρ c hchi]; rfl)
theorem k_main_call0_cst (hchi : ChiLink m ρ c) : K[main_call0_cst] = Cert.ReferenceIdeal.Stg.val_main_call1_cst (F := Ideal) :=
  (nullary_line ssaMid (W2 m ρ c) 29 (y := main_call0_cst) rfl rfl).trans rfl
theorem k_main_call0_v0 (hchi : ChiLink m ρ c) : K[main_call0_v0] = Cert.ReferenceIdeal.Stg.val_main_call1_v0 (F := Ideal) :=
  (unary_line ssaMid (W2 m ρ c) 30 (x := main_call0_cst) (y := main_call0_v0) rfl rfl (by decide)).trans (by rw [k_main_call0_cst m ρ c hchi]; rfl)
theorem k_main_call0_v1 (hchi : ChiLink m ρ c) : K[main_call0_v1] = Cert.ReferenceIdeal.Stg.val_main_call1_v1 (F := Ideal) X[main_arg4] X[main_arg6] :=
  (binary_line ssaMid (W2 m ρ c) 31 (a := main_v36) (b := main_call0_v0) (y := main_call0_v1) rfl rfl (by decide) (by decide)).trans (by rw [k_main_v36 m ρ c hchi, k_main_call0_v0 m ρ c hchi]; rfl)
theorem k_main_call0_v2 (hchi : ChiLink m ρ c) : K[main_call0_v2] = Cert.ReferenceIdeal.Stg.val_main_call1_v2 (F := Ideal) :=
  (unary_line ssaMid (W2 m ρ c) 32 (x := main_call0_cst) (y := main_call0_v2) rfl rfl (by decide)).trans (by rw [k_main_call0_cst m ρ c hchi]; rfl)
theorem k_main_call0_v3 (hchi : ChiLink m ρ c) : K[main_call0_v3] = Cert.ReferenceIdeal.Stg.val_main_call1_v3 (F := Ideal) X[main_arg4] X[main_arg6] :=
  (binary_line ssaMid (W2 m ρ c) 33 (a := main_v36) (b := main_call0_v2) (y := main_call0_v3) rfl rfl (by decide) (by decide)).trans (by rw [k_main_v36 m ρ c hchi, k_main_call0_v2 m ρ c hchi]; rfl)
theorem k_main_call0_v4 (hchi : ChiLink m ρ c) : K[main_call0_v4] = Cert.ReferenceIdeal.Stg.val_main_call1_v4 (F := Ideal) X[main_arg4] X[main_arg6] :=
  (binary_line ssaMid (W2 m ρ c) 34 (a := main_call0_v3) (b := main_call0_v3) (y := main_call0_v4) rfl rfl (by decide) (by decide)).trans (by rw [k_main_call0_v3 m ρ c hchi]; rfl)
theorem k_main_call0_v5 (hchi : ChiLink m ρ c) : K[main_call0_v5] = Cert.ReferenceIdeal.Stg.val_main_call1_v5 (F := Ideal) :=
  (unary_line ssaMid (W2 m ρ c) 35 (x := main_call0_cst) (y := main_call0_v5) rfl rfl (by decide)).trans (by rw [k_main_call0_cst m ρ c hchi]; rfl)
theorem k_main_call0_v6 (hchi : ChiLink m ρ c) : K[main_call0_v6] = Cert.ReferenceIdeal.Stg.val_main_call1_v6 (F := Ideal) X[main_arg4] X[main_arg6] :=
  (binary_line ssaMid (W2 m ρ c) 36 (a := main_v36) (b := main_call0_v5) (y := main_call0_v6) rfl rfl (by decide) (by decide)).trans (by rw [k_main_v36 m ρ c hchi, k_main_call0_v5 m ρ c hchi]; rfl)
theorem k_main_call0_v7 (hchi : ChiLink m ρ c) : K[main_call0_v7] = Cert.ReferenceIdeal.Stg.val_main_call1_v7 (F := Ideal) X[main_arg4] X[main_arg6] :=
  (unary_line ssaMid (W2 m ρ c) 37 (x := main_call0_v3) (y := main_call0_v7) rfl rfl (by decide)).trans (by rw [k_main_call0_v3 m ρ c hchi]; rfl)
theorem k_main_call0_v8 (hchi : ChiLink m ρ c) : K[main_call0_v8] = Cert.ReferenceIdeal.Stg.val_main_call1_v8 (F := Ideal) X[main_arg4] X[main_arg6] :=
  (unary_line ssaMid (W2 m ρ c) 38 (x := main_call0_v7) (y := main_call0_v8) rfl rfl (by decide)).trans (by rw [k_main_call0_v7 m ρ c hchi]; rfl)
theorem k_main_call0_v9 (hchi : ChiLink m ρ c) : K[main_call0_v9] = Cert.ReferenceIdeal.Stg.val_main_call1_v9 (F := Ideal) X[main_arg4] X[main_arg6] :=
  (unary_line ssaMid (W2 m ρ c) 39 (x := main_call0_v8) (y := main_call0_v9) rfl rfl (by decide)).trans (by rw [k_main_call0_v8 m ρ c hchi]; rfl)
theorem k_main_call0_v10 (hchi : ChiLink m ρ c) : K[main_call0_v10] = Cert.ReferenceIdeal.Stg.val_main_call1_v10 (F := Ideal) X[main_arg4] X[main_arg6] :=
  (unary_line ssaMid (W2 m ρ c) 40 (x := main_call0_v9) (y := main_call0_v10) rfl rfl (by decide)).trans (by rw [k_main_call0_v9 m ρ c hchi]; rfl)
theorem k_main_call0_v11 (hchi : ChiLink m ρ c) : K[main_call0_v11] = Cert.ReferenceIdeal.Stg.val_main_call1_v11 (F := Ideal) X[main_arg4] X[main_arg6] :=
  (binary_line ssaMid (W2 m ρ c) 41 (a := main_call0_v1) (b := main_call0_v10) (y := main_call0_v11) rfl rfl (by decide) (by decide)).trans (by rw [k_main_call0_v1 m ρ c hchi, k_main_call0_v10 m ρ c hchi]; rfl)
theorem k_main_v37 (hchi : ChiLink m ρ c) : K[main_v37] = Cert.ReferenceIdeal.Stg.val_main_v34 (F := Ideal) X[main_arg4] X[main_arg6] :=
  (ternary_line ssaMid (W2 m ρ c) 42 (c := main_call0_v4) (a := main_call0_v6) (b := main_call0_v11) (y := main_v37) rfl rfl (by decide) (by decide) (by decide)).trans (by rw [k_main_call0_v4 m ρ c hchi, k_main_call0_v6 m ρ c hchi, k_main_call0_v11 m ρ c hchi]; rfl)
theorem k_main_cst_9 (hchi : ChiLink m ρ c) : K[main_cst_9] = Cert.ReferenceIdeal.Stg.val_main_cst_6 (F := Ideal) :=
  (nullary_line ssaMid (W2 m ρ c) 43 (y := main_cst_9) rfl rfl).trans rfl
theorem k_main_v38 (hchi : ChiLink m ρ c) : K[main_v38] = Cert.ReferenceIdeal.Stg.val_main_v35 (F := Ideal) :=
  (unary_line ssaMid (W2 m ρ c) 44 (x := main_cst_9) (y := main_v38) rfl rfl (by decide)).trans (by rw [k_main_cst_9 m ρ c hchi]; rfl)
theorem k_main_v39 (hchi : ChiLink m ρ c) : K[main_v39] = Cert.ReferenceIdeal.Stg.val_main_v36 (F := Ideal) X[main_arg4] X[main_arg5] X[main_arg9] X[main_arg10] :=
  (binary_line ssaMid (W2 m ρ c) 45 (a := main_v38) (b := main_v29) (y := main_v39) rfl rfl (by decide) (by decide)).trans (by rw [k_main_v38 m ρ c hchi, k_main_v29 m ρ c hchi]; rfl)
theorem k_main_v40 (hchi : ChiLink m ρ c) : K[main_v40] = Cert.ReferenceIdeal.Stg.val_main_v37 (F := Ideal) X[main_arg4] X[main_arg5] X[main_arg6] X[main_arg9] X[main_arg10] :=
  (binary_line ssaMid (W2 m ρ c) 46 (a := main_v37) (b := main_v39) (y := main_v40) rfl rfl (by decide) (by decide)).trans (by rw [k_main_v37 m ρ c hchi, k_main_v39 m ρ c hchi]; rfl)
theorem k_main_v41 (hchi : ChiLink m ρ c) : K[main_v41] = Cert.ReferenceIdeal.Stg.val_main_v38 (F := Ideal) X[main_arg1] X[main_arg3] X[main_arg8] X[main_arg11] X[main_arg12] :=
  (unary_line ssaMid (W2 m ρ c) 47 (x := main_v18) (y := main_v41) rfl rfl (by decide)).trans (by rw [k_main_v18 m ρ c hchi]; rfl)
theorem k_main_v42 (hchi : ChiLink m ρ c) : K[main_v42] = Cert.ReferenceIdeal.Stg.val_main_v39 (F := Ideal) X[main_arg1] X[main_arg3] X[main_arg4] X[main_arg5] X[main_arg6] X[main_arg8] X[main_arg9] X[main_arg10] X[main_arg11] X[main_arg12] :=
  (binary_line ssaMid (W2 m ρ c) 48 (a := main_v41) (b := main_v40) (y := main_v42) rfl rfl (by decide) (by decide)).trans (by rw [k_main_v41 m ρ c hchi, k_main_v40 m ρ c hchi]; rfl)
theorem k_main_v43 (hchi : ChiLink m ρ c) : K[main_v43] = Cert.ReferenceIdeal.Stg.val_main_v40 (F := Ideal) X[main_arg1] X[main_arg3] X[main_arg4] X[main_arg5] X[main_arg6] X[main_arg8] X[main_arg9] X[main_arg10] X[main_arg11] X[main_arg12] :=
  (binary_line ssaMid (W2 m ρ c) 49 (a := main_v18) (b := main_v42) (y := main_v43) rfl rfl (by decide) (by decide)).trans (by rw [k_main_v18 m ρ c hchi, k_main_v42 m ρ c hchi]; rfl)
theorem k_main_cst_10 (hchi : ChiLink m ρ c) : K[main_cst_10] = Cert.ReferenceIdeal.Stg.val_main_cst_7 (F := Ideal) :=
  (nullary_line ssaMid (W2 m ρ c) 50 (y := main_cst_10) rfl rfl).trans rfl
theorem k_main_v44 (hchi : ChiLink m ρ c) : K[main_v44] = Cert.ReferenceIdeal.Stg.val_main_v41 (F := Ideal) :=
  (unary_line ssaMid (W2 m ρ c) 51 (x := main_cst_10) (y := main_v44) rfl rfl (by decide)).trans (by rw [k_main_cst_10 m ρ c hchi]; rfl)
theorem k_main_v45 (hchi : ChiLink m ρ c) : K[main_v45] = Cert.ReferenceIdeal.Stg.val_main_v42 (F := Ideal) X[main_arg4] X[main_arg5] X[main_arg6] X[main_arg9] X[main_arg10] :=
  (binary_line ssaMid (W2 m ρ c) 52 (a := main_v44) (b := main_v40) (y := main_v45) rfl rfl (by decide) (by decide)).trans (by rw [k_main_v44 m ρ c hchi, k_main_v40 m ρ c hchi]; rfl)
theorem k_main_v46 (hchi : ChiLink m ρ c) : K[main_v46] = Cert.ReferenceIdeal.Stg.val_main_v43 (F := Ideal) X[main_arg1] X[main_arg3] X[main_arg4] X[main_arg5] X[main_arg6] X[main_arg8] X[main_arg9] X[main_arg10] X[main_arg11] X[main_arg12] :=
  (binary_line ssaMid (W2 m ρ c) 53 (a := main_v45) (b := main_v42) (y := main_v46) rfl rfl (by decide) (by decide)).trans (by rw [k_main_v45 m ρ c hchi, k_main_v42 m ρ c hchi]; rfl)
theorem k_main_v47 (hchi : ChiLink m ρ c) : K[main_v47] = Cert.ReferenceIdeal.Stg.val_main_v44 (F := Ideal) X[main_arg1] X[main_arg3] X[main_arg4] X[main_arg5] X[main_arg6] X[main_arg8] X[main_arg9] X[main_arg10] X[main_arg11] X[main_arg12] :=
  (binary_line ssaMid (W2 m ρ c) 54 (a := main_v46) (b := main_v42) (y := main_v47) rfl rfl (by decide) (by decide)).trans (by rw [k_main_v46 m ρ c hchi, k_main_v42 m ρ c hchi]; rfl)
theorem k_main_v48 (hchi : ChiLink m ρ c) : K[main_v48] = Cert.ReferenceIdeal.Stg.val_main_v45 (F := Ideal) X[main_arg1] X[main_arg3] X[main_arg4] X[main_arg5] X[main_arg6] X[main_arg8] X[main_arg9] X[main_arg10] X[main_arg11] X[main_arg12] :=
  (binary_line ssaMid (W2 m ρ c) 55 (a := main_v43) (b := main_v47) (y := main_v48) rfl rfl (by decide) (by decide)).trans (by rw [k_main_v43 m ρ c hchi, k_main_v47 m ρ c hchi]; rfl)
theorem k_main_cst_11 (hchi : ChiLink m ρ c) : K[main_cst_11] = Cert.ReferenceIdeal.Stg.val_main_cst_8 (F := Ideal) :=
  (nullary_line ssaMid (W2 m ρ c) 56 (y := main_cst_11) rfl rfl).trans rfl
theorem k_main_v49 (hchi : ChiLink m ρ c) : K[main_v49] = Cert.ReferenceIdeal.Stg.val_main_v46 (F := Ideal) X[main_arg1] X[main_arg3] X[main_arg4] X[main_arg5] X[main_arg6] X[main_arg8] X[main_arg9] X[main_arg10] X[main_arg11] X[main_arg12] :=
  (binary_line ssaMid (W2 m ρ c) 57 (a := main_v48) (b := main_cst_11) (y := main_v49) rfl rfl (by decide) (by decide)).trans (by rw [k_main_v48 m ρ c hchi, k_main_cst_11 m ρ c hchi]; rfl)
theorem k_main_v50 (hchi : ChiLink m ρ c) : K[main_v50] = Cert.ReferenceIdeal.Stg.val_main_v47 (F := Ideal) X[main_arg1] X[main_arg3] X[main_arg4] X[main_arg5] X[main_arg6] X[main_arg8] X[main_arg9] X[main_arg10] X[main_arg11] X[main_arg12] :=
  (unary_line ssaMid (W2 m ρ c) 58 (x := main_v42) (y := main_v50) rfl rfl (by decide)).trans (by rw [k_main_v42 m ρ c hchi]; rfl)
theorem k_main_c_12 (hchi : ChiLink m ρ c) : K[main_c_12] = Cert.ReferenceIdeal.Stg.val_main_c_9 (F := Ideal) :=
  (nullary_line ssaMid (W2 m ρ c) 59 (y := main_c_12) rfl rfl).trans rfl
theorem k_main_v51 (hchi : ChiLink m ρ c) : K[main_v51] = Cert.ReferenceIdeal.Stg.val_main_v48 (F := Ideal) :=
  (unary_line ssaMid (W2 m ρ c) 60 (x := main_c_12) (y := main_v51) rfl rfl (by decide)).trans (by rw [k_main_c_12 m ρ c hchi]; rfl)
theorem k_main_v52 (hchi : ChiLink m ρ c) : K[main_v52] = Cert.ReferenceIdeal.Stg.val_main_v49 (F := Ideal) X[main_arg4] :=
  (binary_line ssaMid (W2 m ρ c) 61 (a := main_arg4) (b := main_v51) (y := main_v52) rfl rfl (by decide) (by decide)).trans (by rw [k_main_arg4 m ρ c, k_main_v51 m ρ c hchi]; rfl)
theorem k_main_c_13 (hchi : ChiLink m ρ c) : K[main_c_13] = Cert.ReferenceIdeal.Stg.val_main_c_10 (F := Ideal) :=
  (nullary_line ssaMid (W2 m ρ c) 62 (y := main_c_13) rfl rfl).trans rfl
theorem k_main_v53 (hchi : ChiLink m ρ c) : K[main_v53] = Cert.ReferenceIdeal.Stg.val_main_v50 (F := Ideal) :=
  (unary_line ssaMid (W2 m ρ c) 63 (x := main_c_13) (y := main_v53) rfl rfl (by decide)).trans (by rw [k_main_c_13 m ρ c hchi]; rfl)
theorem k_main_v54 (hchi : ChiLink m ρ c) : K[main_v54] = Cert.ReferenceIdeal.Stg.val_main_v51 (F := Ideal) X[main_arg4] :=
  (binary_line ssaMid (W2 m ρ c) 64 (a := main_arg4) (b := main_v53) (y := main_v54) rfl rfl (by decide) (by decide)).trans (by rw [k_main_arg4 m ρ c, k_main_v53 m ρ c hchi]; rfl)
theorem k_main_v55 (hchi : ChiLink m ρ c) : K[main_v55] = Cert.ReferenceIdeal.Stg.val_main_v52 (F := Ideal) X[main_arg4] :=
  (ternary_line ssaMid (W2 m ρ c) 65 (c := main_v52) (a := main_v54) (b := main_arg4) (y := main_v55) rfl rfl (by decide) (by decide) (by decide)).trans (by rw [k_main_v52 m ρ c hchi, k_main_v54 m ρ c hchi, k_main_arg4 m ρ c]; rfl)
theorem k_main_v56 (hchi : ChiLink m ρ c) : K[main_v56] = Cert.ReferenceIdeal.Stg.val_main_v53 (F := Ideal) X[main_arg4] :=
  (unary_line ssaMid (W2 m ρ c) 66 (x := main_v55) (y := main_v56) rfl rfl (by decide)).trans (by rw [k_main_v55 m ρ c hchi]; rfl)
theorem k_main_v57 (hchi : ChiLink m ρ c) : K[main_v57] = Cert.ReferenceIdeal.Stg.val_main_v54 (F := Ideal) X[main_arg4] X[main_arg7] :=
  (binary_line ssaMid (W2 m ρ c) 67 (a := main_arg7) (b := main_v56) (y := main_v57) rfl rfl (by decide) (by decide)).trans (by rw [k_main_arg7 m ρ c, k_main_v56 m ρ c hchi]; rfl)
theorem k_main_v58 (hchi : ChiLink m ρ c) : K[main_v58] = Cert.ReferenceIdeal.Stg.val_main_v55 (F := Ideal) X[main_arg1] X[main_arg3] X[main_arg4] X[main_arg5] X[main_arg6] X[main_arg7] X[main_arg8] X[main_arg9] X[main_arg10] X[main_arg11] X[main_arg12] :=
  (binary_line ssaMid (W2 m ρ c) 68 (a := main_v50) (b := main_v57) (y := main_v58) rfl rfl (by decide) (by decide)).trans (by rw [k_main_v50 m ρ c hchi, k_main_v57 m ρ c hchi]; rfl)
theorem k_main_v59 (hchi : ChiLink m ρ c) : K[main_v59] = Cert.ReferenceIdeal.Stg.val_main_v58 (F := Ideal) X[main_arg1] X[main_arg3] X[main_arg4] X[main_arg5] X[main_arg6] X[main_arg7] X[main_arg8] X[main_arg9] X[main_arg10] X[main_arg11] X[main_arg12] X[main_arg13] :=
  (binary_line ssaMid (W2 m ρ c) 69 (a := main_v58) (b := main_v5) (y := main_v59) rfl rfl (by decide) (by decide)).trans (by rw [k_main_v58 m ρ c hchi, k_main_v5 m ρ c]; rfl)
theorem k_main_c_14 (hchi : ChiLink m ρ c) : K[main_c_14] = Cert.ReferenceIdeal.Stg.val_main_c_12 (F := Ideal) :=
  (nullary_line ssaMid (W2 m ρ c) 70 (y := main_c_14) rfl rfl).trans rfl
theorem k_main_v60 (hchi : ChiLink m ρ c) : K[main_v60] = Cert.ReferenceIdeal.Stg.val_main_v59 (F := Ideal) :=
  (unary_line ssaMid (W2 m ρ c) 71 (x := main_c_14) (y := main_v60) rfl rfl (by decide)).trans (by rw [k_main_c_14 m ρ c hchi]; rfl)
theorem k_main_v61 (hchi : ChiLink m ρ c) : K[main_v61] = Cert.ReferenceIdeal.Stg.val_main_v60 (F := Ideal) X[main_arg3] :=
  (binary_line ssaMid (W2 m ρ c) 72 (a := main_arg3) (b := main_v60) (y := main_v61) rfl rfl (by decide) (by decide)).trans (by rw [k_main_arg3 m ρ c, k_main_v60 m ρ c hchi]; rfl)
theorem k_main_c_15 (hchi : ChiLink m ρ c) : K[main_c_15] = Cert.ReferenceIdeal.Stg.val_main_c_13 (F := Ideal) :=
  (nullary_line ssaMid (W2 m ρ c) 73 (y := main_c_15) rfl rfl).trans rfl
theorem k_main_v62 (hchi : ChiLink m ρ c) : K[main_v62] = Cert.ReferenceIdeal.Stg.val_main_v61 (F := Ideal) :=
  (unary_line ssaMid (W2 m ρ c) 74 (x := main_c_15) (y := main_v62) rfl rfl (by decide)).trans (by rw [k_main_c_15 m ρ c hchi]; rfl)
theorem k_main_v63 (hchi : ChiLink m ρ c) : K[main_v63] = Cert.ReferenceIdeal.Stg.val_main_v62 (F := Ideal) X[main_arg3] :=
  (binary_line ssaMid (W2 m ρ c) 75 (a := main_arg3) (b := main_v62) (y := main_v63) rfl rfl (by decide) (by decide)).trans (by rw [k_main_arg3 m ρ c, k_main_v62 m ρ c hchi]; rfl)
theorem k_main_v64 (hchi : ChiLink m ρ c) : K[main_v64] = Cert.ReferenceIdeal.Stg.val_main_v63 (F := Ideal) X[main_arg3] :=
  (ternary_line ssaMid (W2 m ρ c) 76 (c := main_v61) (a := main_v63) (b := main_arg3) (y := main_v64) rfl rfl (by decide) (by decide) (by decide)).trans (by rw [k_main_v61 m ρ c hchi, k_main_v63 m ρ c hchi, k_main_arg3 m ρ c]; rfl)
theorem k_main_v65 (hchi : ChiLink m ρ c) : K[main_v65] = Cert.ReferenceIdeal.Stg.val_main_v64 (F := Ideal) X[main_arg3] :=
  (unary_line ssaMid (W2 m ρ c) 77 (x := main_v64) (y := main_v65) rfl rfl (by decide)).trans (by rw [k_main_v64 m ρ c hchi]; rfl)
theorem k_main_v66 (hchi : ChiLink m ρ c) : K[main_v66] = Cert.ReferenceIdeal.Stg.val_main_v65 (F := Ideal) X[main_arg1] X[main_arg3] X[main_arg4] X[main_arg5] X[main_arg6] X[main_arg7] X[main_arg8] X[main_arg9] X[main_arg10] X[main_arg11] X[main_arg12] X[main_arg13] :=
  (binary_line ssaMid (W2 m ρ c) 78 (a := main_v59) (b := main_v65) (y := main_v66) rfl rfl (by decide) (by decide)).trans (by rw [k_main_v59 m ρ c hchi, k_main_v65 m ρ c hchi]; rfl)

/-! ## What the second call finds, and what the program returns besides the second call's result -/

/-- The per-atom charges. -/
theorem charges (hchi : ChiLink m ρ c) : W5 m ρ c (Proc.devRef .tc main_v42) = Cert.ReferenceIdeal.Stg.val_main_v39 (F := Ideal) X[main_arg1] X[main_arg3] X[main_arg4] X[main_arg5] X[main_arg6] X[main_arg8] X[main_arg9] X[main_arg10] X[main_arg11] X[main_arg12] :=
  (congrFun (W5_eq m ρ c) _).trans (k_main_v42 m ρ c hchi)
/-- The potential. -/
theorem pot (hchi : ChiLink m ρ c) : W5 m ρ c (Proc.devRef .tc main_v49) = Cert.ReferenceIdeal.Stg.val_main_v46 (F := Ideal) X[main_arg1] X[main_arg3] X[main_arg4] X[main_arg5] X[main_arg6] X[main_arg8] X[main_arg9] X[main_arg10] X[main_arg11] X[main_arg12] :=
  (congrFun (W5_eq m ρ c) _).trans (k_main_v49 m ρ c hchi)
/-- The gathered per-edge rows. -/
theorem gathered (hchi : ChiLink m ρ c) : W5 m ρ c (Proc.devRef .tc main_v66) = Cert.ReferenceIdeal.Stg.val_main_v65 (F := Ideal) X[main_arg1] X[main_arg3] X[main_arg4] X[main_arg5] X[main_arg6] X[main_arg7] X[main_arg8] X[main_arg9] X[main_arg10] X[main_arg11] X[main_arg12] X[main_arg13] :=
  (congrFun (W5_eq m ρ c) _).trans (k_main_v66 m ρ c hchi)
theorem weight1 : W5 m ρ c (Proc.devRef .tc main_v7) = Cert.ReferenceIdeal.Stg.val_main_v68 (F := Ideal) X[main_arg14] :=
  (congrFun (W5_eq m ρ c) _).trans (k_main_v7 m ρ c)
theorem weight2 : W5 m ρ c (Proc.devRef .tc main_v9) = Cert.ReferenceIdeal.Stg.val_main_v72 (F := Ideal) X[main_arg15] :=
  (congrFun (W5_eq m ρ c) _).trans (k_main_v9 m ρ c)
theorem weight3 : W5 m ρ c (Proc.devRef .tc main_v11) = Cert.ReferenceIdeal.Stg.val_main_v76 (F := Ideal) X[main_arg16] :=
  (congrFun (W5_eq m ρ c) _).trans (k_main_v11 m ρ c)

end Cert.KernelIdeal.HostLines

end
-- ==== Proof.ChiSpec.lean ====
/-
  The per-edge scalar gate of the edge network, as ONE function of its three argument arrays.

  For an edge row `e` the hidden vector is `h k = ∑ j, x (e, j) * w1 (j, k)` (sixteen entries, each a sum of
  forty-eight products), the activation is `silu h = h * logistic h` with `logistic h = 1 / (1 + exp (-h))`, and the
  result is `chi (e, u) = ∑ k, silu (h k) * w2 (k, u)`, where `u` ranges over the single output column.  Everything
  is an extended real; only sums and products of extended reals appear, in one fixed order.
-/
import Idealize.ShloMosaic.PureOps.Ideal
import Idealize.ShloMosaic.Lib.ValueIdx

noncomputable section

open scoped BigOperators

namespace Cert.ChiSpec

open Idealize.ShloMosaic Idealize.ShloMosaic.ValueIdx

/-- The edge features: one row of forty-eight entries per edge. -/
abbrev SEdgeIn : Shape := ⟨2, ![1600000, 48]⟩
/-- The first weight matrix. -/
abbrev SW1 : Shape := ⟨2, ![48, 16]⟩
/-- The second weight matrix: one column. -/
abbrev SW2 : Shape := ⟨2, ![16, 1]⟩
/-- The result: one entry per edge, kept as a column. -/
abbrev SEdgeOut : Shape := ⟨2, ![1600000, 1]⟩

/-- `silu h = h * logistic h`. -/
def silu (h : EReal) : EReal := h * Ideal.logistic h

/-- Entry `k` of the hidden vector of edge row `e`. -/
def hidden (x : SEdgeIn.Idx → EReal) (w1 : SW1.Idx → EReal) (e : Fin 1600000) (k : Fin 16) : EReal :=
  ∑ j : Fin 48, x (ix2 e j) * w1 (ix2 j k)

/-- The gate: `chi (e, u) = ∑ k, silu (∑ j, x (e, j) * w1 (j, k)) * w2 (k, u)`. -/
def chi (x : SEdgeIn.Idx → EReal) (w1 : SW1.Idx → EReal) (w2 : SW2.Idx → EReal) : SEdgeOut.Idx → EReal :=
  fun i => ∑ k : Fin 16, silu (hidden x w1 (i 0) k) * w2 (ix2 k (i 1))

/-- The gate read at row `e`, column `u`. -/
theorem chi_apply (x : SEdgeIn.Idx → EReal) (w1 : SW1.Idx → EReal) (w2 : SW2.Idx → EReal) (e : Fin 1600000) (u : Fin 1) :
    chi x w1 w2 (ix2 e u) = ∑ k : Fin 16, silu (∑ j : Fin 48, x (ix2 e j) * w1 (ix2 j k)) * w2 (ix2 k u) := rfl

/-- The float word of one is the extended real one. -/
theorem ofBits_one : Ideal.ofBits .f32 0x3F800000#32 = 1 := by
  simp [Ideal.ofBits, Ideal.ieee, -EReal.coe_mul]; norm_num

/-- The activation spelt with the quotient: `h * (1 / (1 + exp (-h)))`, the one written as its float word. -/
theorem silu_eq_expanded (h : EReal) :
    h * Ideal.div (Ideal.ofBits .f32 0x3F800000#32) (Ideal.ofBits .f32 0x3F800000#32 + Ideal.exp (-h)) = silu h := by
  rw [ofBits_one]; rfl

end Cert.ChiSpec

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«147440_j54674933678514_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.ChiPay.lean ====
/-
  What the gate kernel's body stores, read at one entry of its block.

  The body multiplies its block of edge rows by the first weight matrix (a product into a zero accumulator), applies
  `h * logistic h` entry by entry, and multiplies by the one-column second matrix.  The narrowing casts before each
  product are the identity on extended reals, and the two shape casts are casts of a shape to itself.  So the stored
  block at row `p`, column `u` is `∑ k, silu (∑ j, x (p, j) * w1 (j, k)) * w2 (k, u)`: the specification's formula
  with the block's rows in place of the array's.
-/
import proofs.«147440_j54674933678514_2_alg».proof.Proof.Gen.KernelIdeal.Skeleton
import proofs.«147440_j54674933678514_2_alg».proof.Proof.ChiSpec
import proofs.«147440_j54674933678514_2_alg».proof.Proof.LibMatmul2
import Idealize.ShloMosaic.Lib.Pipeline.Value
import Idealize.ShloMosaic.Lib.ValueIdx
import Idealize.ShloMosaic.PureOps.Ideal.Laws

noncomputable section

open scoped BigOperators

namespace Cert.KernelIdeal.ChiK

open Cert.KernelIdeal Cert.KernelIdeal.Gen Idealize.ShloMosaic Idealize.ShloMosaic.ValueIdx

/-- In the first product the left operand's row is the result's row. -/
theorem lhs_free1 (j : S8000x16.Idx) (q : dot_S8000x48_S48x16_S8000x16_1_0_0_1_n_n.contr.Idx) :
    (dot_S8000x48_S48x16_S8000x16_1_0_0_1_n_n.lhsIdx j q 0).val = (j 0).val := by
  unfold DotDims.lhsIdx
  rw [dif_neg (show ¬(0 : Fin S8000x48.rank) ∈ dot_S8000x48_S48x16_S8000x16_1_0_0_1_n_n.lhsBatch by decide),
    dif_pos (show (0 : Fin S8000x48.rank) ∈ dot_S8000x48_S48x16_S8000x16_1_0_0_1_n_n.lhsNonContracting by decide)]
  rfl

/-- In the first product the right operand's column is the result's column. -/
theorem rhs_free1 (j : S8000x16.Idx) (q : dot_S8000x48_S48x16_S8000x16_1_0_0_1_n_n.contr.Idx) :
    (dot_S8000x48_S48x16_S8000x16_1_0_0_1_n_n.rhsIdx j q 1).val = (j 1).val := by
  unfold DotDims.rhsIdx
  rw [dif_neg (show ¬(1 : Fin S48x16.rank) ∈ dot_S8000x48_S48x16_S8000x16_1_0_0_1_n_n.rhsBatch by decide),
    dif_pos (show (1 : Fin S48x16.rank) ∈ dot_S8000x48_S48x16_S8000x16_1_0_0_1_n_n.rhsNonContracting by decide)]
  rfl

/-- In the second product the left operand's row is the result's row. -/
theorem lhs_free2 (j : S8000x1.Idx) (q : dot_S8000x16_S16x1_S8000x1_1_0_0_1_n_n.contr.Idx) :
    (dot_S8000x16_S16x1_S8000x1_1_0_0_1_n_n.lhsIdx j q 0).val = (j 0).val := by
  unfold DotDims.lhsIdx
  rw [dif_neg (show ¬(0 : Fin S8000x16.rank) ∈ dot_S8000x16_S16x1_S8000x1_1_0_0_1_n_n.lhsBatch by decide),
    dif_pos (show (0 : Fin S8000x16.rank) ∈ dot_S8000x16_S16x1_S8000x1_1_0_0_1_n_n.lhsNonContracting by decide)]
  rfl

/-- In the second product the right operand's column is the result's column. -/
theorem rhs_free2 (j : S8000x1.Idx) (q : dot_S8000x16_S16x1_S8000x1_1_0_0_1_n_n.contr.Idx) :
    (dot_S8000x16_S16x1_S8000x1_1_0_0_1_n_n.rhsIdx j q 1).val = (j 1).val := by
  unfold DotDims.rhsIdx
  rw [dif_neg (show ¬(1 : Fin S16x1.rank) ∈ dot_S8000x16_S16x1_S8000x1_1_0_0_1_n_n.rhsBatch by decide),
    dif_pos (show (1 : Fin S16x1.rank) ∈ dot_S8000x16_S16x1_S8000x1_1_0_0_1_n_n.rhsNonContracting by decide)]
  rfl

/-- The first product at row `p`, entry `k`: the hidden pre-activation of block row `p`. -/
theorem hidden_blk (xa : FVec Ideal S8000x48 .bf16) (wa : FVec Ideal S48x16 .bf16) (p : Fin 8000) (k : Fin 16) :
    matmul dot_S8000x48_S48x16_S8000x16_1_0_0_1_n_n none xa wa (constant (F := Ideal) S8000x16 .f32 0x00000000#32) (ix2 p k)
      = ∑ j : Fin 48, xa (ix2 p j) * wa (ix2 j k) :=
  LibMatmul2.matmul_zero_apply dot_S8000x48_S48x16_S8000x16_1_0_0_1_n_n rfl rfl rfl rfl lhs_free1 rhs_free1 none xa wa p k

/-- The second product at row `p`, column `u`. -/
theorem out_blk (ha : FVec Ideal S8000x16 .bf16) (wb : FVec Ideal S16x1 .bf16) (p : Fin 8000) (u : Fin 1) :
    matmul dot_S8000x16_S16x1_S8000x1_1_0_0_1_n_n none ha wb (constant (F := Ideal) S8000x1 .f32 0x00000000#32) (ix2 p u)
      = ∑ k : Fin 16, ha (ix2 p k) * wb (ix2 k u) :=
  LibMatmul2.matmul_zero_apply dot_S8000x16_S16x1_S8000x1_1_0_0_1_n_n rfl rfl rfl rfl lhs_free2 rhs_free2 none ha wb p u

/-- THE STORED BLOCK at row `p`, column `u`, from the three loaded blocks. -/
theorem pay_apply (x0 : Vec Ideal S8000x48 .f32) (x1 : Vec Ideal S48x16 .f32) (x2 : Vec Ideal S16x1 .f32) (p : Fin 8000) (u : Fin 1) :
    k0_pay1 (F := Ideal) x0 x1 x2 (ix2 p u)
      = ∑ k : Fin 16, Cert.ChiSpec.silu (∑ j : Fin 48, x0 (ix2 p j) * x1 (ix2 j k)) * x2 (ix2 k u) := by
  unfold k0_pay1
  refine (out_blk _ _ p u).trans ?_
  refine Finset.sum_congr rfl fun k _ => ?_
  rw [shapeCast_self, shapeCast_self]
  show (matmul dot_S8000x48_S48x16_S8000x16_1_0_0_1_n_n none (truncf .bf16 x0 bitsLt_bf16_f32) (truncf .bf16 x1 bitsLt_bf16_f32)
        (constant (F := Ideal) S8000x16 .f32 0x00000000#32) (ix2 p k))
      * Ideal.logistic (matmul dot_S8000x48_S48x16_S8000x16_1_0_0_1_n_n none (truncf .bf16 x0 bitsLt_bf16_f32) (truncf .bf16 x1 bitsLt_bf16_f32)
        (constant (F := Ideal) S8000x16 .f32 0x00000000#32) (ix2 p k)) * x2 (ix2 k u) = _
  rw [hidden_blk]
  rfl

end Cert.KernelIdeal.ChiK

end
-- ==== Proof.ChiArr.lean ====
/-
  The gate kernel's output array after its region, whatever the buffers hold when the region is entered.

  The grid has 200 points; point `t` reads rows `8000 t … 8000 t + 7999` of the edge features (all 48 columns), the two
  weight matrices whole, and writes rows `8000 t … 8000 t + 7999` of the one-column result.  Row `p` of a block is row
  `8000 t + p` of its array, so the block a point writes back is the block of the specification's function of the three
  arrays; the 200 blocks cover the 1600000 rows (row `r` lies in the block of point `r / 8000`), so the array ends
  holding that function.
-/
import proofs.«147440_j54674933678514_2_alg».proof.Proof.Gen.KernelIdeal.Frame
import proofs.«147440_j54674933678514_2_alg».proof.Proof.ChiPay
import Idealize.ShloMosaic.Lib.Pipeline.Value

noncomputable section

open scoped BigOperators

namespace Cert.KernelIdeal.ChiK

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the weight matrices at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A grid point is below 200. -/
theorem point_lt (t : Fin cfg0.N) : t.val < 200 := lt_of_lt_of_eq t.isLt N_0

/-- Row `p`, column `j` of the edge-feature block of point `t` is row `8000 t + p`, column `j` of the array. -/
theorem blk0_apply (c : Dev nD) (t : Fin cfg0.N) (p : Fin 8000) (j : Fin 48) (i : S1600000x48.Idx)
    (h0 : (i 0).val = t.val * 8000 + p.val) (h1 : (i 1).val = j.val) :
    (iblk0 V c 0 t : Vec Ideal S8000x48 .f32) (ix2 p j) = (V c main_arg1 : S1600000x48.Idx → EReal) i := by
  obtain ⟨e00, e01, -⟩ := idx_facts t
  unfold iblk0
  rw [View.read_apply]
  show (V c main_arg1 : S1600000x48.Idx → EReal) _ = _
  refine congrArg (V c main_arg1 : S1600000x48.Idx → EReal) (funext fun a => Fin.ext ?_)
  match a with
  | ⟨0, _⟩ => show win0_0.index t (0 : Fin 2) * 8000 + 1 * p.val = (i 0).val; omega
  | ⟨1, _⟩ => show win0_0.index t (1 : Fin 2) * 48 + 1 * j.val = (i 1).val; omega

/-- The first weight matrix's block at any point is the whole matrix. -/
theorem blk1_apply (c : Dev nD) (t : Fin cfg0.N) (j : Fin 48) (k : Fin 16) :
    (iblk0 V c 1 t : Vec Ideal S48x16 .f32) (ix2 j k) = (V c main_v1 : S48x16.Idx → EReal) (ix2 j k) := by
  obtain ⟨-, -, e10, e11, -⟩ := idx_facts t
  unfold iblk0
  rw [View.read_apply]
  show (V c main_v1 : S48x16.Idx → EReal) _ = _
  refine congrArg (V c main_v1 : S48x16.Idx → EReal) (funext fun a => Fin.ext ?_)
  match a with
  | ⟨0, _⟩ => show win0_1.index t (0 : Fin 2) * 48 + 1 * j.val = j.val; omega
  | ⟨1, _⟩ => show win0_1.index t (1 : Fin 2) * 16 + 1 * k.val = k.val; omega

/-- The second weight matrix's block at any point is the whole matrix. -/
theorem blk2_apply (c : Dev nD) (t : Fin cfg0.N) (k : Fin 16) (u : Fin 1) :
    (iblk0 V c 2 t : Vec Ideal S16x1 .f32) (ix2 k u) = (V c main_v3 : S16x1.Idx → EReal) (ix2 k u) := by
  obtain ⟨-, -, -, -, e20, e21, -⟩ := idx_facts t
  unfold iblk0
  rw [View.read_apply]
  show (V c main_v3 : S16x1.Idx → EReal) _ = _
  refine congrArg (V c main_v3 : S16x1.Idx → EReal) (funext fun a => Fin.ext ?_)
  match a with
  | ⟨0, _⟩ => show win0_2.index t (0 : Fin 2) * 16 + 1 * k.val = k.val; omega
  | ⟨1, _⟩ => show win0_2.index t (1 : Fin 2) * 1 + 1 * u.val = u.val; omega

/-- Row `p` of the result block of point `t` is row `8000 t + p` of the result array. -/
theorem emb3 (t : Fin cfg0.N) (p : Fin 8000) (u : Fin 1) :
    (((cfg0.win 3).blk t).view.emb (ix2 p u) : S1600000x1.Idx)
      = ix2 (⟨t.val * 8000 + p.val, by have := point_lt t; have := p.isLt; omega⟩ : Fin 1600000) u := by
  obtain ⟨-, -, -, -, -, -, e30, e31⟩ := idx_facts t
  funext a
  apply Fin.ext
  match a with
  | ⟨0, _⟩ => show win0_3.index t (0 : Fin 2) * 8000 + 1 * p.val = t.val * 8000 + p.val; omega
  | ⟨1, _⟩ => show win0_3.index t (1 : Fin 2) * 1 + 1 * u.val = u.val; omega

/-- The specification's gate of the three arrays as the region finds them. -/
abbrev G (c : Dev nD) : S1600000x1.Idx → EReal :=
  Cert.ChiSpec.chi (V c main_arg1) (V c main_v1) (V c main_v3)

/-- WHAT POINT `t` WRITES BACK is block `t` of the gate of the three arrays. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz]
  simp only [View.ld_unit_zero (S := S8000x48) hz, View.ld_unit_zero (S := S48x16) hz, View.ld_unit_zero (S := S16x1) hz]
  funext y
  obtain ⟨p, u, rfl⟩ : ∃ (p : Fin 8000) (u : Fin 1), y = ix2 p u := ⟨y 0, y 1, eq_ix2 y⟩
  refine (pay_apply (iblk0 V c 0 t) (iblk0 V c 1 t) (iblk0 V c 2 t) p u).trans ?_
  rw [View.read_apply, emb3 t p u]
  unfold G
  rw [Cert.ChiSpec.chi_apply]
  refine Finset.sum_congr rfl fun k _ => ?_
  rw [blk2_apply V c t k u]
  refine congrArg (fun h => Cert.ChiSpec.silu h * (V c main_v3 : S16x1.Idx → EReal) (ix2 k u)) ?_
  refine Finset.sum_congr rfl fun j _ => ?_
  rw [blk1_apply V c t j k, blk0_apply V c t p j (ix2 ⟨t.val * 8000 + p.val, by have := point_lt t; have := p.isLt; omega⟩ j) rfl rfl]

/-- An index of the result array is in point `t`'s block iff each coordinate is in the block's range on its axis. -/
theorem mem_blk (t : Fin cfg0.N) (i : S1600000x1.Idx) :
    i ∈ ((cfg0.win 3).blk t).view.set ↔ ∀ a : Fin 2, win0_3.index t a * S8000x1.size a ≤ (i a).val
      ∧ (i a).val < win0_3.index t a * S8000x1.size a + S8000x1.size a := by
  show i ∈ ((View.whole main_v12).slice (win0_3.rect t)).set ↔ _
  rw [View.set_slice_whole, Rect.mem_set_unit]
  exact Iff.rfl

/-- Every row of the result lies in the block of the point `row / 8000`, and every point writes back. -/
theorem cover (i : S1600000x1.Idx) :
    ∃ t : Fin cfg0.N, (cfg0.win 3).flush t = true ∧ i ∈ ((cfg0.win 3).blk t).view.set := by
  have hi0 : (i 0).val < 1600000 := (i 0).isLt
  have hi1 : (i 1).val < 1 := (i 1).isLt
  obtain ⟨t, ht⟩ : ∃ t : Fin cfg0.N, t.val = (i 0).val / 8000 :=
    ⟨⟨(i 0).val / 8000, lt_of_lt_of_eq (by omega : (i 0).val / 8000 < 200) N_0.symm⟩, rfl⟩
  refine ⟨t, flush0_3 t, ?_⟩
  rw [mem_blk]
  obtain ⟨-, -, -, -, -, -, e30, e31⟩ := idx_facts t
  intro a
  match a with
  | ⟨0, _⟩ =>
    show win0_3.index t (0 : Fin 2) * 8000 ≤ (i 0).val ∧ (i 0).val < win0_3.index t (0 : Fin 2) * 8000 + 8000
    omega
  | ⟨1, _⟩ =>
    show win0_3.index t (1 : Fin 2) * 1 ≤ (i 1).val ∧ (i 1).val < win0_3.index t (1 : Fin 2) * 1 + 1
    omega

/-- THE RESULT ARRAY after the region: the gate of the three arrays as the region found them. -/
theorem arr_eq (c : Dev nD) :
    (dat0 (F := Ideal) V c).arrAt 3 cfg0.N = Cert.ChiSpec.chi (V c main_arg1) (V c main_v1) (V c main_v3) :=
  (dat0 (F := Ideal) V c).arrAt_eq_of_cover 3 (G V c) (fun t _ => flushed_eq V c t) cover

end Cert.KernelIdeal.ChiK

end
-- ==== Proof.ChiRef.lean ====
/-
  The reference's per-edge gate is the specification's function of the edge features and the two scaled weight
  matrices.

  The reference computes `x · W1` by one contraction, applies `h * (1 / (1 + exp (-h)))` entry by entry (the two ones
  are constants broadcast to the whole array), and contracts with the second matrix.  Read at an index, the two
  contractions are the specification's two sums in the same order, and the activation is `silu` because `logistic h`
  IS `1 / (1 + exp (-h))`.  The two scaled weight matrices (each a quotient by a constant) are never opened: they are
  the same terms on both sides.
-/
import proofs.«147440_j54674933678514_2_alg».proof.Proof.RefStages
import proofs.«147440_j54674933678514_2_alg».proof.Proof.ChiSpec
import proofs.«147440_j54674933678514_2_alg».proof.Proof.LibMatmul2
import Idealize.ShloMosaic.Lib.Pipeline.Value
import Idealize.ShloMosaic.Lib.ValueIdx
import Idealize.ShloMosaic.PureOps.Ideal.Laws

noncomputable section

open scoped BigOperators

namespace Cert.ReferenceIdeal.ChiR

open Cert.ReferenceIdeal Cert.ReferenceIdeal.Gen Cert.ReferenceIdeal.Stg Idealize.ShloMosaic Idealize.ShloMosaic.ValueIdx

/-- In the first contraction the left operand's row is the result's row. -/
theorem lhs_free1 (j : S1600000x16.Idx) (q : dot_S1600000x48_S48x16_S1600000x16_1_0_0_1_n_n.contr.Idx) :
    (dot_S1600000x48_S48x16_S1600000x16_1_0_0_1_n_n.lhsIdx j q 0).val = (j 0).val := by
  unfold DotDims.lhsIdx
  rw [dif_neg (show ¬(0 : Fin S1600000x48.rank) ∈ dot_S1600000x48_S48x16_S1600000x16_1_0_0_1_n_n.lhsBatch by decide),
    dif_pos (show (0 : Fin S1600000x48.rank) ∈ dot_S1600000x48_S48x16_S1600000x16_1_0_0_1_n_n.lhsNonContracting by decide)]
  rfl

/-- In the first contraction the right operand's column is the result's column. -/
theorem rhs_free1 (j : S1600000x16.Idx) (q : dot_S1600000x48_S48x16_S1600000x16_1_0_0_1_n_n.contr.Idx) :
    (dot_S1600000x48_S48x16_S1600000x16_1_0_0_1_n_n.rhsIdx j q 1).val = (j 1).val := by
  unfold DotDims.rhsIdx
  rw [dif_neg (show ¬(1 : Fin S48x16.rank) ∈ dot_S1600000x48_S48x16_S1600000x16_1_0_0_1_n_n.rhsBatch by decide),
    dif_pos (show (1 : Fin S48x16.rank) ∈ dot_S1600000x48_S48x16_S1600000x16_1_0_0_1_n_n.rhsNonContracting by decide)]
  rfl

/-- In the second contraction the left operand's row is the result's row. -/
theorem lhs_free2 (j : S1600000x1.Idx) (q : dot_S1600000x16_S16x1_S1600000x1_1_0_0_1_n_n.contr.Idx) :
    (dot_S1600000x16_S16x1_S1600000x1_1_0_0_1_n_n.lhsIdx j q 0).val = (j 0).val := by
  unfold DotDims.lhsIdx
  rw [dif_neg (show ¬(0 : Fin S1600000x16.rank) ∈ dot_S1600000x16_S16x1_S1600000x1_1_0_0_1_n_n.lhsBatch by decide),
    dif_pos (show (0 : Fin S1600000x16.rank) ∈ dot_S1600000x16_S16x1_S1600000x1_1_0_0_1_n_n.lhsNonContracting by decide)]
  rfl

/-- In the second contraction the right operand's column is the result's column. -/
theorem rhs_free2 (j : S1600000x1.Idx) (q : dot_S1600000x16_S16x1_S1600000x1_1_0_0_1_n_n.contr.Idx) :
    (dot_S1600000x16_S16x1_S1600000x1_1_0_0_1_n_n.rhsIdx j q 1).val = (j 1).val := by
  unfold DotDims.rhsIdx
  rw [dif_neg (show ¬(1 : Fin S16x1.rank) ∈ dot_S1600000x16_S16x1_S1600000x1_1_0_0_1_n_n.rhsBatch by decide),
    dif_pos (show (1 : Fin S16x1.rank) ∈ dot_S1600000x16_S16x1_S1600000x1_1_0_0_1_n_n.rhsNonContracting by decide)]
  rfl

/-- The hidden pre-activation of the reference at row `e`, entry `k`: the specification's sum. -/
theorem hidden_apply (x1 : (⟨S1600000x48, .f32⟩ : BufTy).Contents (Elt Ideal)) (x11 : (⟨S48x16, .f32⟩ : BufTy).Contents (Elt Ideal))
    (e : Fin 1600000) (k : Fin 16) :
    val_main_v5 (F := Ideal) x1 x11 (ix2 e k) = Cert.ChiSpec.hidden x1 (val_main_v4 (F := Ideal) x11) e k :=
  LibMatmul2.dotGeneral_apply dot_S1600000x48_S48x16_S1600000x16_1_0_0_1_n_n rfl rfl rfl rfl lhs_free1 rhs_free1 none
    x1 (val_main_v4 (F := Ideal) x11) e k

/-- The first broadcast one, at any index. -/
theorem one_a_apply (i : S1600000x16.Idx) : val_main_call0_v2 (F := Ideal) i = Ideal.ofBits .f32 0x3F800000#32 :=
  broadcastInDim_apply _ bcast_S_S1600000x16 (val_main_call0_cst (F := Ideal)) i (fun a => a.elim0) (fun a => a.elim0)

/-- The second broadcast one, at any index. -/
theorem one_b_apply (i : S1600000x16.Idx) : val_main_call0_v4 (F := Ideal) i = Ideal.ofBits .f32 0x3F800000#32 :=
  broadcastInDim_apply _ bcast_S_S1600000x16 (val_main_call0_cst_0 (F := Ideal)) i (fun a => a.elim0) (fun a => a.elim0)

/-- The activated hidden entry of the reference: `silu` of the hidden pre-activation. -/
theorem act_apply (x1 : (⟨S1600000x48, .f32⟩ : BufTy).Contents (Elt Ideal)) (x11 : (⟨S48x16, .f32⟩ : BufTy).Contents (Elt Ideal))
    (e : Fin 1600000) (k : Fin 16) :
    val_main_v6 (F := Ideal) x1 x11 (ix2 e k) = Cert.ChiSpec.silu (Cert.ChiSpec.hidden x1 (val_main_v4 (F := Ideal) x11) e k) := by
  show val_main_v5 (F := Ideal) x1 x11 (ix2 e k)
      * Ideal.div (val_main_call0_v4 (F := Ideal) (ix2 e k))
          (val_main_call0_v2 (F := Ideal) (ix2 e k) + Ideal.exp (-(val_main_v5 (F := Ideal) x1 x11 (ix2 e k)))) = _
  rw [one_a_apply, one_b_apply, hidden_apply]
  exact Cert.ChiSpec.silu_eq_expanded _

/-- The reference's gate is the specification's. -/
theorem ref_eq (x1 : (⟨S1600000x48, .f32⟩ : BufTy).Contents (Elt Ideal)) (x11 : (⟨S48x16, .f32⟩ : BufTy).Contents (Elt Ideal))
    (x12 : (⟨S16x1, .f32⟩ : BufTy).Contents (Elt Ideal)) :
    val_main_v9 (F := Ideal) x1 x11 x12
      = Cert.ChiSpec.chi x1 (val_main_v4 (F := Ideal) x11) (val_main_v8 (F := Ideal) x12) := by
  funext i
  obtain ⟨e, u, rfl⟩ : ∃ (e : Fin 1600000) (u : Fin 1), i = ix2 e u := ⟨i 0, i 1, eq_ix2 i⟩
  rw [Cert.ChiSpec.chi_apply]
  refine (LibMatmul2.dotGeneral_apply dot_S1600000x16_S16x1_S1600000x1_1_0_0_1_n_n rfl rfl rfl rfl lhs_free2 rhs_free2 none
    (val_main_v6 (F := Ideal) x1 x11) (val_main_v8 (F := Ideal) x12) e u).trans ?_
  refine Finset.sum_congr rfl fun k _ => ?_
  rw [act_apply]
  rfl

end Cert.ReferenceIdeal.ChiR

end
-- ==== Proof.Links.lean ====
/-
  The kernel program's buffers, read back to the launch arguments, up to the second pallas_call.

  The first call's result array is the reference's per-edge array: both are, edge by edge, the sum over the hidden
  units of silu(x·W1/√48) times W2/4, the kernel computing it tile by tile from the scaled weights the host lines
  before the call leave in their buffers.  Hence every host line between the calls holds the reference's stage of
  the same arguments; in particular the charges and the potential — two of the program's results, which the second
  call does not write — and the gathered rows and scaled weights that the second call reads.
-/
import proofs.«147440_j54674933678514_2_alg».proof.Proof.HostLines
import proofs.«147440_j54674933678514_2_alg».proof.Proof.ChiArr
import proofs.«147440_j54674933678514_2_alg».proof.Proof.ChiRef

set_option maxRecDepth 16384

noncomputable section

namespace Cert.KernelIdeal.Links

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The first call's result is the reference's per-edge array. -/
theorem chi_link : W2 m ρ c (Proc.devRef .tc main_v12) = Cert.ReferenceIdeal.Stg.val_main_v9 (F := Ideal) (m ((c.tc : Thread nD τ).loc main_arg1)) (m ((c.tc : Thread nD τ).loc main_arg11)) (m ((c.tc : Thread nD τ).loc main_arg12)) := by
  refine (W2_arr m ρ c 3).trans ((Cert.KernelIdeal.ChiK.arr_eq (V1 m ρ) c).trans ?_)
  rw [show V1 m ρ c main_arg1 = (m ((c.tc : Thread nD τ).loc main_arg1)) from HostLines.z_main_arg1 m ρ c,
    show V1 m ρ c main_v1 = Cert.ReferenceIdeal.Stg.val_main_v4 (F := Ideal) (m ((c.tc : Thread nD τ).loc main_arg11)) from HostLines.z_main_v1 m ρ c,
    show V1 m ρ c main_v3 = Cert.ReferenceIdeal.Stg.val_main_v8 (F := Ideal) (m ((c.tc : Thread nD τ).loc main_arg12)) from HostLines.z_main_v3 m ρ c]
  exact (Cert.ReferenceIdeal.ChiR.ref_eq _ _ _).symm

/-- The edge features and the edge vectors reach the second call as launched. -/
theorem entry_arg1 : W5 m ρ c (Proc.devRef .tc main_arg1) = (m ((c.tc : Thread nD τ).loc main_arg1)) :=
  ((W6_arr m ρ c 0).trans (((dat1 (V5 m ρ) c).arrAt_in 0 rfl _).trans (A_eq1 (V5 m ρ) c 0))).symm.trans (W6_main_arg1 m ρ c)
theorem entry_arg0 : W5 m ρ c (Proc.devRef .tc main_arg0) = (m ((c.tc : Thread nD τ).loc main_arg0)) :=
  ((W6_arr m ρ c 1).trans (((dat1 (V5 m ρ) c).arrAt_in 1 rfl _).trans (A_eq1 (V5 m ρ) c 1))).symm.trans (W6_main_arg0 m ρ c)

/-- The gathered rows and the three scaled weight matrices, as the second call finds them. -/
theorem entry_gathered : W5 m ρ c (Proc.devRef .tc main_v66) = Cert.ReferenceIdeal.Stg.val_main_v65 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  HostLines.gathered m ρ c (chi_link m ρ c)
theorem entry_w1 : W5 m ρ c (Proc.devRef .tc main_v7) = Cert.ReferenceIdeal.Stg.val_main_v68 (F := Ideal) (m ((c.tc : Thread nD τ).loc main_arg14)) := HostLines.weight1 m ρ c
theorem entry_w2 : W5 m ρ c (Proc.devRef .tc main_v9) = Cert.ReferenceIdeal.Stg.val_main_v72 (F := Ideal) (m ((c.tc : Thread nD τ).loc main_arg15)) := HostLines.weight2 m ρ c
theorem entry_w3 : W5 m ρ c (Proc.devRef .tc main_v11) = Cert.ReferenceIdeal.Stg.val_main_v76 (F := Ideal) (m ((c.tc : Thread nD τ).loc main_arg16)) := HostLines.weight3 m ρ c

/-- The charges and the potential are host lines between the calls; the second call does not write them. -/
theorem charges_link : W6 m ρ c (Proc.devRef .tc main_v42) = Cert.ReferenceIdeal.Stg.val_main_v39 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (W6_of_ne m ρ c main_v42 (by decide)).trans (HostLines.charges m ρ c (chi_link m ρ c))
theorem pot_link : W6 m ρ c (Proc.devRef .tc main_v49) = Cert.ReferenceIdeal.Stg.val_main_v46 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (W6_of_ne m ρ c main_v49 (by decide)).trans (HostLines.pot m ρ c (chi_link m ρ c))

end Cert.KernelIdeal.Links

end
-- ==== Proof.OutSpec.lean ====
/-
  The per-edge output: a three-layer perceptron of an edge's joined features, one row at a time, times the smoothing
  envelope of the edge vector's length.

  For edge `e` the features are the 48 entries of row `e` of `x` followed by the 16 entries of row `e` of `wg`. A layer is the
  product of a row of 64 entries by a 64 x 64 matrix; between layers each entry `h` becomes `h * logistic h`. With `u` the
  Euclidean length of the edge's vector, the envelope is `1 - 28 u^6 + 48 u^7 - 21 u^8` below `u = 1` and `0` from there on.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The word `0x3F800000` is the number one. -/
theorem one_f32 : Ideal.ofBits .f32 0x3F800000#32 = 1 := by
  simp [Ideal.ofBits, Ideal.ieee, -EReal.coe_mul]; norm_num

/-- Dividing by one changes nothing, at the infinities too. -/
theorem div_one (x : EReal) : Ideal.div x 1 = x := by
  rw [Ideal.div, if_neg one_ne_zero, ← EReal.coe_one, ← EReal.coe_inv, inv_one, EReal.coe_one, mul_one]

/-- `h * logistic h`. -/
def silu (h : EReal) : EReal := h * Ideal.logistic h

/-- The logistic function spelled with the word for one: `h * (1 / (1 + exp (-h)))`. -/
theorem silu_expanded (h : EReal) :
    h * Ideal.div (Ideal.ofBits .f32 0x3F800000#32) (Ideal.ofBits .f32 0x3F800000#32 + Ideal.exp (-h)) = silu h := by
  rw [one_f32]; rfl

/-- A row of 48 entries followed by a row of 16 entries: the joined row of 64. -/
def joinRow (xr : Fin 48 → EReal) (wr : Fin 16 → EReal) (j : Fin 64) : EReal :=
  if h : j.val < 48 then xr ⟨j.val, h⟩ else wr ⟨j.val - 48, by have := j.isLt; omega⟩

/-- A row of 64 entries times a 64 x 64 matrix, at column `q`. -/
def layer (r : Fin 64 → EReal) (w : (⟨2, ![64, 64]⟩ : Shape).Idx → EReal) (q : Fin 64) : EReal :=
  ∑ k : Fin 64, r k * w (ix2 k q)

/-- The three layers on one edge's features, at output column `q`. -/
def mlpRow (xr : Fin 48 → EReal) (wr : Fin 16 → EReal) (w1 w2 w3 : (⟨2, ![64, 64]⟩ : Shape).Idx → EReal) (q : Fin 64) : EReal :=
  layer (fun k3 => silu (layer (fun k2 => silu (layer (joinRow xr wr) w1 k2)) w2 k3)) w3 q

/-- The envelope as a function of the length `u`: the polynomial below one, zero from one on. -/
def envOf (u : EReal) : EReal :=
  Scalar.select (Ideal.cmp .olt u 1)
    (((1 - Ideal.ofBits .f32 0x41E00000#32 * (((u * u) * u) * ((u * u) * u)))
        + Ideal.ofBits .f32 0x42400000#32 * ((((u * u) * u) * ((u * u) * u)) * u))
      - Ideal.ofBits .f32 0x41A80000#32 * ((((u * u) * u) * ((u * u) * u)) * (u * u)))
    0

/-- The same polynomial with its powers and products grouped another way: only commutativity and associativity of the
    product are used, so it holds at the infinities too. -/
theorem envOf_regrouped (u : EReal) :
    Scalar.select (Ideal.cmp .olt u 1)
      (((1 - Ideal.ofBits .f32 0x41E00000#32 * ((u * u) * ((u * u) * (u * u))))
          + (Ideal.ofBits .f32 0x42400000#32 * ((u * u) * ((u * u) * (u * u)))) * u)
        - ((Ideal.ofBits .f32 0x41A80000#32 * ((u * u) * ((u * u) * (u * u)))) * u) * u)
      0 = envOf u := by
  have e6 : (u * u) * ((u * u) * (u * u)) = ((u * u) * u) * ((u * u) * u) := by ac_rfl
  unfold envOf
  rw [e6, mul_assoc (Ideal.ofBits .f32 0x42400000#32), mul_assoc (Ideal.ofBits .f32 0x41A80000#32), mul_assoc (Ideal.ofBits .f32 0x41A80000#32),
    mul_assoc ((((u * u) * u) * ((u * u) * u)))]

/-- One edge vector's envelope: `envOf` of its Euclidean length. -/
def env (r : Fin 3 → EReal) : EReal := envOf (Ideal.sqrt (∑ d : Fin 3, r d * r d))

/-- The result array, index by index: row `e`, column `q`. -/
def out (x : (⟨2, ![1600000, 48]⟩ : Shape).Idx → EReal) (v : (⟨2, ![1600000, 3]⟩ : Shape).Idx → EReal)
    (wg : (⟨2, ![1600000, 16]⟩ : Shape).Idx → EReal) (w1 w2 w3 : (⟨2, ![64, 64]⟩ : Shape).Idx → EReal) :
    (⟨2, ![1600000, 64]⟩ : Shape).Idx → EReal := fun i =>
  mlpRow (fun k => x (ix2 (i 0) k)) (fun k => wg (ix2 (i 0) k)) w1 w2 w3 (i 1) * env (fun d => v (ix2 (i 0) d))

end Cert.Spec

end
-- ==== Proof.LibColumnBroadcast.lean ====
/-
  One column broadcast over many.

  A keepdims column `[a, 1]` broadcast to `[a, b]` holds, at `(p, c)`, the column's entry of row `p`: the operand's second
  axis is a unit axis, so the broadcast reads it at `0`, and the first axis is carried along.
-/
import Idealize.ShloMosaic.Lib.Pipeline.Value
import Idealize.ShloMosaic.Lib.ValueIdx

namespace Idealize.ShloMosaic.LibColumnBroadcast

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumnBroadcast
-- ==== Proof.OutJoin.lean ====
/-
  Two blocks of columns joined side by side, read at an index.

  An `[R, 48]` array and an `[R, 16]` array joined along the columns give an `[R, 64]` array whose row `p` is row `p` of
  the first followed by row `p` of the second.
-/
import Idealize.ShloMosaic.Lib.Pipeline.Value
import Idealize.ShloMosaic.Lib.ValueIdx
import proofs.«147440_j54674933678514_2_alg».proof.Proof.OutSpec

noncomputable section

namespace Cert.Spec

open Idealize.ShloMosaic Idealize.ShloMosaic.ValueIdx

/-- The joined array at `(p, j)`: column `j` of the joined row `p`. -/
theorem concatenate_apply {R : Nat} (x : (⟨2, ![R, 48]⟩ : Shape).Idx → EReal) (w : (⟨2, ![R, 16]⟩ : Shape).Idx → EReal)
    (h : Shape.Concatenates [(⟨2, ![R, 48]⟩ : Shape), ⟨2, ![R, 16]⟩] ⟨2, ![R, 64]⟩ 1) (p : Fin R) (j : Fin 64) :
    concatenate ⟨2, ![R, 64]⟩ 1 [⟨⟨2, ![R, 48]⟩, x⟩, ⟨⟨2, ![R, 16]⟩, w⟩] h (ix2 p j)
      = joinRow (fun k => x (ix2 p k)) (fun k => w (ix2 p k)) j := by
  unfold joinRow
  by_cases hj : j.val < 48
  · rw [dif_pos hj]
    exact concatenate_pair_apply_left 1 x w h (ix2 p j) rfl (ix2 p ⟨j.val, hj⟩) (fun b => by
      match b with
      | ⟨0, _⟩ => rfl
      | ⟨1, _⟩ => rfl)
  · rw [dif_neg hj]
    exact concatenate_pair_apply_right 1 x w h (ix2 p j) rfl rfl (ix2 p ⟨j.val - 48, by have := j.isLt; omega⟩) (fun b hb => by
      match b with
      | ⟨0, _⟩ => rfl
      | ⟨1, _⟩ => exact absurd rfl hb) (by
      show j.val - 48 + 48 = j.val
      omega)

end Cert.Spec

end
-- ==== Proof.OutKernelMlp.lean ====
/-
  The kernel's three layers on one block of 8000 edge rows, read at an index.

  Each matrix product into a zero accumulator is, at `(p, q)`, row `p` of the left operand times the matrix at column `q`;
  each activation is `h * logistic h`; the first layer's input is the block of `x` joined with the block of `wg`; the changes
  of float format are the identity on the extended reals. The last product is multiplied, column by column, by the
  envelope column, which is kept abstract here.
-/
import proofs.«147440_j54674933678514_2_alg».proof.Proof.Gen.KernelIdeal.Skeleton
import Idealize.ShloMosaic.Lib.Pipeline.Value
import Idealize.ShloMosaic.Lib.ValueIdx
import Idealize.ShloMosaic.PureOps.Ideal.Laws
import proofs.«147440_j54674933678514_2_alg».proof.Proof.LibMatmul2
import proofs.«147440_j54674933678514_2_alg».proof.Proof.LibColumnBroadcast
import proofs.«147440_j54674933678514_2_alg».proof.Proof.OutSpec
import proofs.«147440_j54674933678514_2_alg».proof.Proof.OutJoin

noncomputable section

open scoped BigOperators

namespace Cert.KernelIdeal.OutK

open Cert.KernelIdeal Cert.KernelIdeal.Gen Idealize.ShloMosaic Idealize.ShloMosaic.ValueIdx Idealize.SL.Sem

/-- The logistic function of an array, at an index. -/
theorem logistic_apply {s : Shape} {φ : FTy} (a : FVec Ideal s φ) (i : s.Idx) : logistic a i = Ideal.logistic (a i) := rfl

/-- The left operand's row is the result's row. -/
theorem dot_lhs0 (j : S8000x64.Idx) (q : dot_S8000x64_S64x64_S8000x64_1_0_0_1_n_n.contr.Idx) :
    (dot_S8000x64_S64x64_S8000x64_1_0_0_1_n_n.lhsIdx j q 0).val = (j 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl

/-- The right operand's column is the result's column. -/
theorem dot_rhs1 (j : S8000x64.Idx) (q : dot_S8000x64_S64x64_S8000x64_1_0_0_1_n_n.contr.Idx) :
    (dot_S8000x64_S64x64_S8000x64_1_0_0_1_n_n.rhsIdx j q 1).val = (j 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- One layer: a block of rows times a 64 x 64 matrix into the zero accumulator, at `(p, q)`. -/
theorem layer_apply {φ₁ φ₂ : FTy} (a : FVec Ideal S8000x64 φ₁) (w : FVec Ideal S64x64 φ₂) (p : Fin 8000) (q : Fin 64) :
    matmul dot_S8000x64_S64x64_S8000x64_1_0_0_1_n_n none a w (constant S8000x64 .f32 0x00000000#32) (ix2 p q)
      = Spec.layer (fun k => a (ix2 p k)) w q :=
  LibMatmul2.matmul_zero_apply dot_S8000x64_S64x64_S8000x64_1_0_0_1_n_n rfl rfl rfl rfl dot_lhs0 dot_rhs1 none a w p q

/-- One layer followed by its activation, at `(p, q)`. -/
theorem actLayer_apply {φ₁ φ₂ : FTy} (a : FVec Ideal S8000x64 φ₁) (w : FVec Ideal S64x64 φ₂) (p : Fin 8000) (q : Fin 64) :
    mulf (matmul dot_S8000x64_S64x64_S8000x64_1_0_0_1_n_n none a w (constant S8000x64 .f32 0x00000000#32))
        (logistic (matmul dot_S8000x64_S64x64_S8000x64_1_0_0_1_n_n none a w (constant S8000x64 .f32 0x00000000#32))) (ix2 p q)
      = Spec.silu (Spec.layer (fun k => a (ix2 p k)) w q) := by
  rw [mulf_apply, logistic_apply, layer_apply]
  rfl

/-- The first layer and its activation on the joined blocks, at `(p, q)`. -/
theorem pay3_apply (x0 : Vec Ideal S8000x48 .f32) (x2 : Vec Ideal S8000x16 .f32) (w1 : Vec Ideal S64x64 .f32) (p : Fin 8000) (q : Fin 64) :
    k1_pay3 (F := Ideal) x0 x2 w1 (ix2 p q)
      = Spec.silu (Spec.layer (Spec.joinRow (fun k => x0 (ix2 p k)) (fun k => x2 (ix2 p k))) w1 q) := by
  unfold k1_pay3
  simp only [shapeCast_self]
  refine (actLayer_apply _ _ p q).trans ?_
  refine congrArg Spec.silu ?_
  refine congrArg (fun r => Spec.layer r w1 q) (funext fun k => ?_)
  have hs : shapeCast S8000x16 x2 shapeCasts_S8000x16_S8000x16 = x2 := shapeCast_self _ _
  exact (congrArg (fun z : Vec Ideal S8000x16 .f32 => concatenate S8000x64 1 [⟨S8000x48, x0⟩, ⟨S8000x16, z⟩]
      concatenates_S8000x48_S8000x16_S8000x64_d1 (ix2 p k)) hs).trans
    (Spec.concatenate_apply x0 x2 concatenates_S8000x48_S8000x16_S8000x64_d1 p k)

/-- The second matrix as the body uses it is the matrix loaded. -/
theorem pay4_eq (w2 : Vec Ideal S64x64 .f32) : k1_pay4 (F := Ideal) w2 = w2 := by
  unfold k1_pay4
  exact shapeCast_self _ _

/-- The last two layers on a block of activations, times the envelope column, at `(p, q)`. -/
theorem pay1_apply (e28 : FVec Ideal S8000x1 .f32) (a : FVec Ideal S8000x64 .bf16) (w2 : FVec Ideal S64x64 .f32) (w3 : Vec Ideal S64x64 .f32)
    (p : Fin 8000) (q : Fin 64) :
    k1_pay1 (F := Ideal) e28 a w2 w3 (ix2 p q)
      = Spec.layer (fun k3 => Spec.silu (Spec.layer (fun k2 => a (ix2 p k2)) w2 k3)) w3 q * e28 (ix2 p (0 : Fin 1)) := by
  unfold k1_pay1
  simp only [shapeCast_self]
  refine (mulf_apply _ _ _).trans (congrArg₂ (· * ·) ?_ ?_)
  · refine (layer_apply _ _ p q).trans ?_
    refine congrArg (fun r => Spec.layer r w3 q) (funext fun k3 => ?_)
    exact actLayer_apply a (truncf .bf16 w2 bitsLt_bf16_f32) p k3
  · exact LibColumnBroadcast.broadcastTo_a1_ab_apply e28 broadcasts_S8000x1_S8000x64 p q

/-- THE BLOCK'S THREE LAYERS: at `(p, q)`, the three-layer function of row `p` of the two joined blocks, times the envelope
    column's entry of row `p`. -/
theorem mlp_apply (e28 : FVec Ideal S8000x1 .f32) (x0 : Vec Ideal S8000x48 .f32) (x2 : Vec Ideal S8000x16 .f32)
    (w1 w2 w3 : Vec Ideal S64x64 .f32) (p : Fin 8000) (q : Fin 64) :
    k1_pay1 (F := Ideal) e28 (k1_pay3 (F := Ideal) x0 x2 w1) (k1_pay4 (F := Ideal) w2) w3 (ix2 p q)
      = Spec.mlpRow (fun k => x0 (ix2 p k)) (fun k => x2 (ix2 p k)) w1 w2 w3 q * e28 (ix2 p (0 : Fin 1)) := by
  rw [pay1_apply, pay4_eq]
  unfold Spec.mlpRow
  refine congrArg (· * e28 (ix2 p (0 : Fin 1))) ?_
  refine congrArg (fun r => Spec.layer r w3 q) (funext fun k3 => ?_)
  refine congrArg (fun r => Spec.silu (Spec.layer r w2 k3)) (funext fun k2 => ?_)
  exact pay3_apply x0 x2 w1 p k2

end Cert.KernelIdeal.OutK

end
-- ==== Proof.LibRowReduce.lean ====
/-
  A reduction of a matrix along its rows, read at a row.

  Reducing an `[a, b]` array over its second axis leaves one entry per row: for a sum, the sum of the row's `b` entries;
  for a maximum, the fold of `max` over them from the initial value.
-/
import Idealize.ShloMosaic.PureOps.Ideal
import Idealize.ShloMosaic.PureOps.Ideal.Laws
import Idealize.ShloMosaic.Lib.ValueIdx

noncomputable section

open scoped BigOperators

namespace Idealize.ShloMosaic.LibRowReduce

open Idealize.ShloMosaic Idealize.ShloMosaic.ValueIdx

variable {φ : FTy}

/-- The reduced index `p` with coordinate `k` put back on the reduced axis is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- A row sum: `vector.multi_reduction <add>` of an `[a, b]` array over its second axis, at row `p`. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A row maximum: `vector.multi_reduction <maximumf>` of an `[a, b]` array over its second axis, at row `p`. -/
theorem multiReduction_maximumf_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg ((Finset.univ : Finset (Fin b)).fold max (Ideal.ofBits φ acc)) (funext fun k => congrArg src (lift_row h p k)))

end Idealize.ShloMosaic.LibRowReduce

end
-- ==== Proof.LibColumn.lean ====
/-
  Keepdims columns.

  A vector of `a` entries viewed as a column `[a, 1]` holds entry `i` at `(i, 0)`: the row-major position of `(i, u)` in
  `[a, 1]` is `i · 1 + u = i`.
-/
import Idealize.ShloMosaic.Lib.Pipeline.Value
import Idealize.ShloMosaic.Lib.ValueIdx

namespace Idealize.ShloMosaic.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.LibColumn
-- ==== Proof.EnvKernel.lean ====
/-
  The kernel's envelope column on one block of 8000 edge rows, read at a row.

  Row `p` of the block of edge vectors is squared entry by entry and summed, the square root of the sum is the length `u`
  (its product with the word for one is `u` again), and the powers of `u`, the polynomial, the comparison with one and the
  selection are entry by entry: the column's entry of row `p` is the envelope of the edge vector in row `p`.
-/
import proofs.«147440_j54674933678514_2_alg».proof.Proof.Gen.KernelIdeal.Skeleton
import Idealize.ShloMosaic.Lib.Pipeline.Value
import Idealize.ShloMosaic.Lib.ValueIdx
import Idealize.ShloMosaic.PureOps.Ideal.Laws
import proofs.«147440_j54674933678514_2_alg».proof.Proof.LibRowReduce
import proofs.«147440_j54674933678514_2_alg».proof.Proof.LibColumn
import proofs.«147440_j54674933678514_2_alg».proof.Proof.OutSpec

noncomputable section

open scoped BigOperators

namespace Cert.KernelIdeal.OutK

open Cert.KernelIdeal Cert.KernelIdeal.Gen Idealize.ShloMosaic Idealize.ShloMosaic.ValueIdx Idealize.SL.Sem

/-- The square root of an array, at an index. -/
theorem sqrt_apply {s : Shape} {φ : FTy} (a : FVec Ideal s φ) (i : s.Idx) : sqrt a i = Ideal.sqrt (a i) := rfl

/-- A scalar constant is the number its word denotes. -/
theorem scalar_ofBits (φ : FTy) (b : BitVec φ.bits) : Scalar.ofBits (F := Ideal) φ b = Ideal.ofBits φ b := rfl

/-- The squared length of the edge vector in row `p`, kept as a column. -/
theorem sumsq_apply (v1 : Vec Ideal S8000x3 .f32) (p : Fin 8000) (u : Fin 1) :
    shapeCast S8000x1 (multiReduction (F := Ideal) .add [1] S8000 (mulf v1 v1) 0x00000000#32 reduces_S8000x3_S8000 (.inl rfl) rfl)
        shapeCasts_S8000_S8000x1 (ix2 p u)
      = ∑ d : Fin 3, v1 (ix2 p d) * v1 (ix2 p d) := by
  refine (LibColumn.shapeCast_a_a1_apply _ shapeCasts_S8000_S8000x1 p u).trans ?_
  refine (LibRowReduce.multiReduction_add_row (mulf v1 v1) 0x00000000#32 reduces_S8000x3_S8000 (.inl rfl) rfl p).trans ?_
  rfl

/-- THE ENVELOPE COLUMN at row `p`: the envelope of the edge vector in row `p` of the block. -/
theorem pay2_apply (v1 : Vec Ideal S8000x3 .f32) (p : Fin 8000) :
    k1_pay2 (F := Ideal) v1 (ix2 p (0 : Fin 1)) = Spec.env (fun d => v1 (ix2 p d)) := by
  unfold k1_pay2
  simp only [select_apply, cmpf_apply, subf_apply, addf_apply, mulf_apply, broadcast_apply, sqrt_apply, scalar_ofBits,
    Spec.one_f32, mul_one, Ideal.ofBits_zero_f32, Ideal.cmpf_def]
  have h := sumsq_apply v1 p 0
  show _ = Spec.envOf (Ideal.sqrt (∑ d : Fin 3, v1 (ix2 p d) * v1 (ix2 p d)))
  rw [← h]
  rfl

end Cert.KernelIdeal.OutK

end
-- ==== Proof.OutKernelArr.lean ====
/-
  From the blocks to the array: what the second region leaves in its result array.

  The grid has 200 points; point `t` works on rows `8000 t .. 8000 t + 7999` of the edge arrays and on the three whole
  64 x 64 matrices, and writes back block `t` of the result. Row `p` of block `t` is row `8000 t + p` of each edge array, so
  what point `t` writes back is block `t` of one whole-array function; the 200 blocks tile the result's rows, so the
  result array ends holding that function.
-/
import proofs.«147440_j54674933678514_2_alg».proof.Proof.Gen.KernelIdeal.Frame
import Idealize.ShloMosaic.Lib.Pipeline.Value
import Idealize.ShloMosaic.Lib.ValueIdx
import proofs.«147440_j54674933678514_2_alg».proof.Proof.OutSpec
import proofs.«147440_j54674933678514_2_alg».proof.Proof.OutKernelMlp
import proofs.«147440_j54674933678514_2_alg».proof.Proof.EnvKernel

set_option maxRecDepth 16384

noncomputable section

open scoped BigOperators

namespace Cert.KernelIdeal.OutK

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- ONE BLOCK: the body's result at `j` is the whole-array function at `i`, when row `j 0` of each edge block is row `i 0`
    of its array, the column is the same, and the matrices are the whole matrices. -/
theorem block_eq (x0 : Vec Ideal S8000x48 .f32) (v1 : Vec Ideal S8000x3 .f32) (x2 : Vec Ideal S8000x16 .f32)
    (w1 w2 w3 : Vec Ideal S64x64 .f32)
    (X : (⟨2, ![1600000, 48]⟩ : Shape).Idx → EReal) (Vv : (⟨2, ![1600000, 3]⟩ : Shape).Idx → EReal)
    (G : (⟨2, ![1600000, 16]⟩ : Shape).Idx → EReal) (W1 W2 W3 : (⟨2, ![64, 64]⟩ : Shape).Idx → EReal)
    (j : S8000x64.Idx) (i : S1600000x64.Idx) (hi1 : (i 1).val = (j 1).val)
    (hx : ∀ k : Fin 48, x0 (ix2 (j 0) k) = X (ix2 (i 0) k)) (hv : ∀ d : Fin 3, v1 (ix2 (j 0) d) = Vv (ix2 (i 0) d))
    (hg : ∀ k : Fin 16, x2 (ix2 (j 0) k) = G (ix2 (i 0) k)) (hw1 : w1 = W1) (hw2 : w2 = W2) (hw3 : w3 = W3) :
    k1_pay1 (F := Ideal) (k1_pay2 (F := Ideal) v1) (k1_pay3 (F := Ideal) x0 x2 w1) (k1_pay4 (F := Ideal) w2) w3 j
      = Spec.out X Vv G W1 W2 W3 i := by
  obtain ⟨p, q, rfl⟩ : ∃ (p : Fin 8000) (q : Fin 64), j = ix2 p q := ⟨j 0, j 1, eq_ix2 j⟩
  have hq : i 1 = q := Fin.ext hi1
  rw [mlp_apply, pay2_apply]
  unfold Spec.out
  rw [hq, hw1, hw2, hw3, show (fun k => x0 (ix2 p k)) = fun k => X (ix2 (i 0) k) from funext hx,
    show (fun k => x2 (ix2 p k)) = fun k => G (ix2 (i 0) k) from funext hg,
    show (fun d => v1 (ix2 p d)) = fun d => Vv (ix2 (i 0) d) from funext hv]

variable (V : (c : Dev nD) → (b : Ref sig .tc) → Buf (Elt Ideal) ((c : Thread nD τ).loc b))

/-- The printed index maps, decided over the grid: point `t` takes block row `t` of each edge array and of the result, and
    block `(0, 0)` of each matrix. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 1000000 in
/-- WHAT POINT `t` WRITES BACK is block `t` of the whole-array function of the arrays as the region finds them. -/
theorem flushed_eq (c : Dev nD) (t : Fin cfg1.N) :
    (dat1 (F := Ideal) V c).flushed 6 t
      = ((cfg1.win 6).blk t).view.read (Elt Ideal) (Spec.out (V c main_arg1) (V c main_arg0) (V c main_v66) (V c main_v7) (V c main_v9) (V c main_v11)) := by
  show (cfg1.win 6).cut (grid1.coords t) ((dat1 (F := Ideal) V c).after 6 t) = _
  rw [after1_6]
  unfold out1_6
  rw [View.canon_unit_zero hz]
  simp only [View.ld_unit_zero (S := S8000x48) hz, View.ld_unit_zero (S := S8000x3) hz, View.ld_unit_zero (S := S8000x16) hz,
    View.ld_unit_zero (S := S64x64) hz]
  obtain ⟨e00, e01, e10, e11, e20, e21, e30, e31, e40, e41, e50, e51, e60, e61⟩ := idx_facts t
  funext j
  show k1_pay1 (F := Ideal) (k1_pay2 (F := Ideal) (iblk1 V c 1 t)) (k1_pay3 (F := Ideal) (iblk1 V c 0 t) (iblk1 V c 2 t) (iblk1 V c 3 t))
      (k1_pay4 (F := Ideal) (iblk1 V c 4 t)) (iblk1 V c 5 t) j
    = Spec.out (V c main_arg1) (V c main_arg0) (V c main_v66) (V c main_v7) (V c main_v9) (V c main_v11) (((cfg1.win 6).blk t).view.emb j)
  refine block_eq (iblk1 V c 0 t) (iblk1 V c 1 t) (iblk1 V c 2 t) (iblk1 V c 3 t) (iblk1 V c 4 t) (iblk1 V c 5 t)
    (V c main_arg1) (V c main_arg0) (V c main_v66) (V c main_v7) (V c main_v9) (V c main_v11) j (((cfg1.win 6).blk t).view.emb j) ?_ ?_ ?_ ?_ ?_ ?_ ?_
  · show win1_6.index t (1 : Fin 2) * 64 + 1 * (j 1).val = (j 1).val
    omega
  · intro k
    show V c main_arg1 (((cfg1.win 0).blk t).view.emb (ix2 (j 0) k)) = V c main_arg1 (ix2 ((((cfg1.win 6).blk t).view.emb j) 0) k)
    refine congrArg (V c main_arg1) (funext fun a => Fin.ext ?_)
    match a with
    | ⟨0, _⟩ => show win1_0.index t (0 : Fin 2) * 8000 + 1 * (j 0).val = win1_6.index t (0 : Fin 2) * 8000 + 1 * (j 0).val; omega
    | ⟨1, _⟩ => show win1_0.index t (1 : Fin 2) * 48 + 1 * k.val = k.val; omega
  · intro d
    show V c main_arg0 (((cfg1.win 1).blk t).view.emb (ix2 (j 0) d)) = V c main_arg0 (ix2 ((((cfg1.win 6).blk t).view.emb j) 0) d)
    refine congrArg (V c main_arg0) (funext fun a => Fin.ext ?_)
    match a with
    | ⟨0, _⟩ => show win1_1.index t (0 : Fin 2) * 8000 + 1 * (j 0).val = win1_6.index t (0 : Fin 2) * 8000 + 1 * (j 0).val; omega
    | ⟨1, _⟩ => show win1_1.index t (1 : Fin 2) * 3 + 1 * d.val = d.val; omega
  · intro k
    show V c main_v66 (((cfg1.win 2).blk t).view.emb (ix2 (j 0) k)) = V c main_v66 (ix2 ((((cfg1.win 6).blk t).view.emb j) 0) k)
    refine congrArg (V c main_v66) (funext fun a => Fin.ext ?_)
    match a with
    | ⟨0, _⟩ => show win1_2.index t (0 : Fin 2) * 8000 + 1 * (j 0).val = win1_6.index t (0 : Fin 2) * 8000 + 1 * (j 0).val; omega
    | ⟨1, _⟩ => show win1_2.index t (1 : Fin 2) * 16 + 1 * k.val = k.val; omega
  · funext y
    show V c main_v7 (((cfg1.win 3).blk t).view.emb y) = V c main_v7 y
    refine congrArg (V c main_v7) (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  · funext y
    show V c main_v9 (((cfg1.win 4).blk t).view.emb y) = V c main_v9 y
    refine congrArg (V c main_v9) (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  · funext y
    show V c main_v11 (((cfg1.win 5).blk t).view.emb y) = V c main_v11 y
    refine congrArg (V c main_v11) (funext fun a => Fin.ext ?_)
    match a with
    | ⟨0, _⟩ => show win1_5.index t (0 : Fin 2) * 64 + 1 * (y 0).val = (y 0).val; omega
    | ⟨1, _⟩ => show win1_5.index t (1 : Fin 2) * 64 + 1 * (y 1).val = (y 1).val; omega

/-- An index of the result array is in point `t`'s block iff each coordinate is in the block's range on its axis. -/
theorem mem_blk (t : Fin cfg1.N) (i : S1600000x64.Idx) :
    i ∈ ((cfg1.win 6).blk t).view.set ↔ ∀ a : Fin 2, win1_6.index t a * S8000x64.size a ≤ (i a).val
      ∧ (i a).val < win1_6.index t a * S8000x64.size a + S8000x64.size a := by
  show i ∈ ((View.whole main_v67).slice (win1_6.rect t)).set ↔ _
  rw [View.set_slice_whole, Rect.mem_set_unit]
  exact Iff.rfl

/-- Every row of the result is in some point's block: row `r` in the block of point `r / 8000`. -/
theorem cover (i : S1600000x64.Idx) : ∃ t : Fin cfg1.N, (cfg1.win 6).flush t = true ∧ i ∈ ((cfg1.win 6).blk t).view.set := by
  have hN : cfg1.N = 200 := N_1
  have h0 : (i 0).val < 1600000 := (i 0).isLt
  have h1 : (i 1).val < 64 := (i 1).isLt
  obtain ⟨t, ht⟩ : ∃ t : Fin cfg1.N, t.val = (i 0).val / 8000 := ⟨⟨(i 0).val / 8000, by rw [hN]; omega⟩, rfl⟩
  obtain ⟨e00, e01, e10, e11, e20, e21, e30, e31, e40, e41, e50, e51, e60, e61⟩ := idx_facts t
  refine ⟨t, flush1_6 t, ?_⟩
  rw [mem_blk]
  intro a
  match a with
  | ⟨0, _⟩ => show win1_6.index t (0 : Fin 2) * 8000 ≤ (i 0).val ∧ (i 0).val < win1_6.index t (0 : Fin 2) * 8000 + 8000; omega
  | ⟨1, _⟩ => show win1_6.index t (1 : Fin 2) * 64 ≤ (i 1).val ∧ (i 1).val < win1_6.index t (1 : Fin 2) * 64 + 64; omega

/-- THE RESULT ARRAY after the region: the per-edge output, index by index, of the arrays as the region finds them. -/
theorem arr_eq (c : Dev nD) :
    (dat1 (F := Ideal) V c).arrAt 6 cfg1.N = Spec.out (V c main_arg1) (V c main_arg0) (V c main_v66) (V c main_v7) (V c main_v9) (V c main_v11) :=
  (dat1 (F := Ideal) V c).arrAt_eq_of_cover 6 (Spec.out (V c main_arg1) (V c main_arg0) (V c main_v66) (V c main_v7) (V c main_v9) (V c main_v11)) (fun t _ => flushed_eq V c t) cover

end Cert.KernelIdeal.OutK

end
-- ==== Proof.LibHostBroadcast.lean ====
/-
  Array operations of the host read at an index, for any sizes.

  A vector laid out as a one-column matrix, a column repeated over the columns of a matrix, a vector laid out as a
  one-row matrix, a row repeated over the rows of a matrix, and a scalar repeated everywhere: each result entry is one
  entry of the operand, named here.  Also: row numbers as words — when a word's signed value is a row of a table, reading
  the table at that word, with negative words counted from the end and the result clamped, reads that very row.
-/
import Idealize.ShloMosaic.PureOps.Ideal
import Idealize.ShloMosaic.Lib.ValueIdx
import Idealize.ShloMosaic.Lib.Pipeline.Value

noncomputable section

namespace Cert.HostPat

open Idealize.ShloMosaic Idealize.ShloMosaic.ValueIdx

variable {α : Type}

/-- A vector `[R]` laid out as a column `[R, 1]`, read at `(e, u)`: entry `e`. -/
theorem col_apply {R : Nat} (h : (⟨1, ![R]⟩ : Shape).BroadcastsInDim ⟨2, ![R, 1]⟩ ![0])
    (x : (⟨1, ![R]⟩ : Shape).Idx → α) (e : Fin R) (u : Fin 1) :
    broadcastInDim ⟨2, ![R, 1]⟩ ![0] h x (ix2 e u) = x (ix1 e) :=
  broadcastInDim_apply _ h x _ _ (fun a => by
    match a with
    | ⟨0, _⟩ =>
      show e.val = if R = 1 then 0 else e.val
      by_cases h1 : R = 1
      · rw [if_pos h1]; have := e.isLt; omega
      · rw [if_neg h1])

/-- A column `[R, 1]` repeated over `C` columns, read at `(e, k)`: the column's entry `(e, 0)`. -/
theorem colCols_apply {R C : Nat} (h : (⟨2, ![R, 1]⟩ : Shape).BroadcastsInDim ⟨2, ![R, C]⟩ ![0, 1])
    (x : (⟨2, ![R, 1]⟩ : Shape).Idx → α) (e : Fin R) (k : Fin C) :
    broadcastInDim ⟨2, ![R, C]⟩ ![0, 1] h x (ix2 e k) = x (ix2 e 0) :=
  broadcastInDim_apply _ h x _ _ (fun a => by
    match a with
    | ⟨0, _⟩ =>
      show e.val = if R = 1 then 0 else e.val
      by_cases h1 : R = 1
      · rw [if_pos h1]; have := e.isLt; omega
      · rw [if_neg h1]
    | ⟨1, _⟩ => rfl)

/-- A vector `[C]` laid out as a row `[1, C]`, read at `(u, k)`: entry `k`. -/
theorem row_apply {C : Nat} (h : (⟨1, ![C]⟩ : Shape).BroadcastsInDim ⟨2, ![1, C]⟩ ![1])
    (x : (⟨1, ![C]⟩ : Shape).Idx → α) (u : Fin 1) (k : Fin C) :
    broadcastInDim ⟨2, ![1, C]⟩ ![1] h x (ix2 u k) = x (ix1 k) :=
  broadcastInDim_apply _ h x _ _ (fun a => by
    match a with
    | ⟨0, _⟩ =>
      show k.val = if C = 1 then 0 else k.val
      by_cases h1 : C = 1
      · rw [if_pos h1]; have := k.isLt; omega
      · rw [if_neg h1])

/-- A row `[1, C]` repeated over `N` rows, read at `(p, k)`: the row's entry `(0, k)`. -/
theorem rowRows_apply {N C : Nat} (h : (⟨2, ![1, C]⟩ : Shape).BroadcastsInDim ⟨2, ![N, C]⟩ ![0, 1])
    (x : (⟨2, ![1, C]⟩ : Shape).Idx → α) (p : Fin N) (k : Fin C) :
    broadcastInDim ⟨2, ![N, C]⟩ ![0, 1] h x (ix2 p k) = x (ix2 0 k) :=
  broadcastInDim_apply _ h x _ _ (fun a => by
    match a with
    | ⟨0, _⟩ => rfl
    | ⟨1, _⟩ =>
      show k.val = if C = 1 then 0 else k.val
      by_cases h1 : C = 1
      · rw [if_pos h1]; have := k.isLt; omega
      · rw [if_neg h1])

/-- A scalar repeated over any shape, read anywhere: the scalar. -/
theorem splat_apply (t : Shape) (h : (⟨0, ![]⟩ : Shape).BroadcastsInDim t ![])
    (x : (⟨0, ![]⟩ : Shape).Idx → α) (j : t.Idx) (k : (⟨0, ![]⟩ : Shape).Idx) :
    broadcastInDim t ![] h x j = x k :=
  broadcastInDim_apply _ h x _ _ (fun a => a.elim0)

end Cert.HostPat

end
-- ==== Proof.OutRefMlp.lean ====
/-
  The reference's three layers, read at an index.

  Each `dot_general` of an `[E, 64]` array by a 64 x 64 matrix is, at `(e, q)`, row `e` of the left operand times the matrix at
  column `q`; each activation is `h * (1 / (1 + exp (-h)))`, which is `h * logistic h`; the first layer's input is the joined
  array. So the last layer at `(e, q)` is the three-layer function of row `e` of the two joined arrays.
-/
import proofs.«147440_j54674933678514_2_alg».proof.Proof.RefStages
import Idealize.ShloMosaic.Lib.Pipeline.Value
import Idealize.ShloMosaic.Lib.ValueIdx
import Idealize.ShloMosaic.PureOps.Ideal.Laws
import proofs.«147440_j54674933678514_2_alg».proof.Proof.LibMatmul2
import proofs.«147440_j54674933678514_2_alg».proof.Proof.LibHostBroadcast
import proofs.«147440_j54674933678514_2_alg».proof.Proof.OutSpec
import proofs.«147440_j54674933678514_2_alg».proof.Proof.OutJoin

noncomputable section

open scoped BigOperators

namespace Cert.ReferenceIdeal.OutR

open Cert.ReferenceIdeal Cert.ReferenceIdeal.Gen Idealize.ShloMosaic Idealize.ShloMosaic.ValueIdx Idealize.ShloMosaic.TcCoe Idealize.SL.Sem Idealize.ShloMosaic.StableHlo

/-- The word for one repeated over any shape, read anywhere. -/
theorem one_splat (t : Shape) (h : S_.BroadcastsInDim t ![]) (i : t.Idx) :
    broadcastInDim t ![] h (constant (F := Ideal) S_ .f32 0x3F800000#32) i = Ideal.ofBits .f32 0x3F800000#32 :=
  Cert.HostPat.splat_apply t h _ i ix0

/-- The host's activation `a * (1 / (1 + exp (-a)))`, the ones repeated over the shape, at an index: `silu`. -/
theorem host_silu_apply {s : Shape} (h : S_.BroadcastsInDim s ![]) (a : FVec Ideal s .f32) (i : s.Idx) :
    mulf a (Host.divf (broadcastInDim s ![] h (constant (F := Ideal) S_ .f32 0x3F800000#32))
        (addf (broadcastInDim s ![] h (constant (F := Ideal) S_ .f32 0x3F800000#32)) (Host.exp (Host.negf a)))) i
      = Spec.silu (a i) := by
  show a i * Ideal.div (broadcastInDim s ![] h (constant (F := Ideal) S_ .f32 0x3F800000#32) i)
      (broadcastInDim s ![] h (constant (F := Ideal) S_ .f32 0x3F800000#32) i + Ideal.exp (-(a i))) = _
  rw [one_splat]
  exact Spec.silu_expanded _

/-- The left operand's row is the result's row. -/
theorem dot_lhs0 (j : S1600000x64.Idx) (q : dot_S1600000x64_S64x64_S1600000x64_1_0_0_1_n_n.contr.Idx) :
    (dot_S1600000x64_S64x64_S1600000x64_1_0_0_1_n_n.lhsIdx j q 0).val = (j 0).val := by
  unfold DotDims.lhsIdx
  rw [dif_neg (show ¬(0 : Fin S1600000x64.rank) ∈ dot_S1600000x64_S64x64_S1600000x64_1_0_0_1_n_n.lhsBatch by decide), dif_pos (show (0 : Fin S1600000x64.rank) ∈ dot_S1600000x64_S64x64_S1600000x64_1_0_0_1_n_n.lhsNonContracting by decide)]
  rfl

/-- The right operand's column is the result's column. -/
theorem dot_rhs1 (j : S1600000x64.Idx) (q : dot_S1600000x64_S64x64_S1600000x64_1_0_0_1_n_n.contr.Idx) :
    (dot_S1600000x64_S64x64_S1600000x64_1_0_0_1_n_n.rhsIdx j q 1).val = (j 1).val := by
  unfold DotDims.rhsIdx
  rw [dif_neg (show ¬(1 : Fin S64x64.rank) ∈ dot_S1600000x64_S64x64_S1600000x64_1_0_0_1_n_n.rhsBatch by decide), dif_pos (show (1 : Fin S64x64.rank) ∈ dot_S1600000x64_S64x64_S1600000x64_1_0_0_1_n_n.rhsNonContracting by decide)]
  rfl

/-- One layer: the host's product of an `[E, 64]` array by a 64 x 64 matrix, at `(e, q)`. -/
theorem layer_apply (a : FVec Ideal S1600000x64 .f32) (w : FVec Ideal S64x64 .f32) (e : Fin 1600000) (q : Fin 64) :
    Host.dotGeneral dot_S1600000x64_S64x64_S1600000x64_1_0_0_1_n_n none a w (ix2 e q) = Spec.layer (fun k => a (ix2 e k)) w q :=
  LibMatmul2.dotGeneral_apply dot_S1600000x64_S64x64_S1600000x64_1_0_0_1_n_n rfl rfl rfl rfl dot_lhs0 dot_rhs1 none a w e q

variable (x0 : (⟨S1600000x3, .f32⟩ : BufTy).Contents (Elt Ideal)) (x1 : (⟨S1600000x48, .f32⟩ : BufTy).Contents (Elt Ideal)) (x3 : (⟨S1600000, .i32⟩ : BufTy).Contents (Elt Ideal)) (x4 : (⟨S50000, .i32⟩ : BufTy).Contents (Elt Ideal))
  (x5 x6 : (⟨S100, .f32⟩ : BufTy).Contents (Elt Ideal)) (x7 : (⟨S100x16, .f32⟩ : BufTy).Contents (Elt Ideal)) (x8 x9 x10 : (⟨S_, .f32⟩ : BufTy).Contents (Elt Ideal)) (x11 : (⟨S48x16, .f32⟩ : BufTy).Contents (Elt Ideal))
  (x12 : (⟨S16x1, .f32⟩ : BufTy).Contents (Elt Ideal)) (x13 : (⟨S17x16, .f32⟩ : BufTy).Contents (Elt Ideal)) (x14 x15 x16 : (⟨S64x64, .f32⟩ : BufTy).Contents (Elt Ideal))

/-- The joined array at `(e, j)`. -/
theorem joined_apply (e : Fin 1600000) (j : Fin 64) :
    Stg.val_main_v66 (F := Ideal) x1 x3 x4 x5 x6 x7 x8 x9 x10 x11 x12 x13 (ix2 e j)
      = Spec.joinRow (fun k => x1 (ix2 e k)) (fun k => Stg.val_main_v65 (F := Ideal) x1 x3 x4 x5 x6 x7 x8 x9 x10 x11 x12 x13 (ix2 e k)) j := by
  unfold Stg.val_main_v66
  exact Spec.concatenate_apply x1 (Stg.val_main_v65 (F := Ideal) x1 x3 x4 x5 x6 x7 x8 x9 x10 x11 x12 x13) concatenates_S1600000x48_S1600000x16_S1600000x64_d1 e j

/-- The first layer at `(e, q)`. -/
theorem layer1_apply (e : Fin 1600000) (q : Fin 64) :
    Stg.val_main_v69 (F := Ideal) x1 x3 x4 x5 x6 x7 x8 x9 x10 x11 x12 x13 x14 (ix2 e q)
      = Spec.layer (fun k => Stg.val_main_v66 (F := Ideal) x1 x3 x4 x5 x6 x7 x8 x9 x10 x11 x12 x13 (ix2 e k)) (Stg.val_main_v68 (F := Ideal) x14) q := by
  unfold Stg.val_main_v69
  exact layer_apply (Stg.val_main_v66 (F := Ideal) x1 x3 x4 x5 x6 x7 x8 x9 x10 x11 x12 x13) (Stg.val_main_v68 (F := Ideal) x14) e q

/-- The first activation. -/
theorem act1_apply (i : S1600000x64.Idx) :
    Stg.val_main_v70 (F := Ideal) x1 x3 x4 x5 x6 x7 x8 x9 x10 x11 x12 x13 x14 i = Spec.silu (Stg.val_main_v69 (F := Ideal) x1 x3 x4 x5 x6 x7 x8 x9 x10 x11 x12 x13 x14 i) := by
  unfold Stg.val_main_v70 Stg.val_main_call2_v5 Stg.val_main_call2_v4 Stg.val_main_call2_cst_0 Stg.val_main_call2_v3
    Stg.val_main_call2_v2 Stg.val_main_call2_cst Stg.val_main_call2_v1 Stg.val_main_call2_v0
  exact host_silu_apply bcast_S_S1600000x64 (Stg.val_main_v69 (F := Ideal) x1 x3 x4 x5 x6 x7 x8 x9 x10 x11 x12 x13 x14) i

/-- The second layer at `(e, q)`. -/
theorem layer2_apply (e : Fin 1600000) (q : Fin 64) :
    Stg.val_main_v73 (F := Ideal) x1 x3 x4 x5 x6 x7 x8 x9 x10 x11 x12 x13 x14 x15 (ix2 e q)
      = Spec.layer (fun k => Stg.val_main_v70 (F := Ideal) x1 x3 x4 x5 x6 x7 x8 x9 x10 x11 x12 x13 x14 (ix2 e k)) (Stg.val_main_v72 (F := Ideal) x15) q := by
  unfold Stg.val_main_v73
  exact layer_apply (Stg.val_main_v70 (F := Ideal) x1 x3 x4 x5 x6 x7 x8 x9 x10 x11 x12 x13 x14) (Stg.val_main_v72 (F := Ideal) x15) e q

/-- The second activation. -/
theorem act2_apply (i : S1600000x64.Idx) :
    Stg.val_main_v74 (F := Ideal) x1 x3 x4 x5 x6 x7 x8 x9 x10 x11 x12 x13 x14 x15 i = Spec.silu (Stg.val_main_v73 (F := Ideal) x1 x3 x4 x5 x6 x7 x8 x9 x10 x11 x12 x13 x14 x15 i) := by
  unfold Stg.val_main_v74 Stg.val_main_call3_v5 Stg.val_main_call3_v4 Stg.val_main_call3_cst_0 Stg.val_main_call3_v3
    Stg.val_main_call3_v2 Stg.val_main_call3_cst Stg.val_main_call3_v1 Stg.val_main_call3_v0
  exact host_silu_apply bcast_S_S1600000x64 (Stg.val_main_v73 (F := Ideal) x1 x3 x4 x5 x6 x7 x8 x9 x10 x11 x12 x13 x14 x15) i

/-- The third layer at `(e, q)`. -/
theorem layer3_apply (e : Fin 1600000) (q : Fin 64) :
    Stg.val_main_v77 (F := Ideal) x1 x3 x4 x5 x6 x7 x8 x9 x10 x11 x12 x13 x14 x15 x16 (ix2 e q)
      = Spec.layer (fun k => Stg.val_main_v74 (F := Ideal) x1 x3 x4 x5 x6 x7 x8 x9 x10 x11 x12 x13 x14 x15 (ix2 e k)) (Stg.val_main_v76 (F := Ideal) x16) q := by
  unfold Stg.val_main_v77
  exact layer_apply (Stg.val_main_v74 (F := Ideal) x1 x3 x4 x5 x6 x7 x8 x9 x10 x11 x12 x13 x14 x15) (Stg.val_main_v76 (F := Ideal) x16) e q

/-- THE THREE LAYERS at `(e, q)`: the three-layer function of row `e` of the two joined arrays. -/
theorem mlp_apply (e : Fin 1600000) (q : Fin 64) :
    Stg.val_main_v77 (F := Ideal) x1 x3 x4 x5 x6 x7 x8 x9 x10 x11 x12 x13 x14 x15 x16 (ix2 e q)
      = Spec.mlpRow (fun k => x1 (ix2 e k)) (fun k => Stg.val_main_v65 (F := Ideal) x1 x3 x4 x5 x6 x7 x8 x9 x10 x11 x12 x13 (ix2 e k))
          (Stg.val_main_v68 (F := Ideal) x14) (Stg.val_main_v72 (F := Ideal) x15) (Stg.val_main_v76 (F := Ideal) x16) q := by
  unfold Spec.mlpRow
  rw [layer3_apply]
  refine congrArg (fun r => Spec.layer r (Stg.val_main_v76 (F := Ideal) x16) q) (funext fun k3 => ?_)
  rw [act2_apply, layer2_apply]
  refine congrArg (fun r => Spec.silu (Spec.layer r (Stg.val_main_v72 (F := Ideal) x15) k3)) (funext fun k2 => ?_)
  rw [act1_apply, layer1_apply]
  refine congrArg (fun r => Spec.silu (Spec.layer r (Stg.val_main_v68 (F := Ideal) x14) k2)) (funext fun k1 => ?_)
  exact joined_apply x1 x3 x4 x5 x6 x7 x8 x9 x10 x11 x12 x13 e k1

end Cert.ReferenceIdeal.OutR

end
-- ==== Proof.EnvRef.lean ====
/-
  The reference's envelope, read at an edge.

  The host squares the edge vectors entry by entry, sums each row from the initial value zero, takes the square root and
  divides by the word for one: the length `u` of the edge's vector. The powers of `u`, the polynomial, the comparison with
  one and the selection are entry by entry; the host groups the powers and products its own way, which commutativity and
  associativity of the product bring to the envelope's form. The two broadcasts lay the envelope out as a column and
  repeat it over the 64 output columns.
-/
import proofs.«147440_j54674933678514_2_alg».proof.Proof.RefStages
import Idealize.ShloMosaic.Lib.Pipeline.Value
import Idealize.ShloMosaic.Lib.ValueIdx
import Idealize.ShloMosaic.PureOps.Ideal.Laws
import proofs.«147440_j54674933678514_2_alg».proof.Proof.LibHostBroadcast
import proofs.«147440_j54674933678514_2_alg».proof.Proof.OutSpec

noncomputable section

open scoped BigOperators

namespace Cert.ReferenceIdeal.OutR

open Cert.ReferenceIdeal Cert.ReferenceIdeal.Gen Idealize.ShloMosaic Idealize.ShloMosaic.ValueIdx Idealize.ShloMosaic.TcCoe Idealize.SL.Sem Idealize.ShloMosaic.StableHlo

/-- A scalar constant repeated over any shape, read anywhere: the number its word denotes. -/
theorem const_splat (b : BitVec 32) (t : Shape) (h : S_.BroadcastsInDim t ![]) (i : t.Idx) :
    broadcastInDim t ![] h (constant (F := Ideal) S_ .f32 b) i = Ideal.ofBits .f32 b :=
  Cert.HostPat.splat_apply t h _ i ix0

/-- The host's row sum from the initial value zero, at row `e`: the sum of the row's three entries. -/
theorem rowsum_apply (y0 : FVec Ideal S1600000x3 .f32) (e : Fin 1600000) :
    Host.reduceAdd y0 (constant (F := Ideal) S_ .f32 0x00000000#32) reducesTo_S1600000x3_S1600000_d1 h_S_ (ix1 e)
      = ∑ d : Fin 3, y0 (ix2 e d) := by
  simp only [Host.reduceAdd, Ideal.hostReduceAdd_def]
  rw [Ideal.hostReduceAdd_single reducesTo_S1600000x3_S1600000_d1 (by decide)]
  simp only [constant_apply, Ideal.ofBits_zero_f32, zero_add]
  refine Finset.sum_congr rfl fun k _ => ?_
  exact congrArg y0 (funext fun a => Fin.ext (by match a with | ⟨0, _⟩ => rfl | ⟨1, _⟩ => rfl))

/-- The host's square root of an array, at an index. -/
theorem host_sqrt_apply {s : Shape} (a : FVec Ideal s .f32) (i : s.Idx) : Host.sqrt a i = Ideal.sqrt (a i) := rfl

/-- The host's quotient of two arrays, at an index. -/
theorem host_divf_apply {s : Shape} (a b : FVec Ideal s .f32) (i : s.Idx) : Host.divf a b i = Ideal.div (a i) (b i) := rfl

variable (x0 : (⟨S1600000x3, .f32⟩ : BufTy).Contents (Elt Ideal))

/-- The length of edge `e`'s vector. -/
theorem len_apply (e : Fin 1600000) :
    Stg.val_main_v79 (F := Ideal) x0 (ix1 e) = Ideal.sqrt (∑ d : Fin 3, x0 (ix2 e d) * x0 (ix2 e d)) := by
  unfold Stg.val_main_v79 Stg.val_main_v78 Stg.val_main_cst_17 Stg.val_main_v2 Stg.val_main_v1 Stg.val_main_v0 Stg.val_main_cst
  beta_reduce
  rw [host_divf_apply, host_sqrt_apply, const_splat, Spec.one_f32, Spec.div_one, rowsum_apply]
  rfl

/-- THE ENVELOPE of edge `e`. -/
theorem envelope_apply (e : Fin 1600000) :
    Stg.val_main_v98 (F := Ideal) x0 (ix1 e) = Spec.env (fun d => x0 (ix2 e d)) := by
  unfold Stg.val_main_v98 Stg.val_main_v97 Stg.val_main_v96 Stg.val_main_cst_22 Stg.val_main_v95 Stg.val_main_v94 Stg.val_main_v93
    Stg.val_main_v92 Stg.val_main_v91 Stg.val_main_cst_21 Stg.val_main_v90 Stg.val_main_v89 Stg.val_main_v88 Stg.val_main_v87
    Stg.val_main_cst_20 Stg.val_main_v86 Stg.val_main_v85 Stg.val_main_cst_19 Stg.val_main_v84 Stg.val_main_v83 Stg.val_main_cst_18
    Stg.val_main_v82 Stg.val_main_v81 Stg.val_main_v80 Stg.val_main_call4_v1 Stg.val_main_call4_v0 Stg.val_main_cst_23
  beta_reduce
  simp only [select_apply, cmpf_apply, subf_apply, addf_apply, mulf_apply, Ideal.cmpf_def, id]
  rw [len_apply]
  repeat rw [const_splat]
  rw [Spec.one_f32, Ideal.ofBits_zero_f32]
  exact Spec.envOf_regrouped _

/-- The envelope laid out as a column and repeated over the 64 output columns, at `(e, q)`: edge `e`'s envelope. -/
theorem envcol_apply (e : Fin 1600000) (q : Fin 64) :
    Stg.val_main_v100 (F := Ideal) x0 (ix2 e q) = Stg.val_main_v98 (F := Ideal) x0 (ix1 e) := by
  unfold Stg.val_main_v100 Stg.val_main_v99
  exact (Cert.HostPat.colCols_apply bcast_S1600000x1_S1600000x64_0_1 _ e q).trans
    (Cert.HostPat.col_apply bcast_S1600000_S1600000x1_0 (Stg.val_main_v98 (F := Ideal) x0) e 0)

end Cert.ReferenceIdeal.OutR

end
-- ==== Proof.OutRef.lean ====
/-
  The reference's result array is the per-edge output.

  At `(e, q)` the host multiplies edge `e`'s envelope, repeated over the columns, by the third layer at `(e, q)`: the
  per-edge output with its two factors in the other order.
-/
import proofs.«147440_j54674933678514_2_alg».proof.Proof.RefStages
import Idealize.ShloMosaic.Lib.ValueIdx
import Idealize.ShloMosaic.PureOps.Ideal.Laws
import proofs.«147440_j54674933678514_2_alg».proof.Proof.OutSpec
import proofs.«147440_j54674933678514_2_alg».proof.Proof.OutRefMlp
import proofs.«147440_j54674933678514_2_alg».proof.Proof.EnvRef

noncomputable section

open scoped BigOperators

namespace Cert.ReferenceIdeal.OutR

open Cert.ReferenceIdeal Cert.ReferenceIdeal.Gen Idealize.ShloMosaic Idealize.ShloMosaic.ValueIdx Idealize.ShloMosaic.TcCoe Idealize.SL.Sem Idealize.ShloMosaic.StableHlo

variable (x0 : (⟨S1600000x3, .f32⟩ : BufTy).Contents (Elt Ideal)) (x1 : (⟨S1600000x48, .f32⟩ : BufTy).Contents (Elt Ideal)) (x3 : (⟨S1600000, .i32⟩ : BufTy).Contents (Elt Ideal)) (x4 : (⟨S50000, .i32⟩ : BufTy).Contents (Elt Ideal))
  (x5 x6 : (⟨S100, .f32⟩ : BufTy).Contents (Elt Ideal)) (x7 : (⟨S100x16, .f32⟩ : BufTy).Contents (Elt Ideal)) (x8 x9 x10 : (⟨S_, .f32⟩ : BufTy).Contents (Elt Ideal)) (x11 : (⟨S48x16, .f32⟩ : BufTy).Contents (Elt Ideal))
  (x12 : (⟨S16x1, .f32⟩ : BufTy).Contents (Elt Ideal)) (x13 : (⟨S17x16, .f32⟩ : BufTy).Contents (Elt Ideal)) (x14 x15 x16 : (⟨S64x64, .f32⟩ : BufTy).Contents (Elt Ideal))

/-- THE REFERENCE'S RESULT: the per-edge output of the edge features, the edge vectors, the gathered array and the three
    scaled matrices, index by index. -/
theorem ref_eq :
    Stg.val_main_v101 (F := Ideal) x0 x1 x3 x4 x5 x6 x7 x8 x9 x10 x11 x12 x13 x14 x15 x16
      = Spec.out x1 x0 (Stg.val_main_v65 (F := Ideal) x1 x3 x4 x5 x6 x7 x8 x9 x10 x11 x12 x13) (Stg.val_main_v68 (F := Ideal) x14)
          (Stg.val_main_v72 (F := Ideal) x15) (Stg.val_main_v76 (F := Ideal) x16) := by
  funext i
  obtain ⟨e, q, rfl⟩ : ∃ (e : Fin 1600000) (q : Fin 64), i = ix2 e q := ⟨i 0, i 1, eq_ix2 i⟩
  unfold Stg.val_main_v101
  show Stg.val_main_v100 (F := Ideal) x0 (ix2 e q) * Stg.val_main_v77 (F := Ideal) x1 x3 x4 x5 x6 x7 x8 x9 x10 x11 x12 x13 x14 x15 x16 (ix2 e q) = _
  rw [envcol_apply, envelope_apply, mlp_apply]
  exact mul_comm _ _

end Cert.ReferenceIdeal.OutR

end
-- ==== Proof.RefRun.lean ====
/-
  The reference program's @main as the list of its host operations, in order (a called function's operations stand in
  its call's place), and the facts a straight-line run needs: @main IS the sequence of that list, the signature scopes
  no buffer and no semaphore, and every operation touches TensorCore buffers only.
-/
import proofs.«147440_j54674933678514_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 167 operations, in order (a called function's operations stand in its call's place, spelt `TRef.…`). -/
abbrev ops : List (HloOp τ sig (Elt F)) :=
  [ binary main_arg0 main_arg0 main_v0 (mulf : (⟨S1600000x3, .f32⟩ : BufTy).Contents (Elt F) → (⟨S1600000x3, .f32⟩ : BufTy).Contents (Elt F) → (⟨S1600000x3, .f32⟩ : BufTy).Contents (Elt F)),
    nullary main_cst (constant S_ .f32 0x00000000#32),
    binary main_v0 main_cst main_v1 ((fun x v => Host.reduceAdd x v reducesTo_S1600000x3_S1600000_d1 h_S_) : (⟨S1600000x3, .f32⟩ : BufTy).Contents (Elt F) → (⟨S_, .f32⟩ : BufTy).Contents (Elt F) → (⟨S1600000, .f32⟩ : BufTy).Contents (Elt F)),
    unary main_v1 main_v2 (Host.sqrt : (⟨S1600000, .f32⟩ : BufTy).Contents (Elt F) → (⟨S1600000, .f32⟩ : BufTy).Contents (Elt F)),
    nullary main_cst_0 (constant S_ .f32 0x40DDB3D7#32),
    unary main_cst_0 main_v3 (broadcastInDim S48x16 ![] bcast_S_S48x16 : (⟨S_, .f32⟩ : BufTy).Contents (Elt F) → (⟨S48x16, .f32⟩ : BufTy).Contents (Elt F)),
    binary main_arg11 main_v3 main_v4 (Host.divf : (⟨S48x16, .f32⟩ : BufTy).Contents (Elt F) → (⟨S48x16, .f32⟩ : BufTy).Contents (Elt F) → (⟨S48x16, .f32⟩ : BufTy).Contents (Elt F)),
    binary main_arg1 main_v4 main_v5 ((fun l r => Host.dotGeneral dot_S1600000x48_S48x16_S1600000x16_1_0_0_1_n_n none l r) : (⟨S1600000x48, .f32⟩ : BufTy).Contents (Elt F) → (⟨S48x16, .f32⟩ : BufTy).Contents (Elt F) → (⟨S1600000x16, .f32⟩ : BufTy).Contents (Elt F)),
    TRef.unary (TRef.of (T := ⟨S1600000x16, .f32⟩) main_v5) (TRef.of (T := ⟨S1600000x16, .f32⟩) main_call0_v0) Host.negf,
    TRef.unary (TRef.of (T := ⟨S1600000x16, .f32⟩) main_call0_v0) (TRef.of (T := ⟨S1600000x16, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S1600000x16, .f32⟩) main_call0_v2) (broadcastInDim S1600000x16 ![] bcast_S_S1600000x16),
    TRef.binary (TRef.of (T := ⟨S1600000x16, .f32⟩) main_call0_v2) (TRef.of (T := ⟨S1600000x16, .f32⟩) main_call0_v1) (TRef.of (T := ⟨S1600000x16, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S1600000x16, .f32⟩) main_call0_v4) (broadcastInDim S1600000x16 ![] bcast_S_S1600000x16),
    TRef.binary (TRef.of (T := ⟨S1600000x16, .f32⟩) main_call0_v4) (TRef.of (T := ⟨S1600000x16, .f32⟩) main_call0_v3) (TRef.of (T := ⟨S1600000x16, .f32⟩) main_call0_v5) Host.divf,
    TRef.binary (TRef.of (T := ⟨S1600000x16, .f32⟩) main_v5) (TRef.of (T := ⟨S1600000x16, .f32⟩) main_call0_v5) (TRef.of (T := ⟨S1600000x16, .f32⟩) main_v6) mulf,
    nullary main_cst_1 (constant S_ .f32 0x40800000#32),
    unary main_cst_1 main_v7 (broadcastInDim S16x1 ![] bcast_S_S16x1 : (⟨S_, .f32⟩ : BufTy).Contents (Elt F) → (⟨S16x1, .f32⟩ : BufTy).Contents (Elt F)),
    binary main_arg12 main_v7 main_v8 (Host.divf : (⟨S16x1, .f32⟩ : BufTy).Contents (Elt F) → (⟨S16x1, .f32⟩ : BufTy).Contents (Elt F) → (⟨S16x1, .f32⟩ : BufTy).Contents (Elt F)),
    binary main_v6 main_v8 main_v9 ((fun l r => Host.dotGeneral dot_S1600000x16_S16x1_S1600000x1_1_0_0_1_n_n none l r) : (⟨S1600000x16, .f32⟩ : BufTy).Contents (Elt F) → (⟨S16x1, .f32⟩ : BufTy).Contents (Elt F) → (⟨S1600000x1, .f32⟩ : BufTy).Contents (Elt F)),
    nullary main_cst_2 (constant S_ .f32 0x00000000#32),
    unary main_cst_2 main_v10 (broadcastInDim S50000x1 ![] bcast_S_S50000x1 : (⟨S_, .f32⟩ : BufTy).Contents (Elt F) → (⟨S50000x1, .f32⟩ : BufTy).Contents (Elt F)),
    unary main_arg3 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S50000x1_S1600000x1_S1600000x1_1_0_0_1 x i u) : (⟨S50000x1, .f32⟩ : BufTy).Contents (Elt F) → (⟨S1600000x1, .i32⟩ : BufTy).Contents (Elt F) → (⟨S1600000x1, .f32⟩ : BufTy).Contents (Elt F) → (⟨S50000x1, .f32⟩ : BufTy).Contents (Elt F)),
    reshape main_v12 main_v13 rfl shapeCasts_S50000x1_S50000,
    unary main_arg8 main_v14 (broadcastInDim S50000 ![] bcast_S_S50000 : (⟨S_, .f32⟩ : BufTy).Contents (Elt F) → (⟨S50000, .f32⟩ : BufTy).Contents (Elt F)),
    binary main_v13 main_v14 main_v15 (mulf : (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v16 (broadcastInDim S50000 ![] bcast_S_S50000 : (⟨S_, .i32⟩ : BufTy).Contents (Elt F) → (⟨S50000, .i32⟩ : BufTy).Contents (Elt F)),
    binary main_arg4 main_v16 main_v17 (cmpi .slt : (⟨S50000, .i32⟩ : BufTy).Contents (Elt F) → (⟨S50000, .i32⟩ : BufTy).Contents (Elt F) → (⟨S50000, .i1⟩ : BufTy).Contents (Elt F)),
    nullary main_c_3 (constantI S_ 32 100#32),
    unary main_c_3 main_v18 (broadcastInDim S50000 ![] bcast_S_S50000 : (⟨S_, .i32⟩ : BufTy).Contents (Elt F) → (⟨S50000, .i32⟩ : BufTy).Contents (Elt F)),
    binary main_arg4 main_v18 main_v19 (addi : (⟨S50000, .i32⟩ : BufTy).Contents (Elt F) → (⟨S50000, .i32⟩ : BufTy).Contents (Elt F) → (⟨S50000, .i32⟩ : BufTy).Contents (Elt F)),
    ternary main_v17 main_v19 main_arg4 main_v20 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v20 main_v21 (broadcastInDim S50000x1 ![0] bcast_S50000_S50000x1_0 : (⟨S50000, .i32⟩ : BufTy).Contents (Elt F) → (⟨S50000x1, .i32⟩ : BufTy).Contents (Elt F)),
    binary main_arg5 main_v21 main_v22 ((fun x i => Host.gather gather_S100_S50000x1_S50000_n_0_n_n_0_1_1 x i) : (⟨S100, .f32⟩ : BufTy).Contents (Elt F) → (⟨S50000x1, .i32⟩ : BufTy).Contents (Elt F) → (⟨S50000, .f32⟩ : BufTy).Contents (Elt F)),
    unary main_arg9 main_v23 (broadcastInDim S50000 ![] bcast_S_S50000 : (⟨S_, .f32⟩ : BufTy).Contents (Elt F) → (⟨S50000, .f32⟩ : BufTy).Contents (Elt F)),
    binary main_v22 main_v23 main_v24 (mulf : (⟨S50000, .f32⟩ : BufTy).Contents (Elt F) → (⟨S50000, .f32⟩ : BufTy).Contents (Elt F) → (⟨S50000, .f32⟩ : BufTy).Contents (Elt F)),
    unary main_arg10 main_v25 (broadcastInDim S50000 ![] bcast_S_S50000 : (⟨S_, .f32⟩ : BufTy).Contents (Elt F) → (⟨S50000, .f32⟩ : BufTy).Contents (Elt F)),
    binary main_v24 main_v25 main_v26 (addf : (⟨S50000, .f32⟩ : BufTy).Contents (Elt F) → (⟨S50000, .f32⟩ : BufTy).Contents (Elt F) → (⟨S50000, .f32⟩ : BufTy).Contents (Elt F)),
    nullary main_c_4 (constantI S_ 32 0#32),
    unary main_c_4 main_v27 (broadcastInDim S50000 ![] bcast_S_S50000 : (⟨S_, .i32⟩ : BufTy).Contents (Elt F) → (⟨S50000, .i32⟩ : BufTy).Contents (Elt F)),
    binary main_arg4 main_v27 main_v28 (cmpi .slt : (⟨S50000, .i32⟩ : BufTy).Contents (Elt F) → (⟨S50000, .i32⟩ : BufTy).Contents (Elt F) → (⟨S50000, .i1⟩ : BufTy).Contents (Elt F)),
    nullary main_c_5 (constantI S_ 32 100#32),
    unary main_c_5 main_v29 (broadcastInDim S50000 ![] bcast_S_S50000 : (⟨S_, .i32⟩ : BufTy).Contents (Elt F) → (⟨S50000, .i32⟩ : BufTy).Contents (Elt F)),
    binary main_arg4 main_v29 main_v30 (addi : (⟨S50000, .i32⟩ : BufTy).Contents (Elt F) → (⟨S50000, .i32⟩ : BufTy).Contents (Elt F) → (⟨S50000, .i32⟩ : BufTy).Contents (Elt F)),
    ternary main_v28 main_v30 main_arg4 main_v31 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v31 main_v32 (broadcastInDim S50000x1 ![0] bcast_S50000_S50000x1_0 : (⟨S50000, .i32⟩ : BufTy).Contents (Elt F) → (⟨S50000x1, .i32⟩ : BufTy).Contents (Elt F)),
    binary main_arg6 main_v32 main_v33 ((fun x i => Host.gather gather_S100_S50000x1_S50000_n_0_n_n_0_1_1 x i) : (⟨S100, .f32⟩ : BufTy).Contents (Elt F) → (⟨S50000x1, .i32⟩ : BufTy).Contents (Elt F) → (⟨S50000, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000, .f32⟩) main_call1_v0) (broadcastInDim S50000 ![] bcast_S_S50000),
    TRef.binary (TRef.of (T := ⟨S50000, .f32⟩) main_v33) (TRef.of (T := ⟨S50000, .f32⟩) main_call1_v0) (TRef.of (T := ⟨S50000, .f32⟩) main_call1_v1) maximumf,
    TRef.unary (TRef.of (T := ⟨S_, .f32⟩) main_call1_cst) (TRef.of (T := ⟨S50000, .f32⟩) main_call1_v2) (broadcastInDim S50000 ![] bcast_S_S50000),
    TRef.binary (TRef.of (T := ⟨S50000, .f32⟩) main_v33) (TRef.of (T := ⟨S50000, .f32⟩) main_call1_v2) (TRef.of (T := ⟨S50000, .f32⟩) main_call1_v3) subf,
    TRef.binary (TRef.of (T := ⟨S50000, .f32⟩) main_call1_v3) (TRef.of (T := ⟨S50000, .f32⟩) main_call1_v3) (TRef.of (T := ⟨S50000, .i1⟩) main_call1_v4) (cmpf .une),
    TRef.unary (TRef.of (T := ⟨S_, .f32⟩) main_call1_cst) (TRef.of (T := ⟨S50000, .f32⟩) main_call1_v5) (broadcastInDim S50000 ![] bcast_S_S50000),
    TRef.binary (TRef.of (T := ⟨S50000, .f32⟩) main_v33) (TRef.of (T := ⟨S50000, .f32⟩) main_call1_v5) (TRef.of (T := ⟨S50000, .f32⟩) main_call1_v6) addf,
    TRef.unary (TRef.of (T := ⟨S50000, .f32⟩) main_call1_v3) (TRef.of (T := ⟨S50000, .f32⟩) main_call1_v7) Host.absf,
    TRef.unary (TRef.of (T := ⟨S50000, .f32⟩) main_call1_v7) (TRef.of (T := ⟨S50000, .f32⟩) main_call1_v8) Host.negf,
    TRef.unary (TRef.of (T := ⟨S50000, .f32⟩) main_call1_v8) (TRef.of (T := ⟨S50000, .f32⟩) main_call1_v9) Host.exp,
    TRef.unary (TRef.of (T := ⟨S50000, .f32⟩) main_call1_v9) (TRef.of (T := ⟨S50000, .f32⟩) main_call1_v10) Host.log1p,
    TRef.binary (TRef.of (T := ⟨S50000, .f32⟩) main_call1_v1) (TRef.of (T := ⟨S50000, .f32⟩) main_call1_v10) (TRef.of (T := ⟨S50000, .f32⟩) main_call1_v11) addf,
    TRef.ternary (TRef.of (T := ⟨S50000, .i1⟩) main_call1_v4) (TRef.of (T := ⟨S50000, .f32⟩) main_call1_v6) (TRef.of (T := ⟨S50000, .f32⟩) main_call1_v11) (TRef.of (T := ⟨S50000, .f32⟩) main_v34) select,
    nullary main_cst_6 (constant S_ .f32 0x3F800000#32),
    unary main_cst_6 main_v35 (broadcastInDim S50000 ![] bcast_S_S50000 : (⟨S_, .f32⟩ : BufTy).Contents (Elt F) → (⟨S50000, .f32⟩ : BufTy).Contents (Elt F)),
    binary main_v35 main_v26 main_v36 (Host.divf : (⟨S50000, .f32⟩ : BufTy).Contents (Elt F) → (⟨S50000, .f32⟩ : BufTy).Contents (Elt F) → (⟨S50000, .f32⟩ : BufTy).Contents (Elt F)),
    binary main_v34 main_v36 main_v37 (addf : (⟨S50000, .f32⟩ : BufTy).Contents (Elt F) → (⟨S50000, .f32⟩ : BufTy).Contents (Elt F) → (⟨S50000, .f32⟩ : BufTy).Contents (Elt F)),
    unary main_v15 main_v38 (Host.negf : (⟨S50000, .f32⟩ : BufTy).Contents (Elt F) → (⟨S50000, .f32⟩ : BufTy).Contents (Elt F)),
    binary main_v38 main_v37 main_v39 (Host.divf : (⟨S50000, .f32⟩ : BufTy).Contents (Elt F) → (⟨S50000, .f32⟩ : BufTy).Contents (Elt F) → (⟨S50000, .f32⟩ : BufTy).Contents (Elt F)),
    binary main_v15 main_v39 main_v40 (mulf : (⟨S50000, .f32⟩ : BufTy).Contents (Elt F) → (⟨S50000, .f32⟩ : BufTy).Contents (Elt F) → (⟨S50000, .f32⟩ : BufTy).Contents (Elt F)),
    nullary main_cst_7 (constant S_ .f32 0x3F000000#32),
    unary main_cst_7 main_v41 (broadcastInDim S50000 ![] bcast_S_S50000 : (⟨S_, .f32⟩ : BufTy).Contents (Elt F) → (⟨S50000, .f32⟩ : BufTy).Contents (Elt F)),
    binary main_v41 main_v37 main_v42 (mulf : (⟨S50000, .f32⟩ : BufTy).Contents (Elt F) → (⟨S50000, .f32⟩ : BufTy).Contents (Elt F) → (⟨S50000, .f32⟩ : BufTy).Contents (Elt F)),
    binary main_v42 main_v39 main_v43 (mulf : (⟨S50000, .f32⟩ : BufTy).Contents (Elt F) → (⟨S50000, .f32⟩ : BufTy).Contents (Elt F) → (⟨S50000, .f32⟩ : BufTy).Contents (Elt F)),
    binary main_v43 main_v39 main_v44 (mulf : (⟨S50000, .f32⟩ : BufTy).Contents (Elt F) → (⟨S50000, .f32⟩ : BufTy).Contents (Elt F) → (⟨S50000, .f32⟩ : BufTy).Contents (Elt F)),
    binary main_v40 main_v44 main_v45 (addf : (⟨S50000, .f32⟩ : BufTy).Contents (Elt F) → (⟨S50000, .f32⟩ : BufTy).Contents (Elt F) → (⟨S50000, .f32⟩ : BufTy).Contents (Elt F)),
    nullary main_cst_8 (constant S_ .f32 0x00000000#32),
    binary main_v45 main_cst_8 main_v46 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    unary main_v39 main_v47 (broadcastInDim S50000x1 ![0] bcast_S50000_S50000x1_0 : (⟨S50000, .f32⟩ : BufTy).Contents (Elt F) → (⟨S50000x1, .f32⟩ : BufTy).Contents (Elt F)),
    nullary main_c_9 (constantI S_ 32 0#32),
    unary main_c_9 main_v48 (broadcastInDim S50000 ![] bcast_S_S50000 : (⟨S_, .i32⟩ : BufTy).Contents (Elt F) → (⟨S50000, .i32⟩ : BufTy).Contents (Elt F)),
    binary main_arg4 main_v48 main_v49 (cmpi .slt : (⟨S50000, .i32⟩ : BufTy).Contents (Elt F) → (⟨S50000, .i32⟩ : BufTy).Contents (Elt F) → (⟨S50000, .i1⟩ : BufTy).Contents (Elt F)),
    nullary main_c_10 (constantI S_ 32 100#32),
    unary main_c_10 main_v50 (broadcastInDim S50000 ![] bcast_S_S50000 : (⟨S_, .i32⟩ : BufTy).Contents (Elt F) → (⟨S50000, .i32⟩ : BufTy).Contents (Elt F)),
    binary main_arg4 main_v50 main_v51 (addi : (⟨S50000, .i32⟩ : BufTy).Contents (Elt F) → (⟨S50000, .i32⟩ : BufTy).Contents (Elt F) → (⟨S50000, .i32⟩ : BufTy).Contents (Elt F)),
    ternary main_v49 main_v51 main_arg4 main_v52 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v52 main_v53 (broadcastInDim S50000x1 ![0] bcast_S50000_S50000x1_0 : (⟨S50000, .i32⟩ : BufTy).Contents (Elt F) → (⟨S50000x1, .i32⟩ : BufTy).Contents (Elt F)),
    binary main_arg7 main_v53 main_v54 ((fun x i => Host.gather gather_S100x16_S50000x1_S50000x16_1_0_n_n_0_1_116 x i) : (⟨S100x16, .f32⟩ : BufTy).Contents (Elt F) → (⟨S50000x1, .i32⟩ : BufTy).Contents (Elt F) → (⟨S50000x16, .f32⟩ : BufTy).Contents (Elt F)),
    binary main_v47 main_v54 main_v55 ((fun a b => concatenate S50000x17 1 [⟨S50000x1, a⟩, ⟨S50000x16, b⟩] concatenates_S50000x1_S50000x16_S50000x17_d1) : (⟨S50000x1, .f32⟩ : BufTy).Contents (Elt F) → (⟨S50000x16, .f32⟩ : BufTy).Contents (Elt F) → (⟨S50000x17, .f32⟩ : BufTy).Contents (Elt F)),
    nullary main_cst_11 (constant S_ .f32 0x4083F07B#32),
    unary main_cst_11 main_v56 (broadcastInDim S17x16 ![] bcast_S_S17x16 : (⟨S_, .f32⟩ : BufTy).Contents (Elt F) → (⟨S17x16, .f32⟩ : BufTy).Contents (Elt F)),
    binary main_arg13 main_v56 main_v57 (Host.divf : (⟨S17x16, .f32⟩ : BufTy).Contents (Elt F) → (⟨S17x16, .f32⟩ : BufTy).Contents (Elt F) → (⟨S17x16, .f32⟩ : BufTy).Contents (Elt F)),
    binary main_v55 main_v57 main_v58 ((fun l r => Host.dotGeneral dot_S50000x17_S17x16_S50000x16_1_0_0_1_n_n none l r) : (⟨S50000x17, .f32⟩ : BufTy).Contents (Elt F) → (⟨S17x16, .f32⟩ : BufTy).Contents (Elt F) → (⟨S50000x16, .f32⟩ : BufTy).Contents (Elt F)),
    nullary main_c_12 (constantI S_ 32 0#32),
    unary main_c_12 main_v59 (broadcastInDim S1600000 ![] bcast_S_S1600000 : (⟨S_, .i32⟩ : BufTy).Contents (Elt F) → (⟨S1600000, .i32⟩ : BufTy).Contents (Elt F)),
    binary main_arg3 main_v59 main_v60 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 50000#32),
    unary main_c_13 main_v61 (broadcastInDim S1600000 ![] bcast_S_S1600000 : (⟨S_, .i32⟩ : BufTy).Contents (Elt F) → (⟨S1600000, .i32⟩ : BufTy).Contents (Elt F)),
    binary main_arg3 main_v61 main_v62 (addi : (⟨S1600000, .i32⟩ : BufTy).Contents (Elt F) → (⟨S1600000, .i32⟩ : BufTy).Contents (Elt F) → (⟨S1600000, .i32⟩ : BufTy).Contents (Elt F)),
    ternary main_v60 main_v62 main_arg3 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v63 main_v64 (broadcastInDim S1600000x1 ![0] bcast_S1600000_S1600000x1_0 : (⟨S1600000, .i32⟩ : BufTy).Contents (Elt F) → (⟨S1600000x1, .i32⟩ : BufTy).Contents (Elt F)),
    binary main_v58 main_v64 main_v65 ((fun x i => Host.gather gather_S50000x16_S1600000x1_S1600000x16_1_0_n_n_0_1_116 x i) : (⟨S50000x16, .f32⟩ : BufTy).Contents (Elt F) → (⟨S1600000x1, .i32⟩ : BufTy).Contents (Elt F) → (⟨S1600000x16, .f32⟩ : BufTy).Contents (Elt F)),
    binary main_arg1 main_v65 main_v66 ((fun a b => concatenate S1600000x64 1 [⟨S1600000x48, a⟩, ⟨S1600000x16, b⟩] concatenates_S1600000x48_S1600000x16_S1600000x64_d1) : (⟨S1600000x48, .f32⟩ : BufTy).Contents (Elt F) → (⟨S1600000x16, .f32⟩ : BufTy).Contents (Elt F) → (⟨S1600000x64, .f32⟩ : BufTy).Contents (Elt F)),
    nullary main_cst_14 (constant S_ .f32 0x41000000#32),
    unary main_cst_14 main_v67 (broadcastInDim S64x64 ![] bcast_S_S64x64 : (⟨S_, .f32⟩ : BufTy).Contents (Elt F) → (⟨S64x64, .f32⟩ : BufTy).Contents (Elt F)),
    binary main_arg14 main_v67 main_v68 (Host.divf : (⟨S64x64, .f32⟩ : BufTy).Contents (Elt F) → (⟨S64x64, .f32⟩ : BufTy).Contents (Elt F) → (⟨S64x64, .f32⟩ : BufTy).Contents (Elt F)),
    binary main_v66 main_v68 main_v69 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    TRef.unary (TRef.of (T := ⟨S1600000x64, .f32⟩) main_v69) (TRef.of (T := ⟨S1600000x64, .f32⟩) main_call2_v0) Host.negf,
    TRef.unary (TRef.of (T := ⟨S1600000x64, .f32⟩) main_call2_v0) (TRef.of (T := ⟨S1600000x64, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S1600000x64, .f32⟩) main_call2_v2) (broadcastInDim S1600000x64 ![] bcast_S_S1600000x64),
    TRef.binary (TRef.of (T := ⟨S1600000x64, .f32⟩) main_call2_v2) (TRef.of (T := ⟨S1600000x64, .f32⟩) main_call2_v1) (TRef.of (T := ⟨S1600000x64, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S1600000x64, .f32⟩) main_call2_v4) (broadcastInDim S1600000x64 ![] bcast_S_S1600000x64),
    TRef.binary (TRef.of (T := ⟨S1600000x64, .f32⟩) main_call2_v4) (TRef.of (T := ⟨S1600000x64, .f32⟩) main_call2_v3) (TRef.of (T := ⟨S1600000x64, .f32⟩) main_call2_v5) Host.divf,
    TRef.binary (TRef.of (T := ⟨S1600000x64, .f32⟩) main_v69) (TRef.of (T := ⟨S1600000x64, .f32⟩) main_call2_v5) (TRef.of (T := ⟨S1600000x64, .f32⟩) main_v70) mulf,
    nullary main_cst_15 (constant S_ .f32 0x41000000#32),
    unary main_cst_15 main_v71 (broadcastInDim S64x64 ![] bcast_S_S64x64 : (⟨S_, .f32⟩ : BufTy).Contents (Elt F) → (⟨S64x64, .f32⟩ : BufTy).Contents (Elt F)),
    binary main_arg15 main_v71 main_v72 (Host.divf : (⟨S64x64, .f32⟩ : BufTy).Contents (Elt F) → (⟨S64x64, .f32⟩ : BufTy).Contents (Elt F) → (⟨S64x64, .f32⟩ : BufTy).Contents (Elt F)),
    binary main_v70 main_v72 main_v73 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    TRef.unary (TRef.of (T := ⟨S1600000x64, .f32⟩) main_v73) (TRef.of (T := ⟨S1600000x64, .f32⟩) main_call3_v0) Host.negf,
    TRef.unary (TRef.of (T := ⟨S1600000x64, .f32⟩) main_call3_v0) (TRef.of (T := ⟨S1600000x64, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S1600000x64, .f32⟩) main_call3_v2) (broadcastInDim S1600000x64 ![] bcast_S_S1600000x64),
    TRef.binary (TRef.of (T := ⟨S1600000x64, .f32⟩) main_call3_v2) (TRef.of (T := ⟨S1600000x64, .f32⟩) main_call3_v1) (TRef.of (T := ⟨S1600000x64, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S1600000x64, .f32⟩) main_call3_v4) (broadcastInDim S1600000x64 ![] bcast_S_S1600000x64),
    TRef.binary (TRef.of (T := ⟨S1600000x64, .f32⟩) main_call3_v4) (TRef.of (T := ⟨S1600000x64, .f32⟩) main_call3_v3) (TRef.of (T := ⟨S1600000x64, .f32⟩) main_call3_v5) Host.divf,
    TRef.binary (TRef.of (T := ⟨S1600000x64, .f32⟩) main_v73) (TRef.of (T := ⟨S1600000x64, .f32⟩) main_call3_v5) (TRef.of (T := ⟨S1600000x64, .f32⟩) main_v74) mulf,
    nullary main_cst_16 (constant S_ .f32 0x41000000#32),
    unary main_cst_16 main_v75 (broadcastInDim S64x64 ![] bcast_S_S64x64 : (⟨S_, .f32⟩ : BufTy).Contents (Elt F) → (⟨S64x64, .f32⟩ : BufTy).Contents (Elt F)),
    binary main_arg16 main_v75 main_v76 (Host.divf : (⟨S64x64, .f32⟩ : BufTy).Contents (Elt F) → (⟨S64x64, .f32⟩ : BufTy).Contents (Elt F) → (⟨S64x64, .f32⟩ : BufTy).Contents (Elt F)),
    binary main_v74 main_v76 main_v77 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    nullary main_cst_17 (constant S_ .f32 0x3F800000#32),
    unary main_cst_17 main_v78 (broadcastInDim S1600000 ![] bcast_S_S1600000 : (⟨S_, .f32⟩ : BufTy).Contents (Elt F) → (⟨S1600000, .f32⟩ : BufTy).Contents (Elt F)),
    binary main_v2 main_v78 main_v79 (Host.divf : (⟨S1600000, .f32⟩ : BufTy).Contents (Elt F) → (⟨S1600000, .f32⟩ : BufTy).Contents (Elt F) → (⟨S1600000, .f32⟩ : BufTy).Contents (Elt F)),
    binary main_v79 main_v79 main_v80 (mulf : (⟨S1600000, .f32⟩ : BufTy).Contents (Elt F) → (⟨S1600000, .f32⟩ : BufTy).Contents (Elt F) → (⟨S1600000, .f32⟩ : BufTy).Contents (Elt F)),
    binary main_v80 main_v80 main_v81 (mulf : (⟨S1600000, .f32⟩ : BufTy).Contents (Elt F) → (⟨S1600000, .f32⟩ : BufTy).Contents (Elt F) → (⟨S1600000, .f32⟩ : BufTy).Contents (Elt F)),
    binary main_v80 main_v81 main_v82 (mulf : (⟨S1600000, .f32⟩ : BufTy).Contents (Elt F) → (⟨S1600000, .f32⟩ : BufTy).Contents (Elt F) → (⟨S1600000, .f32⟩ : BufTy).Contents (Elt F)),
    nullary main_cst_18 (constant S_ .f32 0x41E00000#32),
    unary main_cst_18 main_v83 (broadcastInDim S1600000 ![] bcast_S_S1600000 : (⟨S_, .f32⟩ : BufTy).Contents (Elt F) → (⟨S1600000, .f32⟩ : BufTy).Contents (Elt F)),
    binary main_v83 main_v82 main_v84 (mulf : (⟨S1600000, .f32⟩ : BufTy).Contents (Elt F) → (⟨S1600000, .f32⟩ : BufTy).Contents (Elt F) → (⟨S1600000, .f32⟩ : BufTy).Contents (Elt F)),
    nullary main_cst_19 (constant S_ .f32 0x3F800000#32),
    unary main_cst_19 main_v85 (broadcastInDim S1600000 ![] bcast_S_S1600000 : (⟨S_, .f32⟩ : BufTy).Contents (Elt F) → (⟨S1600000, .f32⟩ : BufTy).Contents (Elt F)),
    binary main_v85 main_v84 main_v86 (subf : (⟨S1600000, .f32⟩ : BufTy).Contents (Elt F) → (⟨S1600000, .f32⟩ : BufTy).Contents (Elt F) → (⟨S1600000, .f32⟩ : BufTy).Contents (Elt F)),
    nullary main_cst_20 (constant S_ .f32 0x42400000#32),
    unary main_cst_20 main_v87 (broadcastInDim S1600000 ![] bcast_S_S1600000 : (⟨S_, .f32⟩ : BufTy).Contents (Elt F) → (⟨S1600000, .f32⟩ : BufTy).Contents (Elt F)),
    binary main_v87 main_v82 main_v88 (mulf : (⟨S1600000, .f32⟩ : BufTy).Contents (Elt F) → (⟨S1600000, .f32⟩ : BufTy).Contents (Elt F) → (⟨S1600000, .f32⟩ : BufTy).Contents (Elt F)),
    binary main_v88 main_v79 main_v89 (mulf : (⟨S1600000, .f32⟩ : BufTy).Contents (Elt F) → (⟨S1600000, .f32⟩ : BufTy).Contents (Elt F) → (⟨S1600000, .f32⟩ : BufTy).Contents (Elt F)),
    binary main_v86 main_v89 main_v90 (addf : (⟨S1600000, .f32⟩ : BufTy).Contents (Elt F) → (⟨S1600000, .f32⟩ : BufTy).Contents (Elt F) → (⟨S1600000, .f32⟩ : BufTy).Contents (Elt F)),
    nullary main_cst_21 (constant S_ .f32 0x41A80000#32),
    unary main_cst_21 main_v91 (broadcastInDim S1600000 ![] bcast_S_S1600000 : (⟨S_, .f32⟩ : BufTy).Contents (Elt F) → (⟨S1600000, .f32⟩ : BufTy).Contents (Elt F)),
    binary main_v91 main_v82 main_v92 (mulf : (⟨S1600000, .f32⟩ : BufTy).Contents (Elt F) → (⟨S1600000, .f32⟩ : BufTy).Contents (Elt F) → (⟨S1600000, .f32⟩ : BufTy).Contents (Elt F)),
    binary main_v92 main_v79 main_v93 (mulf : (⟨S1600000, .f32⟩ : BufTy).Contents (Elt F) → (⟨S1600000, .f32⟩ : BufTy).Contents (Elt F) → (⟨S1600000, .f32⟩ : BufTy).Contents (Elt F)),
    binary main_v93 main_v79 main_v94 (mulf : (⟨S1600000, .f32⟩ : BufTy).Contents (Elt F) → (⟨S1600000, .f32⟩ : BufTy).Contents (Elt F) → (⟨S1600000, .f32⟩ : BufTy).Contents (Elt F)),
    binary main_v90 main_v94 main_v95 (subf : (⟨S1600000, .f32⟩ : BufTy).Contents (Elt F) → (⟨S1600000, .f32⟩ : BufTy).Contents (Elt F) → (⟨S1600000, .f32⟩ : BufTy).Contents (Elt F)),
    nullary main_cst_22 (constant S_ .f32 0x3F800000#32),
    unary main_cst_22 main_v96 (broadcastInDim S1600000 ![] bcast_S_S1600000 : (⟨S_, .f32⟩ : BufTy).Contents (Elt F) → (⟨S1600000, .f32⟩ : BufTy).Contents (Elt F)),
    binary main_v79 main_v96 main_v97 (cmpf .olt : (⟨S1600000, .f32⟩ : BufTy).Contents (Elt F) → (⟨S1600000, .f32⟩ : BufTy).Contents (Elt F) → (⟨S1600000, .i1⟩ : BufTy).Contents (Elt F)),
    nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S1600000, .f32⟩) main_call4_v1) (broadcastInDim S1600000 ![] bcast_S_S1600000),
    TRef.ternary (TRef.of (T := ⟨S1600000, .i1⟩) main_v97) (TRef.of (T := ⟨S1600000, .f32⟩) main_v95) (TRef.of (T := ⟨S1600000, .f32⟩) main_call4_v1) (TRef.of (T := ⟨S1600000, .f32⟩) main_v98) select,
    unary main_v98 main_v99 (broadcastInDim S1600000x1 ![0] bcast_S1600000_S1600000x1_0 : (⟨S1600000, .f32⟩ : BufTy).Contents (Elt F) → (⟨S1600000x1, .f32⟩ : BufTy).Contents (Elt F)),
    unary main_v99 main_v100 (broadcastInDim S1600000x64 ![0, 1] bcast_S1600000x1_S1600000x64_0_1 : (⟨S1600000x1, .f32⟩ : BufTy).Contents (Elt F) → (⟨S1600000x64, .f32⟩ : BufTy).Contents (Elt F)),
    binary main_v100 main_v77 main_v101 (mulf : (⟨S1600000x64, .f32⟩ : BufTy).Contents (Elt F) → (⟨S1600000x64, .f32⟩ : BufTy).Contents (Elt F) → (⟨S1600000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub ..⟩

/-- Every weakly fair execution terminates with each buffer at the fold of the operations over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.RefRun

end
-- ==== Proof.RefLines.lean ====
/-
  The reference program read one host line at a time.  Its @main is a straight line in single-assignment order (each
  line writes a buffer of its own, numbered in program order, and reads earlier ones), so at the end every line's
  buffer holds the line's operation applied to the final contents of its operands: by induction along the program,
  each buffer holds its STAGE of the launch arguments.  The run therefore ends with the four results at the last
  stages and the arguments as launched.
-/
import proofs.«147440_j54674933678514_2_alg».proof.Proof.RefRun
import proofs.«147440_j54674933678514_2_alg».proof.Proof.RefStages
import proofs.«147440_j54674933678514_2_alg».proof.Proof.LibSsaLines
import Idealize.ShloMosaic.PureOps.Ideal

set_option maxRecDepth 16384
set_option quotPrecheck false

noncomputable section

namespace Cert.ReferenceIdeal.RefLines

open Cert.ReferenceIdeal Cert.ReferenceIdeal.Gen Cert.ReferenceIdeal.RefRun Idealize.ShloMosaic Idealize.ShloMosaic.TcCoe Idealize.SL.Sem Idealize.ShloMosaic.StableHlo
open Cert.TailLib Cert.SsaLines

/-- The lines write the buffers of slots 17, 18, … in order. -/
theorem ssaRef : SSA 17 (ops : List (HloOp τ sig (Elt Ideal))) :=
  And.intro (writesAt_of_eq (y := main_v0) rfl rfl) <|
  And.intro (writesAt_of_eq (y := main_cst) rfl rfl) <|
  And.intro (writesAt_of_eq (y := main_v1) rfl rfl) <|
  And.intro (writesAt_of_eq (y := main_v2) rfl rfl) <|
  And.intro (writesAt_of_eq (y := main_cst_0) rfl rfl) <|
  And.intro (writesAt_of_eq (y := main_v3) rfl rfl) <|
  And.intro (writesAt_of_eq (y := main_v4) rfl rfl) <|
  And.intro (writesAt_of_eq (y := main_v5) rfl rfl) <|
  And.intro (writesAt_of_eq (y := main_call0_v0) rfl rfl) <|
  And.intro (writesAt_of_eq (y := main_call0_v1) rfl rfl) <|
  And.intro (writesAt_of_eq (y := main_call0_cst) rfl rfl) <|
  And.intro (writesAt_of_eq (y := main_call0_v2) rfl rfl) <|
  And.intro (writesAt_of_eq (y := main_call0_v3) rfl rfl) <|
  And.intro (writesAt_of_eq (y := main_call0_cst_0) rfl rfl) <|
  And.intro (writesAt_of_eq (y := main_call0_v4) rfl rfl) <|
  And.intro (writesAt_of_eq (y := main_call0_v5) rfl rfl) <|
  And.intro (writesAt_of_eq (y := main_v6) rfl rfl) <|
  And.intro (writesAt_of_eq (y := main_cst_1) rfl rfl) <|
  And.intro (writesAt_of_eq (y := main_v7) rfl rfl) <|
  And.intro (writesAt_of_eq (y := main_v8) rfl rfl) <|
  And.intro (writesAt_of_eq (y := main_v9) rfl rfl) <|
  And.intro (writesAt_of_eq (y := main_cst_2) rfl rfl) <|
  And.intro (writesAt_of_eq (y := main_v10) rfl rfl) <|
  And.intro (writesAt_of_eq (y := main_v11) rfl rfl) <|
  And.intro (writesAt_of_eq (y := main_v12) rfl rfl) <|
  And.intro (writesAt_of_eq (y := main_v13) rfl rfl) <|
  And.intro (writesAt_of_eq (y := main_v14) rfl rfl) <|
  And.intro (writesAt_of_eq (y := main_v15) rfl rfl) <|
  And.intro (writesAt_of_eq (y := main_c) rfl rfl) <|
  And.intro (writesAt_of_eq (y := main_v16) rfl rfl) <|
  And.intro (writesAt_of_eq (y := main_v17) rfl rfl) <|
  And.intro (writesAt_of_eq (y := main_c_3) rfl rfl) <|
  And.intro (writesAt_of_eq (y := main_v18) rfl rfl) <|
  And.intro (writesAt_of_eq (y := main_v19) rfl rfl) <|
  And.intro (writesAt_of_eq (y := main_v20) rfl rfl) <|
  And.intro (writesAt_of_eq (y := main_v21) rfl rfl) <|
  And.intro (writesAt_of_eq (y := main_v22) rfl rfl) <|
  And.intro (writesAt_of_eq (y := main_v23) rfl rfl) <|
  And.intro (writesAt_of_eq (y := main_v24) rfl rfl) <|
  And.intro (writesAt_of_eq (y := main_v25) rfl rfl) <|
  And.intro (writesAt_of_eq (y := main_v26) rfl rfl) <|
  And.intro (writesAt_of_eq (y := main_c_4) rfl rfl) <|
  And.intro (writesAt_of_eq (y := main_v27) rfl rfl) <|
  And.intro (writesAt_of_eq (y := main_v28) rfl rfl) <|
  And.intro (writesAt_of_eq (y := main_c_5) rfl rfl) <|
  And.intro (writesAt_of_eq (y := main_v29) rfl rfl) <|
  And.intro (writesAt_of_eq (y := main_v30) rfl rfl) <|
  And.intro (writesAt_of_eq (y := main_v31) rfl rfl) <|
  And.intro (writesAt_of_eq (y := main_v32) rfl rfl) <|
  And.intro (writesAt_of_eq (y := main_v33) rfl rfl) <|
  And.intro (writesAt_of_eq (y := main_call1_cst) rfl rfl) <|
  And.intro (writesAt_of_eq (y := main_call1_v0) rfl rfl) <|
  And.intro (writesAt_of_eq (y := main_call1_v1) rfl rfl) <|
  And.intro (writesAt_of_eq (y := main_call1_v2) rfl rfl) <|
  And.intro (writesAt_of_eq (y := main_call1_v3) rfl rfl) <|
  And.intro (writesAt_of_eq (y := main_call1_v4) rfl rfl) <|
  And.intro (writesAt_of_eq (y := main_call1_v5) rfl rfl) <|
  And.intro (writesAt_of_eq (y := main_call1_v6) rfl rfl) <|
  And.intro (writesAt_of_eq (y := main_call1_v7) rfl rfl) <|
  And.intro (writesAt_of_eq (y := main_call1_v8) rfl rfl) <|
  And.intro (writesAt_of_eq (y := main_call1_v9) rfl rfl) <|
  And.intro (writesAt_of_eq (y := main_call1_v10) rfl rfl) <|
  And.intro (writesAt_of_eq (y := main_call1_v11) rfl rfl) <|
  And.intro (writesAt_of_eq (y := main_v34) rfl rfl) <|
  And.intro (writesAt_of_eq (y := main_cst_6) rfl rfl) <|
  And.intro (writesAt_of_eq (y := main_v35) rfl rfl) <|
  And.intro (writesAt_of_eq (y := main_v36) rfl rfl) <|
  And.intro (writesAt_of_eq (y := main_v37) rfl rfl) <|
  And.intro (writesAt_of_eq (y := main_v38) rfl rfl) <|
  And.intro (writesAt_of_eq (y := main_v39) rfl rfl) <|
  And.intro (writesAt_of_eq (y := main_v40) rfl rfl) <|
  And.intro (writesAt_of_eq (y := main_cst_7) rfl rfl) <|
  And.intro (writesAt_of_eq (y := main_v41) rfl rfl) <|
  And.intro (writesAt_of_eq (y := main_v42) rfl rfl) <|
  And.intro (writesAt_of_eq (y := main_v43) rfl rfl) <|
  And.intro (writesAt_of_eq (y := main_v44) rfl rfl) <|
  And.intro (writesAt_of_eq (y := main_v45) rfl rfl) <|
  And.intro (writesAt_of_eq (y := main_cst_8) rfl rfl) <|
  And.intro (writesAt_of_eq (y := main_v46) rfl rfl) <|
  And.intro (writesAt_of_eq (y := main_v47) rfl rfl) <|
  And.intro (writesAt_of_eq (y := main_c_9) rfl rfl) <|
  And.intro (writesAt_of_eq (y := main_v48) rfl rfl) <|
  And.intro (writesAt_of_eq (y := main_v49) rfl rfl) <|
  And.intro (writesAt_of_eq (y := main_c_10) rfl rfl) <|
  And.intro (writesAt_of_eq (y := main_v50) rfl rfl) <|
  And.intro (writesAt_of_eq (y := main_v51) rfl rfl) <|
  And.intro (writesAt_of_eq (y := main_v52) rfl rfl) <|
  And.intro (writesAt_of_eq (y := main_v53) rfl rfl) <|
  And.intro (writesAt_of_eq (y := main_v54) rfl rfl) <|
  And.intro (writesAt_of_eq (y := main_v55) rfl rfl) <|
  And.intro (writesAt_of_eq (y := main_cst_11) rfl rfl) <|
  And.intro (writesAt_of_eq (y := main_v56) rfl rfl) <|
  And.intro (writesAt_of_eq (y := main_v57) rfl rfl) <|
  And.intro (writesAt_of_eq (y := main_v58) rfl rfl) <|
  And.intro (writesAt_of_eq (y := main_c_12) rfl rfl) <|
  And.intro (writesAt_of_eq (y := main_v59) rfl rfl) <|
  And.intro (writesAt_of_eq (y := main_v60) rfl rfl) <|
  And.intro (writesAt_of_eq (y := main_c_13) rfl rfl) <|
  And.intro (writesAt_of_eq (y := main_v61) rfl rfl) <|
  And.intro (writesAt_of_eq (y := main_v62) rfl rfl) <|
  And.intro (writesAt_of_eq (y := main_v63) rfl rfl) <|
  And.intro (writesAt_of_eq (y := main_v64) rfl rfl) <|
  And.intro (writesAt_of_eq (y := main_v65) rfl rfl) <|
  And.intro (writesAt_of_eq (y := main_v66) rfl rfl) <|
  And.intro (writesAt_of_eq (y := main_cst_14) rfl rfl) <|
  And.intro (writesAt_of_eq (y := main_v67) rfl rfl) <|
  And.intro (writesAt_of_eq (y := main_v68) rfl rfl) <|
  And.intro (writesAt_of_eq (y := main_v69) rfl rfl) <|
  And.intro (writesAt_of_eq (y := main_call2_v0) rfl rfl) <|
  And.intro (writesAt_of_eq (y := main_call2_v1) rfl rfl) <|
  And.intro (writesAt_of_eq (y := main_call2_cst) rfl rfl) <|
  And.intro (writesAt_of_eq (y := main_call2_v2) rfl rfl) <|
  And.intro (writesAt_of_eq (y := main_call2_v3) rfl rfl) <|
  And.intro (writesAt_of_eq (y := main_call2_cst_0) rfl rfl) <|
  And.intro (writesAt_of_eq (y := main_call2_v4) rfl rfl) <|
  And.intro (writesAt_of_eq (y := main_call2_v5) rfl rfl) <|
  And.intro (writesAt_of_eq (y := main_v70) rfl rfl) <|
  And.intro (writesAt_of_eq (y := main_cst_15) rfl rfl) <|
  And.intro (writesAt_of_eq (y := main_v71) rfl rfl) <|
  And.intro (writesAt_of_eq (y := main_v72) rfl rfl) <|
  And.intro (writesAt_of_eq (y := main_v73) rfl rfl) <|
  And.intro (writesAt_of_eq (y := main_call3_v0) rfl rfl) <|
  And.intro (writesAt_of_eq (y := main_call3_v1) rfl rfl) <|
  And.intro (writesAt_of_eq (y := main_call3_cst) rfl rfl) <|
  And.intro (writesAt_of_eq (y := main_call3_v2) rfl rfl) <|
  And.intro (writesAt_of_eq (y := main_call3_v3) rfl rfl) <|
  And.intro (writesAt_of_eq (y := main_call3_cst_0) rfl rfl) <|
  And.intro (writesAt_of_eq (y := main_call3_v4) rfl rfl) <|
  And.intro (writesAt_of_eq (y := main_call3_v5) rfl rfl) <|
  And.intro (writesAt_of_eq (y := main_v74) rfl rfl) <|
  And.intro (writesAt_of_eq (y := main_cst_16) rfl rfl) <|
  And.intro (writesAt_of_eq (y := main_v75) rfl rfl) <|
  And.intro (writesAt_of_eq (y := main_v76) rfl rfl) <|
  And.intro (writesAt_of_eq (y := main_v77) rfl rfl) <|
  And.intro (writesAt_of_eq (y := main_cst_17) rfl rfl) <|
  And.intro (writesAt_of_eq (y := main_v78) rfl rfl) <|
  And.intro (writesAt_of_eq (y := main_v79) rfl rfl) <|
  And.intro (writesAt_of_eq (y := main_v80) rfl rfl) <|
  And.intro (writesAt_of_eq (y := main_v81) rfl rfl) <|
  And.intro (writesAt_of_eq (y := main_v82) rfl rfl) <|
  And.intro (writesAt_of_eq (y := main_cst_18) rfl rfl) <|
  And.intro (writesAt_of_eq (y := main_v83) rfl rfl) <|
  And.intro (writesAt_of_eq (y := main_v84) rfl rfl) <|
  And.intro (writesAt_of_eq (y := main_cst_19) rfl rfl) <|
  And.intro (writesAt_of_eq (y := main_v85) rfl rfl) <|
  And.intro (writesAt_of_eq (y := main_v86) rfl rfl) <|
  And.intro (writesAt_of_eq (y := main_cst_20) rfl rfl) <|
  And.intro (writesAt_of_eq (y := main_v87) rfl rfl) <|
  And.intro (writesAt_of_eq (y := main_v88) rfl rfl) <|
  And.intro (writesAt_of_eq (y := main_v89) rfl rfl) <|
  And.intro (writesAt_of_eq (y := main_v90) rfl rfl) <|
  And.intro (writesAt_of_eq (y := main_cst_21) rfl rfl) <|
  And.intro (writesAt_of_eq (y := main_v91) rfl rfl) <|
  And.intro (writesAt_of_eq (y := main_v92) rfl rfl) <|
  And.intro (writesAt_of_eq (y := main_v93) rfl rfl) <|
  And.intro (writesAt_of_eq (y := main_v94) rfl rfl) <|
  And.intro (writesAt_of_eq (y := main_v95) rfl rfl) <|
  And.intro (writesAt_of_eq (y := main_cst_22) rfl rfl) <|
  And.intro (writesAt_of_eq (y := main_v96) rfl rfl) <|
  And.intro (writesAt_of_eq (y := main_v97) rfl rfl) <|
  And.intro (writesAt_of_eq (y := main_cst_23) rfl rfl) <|
  And.intro (writesAt_of_eq (y := main_call4_v0) rfl rfl) <|
  And.intro (writesAt_of_eq (y := main_call4_v1) rfl rfl) <|
  And.intro (writesAt_of_eq (y := main_v98) rfl rfl) <|
  And.intro (writesAt_of_eq (y := main_v99) rfl rfl) <|
  And.intro (writesAt_of_eq (y := main_v100) rfl rfl) <|
  And.intro (writesAt_of_eq (y := main_v101) rfl rfl) <|
  trivial

variable (m : (ℓ : Loc nD τ sig) → Buf (Elt Ideal) ℓ) (c : Dev nD)

local notation "X[" b "]" => m ((c.tc : Thread nD τ).loc b)
local notation "R[" b "]" => after (ops (F := Ideal)) (launchContents m c) (Proc.devRef .tc b)

theorem r_main_arg0 : R[main_arg0] = X[main_arg0] := low_line ssaRef (launchContents m c) (r := main_arg0) (by decide)
theorem r_main_arg1 : R[main_arg1] = X[main_arg1] := low_line ssaRef (launchContents m c) (r := main_arg1) (by decide)
theorem r_main_arg2 : R[main_arg2] = X[main_arg2] := low_line ssaRef (launchContents m c) (r := main_arg2) (by decide)
theorem r_main_arg3 : R[main_arg3] = X[main_arg3] := low_line ssaRef (launchContents m c) (r := main_arg3) (by decide)
theorem r_main_arg4 : R[main_arg4] = X[main_arg4] := low_line ssaRef (launchContents m c) (r := main_arg4) (by decide)
theorem r_main_arg5 : R[main_arg5] = X[main_arg5] := low_line ssaRef (launchContents m c) (r := main_arg5) (by decide)
theorem r_main_arg6 : R[main_arg6] = X[main_arg6] := low_line ssaRef (launchContents m c) (r := main_arg6) (by decide)
theorem r_main_arg7 : R[main_arg7] = X[main_arg7] := low_line ssaRef (launchContents m c) (r := main_arg7) (by decide)
theorem r_main_arg8 : R[main_arg8] = X[main_arg8] := low_line ssaRef (launchContents m c) (r := main_arg8) (by decide)
theorem r_main_arg9 : R[main_arg9] = X[main_arg9] := low_line ssaRef (launchContents m c) (r := main_arg9) (by decide)
theorem r_main_arg10 : R[main_arg10] = X[main_arg10] := low_line ssaRef (launchContents m c) (r := main_arg10) (by decide)
theorem r_main_arg11 : R[main_arg11] = X[main_arg11] := low_line ssaRef (launchContents m c) (r := main_arg11) (by decide)
theorem r_main_arg12 : R[main_arg12] = X[main_arg12] := low_line ssaRef (launchContents m c) (r := main_arg12) (by decide)
theorem r_main_arg13 : R[main_arg13] = X[main_arg13] := low_line ssaRef (launchContents m c) (r := main_arg13) (by decide)
theorem r_main_arg14 : R[main_arg14] = X[main_arg14] := low_line ssaRef (launchContents m c) (r := main_arg14) (by decide)
theorem r_main_arg15 : R[main_arg15] = X[main_arg15] := low_line ssaRef (launchContents m c) (r := main_arg15) (by decide)
theorem r_main_arg16 : R[main_arg16] = X[main_arg16] := low_line ssaRef (launchContents m c) (r := main_arg16) (by decide)
theorem r_main_v0 : R[main_v0] = Stg.val_main_v0 (F := Ideal) X[main_arg0] :=
  (binary_line ssaRef (launchContents m c) 0 (a := main_arg0) (b := main_arg0) (y := main_v0) rfl rfl (by decide) (by decide)).trans (by rw [r_main_arg0 m c]; rfl)
theorem r_main_cst : R[main_cst] = Stg.val_main_cst (F := Ideal) :=
  (nullary_line ssaRef (launchContents m c) 1 (y := main_cst) rfl rfl).trans rfl
theorem r_main_v1 : R[main_v1] = Stg.val_main_v1 (F := Ideal) X[main_arg0] :=
  (binary_line ssaRef (launchContents m c) 2 (a := main_v0) (b := main_cst) (y := main_v1) rfl rfl (by decide) (by decide)).trans (by rw [r_main_v0 m c, r_main_cst m c]; rfl)
theorem r_main_v2 : R[main_v2] = Stg.val_main_v2 (F := Ideal) X[main_arg0] :=
  (unary_line ssaRef (launchContents m c) 3 (x := main_v1) (y := main_v2) rfl rfl (by decide)).trans (by rw [r_main_v1 m c]; rfl)
theorem r_main_cst_0 : R[main_cst_0] = Stg.val_main_cst_0 (F := Ideal) :=
  (nullary_line ssaRef (launchContents m c) 4 (y := main_cst_0) rfl rfl).trans rfl
theorem r_main_v3 : R[main_v3] = Stg.val_main_v3 (F := Ideal) :=
  (unary_line ssaRef (launchContents m c) 5 (x := main_cst_0) (y := main_v3) rfl rfl (by decide)).trans (by rw [r_main_cst_0 m c]; rfl)
theorem r_main_v4 : R[main_v4] = Stg.val_main_v4 (F := Ideal) X[main_arg11] :=
  (binary_line ssaRef (launchContents m c) 6 (a := main_arg11) (b := main_v3) (y := main_v4) rfl rfl (by decide) (by decide)).trans (by rw [r_main_arg11 m c, r_main_v3 m c]; rfl)
theorem r_main_v5 : R[main_v5] = Stg.val_main_v5 (F := Ideal) X[main_arg1] X[main_arg11] :=
  (binary_line ssaRef (launchContents m c) 7 (a := main_arg1) (b := main_v4) (y := main_v5) rfl rfl (by decide) (by decide)).trans (by rw [r_main_arg1 m c, r_main_v4 m c]; rfl)
theorem r_main_call0_v0 : R[main_call0_v0] = Stg.val_main_call0_v0 (F := Ideal) X[main_arg1] X[main_arg11] :=
  (unary_line ssaRef (launchContents m c) 8 (x := main_v5) (y := main_call0_v0) rfl rfl (by decide)).trans (by rw [r_main_v5 m c]; rfl)
theorem r_main_call0_v1 : R[main_call0_v1] = Stg.val_main_call0_v1 (F := Ideal) X[main_arg1] X[main_arg11] :=
  (unary_line ssaRef (launchContents m c) 9 (x := main_call0_v0) (y := main_call0_v1) rfl rfl (by decide)).trans (by rw [r_main_call0_v0 m c]; rfl)
theorem r_main_call0_cst : R[main_call0_cst] = Stg.val_main_call0_cst (F := Ideal) :=
  (nullary_line ssaRef (launchContents m c) 10 (y := main_call0_cst) rfl rfl).trans rfl
theorem r_main_call0_v2 : R[main_call0_v2] = Stg.val_main_call0_v2 (F := Ideal) :=
  (unary_line ssaRef (launchContents m c) 11 (x := main_call0_cst) (y := main_call0_v2) rfl rfl (by decide)).trans (by rw [r_main_call0_cst m c]; rfl)
theorem r_main_call0_v3 : R[main_call0_v3] = Stg.val_main_call0_v3 (F := Ideal) X[main_arg1] X[main_arg11] :=
  (binary_line ssaRef (launchContents m c) 12 (a := main_call0_v2) (b := main_call0_v1) (y := main_call0_v3) rfl rfl (by decide) (by decide)).trans (by rw [r_main_call0_v2 m c, r_main_call0_v1 m c]; rfl)
theorem r_main_call0_cst_0 : R[main_call0_cst_0] = Stg.val_main_call0_cst_0 (F := Ideal) :=
  (nullary_line ssaRef (launchContents m c) 13 (y := main_call0_cst_0) rfl rfl).trans rfl
theorem r_main_call0_v4 : R[main_call0_v4] = Stg.val_main_call0_v4 (F := Ideal) :=
  (unary_line ssaRef (launchContents m c) 14 (x := main_call0_cst_0) (y := main_call0_v4) rfl rfl (by decide)).trans (by rw [r_main_call0_cst_0 m c]; rfl)
theorem r_main_call0_v5 : R[main_call0_v5] = Stg.val_main_call0_v5 (F := Ideal) X[main_arg1] X[main_arg11] :=
  (binary_line ssaRef (launchContents m c) 15 (a := main_call0_v4) (b := main_call0_v3) (y := main_call0_v5) rfl rfl (by decide) (by decide)).trans (by rw [r_main_call0_v4 m c, r_main_call0_v3 m c]; rfl)
theorem r_main_v6 : R[main_v6] = Stg.val_main_v6 (F := Ideal) X[main_arg1] X[main_arg11] :=
  (binary_line ssaRef (launchContents m c) 16 (a := main_v5) (b := main_call0_v5) (y := main_v6) rfl rfl (by decide) (by decide)).trans (by rw [r_main_v5 m c, r_main_call0_v5 m c]; rfl)
theorem r_main_cst_1 : R[main_cst_1] = Stg.val_main_cst_1 (F := Ideal) :=
  (nullary_line ssaRef (launchContents m c) 17 (y := main_cst_1) rfl rfl).trans rfl
theorem r_main_v7 : R[main_v7] = Stg.val_main_v7 (F := Ideal) :=
  (unary_line ssaRef (launchContents m c) 18 (x := main_cst_1) (y := main_v7) rfl rfl (by decide)).trans (by rw [r_main_cst_1 m c]; rfl)
theorem r_main_v8 : R[main_v8] = Stg.val_main_v8 (F := Ideal) X[main_arg12] :=
  (binary_line ssaRef (launchContents m c) 19 (a := main_arg12) (b := main_v7) (y := main_v8) rfl rfl (by decide) (by decide)).trans (by rw [r_main_arg12 m c, r_main_v7 m c]; rfl)
theorem r_main_v9 : R[main_v9] = Stg.val_main_v9 (F := Ideal) X[main_arg1] X[main_arg11] X[main_arg12] :=
  (binary_line ssaRef (launchContents m c) 20 (a := main_v6) (b := main_v8) (y := main_v9) rfl rfl (by decide) (by decide)).trans (by rw [r_main_v6 m c, r_main_v8 m c]; rfl)
theorem r_main_cst_2 : R[main_cst_2] = Stg.val_main_cst_2 (F := Ideal) :=
  (nullary_line ssaRef (launchContents m c) 21 (y := main_cst_2) rfl rfl).trans rfl
theorem r_main_v10 : R[main_v10] = Stg.val_main_v10 (F := Ideal) :=
  (unary_line ssaRef (launchContents m c) 22 (x := main_cst_2) (y := main_v10) rfl rfl (by decide)).trans (by rw [r_main_cst_2 m c]; rfl)
theorem r_main_v11 : R[main_v11] = Stg.val_main_v11 (F := Ideal) X[main_arg3] :=
  (unary_line ssaRef (launchContents m c) 23 (x := main_arg3) (y := main_v11) rfl rfl (by decide)).trans (by rw [r_main_arg3 m c]; rfl)
theorem r_main_v12 : R[main_v12] = Stg.val_main_v12 (F := Ideal) X[main_arg1] X[main_arg3] X[main_arg11] X[main_arg12] :=
  (ternary_line ssaRef (launchContents m c) 24 (c := main_v10) (a := main_v11) (b := main_v9) (y := main_v12) rfl rfl (by decide) (by decide) (by decide)).trans (by rw [r_main_v10 m c, r_main_v11 m c, r_main_v9 m c]; rfl)
theorem r_main_v13 : R[main_v13] = Stg.val_main_v13 (F := Ideal) X[main_arg1] X[main_arg3] X[main_arg11] X[main_arg12] :=
  (reshape_line ssaRef (launchContents m c) 25 (x := main_v12) (y := main_v13) rfl rfl (by decide)).trans (by rw [r_main_v12 m c]; rfl)
theorem r_main_v14 : R[main_v14] = Stg.val_main_v14 (F := Ideal) X[main_arg8] :=
  (unary_line ssaRef (launchContents m c) 26 (x := main_arg8) (y := main_v14) rfl rfl (by decide)).trans (by rw [r_main_arg8 m c]; rfl)
theorem r_main_v15 : R[main_v15] = Stg.val_main_v15 (F := Ideal) X[main_arg1] X[main_arg3] X[main_arg8] X[main_arg11] X[main_arg12] :=
  (binary_line ssaRef (launchContents m c) 27 (a := main_v13) (b := main_v14) (y := main_v15) rfl rfl (by decide) (by decide)).trans (by rw [r_main_v13 m c, r_main_v14 m c]; rfl)
theorem r_main_c : R[main_c] = Stg.val_main_c (F := Ideal) :=
  (nullary_line ssaRef (launchContents m c) 28 (y := main_c) rfl rfl).trans rfl
theorem r_main_v16 : R[main_v16] = Stg.val_main_v16 (F := Ideal) :=
  (unary_line ssaRef (launchContents m c) 29 (x := main_c) (y := main_v16) rfl rfl (by decide)).trans (by rw [r_main_c m c]; rfl)
theorem r_main_v17 : R[main_v17] = Stg.val_main_v17 (F := Ideal) X[main_arg4] :=
  (binary_line ssaRef (launchContents m c) 30 (a := main_arg4) (b := main_v16) (y := main_v17) rfl rfl (by decide) (by decide)).trans (by rw [r_main_arg4 m c, r_main_v16 m c]; rfl)
theorem r_main_c_3 : R[main_c_3] = Stg.val_main_c_3 (F := Ideal) :=
  (nullary_line ssaRef (launchContents m c) 31 (y := main_c_3) rfl rfl).trans rfl
theorem r_main_v18 : R[main_v18] = Stg.val_main_v18 (F := Ideal) :=
  (unary_line ssaRef (launchContents m c) 32 (x := main_c_3) (y := main_v18) rfl rfl (by decide)).trans (by rw [r_main_c_3 m c]; rfl)
theorem r_main_v19 : R[main_v19] = Stg.val_main_v19 (F := Ideal) X[main_arg4] :=
  (binary_line ssaRef (launchContents m c) 33 (a := main_arg4) (b := main_v18) (y := main_v19) rfl rfl (by decide) (by decide)).trans (by rw [r_main_arg4 m c, r_main_v18 m c]; rfl)
theorem r_main_v20 : R[main_v20] = Stg.val_main_v20 (F := Ideal) X[main_arg4] :=
  (ternary_line ssaRef (launchContents m c) 34 (c := main_v17) (a := main_v19) (b := main_arg4) (y := main_v20) rfl rfl (by decide) (by decide) (by decide)).trans (by rw [r_main_v17 m c, r_main_v19 m c, r_main_arg4 m c]; rfl)
theorem r_main_v21 : R[main_v21] = Stg.val_main_v21 (F := Ideal) X[main_arg4] :=
  (unary_line ssaRef (launchContents m c) 35 (x := main_v20) (y := main_v21) rfl rfl (by decide)).trans (by rw [r_main_v20 m c]; rfl)
theorem r_main_v22 : R[main_v22] = Stg.val_main_v22 (F := Ideal) X[main_arg4] X[main_arg5] :=
  (binary_line ssaRef (launchContents m c) 36 (a := main_arg5) (b := main_v21) (y := main_v22) rfl rfl (by decide) (by decide)).trans (by rw [r_main_arg5 m c, r_main_v21 m c]; rfl)
theorem r_main_v23 : R[main_v23] = Stg.val_main_v23 (F := Ideal) X[main_arg9] :=
  (unary_line ssaRef (launchContents m c) 37 (x := main_arg9) (y := main_v23) rfl rfl (by decide)).trans (by rw [r_main_arg9 m c]; rfl)
theorem r_main_v24 : R[main_v24] = Stg.val_main_v24 (F := Ideal) X[main_arg4] X[main_arg5] X[main_arg9] :=
  (binary_line ssaRef (launchContents m c) 38 (a := main_v22) (b := main_v23) (y := main_v24) rfl rfl (by decide) (by decide)).trans (by rw [r_main_v22 m c, r_main_v23 m c]; rfl)
theorem r_main_v25 : R[main_v25] = Stg.val_main_v25 (F := Ideal) X[main_arg10] :=
  (unary_line ssaRef (launchContents m c) 39 (x := main_arg10) (y := main_v25) rfl rfl (by decide)).trans (by rw [r_main_arg10 m c]; rfl)
theorem r_main_v26 : R[main_v26] = Stg.val_main_v26 (F := Ideal) X[main_arg4] X[main_arg5] X[main_arg9] X[main_arg10] :=
  (binary_line ssaRef (launchContents m c) 40 (a := main_v24) (b := main_v25) (y := main_v26) rfl rfl (by decide) (by decide)).trans (by rw [r_main_v24 m c, r_main_v25 m c]; rfl)
theorem r_main_c_4 : R[main_c_4] = Stg.val_main_c_4 (F := Ideal) :=
  (nullary_line ssaRef (launchContents m c) 41 (y := main_c_4) rfl rfl).trans rfl
theorem r_main_v27 : R[main_v27] = Stg.val_main_v27 (F := Ideal) :=
  (unary_line ssaRef (launchContents m c) 42 (x := main_c_4) (y := main_v27) rfl rfl (by decide)).trans (by rw [r_main_c_4 m c]; rfl)
theorem r_main_v28 : R[main_v28] = Stg.val_main_v28 (F := Ideal) X[main_arg4] :=
  (binary_line ssaRef (launchContents m c) 43 (a := main_arg4) (b := main_v27) (y := main_v28) rfl rfl (by decide) (by decide)).trans (by rw [r_main_arg4 m c, r_main_v27 m c]; rfl)
theorem r_main_c_5 : R[main_c_5] = Stg.val_main_c_5 (F := Ideal) :=
  (nullary_line ssaRef (launchContents m c) 44 (y := main_c_5) rfl rfl).trans rfl
theorem r_main_v29 : R[main_v29] = Stg.val_main_v29 (F := Ideal) :=
  (unary_line ssaRef (launchContents m c) 45 (x := main_c_5) (y := main_v29) rfl rfl (by decide)).trans (by rw [r_main_c_5 m c]; rfl)
theorem r_main_v30 : R[main_v30] = Stg.val_main_v30 (F := Ideal) X[main_arg4] :=
  (binary_line ssaRef (launchContents m c) 46 (a := main_arg4) (b := main_v29) (y := main_v30) rfl rfl (by decide) (by decide)).trans (by rw [r_main_arg4 m c, r_main_v29 m c]; rfl)
theorem r_main_v31 : R[main_v31] = Stg.val_main_v31 (F := Ideal) X[main_arg4] :=
  (ternary_line ssaRef (launchContents m c) 47 (c := main_v28) (a := main_v30) (b := main_arg4) (y := main_v31) rfl rfl (by decide) (by decide) (by decide)).trans (by rw [r_main_v28 m c, r_main_v30 m c, r_main_arg4 m c]; rfl)
theorem r_main_v32 : R[main_v32] = Stg.val_main_v32 (F := Ideal) X[main_arg4] :=
  (unary_line ssaRef (launchContents m c) 48 (x := main_v31) (y := main_v32) rfl rfl (by decide)).trans (by rw [r_main_v31 m c]; rfl)
theorem r_main_v33 : R[main_v33] = Stg.val_main_v33 (F := Ideal) X[main_arg4] X[main_arg6] :=
  (binary_line ssaRef (launchContents m c) 49 (a := main_arg6) (b := main_v32) (y := main_v33) rfl rfl (by decide) (by decide)).trans (by rw [r_main_arg6 m c, r_main_v32 m c]; rfl)
theorem r_main_call1_cst : R[main_call1_cst] = Stg.val_main_call1_cst (F := Ideal) :=
  (nullary_line ssaRef (launchContents m c) 50 (y := main_call1_cst) rfl rfl).trans rfl
theorem r_main_call1_v0 : R[main_call1_v0] = Stg.val_main_call1_v0 (F := Ideal) :=
  (unary_line ssaRef (launchContents m c) 51 (x := main_call1_cst) (y := main_call1_v0) rfl rfl (by decide)).trans (by rw [r_main_call1_cst m c]; rfl)
theorem r_main_call1_v1 : R[main_call1_v1] = Stg.val_main_call1_v1 (F := Ideal) X[main_arg4] X[main_arg6] :=
  (binary_line ssaRef (launchContents m c) 52 (a := main_v33) (b := main_call1_v0) (y := main_call1_v1) rfl rfl (by decide) (by decide)).trans (by rw [r_main_v33 m c, r_main_call1_v0 m c]; rfl)
theorem r_main_call1_v2 : R[main_call1_v2] = Stg.val_main_call1_v2 (F := Ideal) :=
  (unary_line ssaRef (launchContents m c) 53 (x := main_call1_cst) (y := main_call1_v2) rfl rfl (by decide)).trans (by rw [r_main_call1_cst m c]; rfl)
theorem r_main_call1_v3 : R[main_call1_v3] = Stg.val_main_call1_v3 (F := Ideal) X[main_arg4] X[main_arg6] :=
  (binary_line ssaRef (launchContents m c) 54 (a := main_v33) (b := main_call1_v2) (y := main_call1_v3) rfl rfl (by decide) (by decide)).trans (by rw [r_main_v33 m c, r_main_call1_v2 m c]; rfl)
theorem r_main_call1_v4 : R[main_call1_v4] = Stg.val_main_call1_v4 (F := Ideal) X[main_arg4] X[main_arg6] :=
  (binary_line ssaRef (launchContents m c) 55 (a := main_call1_v3) (b := main_call1_v3) (y := main_call1_v4) rfl rfl (by decide) (by decide)).trans (by rw [r_main_call1_v3 m c]; rfl)
theorem r_main_call1_v5 : R[main_call1_v5] = Stg.val_main_call1_v5 (F := Ideal) :=
  (unary_line ssaRef (launchContents m c) 56 (x := main_call1_cst) (y := main_call1_v5) rfl rfl (by decide)).trans (by rw [r_main_call1_cst m c]; rfl)
theorem r_main_call1_v6 : R[main_call1_v6] = Stg.val_main_call1_v6 (F := Ideal) X[main_arg4] X[main_arg6] :=
  (binary_line ssaRef (launchContents m c) 57 (a := main_v33) (b := main_call1_v5) (y := main_call1_v6) rfl rfl (by decide) (by decide)).trans (by rw [r_main_v33 m c, r_main_call1_v5 m c]; rfl)
theorem r_main_call1_v7 : R[main_call1_v7] = Stg.val_main_call1_v7 (F := Ideal) X[main_arg4] X[main_arg6] :=
  (unary_line ssaRef (launchContents m c) 58 (x := main_call1_v3) (y := main_call1_v7) rfl rfl (by decide)).trans (by rw [r_main_call1_v3 m c]; rfl)
theorem r_main_call1_v8 : R[main_call1_v8] = Stg.val_main_call1_v8 (F := Ideal) X[main_arg4] X[main_arg6] :=
  (unary_line ssaRef (launchContents m c) 59 (x := main_call1_v7) (y := main_call1_v8) rfl rfl (by decide)).trans (by rw [r_main_call1_v7 m c]; rfl)
theorem r_main_call1_v9 : R[main_call1_v9] = Stg.val_main_call1_v9 (F := Ideal) X[main_arg4] X[main_arg6] :=
  (unary_line ssaRef (launchContents m c) 60 (x := main_call1_v8) (y := main_call1_v9) rfl rfl (by decide)).trans (by rw [r_main_call1_v8 m c]; rfl)
theorem r_main_call1_v10 : R[main_call1_v10] = Stg.val_main_call1_v10 (F := Ideal) X[main_arg4] X[main_arg6] :=
  (unary_line ssaRef (launchContents m c) 61 (x := main_call1_v9) (y := main_call1_v10) rfl rfl (by decide)).trans (by rw [r_main_call1_v9 m c]; rfl)
theorem r_main_call1_v11 : R[main_call1_v11] = Stg.val_main_call1_v11 (F := Ideal) X[main_arg4] X[main_arg6] :=
  (binary_line ssaRef (launchContents m c) 62 (a := main_call1_v1) (b := main_call1_v10) (y := main_call1_v11) rfl rfl (by decide) (by decide)).trans (by rw [r_main_call1_v1 m c, r_main_call1_v10 m c]; rfl)
theorem r_main_v34 : R[main_v34] = Stg.val_main_v34 (F := Ideal) X[main_arg4] X[main_arg6] :=
  (ternary_line ssaRef (launchContents m c) 63 (c := main_call1_v4) (a := main_call1_v6) (b := main_call1_v11) (y := main_v34) rfl rfl (by decide) (by decide) (by decide)).trans (by rw [r_main_call1_v4 m c, r_main_call1_v6 m c, r_main_call1_v11 m c]; rfl)
theorem r_main_cst_6 : R[main_cst_6] = Stg.val_main_cst_6 (F := Ideal) :=
  (nullary_line ssaRef (launchContents m c) 64 (y := main_cst_6) rfl rfl).trans rfl
theorem r_main_v35 : R[main_v35] = Stg.val_main_v35 (F := Ideal) :=
  (unary_line ssaRef (launchContents m c) 65 (x := main_cst_6) (y := main_v35) rfl rfl (by decide)).trans (by rw [r_main_cst_6 m c]; rfl)
theorem r_main_v36 : R[main_v36] = Stg.val_main_v36 (F := Ideal) X[main_arg4] X[main_arg5] X[main_arg9] X[main_arg10] :=
  (binary_line ssaRef (launchContents m c) 66 (a := main_v35) (b := main_v26) (y := main_v36) rfl rfl (by decide) (by decide)).trans (by rw [r_main_v35 m c, r_main_v26 m c]; rfl)
theorem r_main_v37 : R[main_v37] = Stg.val_main_v37 (F := Ideal) X[main_arg4] X[main_arg5] X[main_arg6] X[main_arg9] X[main_arg10] :=
  (binary_line ssaRef (launchContents m c) 67 (a := main_v34) (b := main_v36) (y := main_v37) rfl rfl (by decide) (by decide)).trans (by rw [r_main_v34 m c, r_main_v36 m c]; rfl)
theorem r_main_v38 : R[main_v38] = Stg.val_main_v38 (F := Ideal) X[main_arg1] X[main_arg3] X[main_arg8] X[main_arg11] X[main_arg12] :=
  (unary_line ssaRef (launchContents m c) 68 (x := main_v15) (y := main_v38) rfl rfl (by decide)).trans (by rw [r_main_v15 m c]; rfl)
theorem r_main_v39 : R[main_v39] = Stg.val_main_v39 (F := Ideal) X[main_arg1] X[main_arg3] X[main_arg4] X[main_arg5] X[main_arg6] X[main_arg8] X[main_arg9] X[main_arg10] X[main_arg11] X[main_arg12] :=
  (binary_line ssaRef (launchContents m c) 69 (a := main_v38) (b := main_v37) (y := main_v39) rfl rfl (by decide) (by decide)).trans (by rw [r_main_v38 m c, r_main_v37 m c]; rfl)
theorem r_main_v40 : R[main_v40] = Stg.val_main_v40 (F := Ideal) X[main_arg1] X[main_arg3] X[main_arg4] X[main_arg5] X[main_arg6] X[main_arg8] X[main_arg9] X[main_arg10] X[main_arg11] X[main_arg12] :=
  (binary_line ssaRef (launchContents m c) 70 (a := main_v15) (b := main_v39) (y := main_v40) rfl rfl (by decide) (by decide)).trans (by rw [r_main_v15 m c, r_main_v39 m c]; rfl)
theorem r_main_cst_7 : R[main_cst_7] = Stg.val_main_cst_7 (F := Ideal) :=
  (nullary_line ssaRef (launchContents m c) 71 (y := main_cst_7) rfl rfl).trans rfl
theorem r_main_v41 : R[main_v41] = Stg.val_main_v41 (F := Ideal) :=
  (unary_line ssaRef (launchContents m c) 72 (x := main_cst_7) (y := main_v41) rfl rfl (by decide)).trans (by rw [r_main_cst_7 m c]; rfl)
theorem r_main_v42 : R[main_v42] = Stg.val_main_v42 (F := Ideal) X[main_arg4] X[main_arg5] X[main_arg6] X[main_arg9] X[main_arg10] :=
  (binary_line ssaRef (launchContents m c) 73 (a := main_v41) (b := main_v37) (y := main_v42) rfl rfl (by decide) (by decide)).trans (by rw [r_main_v41 m c, r_main_v37 m c]; rfl)
theorem r_main_v43 : R[main_v43] = Stg.val_main_v43 (F := Ideal) X[main_arg1] X[main_arg3] X[main_arg4] X[main_arg5] X[main_arg6] X[main_arg8] X[main_arg9] X[main_arg10] X[main_arg11] X[main_arg12] :=
  (binary_line ssaRef (launchContents m c) 74 (a := main_v42) (b := main_v39) (y := main_v43) rfl rfl (by decide) (by decide)).trans (by rw [r_main_v42 m c, r_main_v39 m c]; rfl)
theorem r_main_v44 : R[main_v44] = Stg.val_main_v44 (F := Ideal) X[main_arg1] X[main_arg3] X[main_arg4] X[main_arg5] X[main_arg6] X[main_arg8] X[main_arg9] X[main_arg10] X[main_arg11] X[main_arg12] :=
  (binary_line ssaRef (launchContents m c) 75 (a := main_v43) (b := main_v39) (y := main_v44) rfl rfl (by decide) (by decide)).trans (by rw [r_main_v43 m c, r_main_v39 m c]; rfl)
theorem r_main_v45 : R[main_v45] = Stg.val_main_v45 (F := Ideal) X[main_arg1] X[main_arg3] X[main_arg4] X[main_arg5] X[main_arg6] X[main_arg8] X[main_arg9] X[main_arg10] X[main_arg11] X[main_arg12] :=
  (binary_line ssaRef (launchContents m c) 76 (a := main_v40) (b := main_v44) (y := main_v45) rfl rfl (by decide) (by decide)).trans (by rw [r_main_v40 m c, r_main_v44 m c]; rfl)
theorem r_main_cst_8 : R[main_cst_8] = Stg.val_main_cst_8 (F := Ideal) :=
  (nullary_line ssaRef (launchContents m c) 77 (y := main_cst_8) rfl rfl).trans rfl
theorem r_main_v46 : R[main_v46] = Stg.val_main_v46 (F := Ideal) X[main_arg1] X[main_arg3] X[main_arg4] X[main_arg5] X[main_arg6] X[main_arg8] X[main_arg9] X[main_arg10] X[main_arg11] X[main_arg12] :=
  (binary_line ssaRef (launchContents m c) 78 (a := main_v45) (b := main_cst_8) (y := main_v46) rfl rfl (by decide) (by decide)).trans (by rw [r_main_v45 m c, r_main_cst_8 m c]; rfl)
theorem r_main_v47 : R[main_v47] = Stg.val_main_v47 (F := Ideal) X[main_arg1] X[main_arg3] X[main_arg4] X[main_arg5] X[main_arg6] X[main_arg8] X[main_arg9] X[main_arg10] X[main_arg11] X[main_arg12] :=
  (unary_line ssaRef (launchContents m c) 79 (x := main_v39) (y := main_v47) rfl rfl (by decide)).trans (by rw [r_main_v39 m c]; rfl)
theorem r_main_c_9 : R[main_c_9] = Stg.val_main_c_9 (F := Ideal) :=
  (nullary_line ssaRef (launchContents m c) 80 (y := main_c_9) rfl rfl).trans rfl
theorem r_main_v48 : R[main_v48] = Stg.val_main_v48 (F := Ideal) :=
  (unary_line ssaRef (launchContents m c) 81 (x := main_c_9) (y := main_v48) rfl rfl (by decide)).trans (by rw [r_main_c_9 m c]; rfl)
theorem r_main_v49 : R[main_v49] = Stg.val_main_v49 (F := Ideal) X[main_arg4] :=
  (binary_line ssaRef (launchContents m c) 82 (a := main_arg4) (b := main_v48) (y := main_v49) rfl rfl (by decide) (by decide)).trans (by rw [r_main_arg4 m c, r_main_v48 m c]; rfl)
theorem r_main_c_10 : R[main_c_10] = Stg.val_main_c_10 (F := Ideal) :=
  (nullary_line ssaRef (launchContents m c) 83 (y := main_c_10) rfl rfl).trans rfl
theorem r_main_v50 : R[main_v50] = Stg.val_main_v50 (F := Ideal) :=
  (unary_line ssaRef (launchContents m c) 84 (x := main_c_10) (y := main_v50) rfl rfl (by decide)).trans (by rw [r_main_c_10 m c]; rfl)
theorem r_main_v51 : R[main_v51] = Stg.val_main_v51 (F := Ideal) X[main_arg4] :=
  (binary_line ssaRef (launchContents m c) 85 (a := main_arg4) (b := main_v50) (y := main_v51) rfl rfl (by decide) (by decide)).trans (by rw [r_main_arg4 m c, r_main_v50 m c]; rfl)
theorem r_main_v52 : R[main_v52] = Stg.val_main_v52 (F := Ideal) X[main_arg4] :=
  (ternary_line ssaRef (launchContents m c) 86 (c := main_v49) (a := main_v51) (b := main_arg4) (y := main_v52) rfl rfl (by decide) (by decide) (by decide)).trans (by rw [r_main_v49 m c, r_main_v51 m c, r_main_arg4 m c]; rfl)
theorem r_main_v53 : R[main_v53] = Stg.val_main_v53 (F := Ideal) X[main_arg4] :=
  (unary_line ssaRef (launchContents m c) 87 (x := main_v52) (y := main_v53) rfl rfl (by decide)).trans (by rw [r_main_v52 m c]; rfl)
theorem r_main_v54 : R[main_v54] = Stg.val_main_v54 (F := Ideal) X[main_arg4] X[main_arg7] :=
  (binary_line ssaRef (launchContents m c) 88 (a := main_arg7) (b := main_v53) (y := main_v54) rfl rfl (by decide) (by decide)).trans (by rw [r_main_arg7 m c, r_main_v53 m c]; rfl)
theorem r_main_v55 : R[main_v55] = Stg.val_main_v55 (F := Ideal) X[main_arg1] X[main_arg3] X[main_arg4] X[main_arg5] X[main_arg6] X[main_arg7] X[main_arg8] X[main_arg9] X[main_arg10] X[main_arg11] X[main_arg12] :=
  (binary_line ssaRef (launchContents m c) 89 (a := main_v47) (b := main_v54) (y := main_v55) rfl rfl (by decide) (by decide)).trans (by rw [r_main_v47 m c, r_main_v54 m c]; rfl)
theorem r_main_cst_11 : R[main_cst_11] = Stg.val_main_cst_11 (F := Ideal) :=
  (nullary_line ssaRef (launchContents m c) 90 (y := main_cst_11) rfl rfl).trans rfl
theorem r_main_v56 : R[main_v56] = Stg.val_main_v56 (F := Ideal) :=
  (unary_line ssaRef (launchContents m c) 91 (x := main_cst_11) (y := main_v56) rfl rfl (by decide)).trans (by rw [r_main_cst_11 m c]; rfl)
theorem r_main_v57 : R[main_v57] = Stg.val_main_v57 (F := Ideal) X[main_arg13] :=
  (binary_line ssaRef (launchContents m c) 92 (a := main_arg13) (b := main_v56) (y := main_v57) rfl rfl (by decide) (by decide)).trans (by rw [r_main_arg13 m c, r_main_v56 m c]; rfl)
theorem r_main_v58 : R[main_v58] = Stg.val_main_v58 (F := Ideal) X[main_arg1] X[main_arg3] X[main_arg4] X[main_arg5] X[main_arg6] X[main_arg7] X[main_arg8] X[main_arg9] X[main_arg10] X[main_arg11] X[main_arg12] X[main_arg13] :=
  (binary_line ssaRef (launchContents m c) 93 (a := main_v55) (b := main_v57) (y := main_v58) rfl rfl (by decide) (by decide)).trans (by rw [r_main_v55 m c, r_main_v57 m c]; rfl)
theorem r_main_c_12 : R[main_c_12] = Stg.val_main_c_12 (F := Ideal) :=
  (nullary_line ssaRef (launchContents m c) 94 (y := main_c_12) rfl rfl).trans rfl
theorem r_main_v59 : R[main_v59] = Stg.val_main_v59 (F := Ideal) :=
  (unary_line ssaRef (launchContents m c) 95 (x := main_c_12) (y := main_v59) rfl rfl (by decide)).trans (by rw [r_main_c_12 m c]; rfl)
theorem r_main_v60 : R[main_v60] = Stg.val_main_v60 (F := Ideal) X[main_arg3] :=
  (binary_line ssaRef (launchContents m c) 96 (a := main_arg3) (b := main_v59) (y := main_v60) rfl rfl (by decide) (by decide)).trans (by rw [r_main_arg3 m c, r_main_v59 m c]; rfl)
theorem r_main_c_13 : R[main_c_13] = Stg.val_main_c_13 (F := Ideal) :=
  (nullary_line ssaRef (launchContents m c) 97 (y := main_c_13) rfl rfl).trans rfl
theorem r_main_v61 : R[main_v61] = Stg.val_main_v61 (F := Ideal) :=
  (unary_line ssaRef (launchContents m c) 98 (x := main_c_13) (y := main_v61) rfl rfl (by decide)).trans (by rw [r_main_c_13 m c]; rfl)
theorem r_main_v62 : R[main_v62] = Stg.val_main_v62 (F := Ideal) X[main_arg3] :=
  (binary_line ssaRef (launchContents m c) 99 (a := main_arg3) (b := main_v61) (y := main_v62) rfl rfl (by decide) (by decide)).trans (by rw [r_main_arg3 m c, r_main_v61 m c]; rfl)
theorem r_main_v63 : R[main_v63] = Stg.val_main_v63 (F := Ideal) X[main_arg3] :=
  (ternary_line ssaRef (launchContents m c) 100 (c := main_v60) (a := main_v62) (b := main_arg3) (y := main_v63) rfl rfl (by decide) (by decide) (by decide)).trans (by rw [r_main_v60 m c, r_main_v62 m c, r_main_arg3 m c]; rfl)
theorem r_main_v64 : R[main_v64] = Stg.val_main_v64 (F := Ideal) X[main_arg3] :=
  (unary_line ssaRef (launchContents m c) 101 (x := main_v63) (y := main_v64) rfl rfl (by decide)).trans (by rw [r_main_v63 m c]; rfl)
theorem r_main_v65 : R[main_v65] = Stg.val_main_v65 (F := Ideal) X[main_arg1] X[main_arg3] X[main_arg4] X[main_arg5] X[main_arg6] X[main_arg7] X[main_arg8] X[main_arg9] X[main_arg10] X[main_arg11] X[main_arg12] X[main_arg13] :=
  (binary_line ssaRef (launchContents m c) 102 (a := main_v58) (b := main_v64) (y := main_v65) rfl rfl (by decide) (by decide)).trans (by rw [r_main_v58 m c, r_main_v64 m c]; rfl)
theorem r_main_v66 : R[main_v66] = Stg.val_main_v66 (F := Ideal) X[main_arg1] X[main_arg3] X[main_arg4] X[main_arg5] X[main_arg6] X[main_arg7] X[main_arg8] X[main_arg9] X[main_arg10] X[main_arg11] X[main_arg12] X[main_arg13] :=
  (binary_line ssaRef (launchContents m c) 103 (a := main_arg1) (b := main_v65) (y := main_v66) rfl rfl (by decide) (by decide)).trans (by rw [r_main_arg1 m c, r_main_v65 m c]; rfl)
theorem r_main_cst_14 : R[main_cst_14] = Stg.val_main_cst_14 (F := Ideal) :=
  (nullary_line ssaRef (launchContents m c) 104 (y := main_cst_14) rfl rfl).trans rfl
theorem r_main_v67 : R[main_v67] = Stg.val_main_v67 (F := Ideal) :=
  (unary_line ssaRef (launchContents m c) 105 (x := main_cst_14) (y := main_v67) rfl rfl (by decide)).trans (by rw [r_main_cst_14 m c]; rfl)
theorem r_main_v68 : R[main_v68] = Stg.val_main_v68 (F := Ideal) X[main_arg14] :=
  (binary_line ssaRef (launchContents m c) 106 (a := main_arg14) (b := main_v67) (y := main_v68) rfl rfl (by decide) (by decide)).trans (by rw [r_main_arg14 m c, r_main_v67 m c]; rfl)
theorem r_main_v69 : R[main_v69] = Stg.val_main_v69 (F := Ideal) X[main_arg1] X[main_arg3] X[main_arg4] X[main_arg5] X[main_arg6] X[main_arg7] X[main_arg8] X[main_arg9] X[main_arg10] X[main_arg11] X[main_arg12] X[main_arg13] X[main_arg14] :=
  (binary_line ssaRef (launchContents m c) 107 (a := main_v66) (b := main_v68) (y := main_v69) rfl rfl (by decide) (by decide)).trans (by rw [r_main_v66 m c, r_main_v68 m c]; rfl)
theorem r_main_call2_v0 : R[main_call2_v0] = Stg.val_main_call2_v0 (F := Ideal) X[main_arg1] X[main_arg3] X[main_arg4] X[main_arg5] X[main_arg6] X[main_arg7] X[main_arg8] X[main_arg9] X[main_arg10] X[main_arg11] X[main_arg12] X[main_arg13] X[main_arg14] :=
  (unary_line ssaRef (launchContents m c) 108 (x := main_v69) (y := main_call2_v0) rfl rfl (by decide)).trans (by rw [r_main_v69 m c]; rfl)
theorem r_main_call2_v1 : R[main_call2_v1] = Stg.val_main_call2_v1 (F := Ideal) X[main_arg1] X[main_arg3] X[main_arg4] X[main_arg5] X[main_arg6] X[main_arg7] X[main_arg8] X[main_arg9] X[main_arg10] X[main_arg11] X[main_arg12] X[main_arg13] X[main_arg14] :=
  (unary_line ssaRef (launchContents m c) 109 (x := main_call2_v0) (y := main_call2_v1) rfl rfl (by decide)).trans (by rw [r_main_call2_v0 m c]; rfl)
theorem r_main_call2_cst : R[main_call2_cst] = Stg.val_main_call2_cst (F := Ideal) :=
  (nullary_line ssaRef (launchContents m c) 110 (y := main_call2_cst) rfl rfl).trans rfl
theorem r_main_call2_v2 : R[main_call2_v2] = Stg.val_main_call2_v2 (F := Ideal) :=
  (unary_line ssaRef (launchContents m c) 111 (x := main_call2_cst) (y := main_call2_v2) rfl rfl (by decide)).trans (by rw [r_main_call2_cst m c]; rfl)
theorem r_main_call2_v3 : R[main_call2_v3] = Stg.val_main_call2_v3 (F := Ideal) X[main_arg1] X[main_arg3] X[main_arg4] X[main_arg5] X[main_arg6] X[main_arg7] X[main_arg8] X[main_arg9] X[main_arg10] X[main_arg11] X[main_arg12] X[main_arg13] X[main_arg14] :=
  (binary_line ssaRef (launchContents m c) 112 (a := main_call2_v2) (b := main_call2_v1) (y := main_call2_v3) rfl rfl (by decide) (by decide)).trans (by rw [r_main_call2_v2 m c, r_main_call2_v1 m c]; rfl)
theorem r_main_call2_cst_0 : R[main_call2_cst_0] = Stg.val_main_call2_cst_0 (F := Ideal) :=
  (nullary_line ssaRef (launchContents m c) 113 (y := main_call2_cst_0) rfl rfl).trans rfl
theorem r_main_call2_v4 : R[main_call2_v4] = Stg.val_main_call2_v4 (F := Ideal) :=
  (unary_line ssaRef (launchContents m c) 114 (x := main_call2_cst_0) (y := main_call2_v4) rfl rfl (by decide)).trans (by rw [r_main_call2_cst_0 m c]; rfl)
theorem r_main_call2_v5 : R[main_call2_v5] = Stg.val_main_call2_v5 (F := Ideal) X[main_arg1] X[main_arg3] X[main_arg4] X[main_arg5] X[main_arg6] X[main_arg7] X[main_arg8] X[main_arg9] X[main_arg10] X[main_arg11] X[main_arg12] X[main_arg13] X[main_arg14] :=
  (binary_line ssaRef (launchContents m c) 115 (a := main_call2_v4) (b := main_call2_v3) (y := main_call2_v5) rfl rfl (by decide) (by decide)).trans (by rw [r_main_call2_v4 m c, r_main_call2_v3 m c]; rfl)
theorem r_main_v70 : R[main_v70] = Stg.val_main_v70 (F := Ideal) X[main_arg1] X[main_arg3] X[main_arg4] X[main_arg5] X[main_arg6] X[main_arg7] X[main_arg8] X[main_arg9] X[main_arg10] X[main_arg11] X[main_arg12] X[main_arg13] X[main_arg14] :=
  (binary_line ssaRef (launchContents m c) 116 (a := main_v69) (b := main_call2_v5) (y := main_v70) rfl rfl (by decide) (by decide)).trans (by rw [r_main_v69 m c, r_main_call2_v5 m c]; rfl)
theorem r_main_cst_15 : R[main_cst_15] = Stg.val_main_cst_15 (F := Ideal) :=
  (nullary_line ssaRef (launchContents m c) 117 (y := main_cst_15) rfl rfl).trans rfl
theorem r_main_v71 : R[main_v71] = Stg.val_main_v71 (F := Ideal) :=
  (unary_line ssaRef (launchContents m c) 118 (x := main_cst_15) (y := main_v71) rfl rfl (by decide)).trans (by rw [r_main_cst_15 m c]; rfl)
theorem r_main_v72 : R[main_v72] = Stg.val_main_v72 (F := Ideal) X[main_arg15] :=
  (binary_line ssaRef (launchContents m c) 119 (a := main_arg15) (b := main_v71) (y := main_v72) rfl rfl (by decide) (by decide)).trans (by rw [r_main_arg15 m c, r_main_v71 m c]; rfl)
theorem r_main_v73 : R[main_v73] = Stg.val_main_v73 (F := Ideal) X[main_arg1] X[main_arg3] X[main_arg4] X[main_arg5] X[main_arg6] X[main_arg7] X[main_arg8] X[main_arg9] X[main_arg10] X[main_arg11] X[main_arg12] X[main_arg13] X[main_arg14] X[main_arg15] :=
  (binary_line ssaRef (launchContents m c) 120 (a := main_v70) (b := main_v72) (y := main_v73) rfl rfl (by decide) (by decide)).trans (by rw [r_main_v70 m c, r_main_v72 m c]; rfl)
theorem r_main_call3_v0 : R[main_call3_v0] = Stg.val_main_call3_v0 (F := Ideal) X[main_arg1] X[main_arg3] X[main_arg4] X[main_arg5] X[main_arg6] X[main_arg7] X[main_arg8] X[main_arg9] X[main_arg10] X[main_arg11] X[main_arg12] X[main_arg13] X[main_arg14] X[main_arg15] :=
  (unary_line ssaRef (launchContents m c) 121 (x := main_v73) (y := main_call3_v0) rfl rfl (by decide)).trans (by rw [r_main_v73 m c]; rfl)
theorem r_main_call3_v1 : R[main_call3_v1] = Stg.val_main_call3_v1 (F := Ideal) X[main_arg1] X[main_arg3] X[main_arg4] X[main_arg5] X[main_arg6] X[main_arg7] X[main_arg8] X[main_arg9] X[main_arg10] X[main_arg11] X[main_arg12] X[main_arg13] X[main_arg14] X[main_arg15] :=
  (unary_line ssaRef (launchContents m c) 122 (x := main_call3_v0) (y := main_call3_v1) rfl rfl (by decide)).trans (by rw [r_main_call3_v0 m c]; rfl)
theorem r_main_call3_cst : R[main_call3_cst] = Stg.val_main_call3_cst (F := Ideal) :=
  (nullary_line ssaRef (launchContents m c) 123 (y := main_call3_cst) rfl rfl).trans rfl
theorem r_main_call3_v2 : R[main_call3_v2] = Stg.val_main_call3_v2 (F := Ideal) :=
  (unary_line ssaRef (launchContents m c) 124 (x := main_call3_cst) (y := main_call3_v2) rfl rfl (by decide)).trans (by rw [r_main_call3_cst m c]; rfl)
theorem r_main_call3_v3 : R[main_call3_v3] = Stg.val_main_call3_v3 (F := Ideal) X[main_arg1] X[main_arg3] X[main_arg4] X[main_arg5] X[main_arg6] X[main_arg7] X[main_arg8] X[main_arg9] X[main_arg10] X[main_arg11] X[main_arg12] X[main_arg13] X[main_arg14] X[main_arg15] :=
  (binary_line ssaRef (launchContents m c) 125 (a := main_call3_v2) (b := main_call3_v1) (y := main_call3_v3) rfl rfl (by decide) (by decide)).trans (by rw [r_main_call3_v2 m c, r_main_call3_v1 m c]; rfl)
theorem r_main_call3_cst_0 : R[main_call3_cst_0] = Stg.val_main_call3_cst_0 (F := Ideal) :=
  (nullary_line ssaRef (launchContents m c) 126 (y := main_call3_cst_0) rfl rfl).trans rfl
theorem r_main_call3_v4 : R[main_call3_v4] = Stg.val_main_call3_v4 (F := Ideal) :=
  (unary_line ssaRef (launchContents m c) 127 (x := main_call3_cst_0) (y := main_call3_v4) rfl rfl (by decide)).trans (by rw [r_main_call3_cst_0 m c]; rfl)
theorem r_main_call3_v5 : R[main_call3_v5] = Stg.val_main_call3_v5 (F := Ideal) X[main_arg1] X[main_arg3] X[main_arg4] X[main_arg5] X[main_arg6] X[main_arg7] X[main_arg8] X[main_arg9] X[main_arg10] X[main_arg11] X[main_arg12] X[main_arg13] X[main_arg14] X[main_arg15] :=
  (binary_line ssaRef (launchContents m c) 128 (a := main_call3_v4) (b := main_call3_v3) (y := main_call3_v5) rfl rfl (by decide) (by decide)).trans (by rw [r_main_call3_v4 m c, r_main_call3_v3 m c]; rfl)
theorem r_main_v74 : R[main_v74] = Stg.val_main_v74 (F := Ideal) X[main_arg1] X[main_arg3] X[main_arg4] X[main_arg5] X[main_arg6] X[main_arg7] X[main_arg8] X[main_arg9] X[main_arg10] X[main_arg11] X[main_arg12] X[main_arg13] X[main_arg14] X[main_arg15] :=
  (binary_line ssaRef (launchContents m c) 129 (a := main_v73) (b := main_call3_v5) (y := main_v74) rfl rfl (by decide) (by decide)).trans (by rw [r_main_v73 m c, r_main_call3_v5 m c]; rfl)
theorem r_main_cst_16 : R[main_cst_16] = Stg.val_main_cst_16 (F := Ideal) :=
  (nullary_line ssaRef (launchContents m c) 130 (y := main_cst_16) rfl rfl).trans rfl
theorem r_main_v75 : R[main_v75] = Stg.val_main_v75 (F := Ideal) :=
  (unary_line ssaRef (launchContents m c) 131 (x := main_cst_16) (y := main_v75) rfl rfl (by decide)).trans (by rw [r_main_cst_16 m c]; rfl)
theorem r_main_v76 : R[main_v76] = Stg.val_main_v76 (F := Ideal) X[main_arg16] :=
  (binary_line ssaRef (launchContents m c) 132 (a := main_arg16) (b := main_v75) (y := main_v76) rfl rfl (by decide) (by decide)).trans (by rw [r_main_arg16 m c, r_main_v75 m c]; rfl)
theorem r_main_v77 : R[main_v77] = Stg.val_main_v77 (F := Ideal) X[main_arg1] X[main_arg3] X[main_arg4] X[main_arg5] X[main_arg6] X[main_arg7] X[main_arg8] X[main_arg9] X[main_arg10] X[main_arg11] X[main_arg12] X[main_arg13] X[main_arg14] X[main_arg15] X[main_arg16] :=
  (binary_line ssaRef (launchContents m c) 133 (a := main_v74) (b := main_v76) (y := main_v77) rfl rfl (by decide) (by decide)).trans (by rw [r_main_v74 m c, r_main_v76 m c]; rfl)
theorem r_main_cst_17 : R[main_cst_17] = Stg.val_main_cst_17 (F := Ideal) :=
  (nullary_line ssaRef (launchContents m c) 134 (y := main_cst_17) rfl rfl).trans rfl
theorem r_main_v78 : R[main_v78] = Stg.val_main_v78 (F := Ideal) :=
  (unary_line ssaRef (launchContents m c) 135 (x := main_cst_17) (y := main_v78) rfl rfl (by decide)).trans (by rw [r_main_cst_17 m c]; rfl)
theorem r_main_v79 : R[main_v79] = Stg.val_main_v79 (F := Ideal) X[main_arg0] :=
  (binary_line ssaRef (launchContents m c) 136 (a := main_v2) (b := main_v78) (y := main_v79) rfl rfl (by decide) (by decide)).trans (by rw [r_main_v2 m c, r_main_v78 m c]; rfl)
theorem r_main_v80 : R[main_v80] = Stg.val_main_v80 (F := Ideal) X[main_arg0] :=
  (binary_line ssaRef (launchContents m c) 137 (a := main_v79) (b := main_v79) (y := main_v80) rfl rfl (by decide) (by decide)).trans (by rw [r_main_v79 m c]; rfl)
theorem r_main_v81 : R[main_v81] = Stg.val_main_v81 (F := Ideal) X[main_arg0] :=
  (binary_line ssaRef (launchContents m c) 138 (a := main_v80) (b := main_v80) (y := main_v81) rfl rfl (by decide) (by decide)).trans (by rw [r_main_v80 m c]; rfl)
theorem r_main_v82 : R[main_v82] = Stg.val_main_v82 (F := Ideal) X[main_arg0] :=
  (binary_line ssaRef (launchContents m c) 139 (a := main_v80) (b := main_v81) (y := main_v82) rfl rfl (by decide) (by decide)).trans (by rw [r_main_v80 m c, r_main_v81 m c]; rfl)
theorem r_main_cst_18 : R[main_cst_18] = Stg.val_main_cst_18 (F := Ideal) :=
  (nullary_line ssaRef (launchContents m c) 140 (y := main_cst_18) rfl rfl).trans rfl
theorem r_main_v83 : R[main_v83] = Stg.val_main_v83 (F := Ideal) :=
  (unary_line ssaRef (launchContents m c) 141 (x := main_cst_18) (y := main_v83) rfl rfl (by decide)).trans (by rw [r_main_cst_18 m c]; rfl)
theorem r_main_v84 : R[main_v84] = Stg.val_main_v84 (F := Ideal) X[main_arg0] :=
  (binary_line ssaRef (launchContents m c) 142 (a := main_v83) (b := main_v82) (y := main_v84) rfl rfl (by decide) (by decide)).trans (by rw [r_main_v83 m c, r_main_v82 m c]; rfl)
theorem r_main_cst_19 : R[main_cst_19] = Stg.val_main_cst_19 (F := Ideal) :=
  (nullary_line ssaRef (launchContents m c) 143 (y := main_cst_19) rfl rfl).trans rfl
theorem r_main_v85 : R[main_v85] = Stg.val_main_v85 (F := Ideal) :=
  (unary_line ssaRef (launchContents m c) 144 (x := main_cst_19) (y := main_v85) rfl rfl (by decide)).trans (by rw [r_main_cst_19 m c]; rfl)
theorem r_main_v86 : R[main_v86] = Stg.val_main_v86 (F := Ideal) X[main_arg0] :=
  (binary_line ssaRef (launchContents m c) 145 (a := main_v85) (b := main_v84) (y := main_v86) rfl rfl (by decide) (by decide)).trans (by rw [r_main_v85 m c, r_main_v84 m c]; rfl)
theorem r_main_cst_20 : R[main_cst_20] = Stg.val_main_cst_20 (F := Ideal) :=
  (nullary_line ssaRef (launchContents m c) 146 (y := main_cst_20) rfl rfl).trans rfl
theorem r_main_v87 : R[main_v87] = Stg.val_main_v87 (F := Ideal) :=
  (unary_line ssaRef (launchContents m c) 147 (x := main_cst_20) (y := main_v87) rfl rfl (by decide)).trans (by rw [r_main_cst_20 m c]; rfl)
theorem r_main_v88 : R[main_v88] = Stg.val_main_v88 (F := Ideal) X[main_arg0] :=
  (binary_line ssaRef (launchContents m c) 148 (a := main_v87) (b := main_v82) (y := main_v88) rfl rfl (by decide) (by decide)).trans (by rw [r_main_v87 m c, r_main_v82 m c]; rfl)
theorem r_main_v89 : R[main_v89] = Stg.val_main_v89 (F := Ideal) X[main_arg0] :=
  (binary_line ssaRef (launchContents m c) 149 (a := main_v88) (b := main_v79) (y := main_v89) rfl rfl (by decide) (by decide)).trans (by rw [r_main_v88 m c, r_main_v79 m c]; rfl)
theorem r_main_v90 : R[main_v90] = Stg.val_main_v90 (F := Ideal) X[main_arg0] :=
  (binary_line ssaRef (launchContents m c) 150 (a := main_v86) (b := main_v89) (y := main_v90) rfl rfl (by decide) (by decide)).trans (by rw [r_main_v86 m c, r_main_v89 m c]; rfl)
theorem r_main_cst_21 : R[main_cst_21] = Stg.val_main_cst_21 (F := Ideal) :=
  (nullary_line ssaRef (launchContents m c) 151 (y := main_cst_21) rfl rfl).trans rfl
theorem r_main_v91 : R[main_v91] = Stg.val_main_v91 (F := Ideal) :=
  (unary_line ssaRef (launchContents m c) 152 (x := main_cst_21) (y := main_v91) rfl rfl (by decide)).trans (by rw [r_main_cst_21 m c]; rfl)
theorem r_main_v92 : R[main_v92] = Stg.val_main_v92 (F := Ideal) X[main_arg0] :=
  (binary_line ssaRef (launchContents m c) 153 (a := main_v91) (b := main_v82) (y := main_v92) rfl rfl (by decide) (by decide)).trans (by rw [r_main_v91 m c, r_main_v82 m c]; rfl)
theorem r_main_v93 : R[main_v93] = Stg.val_main_v93 (F := Ideal) X[main_arg0] :=
  (binary_line ssaRef (launchContents m c) 154 (a := main_v92) (b := main_v79) (y := main_v93) rfl rfl (by decide) (by decide)).trans (by rw [r_main_v92 m c, r_main_v79 m c]; rfl)
theorem r_main_v94 : R[main_v94] = Stg.val_main_v94 (F := Ideal) X[main_arg0] :=
  (binary_line ssaRef (launchContents m c) 155 (a := main_v93) (b := main_v79) (y := main_v94) rfl rfl (by decide) (by decide)).trans (by rw [r_main_v93 m c, r_main_v79 m c]; rfl)
theorem r_main_v95 : R[main_v95] = Stg.val_main_v95 (F := Ideal) X[main_arg0] :=
  (binary_line ssaRef (launchContents m c) 156 (a := main_v90) (b := main_v94) (y := main_v95) rfl rfl (by decide) (by decide)).trans (by rw [r_main_v90 m c, r_main_v94 m c]; rfl)
theorem r_main_cst_22 : R[main_cst_22] = Stg.val_main_cst_22 (F := Ideal) :=
  (nullary_line ssaRef (launchContents m c) 157 (y := main_cst_22) rfl rfl).trans rfl
theorem r_main_v96 : R[main_v96] = Stg.val_main_v96 (F := Ideal) :=
  (unary_line ssaRef (launchContents m c) 158 (x := main_cst_22) (y := main_v96) rfl rfl (by decide)).trans (by rw [r_main_cst_22 m c]; rfl)
theorem r_main_v97 : R[main_v97] = Stg.val_main_v97 (F := Ideal) X[main_arg0] :=
  (binary_line ssaRef (launchContents m c) 159 (a := main_v79) (b := main_v96) (y := main_v97) rfl rfl (by decide) (by decide)).trans (by rw [r_main_v79 m c, r_main_v96 m c]; rfl)
theorem r_main_cst_23 : R[main_cst_23] = Stg.val_main_cst_23 (F := Ideal) :=
  (nullary_line ssaRef (launchContents m c) 160 (y := main_cst_23) rfl rfl).trans rfl
theorem r_main_call4_v0 : R[main_call4_v0] = Stg.val_main_call4_v0 (F := Ideal) :=
  (unary_line ssaRef (launchContents m c) 161 (x := main_cst_23) (y := main_call4_v0) rfl rfl (by decide)).trans (by rw [r_main_cst_23 m c]; rfl)
theorem r_main_call4_v1 : R[main_call4_v1] = Stg.val_main_call4_v1 (F := Ideal) :=
  (unary_line ssaRef (launchContents m c) 162 (x := main_call4_v0) (y := main_call4_v1) rfl rfl (by decide)).trans (by rw [r_main_call4_v0 m c]; rfl)
theorem r_main_v98 : R[main_v98] = Stg.val_main_v98 (F := Ideal) X[main_arg0] :=
  (ternary_line ssaRef (launchContents m c) 163 (c := main_v97) (a := main_v95) (b := main_call4_v1) (y := main_v98) rfl rfl (by decide) (by decide) (by decide)).trans (by rw [r_main_v97 m c, r_main_v95 m c, r_main_call4_v1 m c]; rfl)
theorem r_main_v99 : R[main_v99] = Stg.val_main_v99 (F := Ideal) X[main_arg0] :=
  (unary_line ssaRef (launchContents m c) 164 (x := main_v98) (y := main_v99) rfl rfl (by decide)).trans (by rw [r_main_v98 m c]; rfl)
theorem r_main_v100 : R[main_v100] = Stg.val_main_v100 (F := Ideal) X[main_arg0] :=
  (unary_line ssaRef (launchContents m c) 165 (x := main_v99) (y := main_v100) rfl rfl (by decide)).trans (by rw [r_main_v99 m c]; rfl)
theorem r_main_v101 : R[main_v101] = Stg.val_main_v101 (F := Ideal) X[main_arg0] X[main_arg1] X[main_arg3] X[main_arg4] X[main_arg5] X[main_arg6] X[main_arg7] X[main_arg8] X[main_arg9] X[main_arg10] X[main_arg11] X[main_arg12] X[main_arg13] X[main_arg14] X[main_arg15] X[main_arg16] :=
  (binary_line ssaRef (launchContents m c) 166 (a := main_v100) (b := main_v77) (y := main_v101) rfl rfl (by decide) (by decide)).trans (by rw [r_main_v100 m c, r_main_v77 m c]; rfl)

/-- Every weakly fair execution of the reference terminates with its four results at the last stages of the launch
    arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v101) = Stg.val_main_v101 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg2) = m ((c.tc : Thread nD τ).loc main_arg2)
      ∧ r.2.mem ((c.tc : Thread nD τ).loc main_v39) = Stg.val_main_v39 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v46) = Stg.val_main_v46 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
    ⟨(h c main_v101).trans (r_main_v101 m c), (h c main_arg2).trans (r_main_arg2 m c),
     (h c main_v39).trans (r_main_v39 m c), (h c main_v46).trans (r_main_v46 m c),
     (h c main_arg0).trans (r_main_arg0 m c), (h c main_arg1).trans (r_main_arg1 m c), (h c main_arg2).trans (r_main_arg2 m c), (h c main_arg3).trans (r_main_arg3 m c), (h c main_arg4).trans (r_main_arg4 m c), (h c main_arg5).trans (r_main_arg5 m c), (h c main_arg6).trans (r_main_arg6 m c), (h c main_arg7).trans (r_main_arg7 m c), (h c main_arg8).trans (r_main_arg8 m c), (h c main_arg9).trans (r_main_arg9 m c), (h c main_arg10).trans (r_main_arg10 m c), (h c main_arg11).trans (r_main_arg11 m c), (h c main_arg12).trans (r_main_arg12 m c), (h c main_arg13).trans (r_main_arg13 m c), (h c main_arg14).trans (r_main_arg14 m c), (h c main_arg15).trans (r_main_arg15 m c), (h c main_arg16).trans (r_main_arg16 m c)⟩)
    (run_fold m ρ)

end Cert.ReferenceIdeal.RefLines

end
-- ==== Proof.Results.lean ====
/-
  The two idealized programs end with equal results.

  The second pallas_call's result array is the reference's last stage: edge by edge and column by column both are the
  three-layer map of the joined row [x | gathered w] through the scaled weights, times the smoothing envelope of the
  edge's length — the kernel tile by tile, with the envelope's powers grouped another way and the product taken in
  the other order, which is the same number by commutativity and associativity of multiplication on the extended
  reals.  It reads the reference's gathered rows and scaled weights because every host line before it holds the
  reference's stage.  So the kernel program's run ends with its four results at the reference's last stages of ITS
  launch arguments; the reference's run ends at the same stages of its own; and the two launch memories agree on
  the arguments.
-/
import proofs.«147440_j54674933678514_2_alg».proof.Defs
import proofs.«147440_j54674933678514_2_alg».proof.Proof.Gen.Kernel
import proofs.«147440_j54674933678514_2_alg».proof.Proof.Gen.KernelIdeal
import proofs.«147440_j54674933678514_2_alg».proof.Proof.Gen.ReferenceIdeal
import proofs.«147440_j54674933678514_2_alg».proof.Proof.Gen.Pre_finite_inputs
import proofs.«147440_j54674933678514_2_alg».proof.Proof.Gen.Kernel.Frame
import proofs.«147440_j54674933678514_2_alg».proof.Proof.RunAll
import proofs.«147440_j54674933678514_2_alg».proof.Proof.Links
import proofs.«147440_j54674933678514_2_alg».proof.Proof.OutKernelArr
import proofs.«147440_j54674933678514_2_alg».proof.Proof.OutRef
import proofs.«147440_j54674933678514_2_alg».proof.Proof.RefLines

set_option maxRecDepth 16384

noncomputable section

namespace Cert.KernelIdeal.Results

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The second call's result is the reference's last stage. -/
theorem out_link : W6 m ρ c (Proc.devRef .tc main_v67) = Cert.ReferenceIdeal.Stg.val_main_v101 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  refine (W6_arr m ρ c 6).trans ((Cert.KernelIdeal.OutK.arr_eq (V5 m ρ) c).trans ?_)
  rw [show V5 m ρ c main_arg1 = _ from Links.entry_arg1 m ρ c, show V5 m ρ c main_arg0 = _ from Links.entry_arg0 m ρ c,
    show V5 m ρ c main_v66 = _ from Links.entry_gathered m ρ c,
    show V5 m ρ c main_v7 = _ from Links.entry_w1 m ρ c,
    show V5 m ρ c main_v9 = _ from Links.entry_w2 m ρ c,
    show V5 m ρ c main_v11 = _ from Links.entry_w3 m ρ c]
  exact (Cert.ReferenceIdeal.OutR.ref_eq _ _ _ _ _ _ _ _ _ _ _ _ _ _ _ _).symm

/-- The kernel program's run with its four results named by the reference's stages of the launch arguments. -/
theorem run : θ_run defs (onTc (τ := τ) (main (F := Ideal))) ⟨m, fun _ => 0, ρ⟩ (fun r => ∀ c : Dev nD,
      r.2.mem ((c.tc : Thread nD τ).loc main_v67) = Cert.ReferenceIdeal.Stg.val_main_v101 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg2) = m ((c.tc : Thread nD τ).loc main_arg2)
      ∧ r.2.mem ((c.tc : Thread nD τ).loc main_v42) = Cert.ReferenceIdeal.Stg.val_main_v39 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v49) = Cert.ReferenceIdeal.Stg.val_main_v46 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(KRun.read_at m ρ h c main_v67 (by decide)).trans (out_link m ρ c),
     (KRun.read_at m ρ h c main_arg2 (by decide)).trans (W6_main_arg2 m ρ c),
     (KRun.read_at m ρ h c main_v42 (by decide)).trans (Links.charges_link m ρ c),
     (KRun.read_at m ρ h c main_v49 (by decide)).trans (Links.pot_link m ρ c),
     (KRun.read_at m ρ h c main_arg0 (by decide)).trans (W6_main_arg0 m ρ c),
     (KRun.read_at m ρ h c main_arg1 (by decide)).trans (W6_main_arg1 m ρ c),
     (KRun.read_at m ρ h c main_arg2 (by decide)).trans (W6_main_arg2 m ρ c),
     (KRun.read_at m ρ h c main_arg3 (by decide)).trans (W6_main_arg3 m ρ c),
     (KRun.read_at m ρ h c main_arg4 (by decide)).trans (W6_main_arg4 m ρ c),
     (KRun.read_at m ρ h c main_arg5 (by decide)).trans (W6_main_arg5 m ρ c),
     (KRun.read_at m ρ h c main_arg6 (by decide)).trans (W6_main_arg6 m ρ c),
     (KRun.read_at m ρ h c main_arg7 (by decide)).trans (W6_main_arg7 m ρ c),
     (KRun.read_at m ρ h c main_arg8 (by decide)).trans (W6_main_arg8 m ρ c),
     (KRun.read_at m ρ h c main_arg9 (by decide)).trans (W6_main_arg9 m ρ c),
     (KRun.read_at m ρ h c main_arg10 (by decide)).trans (W6_main_arg10 m ρ c),
     (KRun.read_at m ρ h c main_arg11 (by decide)).trans (W6_main_arg11 m ρ c),
     (KRun.read_at m ρ h c main_arg12 (by decide)).trans (W6_main_arg12 m ρ c),
     (KRun.read_at m ρ h c main_arg13 (by decide)).trans (W6_main_arg13 m ρ c),
     (KRun.read_at m ρ h c main_arg14 (by decide)).trans (W6_main_arg14 m ρ c),
     (KRun.read_at m ρ h c main_arg15 (by decide)).trans (W6_main_arg15 m ρ c),
     (KRun.read_at m ρ h c main_arg16 (by decide)).trans (W6_main_arg16 m ρ c)⟩)
    (KRun.run_all m ρ)

end Cert.KernelIdeal.Results

namespace Cert.Proof.Parts

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no pallas_call: its frame is its run with the results dropped. -/
theorem frame_ri : Cert.frame_ReferenceIdeal := fun m ρ _ =>
  (θ_run Cert.ReferenceIdeal.defs _ _).mono (fun _ h c => (h c).2.2.2.2) (Cert.ReferenceIdeal.RefLines.run m ρ)

/-- Both runs end, with the four results equal: the kernel program's are the reference's stages of its own launch
    arguments, the reference's are its stages of ITS launch arguments, and the two launch memories agree on them. -/
theorem algebraic : Cert.algebraic_KernelIdeal_ReferenceIdeal := by
  intro m ρ m' ρ' _ hagree
  refine ⟨_, _, _, _, Cert.KernelIdeal.Results.run m ρ, ?_⟩
  refine (θ_run Cert.ReferenceIdeal.defs _ _).mono (fun _ h c => ?_) (Cert.ReferenceIdeal.RefLines.run m' ρ')
  obtain ⟨e0, e1, e2, e3, e4, e5, e6, e7, e8, e9, e10, e11, e12, e13, e14, e15, e16⟩ := hagree c
  refine ⟨(h c).1.trans ?_, (h c).2.1.trans e2, (h c).2.2.1.trans ?_, (h c).2.2.2.1.trans ?_, (h c).2.2.2.2⟩
  · rw [e0, e1, e3, e4, e5, e6, e7, e8, e9, e10, e11, e12, e13, e14, e15, e16]
  · rw [e1, e3, e4, e5, e6, e8, e9, e10, e11, e12]
  · rw [e1, e3, e4, e5, e6, e8, e9, e10, e11, e12]

end Cert.Proof.Parts

end
-- ==== Proof.lean ====
/-
  The certificate of the charge-equilibration message-passing layer: a Pallas program of two per-edge kernels (the
  electronegativity map, and the charge-conditioned three-layer map times the smoothing envelope) around a scatter of
  the per-edge values to atoms, the diagonal charge solve, and a gather of per-atom rows back to edges — against
  its plain jnp reference, at the extended reals.

  The three frames: the two printed kernel programs run, terminate and leave their arguments as launched (the
  generated frame certificates); the reference, a straight line of host operations, likewise (its run, read line by
  line).  The ideal pass rewrote nothing, so the kernel's idealization is its own text read at the extended reals.
  The value claim: the two programs' four results — the updated edge features, the passed-through array, the charges
  and the potential — are equal entry by entry (Proof/Results.lean): each kernel computes, tile by tile and with its
  matrix operands cast to a narrower format that is the identity on the extended reals, the very sums the reference's
  matrix products are, and every host line between them is the reference's line.
-/
import proofs.«147440_j54674933678514_2_alg».proof.Defs
import proofs.«147440_j54674933678514_2_alg».proof.Proof.Gen.Kernel
import proofs.«147440_j54674933678514_2_alg».proof.Proof.Gen.Kernel.Skeleton
import proofs.«147440_j54674933678514_2_alg».proof.Proof.Gen.Kernel.Launch
import proofs.«147440_j54674933678514_2_alg».proof.Proof.Gen.Kernel.Points
import proofs.«147440_j54674933678514_2_alg».proof.Proof.Gen.Kernel.Frame
import proofs.«147440_j54674933678514_2_alg».proof.Proof.Gen.KernelIdeal
import proofs.«147440_j54674933678514_2_alg».proof.Proof.Gen.KernelIdeal.Skeleton
import proofs.«147440_j54674933678514_2_alg».proof.Proof.Gen.KernelIdeal.Launch
import proofs.«147440_j54674933678514_2_alg».proof.Proof.Gen.KernelIdeal.Points
import proofs.«147440_j54674933678514_2_alg».proof.Proof.Gen.KernelIdeal.Frame
import proofs.«147440_j54674933678514_2_alg».proof.Proof.Gen.ReferenceIdeal
import proofs.«147440_j54674933678514_2_alg».proof.Proof.Gen.Pre_finite_inputs
import proofs.«147440_j54674933678514_2_alg».proof.Proof.Results
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Parts.frame_k, Cert.Proof.Parts.frame_ki, Cert.Proof.Parts.frame_ri, trivial, Cert.Proof.Parts.algebraic⟩

end Cert.Proof

end
